-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg5 : FVec F S3x64 .f32) (main_arg6 : FVec F S3x64 .f32) (main_arg7 : FVec F S3x64x64 .f32) (main_arg8 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x1 .f32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩

abbrev nBuf : Space → Nat
  | .hbm => 139
  | .vmem => 72
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S1x64x64, .f32⟩
  | 34 => ⟨S64x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S1x64, .f32⟩
  | 42 => ⟨S64, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S1x64, .f32⟩
  | 53 => ⟨S1x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S1x64x64, .f32⟩
  | 71 => ⟨S64x64, .f32⟩
  | 72 => ⟨S1x64, .f32⟩
  | 73 => ⟨S64, .f32⟩
  | 74 => ⟨S1x64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S1x64, .f32⟩
  | 81 => ⟨S64, .f32⟩
  | 82 => ⟨S1x64, .f32⟩
  | 83 => ⟨S1x64, .f32⟩
  | 84 => ⟨S64, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S1x64, .f32⟩
  | 95 => ⟨S1x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S1x64, .f32⟩
  | 10 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S64x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S64x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S2000x64, .f32⟩
  | .local _ .vmem, ⟨71, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_3 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68_0 : Ref sig .tc := ⟨.hbm, 86, rfl⟩
abbrev main_v68_1 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_8 : Ref sig .tc := ⟨.hbm, 97, rfl⟩
abbrev main_v76 : Ref sig .tc := ⟨.hbm, 98, rfl⟩
abbrev main_v77 : Ref sig .tc := ⟨.hbm, 99, rfl⟩
abbrev main_c_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104_0 : Ref sig .tc := ⟨.hbm, 128, rfl⟩
abbrev main_v104_1 : Ref sig .tc := ⟨.hbm, 129, rfl⟩
abbrev main_cst_11 : Ref sig .tc := ⟨.hbm, 130, rfl⟩
abbrev main_v105 : Ref sig .tc := ⟨.hbm, 131, rfl⟩
abbrev main_v106 : Ref sig .tc := ⟨.hbm, 132, rfl⟩
abbrev main_cst_12 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg10_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg7_0 : Ref sig .tc := ⟨.vmem, 67, rfl⟩
abbrev cc5_stg8_0 : Ref sig .tc := ⟨.vmem, 68, rfl⟩
abbrev cc5_stg9_0 : Ref sig .tc := ⟨.vmem, 69, rfl⟩
abbrev cc5_stg10_0 : Ref sig .tc := ⟨.vmem, 70, rfl⟩
abbrev cc5_stg10_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v31 : BitVec 1 := Scalar.cmpi .eq arg0 c49_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_18 : BitVec 32 := 0#32
  let v34 : BitVec 1 := Scalar.cmpi .ne v33 c0_i32_18
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_18 : BitVec 32 := 0#32
  let v34 : BitVec 1 := Scalar.cmpi .ne v33 c0_i32_18
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  reduces_S2000x64_S64 : S2000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S100000x64.size a
  hwx1_10 : ∀ i : grid1.Coords, EltTy.bits .f32 = 32 ∨ (Rect.block (s := S100000x64) S2000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x64.size a ≤ S100000x64.size a
  hwx3_10 : ∀ i : grid3.Coords, EltTy.bits .f32 = 32 ∨ (Rect.block (s := S100000x64) S2000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x64.size a ≤ S100000x64.size a
  hwx5_10 : ∀ i : grid5.Coords, EltTy.bits .f32 = 32 ∨ (Rect.block (s := S100000x64) S2000x64.size (cc5_transform_10 i) (hinb5_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v15) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v15) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S2000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v51) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_0) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68_1) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v51) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v75) S2000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v87) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v104_0) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104_1) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v87) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v103) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v94) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v97) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v111) S2000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 271
  | .vmem => 0
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S_, .f32⟩
  | 124 => ⟨S64, .f32⟩
  | 125 => ⟨S_, .f32⟩
  | 126 => ⟨S64, .f32⟩
  | 127 => ⟨S64, .f32⟩
  | _ => ⟨S100000x64, .f32⟩

abbrev hbmTy0_1 (i : Nat) : BufTy := match i % 128 with
  | 0 => ⟨S_, .i32⟩
  | 1 => ⟨S_, .f32⟩
  | 2 => ⟨S64, .f32⟩
  | 3 => ⟨S1x64, .f32⟩
  | 4 => ⟨S_, .f32⟩
  | 5 => ⟨S1x64, .f32⟩
  | 6 => ⟨S1x64, .f32⟩
  | 7 => ⟨S100000x64, .f32⟩
  | 8 => ⟨S100000x64, .f32⟩
  | 9 => ⟨S100000x64, .f32⟩
  | 10 => ⟨S_, .f32⟩
  | 11 => ⟨S_, .f32⟩
  | 12 => ⟨S_, .f32⟩
  | 13 => ⟨S_, .f32⟩
  | 14 => ⟨S64, .f32⟩
  | 15 => ⟨S64, .f32⟩
  | 16 => ⟨S64, .f32⟩
  | 17 => ⟨S_, .f32⟩
  | 18 => ⟨S_, .i1⟩
  | 19 => ⟨S_, .f32⟩
  | 20 => ⟨S_, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S1x64x64, .f32⟩
  | 47 => ⟨S64x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call1_cst : Ref sig .tc := ⟨.hbm, 85, rfl⟩
abbrev main_call1_v0 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call2_cst : Ref sig .tc := ⟨.hbm, 96, rfl⟩
abbrev main_call2_v0 : Ref sig .tc := ⟨.hbm, 97, rfl⟩
abbrev main_v57 : Ref sig .tc := ⟨.hbm, 98, rfl⟩
abbrev main_c_5 : Ref sig .tc := ⟨.hbm, 99, rfl⟩
abbrev main_v58 : Ref sig .tc := ⟨.hbm, 100, rfl⟩
abbrev main_v59 : Ref sig .tc := ⟨.hbm, 101, rfl⟩
abbrev main_c_6 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_8 : Ref sig .tc := ⟨.hbm, 123, rfl⟩
abbrev main_v79 : Ref sig .tc := ⟨.hbm, 124, rfl⟩
abbrev main_cst_9 : Ref sig .tc := ⟨.hbm, 125, rfl⟩
abbrev main_v80 : Ref sig .tc := ⟨.hbm, 126, rfl⟩
abbrev main_v81 : Ref sig .tc := ⟨.hbm, 127, rfl⟩
abbrev main_c_10 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_cst_3 : Ref sig .tc := ⟨.hbm, 145, rfl⟩
abbrev main_call3_v12 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_11 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_call4_cst : Ref sig .tc := ⟨.hbm, 171, rfl⟩
abbrev main_call4_v0 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_call5_cst : Ref sig .tc := ⟨.hbm, 182, rfl⟩
abbrev main_call5_v0 : Ref sig .tc := ⟨.hbm, 183, rfl⟩
abbrev main_v111 : Ref sig .tc := ⟨.hbm, 184, rfl⟩
abbrev main_c_12 : Ref sig .tc := ⟨.hbm, 185, rfl⟩
abbrev main_v112 : Ref sig .tc := ⟨.hbm, 186, rfl⟩
abbrev main_v113 : Ref sig .tc := ⟨.hbm, 187, rfl⟩
abbrev main_c_13 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_14 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_cst_15 : Ref sig .tc := ⟨.hbm, 209, rfl⟩
abbrev main_v133 : Ref sig .tc := ⟨.hbm, 210, rfl⟩
abbrev main_cst_16 : Ref sig .tc := ⟨.hbm, 211, rfl⟩
abbrev main_v134 : Ref sig .tc := ⟨.hbm, 212, rfl⟩
abbrev main_v135 : Ref sig .tc := ⟨.hbm, 213, rfl⟩
abbrev main_c_17 : Ref sig .tc := ⟨.hbm, 214, rfl⟩
abbrev main_call6_cst : Ref sig .tc := ⟨.hbm, 215, rfl⟩
abbrev main_call6_v0 : Ref sig .tc := ⟨.hbm, 216, rfl⟩
abbrev main_call6_v1 : Ref sig .tc := ⟨.hbm, 217, rfl⟩
abbrev main_call6_cst_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_v6 : Ref sig .tc := ⟨.hbm, 223, rfl⟩
abbrev main_call6_v7 : Ref sig .tc := ⟨.hbm, 224, rfl⟩
abbrev main_call6_cst_1 : Ref sig .tc := ⟨.hbm, 225, rfl⟩
abbrev main_call6_v8 : Ref sig .tc := ⟨.hbm, 226, rfl⟩
abbrev main_call6_cst_2 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_cst_3 : Ref sig .tc := ⟨.hbm, 231, rfl⟩
abbrev main_call6_v12 : Ref sig .tc := ⟨.hbm, 232, rfl⟩
abbrev main_call6_cst_4 : Ref sig .tc := ⟨.hbm, 233, rfl⟩
abbrev main_call6_call0_v0 : Ref sig .tc := ⟨.hbm, 234, rfl⟩
abbrev main_call6_call0_v1 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_cst_18 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_call7_cst : Ref sig .tc := ⟨.hbm, 257, rfl⟩
abbrev main_call7_v0 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_call8_cst : Ref sig .tc := ⟨.hbm, 268, rfl⟩
abbrev main_call8_v0 : Ref sig .tc := ⟨.hbm, 269, rfl⟩
abbrev main_v165 : Ref sig .tc := ⟨.hbm, 270, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KB.StatsCommon.lean ====
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Shared by the three statistics regions: the whole-row rectangle of a `[1, 64]` buffer and its covering facts. -/

/-- The whole-row rectangle of a `[1, 64]` buffer. -/
abbrev rS : Rect S1x64 := Rect.unit (s := S1x64) ![0, 0] S1x64.size inb_S1x64_S1x64_0_0

theorem hzS : (![0, 0] : Fin S1x64.rank → Nat) = fun _ => 0 := by funext a; fin_cases a <;> rfl
theorem hzT : (![0, 0] : Fin S2000x64.rank → Nat) = fun _ => 0 := by funext a; fin_cases a <;> rfl
theorem hzW : (![0, 0] : Fin S64x64.rank → Nat) = fun _ => 0 := by funext a; fin_cases a <;> rfl

/-- One whole-row store covers the row. -/
theorem coverS (p0 : Vec F S1x64 .f32) (y : S1x64.Idx) :
    ∃ pc ∈ ([⟨rS, p0⟩] : List (View.Piece (Elt F) S1x64 .f32)), y ∈ pc.1.set :=
  View.cover_of_tiled [⟨rS, p0⟩] S1x64.size (by rfl) y

/-- Every index of a `[1, 64]` buffer lies in the whole-row rectangle. -/
theorem memS (p0 : Vec F S1x64 .f32) (y : S1x64.Idx) : y ∈ (rS : Rect S1x64).set := by
  obtain ⟨pc, hpc, hy⟩ := coverS p0 y
  simp only [List.mem_singleton] at hpc; subst hpc; exact hy

end Cert.Kernel.Fr
end
-- ==== Proof.KB.Stats0.lean ====
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import proofs.«166406_j57140244906477_1_alg».proof.Proof.KB.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 0: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- "This is the last grid point". -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

set_option maxHeartbeats 2000000 in
/-- A MIDDLE point: the scratch rows, holding `s7` and `s8`, end at `s7` plus the tile's column sums and `s8` plus the
    column sums of squares (the payloads `k0_pay4`, `k0_pay5`); the inputs and the two output rows are untouched. -/
theorem sound_kernel0_B (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond0_0 i) (hc1 : ¬cond0_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k0_pay4 x0 x1 x2 x3 s7) ∗ owns (c : Thread nD τ) arg8 fullShare (k0_pay5 x0 x1 x2 x3 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel0_A (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond0_0 i) (hc1 : ¬cond0_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k0_pay4 x0 x1 x2 x3 (k0_pay1 (F := F))) ∗ owns (c : Thread nD τ) arg8 fullShare (k0_pay5 x0 x1 x2 x3 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel0_C (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond0_0 i) (hc1 : cond0_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 s7) ∗ owns (c : Thread nD τ) arg6 fullShare (k0_pay5 x0 x1 x2 x3 s8)
            ∗ owns (c : Thread nD τ) arg7 fullShare (k0_pay4 x0 x1 x2 x3 s7) ∗ owns (c : Thread nD τ) arg8 fullShare (k0_pay5 x0 x1 x2 x3 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two output rows are idle: nothing is stored into them and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two scratch rows: whole scoped buffers of the kernel's own. -/
abbrev scM0_0 : Memref sig .tc .vmem S1x64 .f32 := Memref.whole cc0_scratch0
abbrev scM0_1 : Memref sig .tc .vmem S1x64 .f32 := Memref.whole cc0_scratch1

section Region
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the two scratch rows hold after each point -/

/-- THE ACCUMULATION. After point `n` the first scratch row holds the column sums of `h` over the tiles `0 … n` and the
    second the column sums of `h²`: at the first point from the zero rows (`k0_pay1`, `k0_pay2`), afterwards from
    what the point before left. -/
def acc0 (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)),
              k0_pay5 (iblk0 V c 0 ⟨0, hn⟩) (iblk0 V c 1 ⟨0, hn⟩) (iblk0 V c 2 ⟨0, hn⟩) (iblk0 V c 3 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn)).1,
                  k0_pay5 (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn)).2)

theorem acc0_zero (c : Dev nD) (t : Fin cfg0.N) (h0 : t.val = 0) :
    acc0 V c t.val t.isLt = (k0_pay4 (iblk0 V c 0 t) (iblk0 V c 1 t) (iblk0 V c 2 t) (iblk0 V c 3 t) (k0_pay1 (F := F)),
      k0_pay5 (iblk0 V c 0 t) (iblk0 V c 1 t) (iblk0 V c 2 t) (iblk0 V c 3 t) (k0_pay2 (F := F))) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt = (k0_pay4 (iblk0 V c 0 t) (iblk0 V c 1 t) (iblk0 V c 2 t) (iblk0 V c 3 t) (acc0 V c (t.val - 1) (Nat.lt_of_le_of_lt (Nat.sub_le _ _) t.isLt)).1,
      k0_pay5 (iblk0 V c 0 t) (iblk0 V c 1 t) (iblk0 V c 2 t) (iblk0 V c 3 t) (acc0 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc0`), the other such buffers anything. The generator register
    rides along at some state. -/
def PhiS0 (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((acc0 V c n hn).1) ∗ owns (c : Thread nD τ) scM0_1 fullShare ((acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((acc0 V c (n - 1) (by omega)).1) ∗ owns (c : Thread nD τ) scM0_1 fullShare ((acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The launch's invariant with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 50 := lt_of_lt_of_eq t.isLt (show cfg0.N = 50 from N_0)
  by_cases h1 : t.val % 50 = 49
  · -- the last point
    have h0 : ¬t.val % 50 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [acc0_pos V c t hz]
    rw [PhiS0_castSucc V c t, PhiS0_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel0_C c Set.univ (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 50 = 0
    · -- the first point
      have hz : t.val = 0 := by omega
      rw [acc0_zero V c t hz]
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel0_A c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) ((dat0 V c).before 4 t d4) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc0_pos V c t hz]
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel0_B c Set.univ (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) ((dat0 V c).before 4 t d4) ((dat0 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.Kernel.Fr
end
-- ==== Proof.KB.Stats2.lean ====
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import proofs.«166406_j57140244906477_1_alg».proof.Proof.KB.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 2: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)
/-- "This is the last grid point". -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

set_option maxHeartbeats 2000000 in
/-- A MIDDLE point: the scratch rows, holding `s7` and `s8`, end at `s7` plus the tile's column sums and `s8` plus the
    column sums of squares (the payloads `k2_pay4`, `k2_pay5`); the inputs and the two output rows are untouched. -/
theorem sound_kernel2_B (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond2_0 i) (hc1 : ¬cond2_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k2_pay4 x0 x1 x2 x3 s7) ∗ owns (c : Thread nD τ) arg8 fullShare (k2_pay5 x0 x1 x2 x3 s8)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel2_A (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond2_0 i) (hc1 : ¬cond2_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k2_pay4 x0 x1 x2 x3 (k2_pay1 (F := F))) ∗ owns (c : Thread nD τ) arg8 fullShare (k2_pay5 x0 x1 x2 x3 (k2_pay2 (F := F)))) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel2_C (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond2_0 i) (hc1 : cond2_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 s7) ∗ owns (c : Thread nD τ) arg6 fullShare (k2_pay5 x0 x1 x2 x3 s8)
            ∗ owns (c : Thread nD τ) arg7 fullShare (k2_pay4 x0 x1 x2 x3 s7) ∗ owns (c : Thread nD τ) arg8 fullShare (k2_pay5 x0 x1 x2 x3 s8)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the two output rows are idle: nothing is stored into them and they are not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are live. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
/-- The two scratch rows: whole scoped buffers of the kernel's own. -/
abbrev scM2_0 : Memref sig .tc .vmem S1x64 .f32 := Memref.whole cc2_scratch0
abbrev scM2_1 : Memref sig .tc .vmem S1x64 .f32 := Memref.whole cc2_scratch1

section Region
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What the two scratch rows hold after each point -/

/-- THE ACCUMULATION. After point `n` the first scratch row holds the column sums of `h` over the tiles `0 … n` and the
    second the column sums of `h²`: at the first point from the zero rows (`k2_pay1`, `k2_pay2`), afterwards from
    what the point before left. -/
def acc2 (c : Dev nD) : (n : ℕ) → n < cfg2.N → Vec F S1x64 .f32 × Vec F S1x64 .f32
  | 0, hn => (k2_pay4 (iblk2 V c 0 ⟨0, hn⟩) (iblk2 V c 1 ⟨0, hn⟩) (iblk2 V c 2 ⟨0, hn⟩) (iblk2 V c 3 ⟨0, hn⟩) (k2_pay1 (F := F)),
              k2_pay5 (iblk2 V c 0 ⟨0, hn⟩) (iblk2 V c 1 ⟨0, hn⟩) (iblk2 V c 2 ⟨0, hn⟩) (iblk2 V c 3 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).1,
                  k2_pay5 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).2)

theorem acc2_zero (c : Dev nD) (t : Fin cfg2.N) (h0 : t.val = 0) :
    acc2 V c t.val t.isLt = (k2_pay4 (iblk2 V c 0 t) (iblk2 V c 1 t) (iblk2 V c 2 t) (iblk2 V c 3 t) (k2_pay1 (F := F)),
      k2_pay5 (iblk2 V c 0 t) (iblk2 V c 1 t) (iblk2 V c 2 t) (iblk2 V c 3 t) (k2_pay2 (F := F))) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = (k2_pay4 (iblk2 V c 0 t) (iblk2 V c 1 t) (iblk2 V c 2 t) (iblk2 V c 3 t) (acc2 V c (t.val - 1) (Nat.lt_of_le_of_lt (Nat.sub_le _ _) t.isLt)).1,
      k2_pay5 (iblk2 V c 0 t) (iblk2 V c 1 t) (iblk2 V c 2 t) (iblk2 V c 3 t) (acc2 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc2`), the other such buffers anything. The generator register
    rides along at some state. -/
def PhiS2 (c : Dev nD) : (n : ℕ) → n ≤ cfg2.N → sProp 𝕄
  | 0, _ => Pipeline.ΦA spec2 c
  | n + 1, hn => iprop(iprop(owns (c : Thread nD τ) scM2_0 fullShare ((acc2 V c n hn).1) ∗ owns (c : Thread nD τ) scM2_1 fullShare ((acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((acc2 V c n hn).1) ∗ owns (c : Thread nD τ) scM2_1 fullShare ((acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((acc2 V c (n - 1) (by omega)).1) ∗ owns (c : Thread nD τ) scM2_1 fullShare ((acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The launch's invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (acc2 V c t.val t.isLt).1
    | ⟨5, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (acc2 V c t.val t.isLt).1 := by dsimp only [dat2]
theorem after2_5 (c : Dev nD) (t : Fin cfg2.N) : (dat2 V c).after 5 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 50 := lt_of_lt_of_eq t.isLt (show cfg2.N = 50 from N_2)
  by_cases h1 : t.val % 50 = 49
  · -- the last point
    have h0 : ¬t.val % 50 = 0 := by omega
    have hz : t.val ≠ 0 := by omega
    rw [show (dat2 V c).leavesExact 4 t = owns (c : Thread nD τ) (ms2_4 t) fullShare ((dat2 V c).after 4 t) from by
      unfold Dat.leavesExact; rw [liveAt2_4 t ((hcond2_1 t).mpr h1)], after2_4]
    rw [show (dat2 V c).leavesExact 5 t = owns (c : Thread nD τ) (ms2_5 t) fullShare ((dat2 V c).after 5 t) from by
      unfold Dat.leavesExact; rw [liveAt2_5 t ((hcond2_1 t).mpr h1)], after2_5]
    rw [acc2_pos V c t hz]
    rw [PhiS2_castSucc V c t, PhiS2_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel2_C c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    by_cases h0 : t.val % 50 = 0
    · -- the first point
      have hz : t.val = 0 := by omega
      rw [acc2_zero V c t hz]
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) ((dat2 V c).before 4 t d4) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc2_pos V c t hz]
      rw [PhiS2_castSucc V c t, PhiS2_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) ((dat2 V c).before 4 t d4) ((dat2 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the scratch rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.Kernel.Fr
end
-- ==== Proof.KB.Stats4.lean ====
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import proofs.«166406_j57140244906477_1_alg».proof.Proof.KB.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 4: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 50 = 0 :=
  (by decide +kernel : ∀ t : Fin grid4.N, cond4_0 (grid4.coords t) ↔ t.val % 50 = 0)
/-- "This is the last grid point". -/
abbrev cond4_1 (i : grid4.Coords) : Prop := k4_cond2 i = 1#1
theorem hcond4_1 : ∀ t : Fin cfg4.N, cond4_1 (grid4.coords t) ↔ t.val % 50 = 49 :=
  (by decide +kernel : ∀ t : Fin grid4.N, cond4_1 (grid4.coords t) ↔ t.val % 50 = 49)

set_option maxHeartbeats 2000000 in
/-- A MIDDLE point: the scratch rows, holding `s7` and `s8`, end at `s7` plus the tile's column sums and `s8` plus the
    column sums of squares (the payloads `k4_pay4`, `k4_pay5`); the inputs and the two output rows are untouched. -/
theorem sound_kernel4_B (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond4_0 i) (hc1 : ¬cond4_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k4_pay4 x0 x1 x2 x3 s7) ∗ owns (c : Thread nD τ) arg8 fullShare (k4_pay5 x0 x1 x2 x3 s8)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel4_A (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond4_0 i) (hc1 : ¬cond4_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k4_pay4 x0 x1 x2 x3 (k4_pay1 (F := F))) ∗ owns (c : Thread nD τ) arg8 fullShare (k4_pay5 x0 x1 x2 x3 (k4_pay2 (F := F)))) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel4_C (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond4_0 i) (hc1 : cond4_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay4 x0 x1 x2 x3 s7) ∗ owns (c : Thread nD τ) arg6 fullShare (k4_pay5 x0 x1 x2 x3 s8)
            ∗ owns (c : Thread nD τ) arg7 fullShare (k4_pay4 x0 x1 x2 x3 s7) ∗ owns (c : Thread nD τ) arg8 fullShare (k4_pay5 x0 x1 x2 x3 s8)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the two output rows are idle: nothing is stored into them and they are not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
/-- At the last point they are live. -/
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
/-- The two scratch rows: whole scoped buffers of the kernel's own. -/
abbrev scM4_0 : Memref sig .tc .vmem S1x64 .f32 := Memref.whole cc4_scratch0
abbrev scM4_1 : Memref sig .tc .vmem S1x64 .f32 := Memref.whole cc4_scratch1

section Region
variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What the two scratch rows hold after each point -/

/-- THE ACCUMULATION. After point `n` the first scratch row holds the column sums of `h` over the tiles `0 … n` and the
    second the column sums of `h²`: at the first point from the zero rows (`k4_pay1`, `k4_pay2`), afterwards from
    what the point before left. -/
def acc4 (c : Dev nD) : (n : ℕ) → n < cfg4.N → Vec F S1x64 .f32 × Vec F S1x64 .f32
  | 0, hn => (k4_pay4 (iblk4 V c 0 ⟨0, hn⟩) (iblk4 V c 1 ⟨0, hn⟩) (iblk4 V c 2 ⟨0, hn⟩) (iblk4 V c 3 ⟨0, hn⟩) (k4_pay1 (F := F)),
              k4_pay5 (iblk4 V c 0 ⟨0, hn⟩) (iblk4 V c 1 ⟨0, hn⟩) (iblk4 V c 2 ⟨0, hn⟩) (iblk4 V c 3 ⟨0, hn⟩) (k4_pay2 (F := F)))
  | n + 1, hn => (k4_pay4 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn)).1,
                  k4_pay5 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn)).2)

theorem acc4_zero (c : Dev nD) (t : Fin cfg4.N) (h0 : t.val = 0) :
    acc4 V c t.val t.isLt = (k4_pay4 (iblk4 V c 0 t) (iblk4 V c 1 t) (iblk4 V c 2 t) (iblk4 V c 3 t) (k4_pay1 (F := F)),
      k4_pay5 (iblk4 V c 0 t) (iblk4 V c 1 t) (iblk4 V c 2 t) (iblk4 V c 3 t) (k4_pay2 (F := F))) := by
  obtain ⟨n, hn⟩ := t
  cases n with
  | zero => rfl
  | succ n => exact absurd h0 (Nat.succ_ne_zero n)

theorem acc4_pos (c : Dev nD) (t : Fin cfg4.N) (h0 : t.val ≠ 0) :
    acc4 V c t.val t.isLt = (k4_pay4 (iblk4 V c 0 t) (iblk4 V c 1 t) (iblk4 V c 2 t) (iblk4 V c 3 t) (acc4 V c (t.val - 1) (Nat.lt_of_le_of_lt (Nat.sub_le _ _) t.isLt)).1,
      k4_pay5 (iblk4 V c 0 t) (iblk4 V c 1 t) (iblk4 V c 2 t) (iblk4 V c 3 t) (acc4 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc4`), the other such buffers anything. The generator register
    rides along at some state. -/
def PhiS4 (c : Dev nD) : (n : ℕ) → n ≤ cfg4.N → sProp 𝕄
  | 0, _ => Pipeline.ΦA spec4 c
  | n + 1, hn => iprop(iprop(owns (c : Thread nD τ) scM4_0 fullShare ((acc4 V c n hn).1) ∗ owns (c : Thread nD τ) scM4_1 fullShare ((acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((acc4 V c n hn).1) ∗ owns (c : Thread nD τ) scM4_1 fullShare ((acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((acc4 V c (n - 1) (by omega)).1) ∗ owns (c : Thread nD τ) scM4_1 fullShare ((acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The launch's invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (acc4 V c t.val t.isLt).1
    | ⟨5, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (acc4 V c t.val t.isLt).1 := by dsimp only [dat4]
theorem after4_5 (c : Dev nD) (t : Fin cfg4.N) : (dat4 V c).after 5 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  have hN : t.val < 50 := lt_of_lt_of_eq t.isLt (show cfg4.N = 50 from N_4)
  by_cases h1 : t.val % 50 = 49
  · -- the last point
    have h0 : ¬t.val % 50 = 0 := by omega
    have hz : t.val ≠ 0 := by omega
    rw [show (dat4 V c).leavesExact 4 t = owns (c : Thread nD τ) (ms4_4 t) fullShare ((dat4 V c).after 4 t) from by
      unfold Dat.leavesExact; rw [liveAt4_4 t ((hcond4_1 t).mpr h1)], after4_4]
    rw [show (dat4 V c).leavesExact 5 t = owns (c : Thread nD τ) (ms4_5 t) fullShare ((dat4 V c).after 5 t) from by
      unfold Dat.leavesExact; rw [liveAt4_5 t ((hcond4_1 t).mpr h1)], after4_5]
    rw [acc4_pos V c t hz]
    rw [PhiS4_castSucc V c t, PhiS4_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel4_C c Set.univ (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat4 V c) 4 t (idleAt4_4 t (fun h => h1 ((hcond4_1 t).mp h))) (noFlush4_4 t (fun h => h1 ((hcond4_1 t).mp h)))]
    rw [Dat.leavesExact_idle (dat4 V c) 5 t (idleAt4_5 t (fun h => h1 ((hcond4_1 t).mp h))) (noFlush4_5 t (fun h => h1 ((hcond4_1 t).mp h)))]
    by_cases h0 : t.val % 50 = 0
    · -- the first point
      have hz : t.val = 0 := by omega
      rw [acc4_zero V c t hz]
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel4_A c Set.univ (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) ((dat4 V c).before 4 t d4) ((dat4 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc4_pos V c t hz]
      rw [PhiS4_castSucc V c t, PhiS4_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel4_B c Set.univ (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) ((dat4 V c).before 4 t d4) ((dat4 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the launch's back: the scratch rows' named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.Kernel.Fr
end
-- ==== Proof.KB.Apply1.lean ====
/- The apply kernel of layer 0 (custom_call 1): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (when it did not, the block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (when it did not, the block index has not moved), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (when it did not, the block index has not moved), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not (when it did not, the block index has not moved), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not (when it did not, the block index has not moved), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    not (when it did not, the block index has not moved), for any proof data over `V`'s arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    not (when it did not, the block index has not moved), for any proof data over `V`'s arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the pipeline fetched it there or
    not (when it did not, the block index has not moved), for any proof data over `V`'s arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the pipeline fetched it there or
    not (when it did not, the block index has not moved), for any proof data over `V`'s arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, whether the pipeline fetched it there or
    not (when it did not, the block index has not moved), for any proof data over `V`'s arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-- The output window's buffer after the body, from the ten input windows' blocks: its one store, of the whole tile. -/
def out1_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r1_0, k1_pay1 (k1_pay2 (View.ld x0 r1_0) (View.ld x1 r1_0) (View.ld x2 r1_1) (View.ld x3 r1_2) (View.ld x5 r1_2) (View.ld x4 r1_2) (View.ld x6 r1_2) (View.ld x7 r1_2)) (k1_pay3 (View.ld x8 r1_1)) (View.ld x9 r1_2)⟩]

/-- The store tiles the buffer (checked by evaluation), so it covers it. -/
theorem cover1_10 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 4000000 in
/-- The kernel body on whole staging memrefs, the inputs' at read contents `xW` and the output's at anything, runs to
    the continuation holding the inputs' as they were and the output's at `out1_10` of the inputs'. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10 arg11 harg11) K := by
  simp only [cc1__apply_kernel_eq_skeleton]; unfold cc1__apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them (`V`); after the body at
    point `t` each input's buffer at its block and the output's at `out1_10` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Apply3.lean ====
/- The apply kernel of layer 1 (custom_call 3): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (when it did not, the block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or
    not (when it did not, the block index has not moved), for any proof data over `V`'s arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or
    not (when it did not, the block index has not moved), for any proof data over `V`'s arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the pipeline fetched it there or
    not (when it did not, the block index has not moved), for any proof data over `V`'s arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the pipeline fetched it there or
    not (when it did not, the block index has not moved), for any proof data over `V`'s arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the pipeline fetched it there or
    not (when it did not, the block index has not moved), for any proof data over `V`'s arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the pipeline fetched it there or
    not (when it did not, the block index has not moved), for any proof data over `V`'s arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the pipeline fetched it there or
    not (when it did not, the block index has not moved), for any proof data over `V`'s arrays whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the pipeline fetched it there or
    not (when it did not, the block index has not moved), for any proof data over `V`'s arrays whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, whether the pipeline fetched it there or
    not (when it did not, the block index has not moved), for any proof data over `V`'s arrays whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-- The output window's buffer after the body, from the ten input windows' blocks: its one store, of the whole tile. -/
def out3_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r3_0, k3_pay1 (k3_pay2 (View.ld x0 r3_0) (View.ld x1 r3_0) (View.ld x2 r3_1) (View.ld x3 r3_2) (View.ld x5 r3_2) (View.ld x4 r3_2) (View.ld x6 r3_2) (View.ld x7 r3_2)) (k3_pay3 (View.ld x8 r3_1)) (View.ld x9 r3_2)⟩]

/-- The store tiles the buffer (checked by evaluation), so it covers it. -/
theorem cover3_10 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 4000000 in
/-- The kernel body on whole staging memrefs, the inputs' at read contents `xW` and the output's at anything, runs to
    the continuation holding the inputs' as they were and the output's at `out3_10` of the inputs'. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out3_10 x0 x1 x2 x3 x4 x5 x6 x7 x8 x9)) -∗ K ⟨⟩))
      ⊢ wp frame (wpE (defs₀ (F := F)) Variants.none c none) E (cc3__apply_kernel i arg1 harg1 arg2 harg2 arg3 harg3 arg4 harg4 arg5 harg5 arg6 harg6 arg7 harg7 arg8 harg8 arg9 harg9 arg10 harg10 arg11 harg11) K := by
  simp only [cc3__apply_kernel_eq_skeleton]; unfold cc3__apply_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The pipeline's proof data -/

/-- The proof data of the pipeline on core `c`: the arrays as the region finds them (`V`); after the body at
    point `t` each input's buffer at its block and the output's at `out3_10` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Apply5.lean ====
/- The apply kernel of layer 2 (custom_call 5): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (when it did not, the block index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (when it did not, the block index has not moved), for any proof data over `V`'s arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (when it did not, the block index has not moved), for any proof data over `V`'s arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (when it did not, the block index has not moved), for any proof data over `V`'s arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it there or
    not (when it did not, the block index has not moved), for any proof data over `V`'s arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the pipeline fetched it there or
    not (when it did not, the block index has not moved), for any proof data over `V`'s arrays whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the pipeline fetched it there or
    not (when it did not, the block index has not moved), for any proof data over `V`'s arrays whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, whether the pipeline fetched it there or
    not (when it did not, the block index has not moved), for any proof data over `V`'s arrays whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, whether the pipeline fetched it there or
    not (when it did not, the block index has not moved), for any proof data over `V`'s arrays whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, whether the pipeline fetched it there or
    not (when it did not, the block index has not moved), for any proof data over `V`'s arrays whose body leaves the block in place. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S2000x64 := Rect.unit (s := S2000x64) ![0, 0] S2000x64.size inb_S2000x64_S2000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-- The output window's buffer after the body, from the ten input windows' blocks: its one store, of the whole tile. -/
def out5_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r5_0, k5_pay1 (k5_pay2 (View.ld x0 r5_0) (View.ld x1 r5_0) (View.ld x2 r5_1) (View.ld x3 r5_2) (View.ld x5 r5_2) (View.ld x4 r5_2) (View.ld x6 r5_2) (View.ld x7 r5_2)) (k5_pay3 (View.ld x8 r5_1)) (View.ld x9 r5_2)⟩]

/-- The store tiles the buffer (checked by evaluation), so it covers it. -/
theorem cover5_10 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 4000000 in
/-- The kernel body on whole staging memrefs, the inputs' at read contents `xW` and the output's at anything, runs to
    the continuation holding the inputs' as they were and the output's at `out5_10` of the inputs'. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out5_10 x0 x1 x2 x3 x4 x5 x6 x7 x8 x9)) -∗ K ⟨⟩))
      ⊢ wp frame (wpE (defs₀ (F := F)) Variants.none c none) E (cc5__apply_kernel i arg1 harg1 arg2 harg2 arg3 harg3 arg4 harg4 arg5 harg5 arg6 harg6 arg7 harg7 arg8 harg8 arg9 harg9 arg10 harg10 arg11 harg11) K := by
  simp only [cc5__apply_kernel_eq_skeleton]; unfold cc5__apply_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

/-! ## The pipeline's proof data -/

/-- The proof data of the pipeline on core `c`: the arrays as the region finds them (`V`); after the body at
    point `t` each input's buffer at its block and the output's at `out5_10` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Run.lean ====
import proofs.«166406_j57140244906477_1_alg».proof.Proof.Gen.Kernel.Launch
import proofs.«166406_j57140244906477_1_alg».proof.Proof.Gen.Kernel.Skeleton
import proofs.«166406_j57140244906477_1_alg».proof.Proof.Gen.Kernel.Points
import proofs.«166406_j57140244906477_1_alg».proof.Proof.KB.Stats0
import proofs.«166406_j57140244906477_1_alg».proof.Proof.KB.Stats2
import proofs.«166406_j57140244906477_1_alg».proof.Proof.KB.Stats4
import proofs.«166406_j57140244906477_1_alg».proof.Proof.KB.Apply1
import proofs.«166406_j57140244906477_1_alg».proof.Proof.KB.Apply3
import proofs.«166406_j57140244906477_1_alg».proof.Proof.KB.Apply5
import proofs.«166406_j57140244906477_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's twelve segments from the launch to the return

## The buffers' contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After the host stretch `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves a buffer it does not write. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After the host stretch `hostOps4` (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch leaves a buffer it does not write. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- After the host stretch `hostOps5` (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what its write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch leaves a buffer it does not write. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-! ### The arguments end as launched -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm' : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L' : GSem nD τ sig → Finset Unit := fun _ => ∅
abbrev lv' : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L' lv' 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L' lv' 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = (dat0 (V1 m ρ) c).Φ (Fin.last cfg0.N) from rfl]
    have h := hout0 (V1 m ρ) c
    unfold Pipeline.ΦA at h
    have h2 : (iprop(Pipeline.scopedRest (Ix := Unit) (Name := ℕ) (U := UR sig nD τ) (Lvl := ℕ) (Val := Elt F) spec0 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm' (pdats m ρ) () defs₀ 𝒱₀ L' lv' 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L' lv' 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm' (pdats m ρ) () defs₀ 𝒱₀ L' lv' 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L' lv' 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = (dat2 (V5 m ρ) c).Φ (Fin.last cfg2.N) from rfl]
    have h := hout2 (V5 m ρ) c
    unfold Pipeline.ΦA at h
    have h2 : (iprop(Pipeline.scopedRest (Ix := Unit) (Name := ℕ) (U := UR sig nD τ) (Lvl := ℕ) (Val := Elt F) spec2 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    exact h.trans h2
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm' (pdats m ρ) () defs₀ 𝒱₀ L' lv' 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L' lv' 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm' (pdats m ρ) () defs₀ 𝒱₀ L' lv' 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L' lv' 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = (dat4 (V9 m ρ) c).Φ (Fin.last cfg4.N) from rfl]
    have h := hout4 (V9 m ρ) c
    unfold Pipeline.ΦA at h
    have h2 : (iprop(Pipeline.scopedRest (Ix := Unit) (Name := ℕ) (U := UR sig nD τ) (Lvl := ℕ) (Val := Elt F) spec4 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec4 c) := by
      iintro ⟨Hr, Hp⟩
      isplitl [Hp]; · iexact Hp
      isplitr; · iempintro
      iexact Hr
    exact h.trans h2
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm' (pdats m ρ) () defs₀ 𝒱₀ L' lv' 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L' lv' 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L' lv') :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm' (pdats m ρ) () cellOf_inj emb₁ defs₀ 𝒱₀ L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The result array and the nine argument arrays at the end of the run. -/
theorem run_value : θ_run defs (onTc (τ := τ) (main (F := F))) ⟨m, fun _ => 0, ρ⟩ (fun r => ∀ c : Dev nD,
      r.2.mem ((c.tc : Thread nD τ).loc main_v111) = W12 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v111 (by decide)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.Kernel.Fr
end
-- ==== Proof.KI.StatsCommon.lean ====
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Shared by the three statistics regions: the whole-row rectangle of a `[1, 64]` buffer and its covering facts. -/

/-- The whole-row rectangle of a `[1, 64]` buffer. -/
abbrev rS : Rect S1x64 := Rect.unit (s := S1x64) ![0, 0] S1x64.size inb_S1x64_S1x64_0_0

theorem hzS : (![0, 0] : Fin S1x64.rank → Nat) = fun _ => 0 := by funext a; fin_cases a <;> rfl
theorem hzT : (![0, 0] : Fin S2000x64.rank → Nat) = fun _ => 0 := by funext a; fin_cases a <;> rfl
theorem hzW : (![0, 0] : Fin S64x64.rank → Nat) = fun _ => 0 := by funext a; fin_cases a <;> rfl

/-- One whole-row store covers the row. -/
theorem coverS (p0 : Vec F S1x64 .f32) (y : S1x64.Idx) :
    ∃ pc ∈ ([⟨rS, p0⟩] : List (View.Piece (Elt F) S1x64 .f32)), y ∈ pc.1.set :=
  View.cover_of_tiled [⟨rS, p0⟩] S1x64.size (by rfl) y

/-- Every index of a `[1, 64]` buffer lies in the whole-row rectangle. -/
theorem memS (p0 : Vec F S1x64 .f32) (y : S1x64.Idx) : y ∈ (rS : Rect S1x64).set := by
  obtain ⟨pc, hpc, hy⟩ := coverS p0 y
  simp only [List.mem_singleton] at hpc; subst hpc; exact hy

end Cert.KernelIdeal.Fr
end
-- ==== Proof.KI.Stats0.lean ====
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import proofs.«166406_j57140244906477_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 0: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- "This is the last grid point". -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

set_option maxHeartbeats 2000000 in
/-- A MIDDLE point: the scratch rows, holding `s7` and `s8`, end at `s7` plus the tile's column sums and `s8` plus the
    column sums of squares (the payloads `k0_pay4`, `k0_pay5`); the inputs and the two output rows are untouched. -/
theorem sound_kernel0_B (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond0_0 i) (hc1 : ¬cond0_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k0_pay4 x0 x1 x2 x3 s7) ∗ owns (c : Thread nD τ) arg8 fullShare (k0_pay5 x0 x1 x2 x3 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel0_A (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond0_0 i) (hc1 : ¬cond0_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k0_pay4 x0 x1 x2 x3 (k0_pay1 (F := F))) ∗ owns (c : Thread nD τ) arg8 fullShare (k0_pay5 x0 x1 x2 x3 (k0_pay2 (F := F)))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel0_C (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond0_0 i) (hc1 : cond0_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 s7) ∗ owns (c : Thread nD τ) arg6 fullShare (k0_pay5 x0 x1 x2 x3 s8)
            ∗ owns (c : Thread nD τ) arg7 fullShare (k0_pay4 x0 x1 x2 x3 s7) ∗ owns (c : Thread nD τ) arg8 fullShare (k0_pay5 x0 x1 x2 x3 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two output rows are idle: nothing is stored into them and they are not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two scratch rows: whole scoped buffers of the kernel's own. -/
abbrev scM0_0 : Memref sig .tc .vmem S1x64 .f32 := Memref.whole cc0_scratch0
abbrev scM0_1 : Memref sig .tc .vmem S1x64 .f32 := Memref.whole cc0_scratch1

section Region
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the two scratch rows hold after each point -/

/-- THE ACCUMULATION. After point `n` the first scratch row holds the column sums of `h` over the tiles `0 … n` and the
    second the column sums of `h²`: at the first point from the zero rows (`k0_pay1`, `k0_pay2`), afterwards from
    what the point before left. -/
def acc0 (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)),
              k0_pay5 (iblk0 V c 0 ⟨0, hn⟩) (iblk0 V c 1 ⟨0, hn⟩) (iblk0 V c 2 ⟨0, hn⟩) (iblk0 V c 3 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn)).1,
                  k0_pay5 (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn)).2)

theorem acc0_zero (c : Dev nD) (t : Fin cfg0.N) (h0 : t.val = 0) :
    acc0 V c t.val t.isLt = (k0_pay4 (iblk0 V c 0 t) (iblk0 V c 1 t) (iblk0 V c 2 t) (iblk0 V c 3 t) (k0_pay1 (F := F)),
      k0_pay5 (iblk0 V c 0 t) (iblk0 V c 1 t) (iblk0 V c 2 t) (iblk0 V c 3 t) (k0_pay2 (F := F))) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt = (k0_pay4 (iblk0 V c 0 t) (iblk0 V c 1 t) (iblk0 V c 2 t) (iblk0 V c 3 t) (acc0 V c (t.val - 1) (Nat.lt_of_le_of_lt (Nat.sub_le _ _) t.isLt)).1,
      k0_pay5 (iblk0 V c 0 t) (iblk0 V c 1 t) (iblk0 V c 2 t) (iblk0 V c 3 t) (acc0 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc0`), the other such buffers anything. The generator register
    rides along at some state. -/
def PhiS0 (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((acc0 V c n hn).1) ∗ owns (c : Thread nD τ) scM0_1 fullShare ((acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((acc0 V c (n - 1) (by omega)).1) ∗ owns (c : Thread nD τ) scM0_1 fullShare ((acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The launch's invariant with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 50 := lt_of_lt_of_eq t.isLt (show cfg0.N = 50 from N_0)
  by_cases h1 : t.val % 50 = 49
  · -- the last point
    have h0 : ¬t.val % 50 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [acc0_pos V c t hz]
    rw [PhiS0_castSucc V c t, PhiS0_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel0_C c Set.univ (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 50 = 0
    · -- the first point
      have hz : t.val = 0 := by omega
      rw [acc0_zero V c t hz]
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel0_A c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) ((dat0 V c).before 4 t d4) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc0_pos V c t hz]
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel0_B c Set.univ (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) ((dat0 V c).before 4 t d4) ((dat0 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the scratch rows' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.KernelIdeal.Fr
end
-- ==== Proof.KI.Stats2.lean ====
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import proofs.«166406_j57140244906477_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 2: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)
/-- "This is the last grid point". -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

set_option maxHeartbeats 2000000 in
/-- A MIDDLE point: the scratch rows, holding `s7` and `s8`, end at `s7` plus the tile's column sums and `s8` plus the
    column sums of squares (the payloads `k2_pay4`, `k2_pay5`); the inputs and the two output rows are untouched. -/
theorem sound_kernel2_B (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond2_0 i) (hc1 : ¬cond2_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k2_pay4 x0 x1 x2 x3 s7) ∗ owns (c : Thread nD τ) arg8 fullShare (k2_pay5 x0 x1 x2 x3 s8)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel2_A (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond2_0 i) (hc1 : ¬cond2_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k2_pay4 x0 x1 x2 x3 (k2_pay1 (F := F))) ∗ owns (c : Thread nD τ) arg8 fullShare (k2_pay5 x0 x1 x2 x3 (k2_pay2 (F := F)))) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel2_C (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond2_0 i) (hc1 : cond2_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay4 x0 x1 x2 x3 s7) ∗ owns (c : Thread nD τ) arg6 fullShare (k2_pay5 x0 x1 x2 x3 s8)
            ∗ owns (c : Thread nD τ) arg7 fullShare (k2_pay4 x0 x1 x2 x3 s7) ∗ owns (c : Thread nD τ) arg8 fullShare (k2_pay5 x0 x1 x2 x3 s8)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  simp only [cc2__stats_kernel_eq_skeleton]; unfold cc2__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the two output rows are idle: nothing is stored into them and they are not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point they are live. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
/-- The two scratch rows: whole scoped buffers of the kernel's own. -/
abbrev scM2_0 : Memref sig .tc .vmem S1x64 .f32 := Memref.whole cc2_scratch0
abbrev scM2_1 : Memref sig .tc .vmem S1x64 .f32 := Memref.whole cc2_scratch1

section Region
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What the two scratch rows hold after each point -/

/-- THE ACCUMULATION. After point `n` the first scratch row holds the column sums of `h` over the tiles `0 … n` and the
    second the column sums of `h²`: at the first point from the zero rows (`k2_pay1`, `k2_pay2`), afterwards from
    what the point before left. -/
def acc2 (c : Dev nD) : (n : ℕ) → n < cfg2.N → Vec F S1x64 .f32 × Vec F S1x64 .f32
  | 0, hn => (k2_pay4 (iblk2 V c 0 ⟨0, hn⟩) (iblk2 V c 1 ⟨0, hn⟩) (iblk2 V c 2 ⟨0, hn⟩) (iblk2 V c 3 ⟨0, hn⟩) (k2_pay1 (F := F)),
              k2_pay5 (iblk2 V c 0 ⟨0, hn⟩) (iblk2 V c 1 ⟨0, hn⟩) (iblk2 V c 2 ⟨0, hn⟩) (iblk2 V c 3 ⟨0, hn⟩) (k2_pay2 (F := F)))
  | n + 1, hn => (k2_pay4 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).1,
                  k2_pay5 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn)).2)

theorem acc2_zero (c : Dev nD) (t : Fin cfg2.N) (h0 : t.val = 0) :
    acc2 V c t.val t.isLt = (k2_pay4 (iblk2 V c 0 t) (iblk2 V c 1 t) (iblk2 V c 2 t) (iblk2 V c 3 t) (k2_pay1 (F := F)),
      k2_pay5 (iblk2 V c 0 t) (iblk2 V c 1 t) (iblk2 V c 2 t) (iblk2 V c 3 t) (k2_pay2 (F := F))) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt = (k2_pay4 (iblk2 V c 0 t) (iblk2 V c 1 t) (iblk2 V c 2 t) (iblk2 V c 3 t) (acc2 V c (t.val - 1) (Nat.lt_of_le_of_lt (Nat.sub_le _ _) t.isLt)).1,
      k2_pay5 (iblk2 V c 0 t) (iblk2 V c 1 t) (iblk2 V c 2 t) (iblk2 V c 3 t) (acc2 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc2`), the other such buffers anything. The generator register
    rides along at some state. -/
def PhiS2 (c : Dev nD) : (n : ℕ) → n ≤ cfg2.N → sProp 𝕄
  | 0, _ => Pipeline.ΦA spec2 c
  | n + 1, hn => iprop(iprop(owns (c : Thread nD τ) scM2_0 fullShare ((acc2 V c n hn).1) ∗ owns (c : Thread nD τ) scM2_1 fullShare ((acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((acc2 V c n hn).1) ∗ owns (c : Thread nD τ) scM2_1 fullShare ((acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((acc2 V c (n - 1) (by omega)).1) ∗ owns (c : Thread nD τ) scM2_1 fullShare ((acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The launch's invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (acc2 V c t.val t.isLt).1
    | ⟨5, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (acc2 V c t.val t.isLt).1 := by dsimp only [dat2]
theorem after2_5 (c : Dev nD) (t : Fin cfg2.N) : (dat2 V c).after 5 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 50 := lt_of_lt_of_eq t.isLt (show cfg2.N = 50 from N_2)
  by_cases h1 : t.val % 50 = 49
  · -- the last point
    have h0 : ¬t.val % 50 = 0 := by omega
    have hz : t.val ≠ 0 := by omega
    rw [show (dat2 V c).leavesExact 4 t = owns (c : Thread nD τ) (ms2_4 t) fullShare ((dat2 V c).after 4 t) from by
      unfold Dat.leavesExact; rw [liveAt2_4 t ((hcond2_1 t).mpr h1)], after2_4]
    rw [show (dat2 V c).leavesExact 5 t = owns (c : Thread nD τ) (ms2_5 t) fullShare ((dat2 V c).after 5 t) from by
      unfold Dat.leavesExact; rw [liveAt2_5 t ((hcond2_1 t).mpr h1)], after2_5]
    rw [acc2_pos V c t hz]
    rw [PhiS2_castSucc V c t, PhiS2_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel2_C c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    by_cases h0 : t.val % 50 = 0
    · -- the first point
      have hz : t.val = 0 := by omega
      rw [acc2_zero V c t hz]
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) ((dat2 V c).before 4 t d4) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc2_pos V c t hz]
      rw [PhiS2_castSucc V c t, PhiS2_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) ((dat2 V c).before 4 t d4) ((dat2 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the scratch rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.KernelIdeal.Fr
end
-- ==== Proof.KI.Stats4.lean ====
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import proofs.«166406_j57140244906477_1_alg».proof.Proof.KI.StatsCommon
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 4: the column sums of `h` and of `h²` over a row tile, accumulated in two scratch rows

The body at a grid point: at the first point the two scratch rows are zeroed; at every point the tile's
`h = (agg + x)·W1 + b1` is formed and its column sums, and the column sums of its squares, are added to the scratch
rows; at the last point the scratch rows are copied to the two output rows. Three cases of the two conditionals meet
the grid: the first point, a middle point, the last point. -/

/-- "This is the first grid point", as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 50 = 0 :=
  (by decide +kernel : ∀ t : Fin grid4.N, cond4_0 (grid4.coords t) ↔ t.val % 50 = 0)
/-- "This is the last grid point". -/
abbrev cond4_1 (i : grid4.Coords) : Prop := k4_cond2 i = 1#1
theorem hcond4_1 : ∀ t : Fin cfg4.N, cond4_1 (grid4.coords t) ↔ t.val % 50 = 49 :=
  (by decide +kernel : ∀ t : Fin grid4.N, cond4_1 (grid4.coords t) ↔ t.val % 50 = 49)

set_option maxHeartbeats 2000000 in
/-- A MIDDLE point: the scratch rows, holding `s7` and `s8`, end at `s7` plus the tile's column sums and `s8` plus the
    column sums of squares (the payloads `k4_pay4`, `k4_pay5`); the inputs and the two output rows are untouched. -/
theorem sound_kernel4_B (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond4_0 i) (hc1 : ¬cond4_1 i)
    (x0 x1 : Vec F S2000x64 .f32) (x2 : Vec F S64x64 .f32) (x3 : Vec F S1x64 .f32) (y5 y6 s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k4_pay4 x0 x1 x2 x3 s7) ∗ owns (c : Thread nD τ) arg8 fullShare (k4_pay5 x0 x1 x2 x3 s8)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

set_option maxHeartbeats 4000000 in
theorem sound_kernel4_A (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : cond4_0 i) (hc1 : ¬cond4_1 i)
    (x0 x1 : Vec F S2000x64 .f32) (x2 : Vec F S64x64 .f32) (x3 : Vec F S1x64 .f32) (y5 y6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y5 ∗ owns (c : Thread nD τ) arg6 fullShare y6
            ∗ owns (c : Thread nD τ) arg7 fullShare (k4_pay4 x0 x1 x2 x3 (k4_pay1 (F := F))) ∗ owns (c : Thread nD τ) arg8 fullShare (k4_pay5 x0 x1 x2 x3 (k4_pay2 (F := F)))) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    refine (View.read_writes_of_cover_last arg7.view f7 arg7.view f7 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]
  · iexists _; isplitr
    swap; · iexact H8
    ipureintro
    refine (View.read_writes_of_cover_last arg8.view f8 arg8.view f8 _ _ [] (memS x3)).trans ?_
    rw [View.read_writes_eq_canon _ _ _ (coverS _), View.canon_unit_zero hzS]
    simp only [View.readAt_eq_ld, harg1.read_unread, harg2.read_unread, harg3.read_unread, harg4.read_unread,
      View.ld_unit_zero (S := S2000x64) hzT, View.ld_unit_zero (S := S64x64) hzW, View.ld_unit_zero (S := S1x64) hzS]
    sl_unfold_run_names
    rw [View.readCov_unit_zero _ hzS]

set_option maxHeartbeats 4000000 in
theorem sound_kernel4_C (c : Dev nD) (E : Set ℕ) (i : grid4.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (hc0 : ¬cond4_0 i) (hc1 : cond4_1 i)
    (x0 x1 : Vec F S2000x64 .f32) (x2 : Vec F S64x64 .f32) (x3 : Vec F S1x64 .f32) (s7 s8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay4 x0 x1 x2 x3 s7) ∗ owns (c : Thread nD τ) arg6 fullShare (k4_pay5 x0 x1 x2 x3 s8)
            ∗ owns (c : Thread nD τ) arg7 fullShare (k4_pay4 x0 x1 x2 x3 s7) ∗ owns (c : Thread nD τ) arg8 fullShare (k4_pay5 x0 x1 x2 x3 s8)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3
  obtain rfl := harg7.eq_unread hf7; obtain rfl := harg8.eq_unread hf8
  sl_exec (disch := first | exact hc0 | exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H5]
  · iexists _; isplitr
    swap; · iexact H5
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  isplitl [H6]
  · iexists _; isplitr
    swap; · iexact H6
    ipureintro
    sl_unfold_run_names
    rw [View.read_writes_eq_canon _ _ _ (coverS _), View.canon_unit_zero hzS]
    try rw [View.readCov_unit_zero _ hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]
  isplitl [H7]
  · iexists _; isplitr
    swap; · iexact H7
    ipureintro
    sl_unfold_run_names
    rw [View.read_writes_eq_canon _ _ _ (coverS _), View.canon_unit_zero hzS]
    simp only [View.readAt_eq_ld, harg1.read_unread, harg2.read_unread, harg3.read_unread, harg4.read_unread, harg7.read_unread,
      View.ld_unit_zero (S := S2000x64) hzT, View.ld_unit_zero (S := S64x64) hzW, View.ld_unit_zero (S := S1x64) hzS]
  · iexists _; isplitr
    swap; · iexact H8
    ipureintro
    sl_unfold_run_names
    rw [View.read_writes_eq_canon _ _ _ (coverS _), View.canon_unit_zero hzS]
    simp only [View.readAt_eq_ld, harg1.read_unread, harg2.read_unread, harg3.read_unread, harg4.read_unread, harg8.read_unread,
      View.ld_unit_zero (S := S2000x64) hzT, View.ld_unit_zero (S := S64x64) hzW, View.ld_unit_zero (S := S1x64) hzS]

/-! ## Where the windows are idle, and the memrefs the pipeline passes -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the two output rows are idle: nothing is stored into them and they are not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
/-- At the last point they are live. -/
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
/-- The two scratch rows: whole scoped buffers of the kernel's own. -/
abbrev scM4_0 : Memref sig .tc .vmem S1x64 .f32 := Memref.whole cc4_scratch0
abbrev scM4_1 : Memref sig .tc .vmem S1x64 .f32 := Memref.whole cc4_scratch1

section Region
variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What the two scratch rows hold after each point -/

/-- THE ACCUMULATION. After point `n` the first scratch row holds the column sums of `h` over the tiles `0 … n` and the
    second the column sums of `h²`: at the first point from the zero rows (`k4_pay1`, `k4_pay2`), afterwards from
    what the point before left. -/
def acc4 (c : Dev nD) : (n : ℕ) → n < cfg4.N → Vec F S1x64 .f32 × Vec F S1x64 .f32
  | 0, hn => (k4_pay4 (iblk4 V c 0 ⟨0, hn⟩) (iblk4 V c 1 ⟨0, hn⟩) (iblk4 V c 2 ⟨0, hn⟩) (iblk4 V c 3 ⟨0, hn⟩) (k4_pay1 (F := F)),
              k4_pay5 (iblk4 V c 0 ⟨0, hn⟩) (iblk4 V c 1 ⟨0, hn⟩) (iblk4 V c 2 ⟨0, hn⟩) (iblk4 V c 3 ⟨0, hn⟩) (k4_pay2 (F := F)))
  | n + 1, hn => (k4_pay4 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn)).1,
                  k4_pay5 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn)).2)

theorem acc4_zero (c : Dev nD) (t : Fin cfg4.N) (h0 : t.val = 0) :
    acc4 V c t.val t.isLt = (k4_pay4 (iblk4 V c 0 t) (iblk4 V c 1 t) (iblk4 V c 2 t) (iblk4 V c 3 t) (k4_pay1 (F := F)),
      k4_pay5 (iblk4 V c 0 t) (iblk4 V c 1 t) (iblk4 V c 2 t) (iblk4 V c 3 t) (k4_pay2 (F := F))) := by
  obtain ⟨n, hn⟩ := t
  cases n with
  | zero => rfl
  | succ n => exact absurd h0 (Nat.succ_ne_zero n)

theorem acc4_pos (c : Dev nD) (t : Fin cfg4.N) (h0 : t.val ≠ 0) :
    acc4 V c t.val t.isLt = (k4_pay4 (iblk4 V c 0 t) (iblk4 V c 1 t) (iblk4 V c 2 t) (iblk4 V c 3 t) (acc4 V c (t.val - 1) (Nat.lt_of_le_of_lt (Nat.sub_le _ _) t.isLt)).1,
      k4_pay5 (iblk4 V c 0 t) (iblk4 V c 1 t) (iblk4 V c 2 t) (iblk4 V c 3 t) (acc4 V c (t.val - 1) (Nat.lt_of_le_of_lt (Nat.sub_le _ _) t.isLt)).2) := by
  obtain ⟨n, hn⟩ := t
  cases n with
  | zero => exact absurd rfl h0
  | succ n => rfl

/-! ## The region invariant: the scratch rows at the accumulated sums -/

/-- Before position `n`: before the first point every scoped buffer no window stages is held at anything; afterwards the
    two scratch rows hold what the point before left (`acc4`), the other such buffers anything. The generator register
    rides along at some state. -/
def PhiS4 (c : Dev nD) : (n : ℕ) → n ≤ cfg4.N → sProp 𝕄
  | 0, _ => Pipeline.ΦA spec4 c
  | n + 1, hn => iprop(iprop(owns (c : Thread nD τ) scM4_0 fullShare ((acc4 V c n hn).1) ∗ owns (c : Thread nD τ) scM4_1 fullShare ((acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((acc4 V c n hn).1) ∗ owns (c : Thread nD τ) scM4_1 fullShare ((acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((acc4 V c (n - 1) (by omega)).1) ∗ owns (c : Thread nD τ) scM4_1 fullShare ((acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The launch's invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The pipeline's proof data -/

/-- The proof data of this region's pipeline on core `c`: the arrays as the region finds them (`V`); after the body at
    point `t` each input's buffer at its block; the two output rows at the scratch rows' contents (what the last point
    copies out; elsewhere the rows are idle and the value is not consulted); the invariant `PhiS4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (acc4 V c t.val t.isLt).1
    | ⟨5, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (acc4 V c t.val t.isLt).1 := by dsimp only [dat4]
theorem after4_5 (c : Dev nD) (t : Fin cfg4.N) : (dat4 V c).after 5 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the point is the first, a middle one or the last
    (`by_cases` on its position), and that case's run applies: the invariant hands over the scratch rows at what the
    point before left (at anything at the first point) and takes them back at this point's sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  have hN : t.val < 50 := lt_of_lt_of_eq t.isLt (show cfg4.N = 50 from N_4)
  by_cases h1 : t.val % 50 = 49
  · -- the last point
    have h0 : ¬t.val % 50 = 0 := by omega
    have hz : t.val ≠ 0 := by omega
    rw [show (dat4 V c).leavesExact 4 t = owns (c : Thread nD τ) (ms4_4 t) fullShare ((dat4 V c).after 4 t) from by
      unfold Dat.leavesExact; rw [liveAt4_4 t ((hcond4_1 t).mpr h1)], after4_4]
    rw [show (dat4 V c).leavesExact 5 t = owns (c : Thread nD τ) (ms4_5 t) fullShare ((dat4 V c).after 5 t) from by
      unfold Dat.leavesExact; rw [liveAt4_5 t ((hcond4_1 t).mpr h1)], after4_5]
    rw [acc4_pos V c t hz]
    rw [PhiS4_castSucc V c t, PhiS4_pos V c _ _ hz]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply (sound_kernel4_C c Set.univ (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0]; · iexact HS0
        isplitl [HS1]; · iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat4 V c) 4 t (idleAt4_4 t (fun h => h1 ((hcond4_1 t).mp h))) (noFlush4_4 t (fun h => h1 ((hcond4_1 t).mp h)))]
    rw [Dat.leavesExact_idle (dat4 V c) 5 t (idleAt4_5 t (fun h => h1 ((hcond4_1 t).mp h))) (noFlush4_5 t (fun h => h1 ((hcond4_1 t).mp h)))]
    by_cases h0 : t.val % 50 = 0
    · -- the first point
      have hz : t.val = 0 := by omega
      rw [acc4_zero V c t hz]
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (sound_kernel4_A c Set.univ (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) ((dat4 V c).before 4 t d4) ((dat4 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · -- a middle point
      have hz : t.val ≠ 0 := by omega
      rw [acc4_pos V c t hz]
      rw [PhiS4_castSucc V c t, PhiS4_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply (sound_kernel4_B c Set.univ (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) ((dat4 V c).before 4 t d4) ((dat4 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the launch's back: the scratch rows' named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), PhiA4_eq]
  iintro ⟨⟨HS0, HS1, Hrest⟩, Hg⟩
  isplitl [HS0 HS1 Hrest]
  · isplitl [HS0 HS1]
    · isplitl [HS0]; · iexists _; iexact HS0
      iexists _; iexact HS1
    iexact Hrest
  iexact Hg

end Region

end Cert.KernelIdeal.Fr
end
-- ==== Proof.KI.Apply1.lean ====
/- The apply kernel of layer 0 (custom_call 1): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (when it did not, the block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (when it did not, the block index has not moved), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (when it did not, the block index has not moved), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not (when it did not, the block index has not moved), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not (when it did not, the block index has not moved), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    not (when it did not, the block index has not moved), for any proof data over `V`'s arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    not (when it did not, the block index has not moved), for any proof data over `V`'s arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the pipeline fetched it there or
    not (when it did not, the block index has not moved), for any proof data over `V`'s arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, whether the pipeline fetched it there or
    not (when it did not, the block index has not moved), for any proof data over `V`'s arrays whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, whether the pipeline fetched it there or
    not (when it did not, the block index has not moved), for any proof data over `V`'s arrays whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev r1_0 : Rect S2000x64 := Rect.unit (s := S2000x64) ![0, 0] S2000x64.size inb_S2000x64_S2000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-- The output window's buffer after the body, from the ten input windows' blocks: its one store, of the whole tile. -/
def out1_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r1_0, k1_pay1 (k1_pay2 (View.ld x0 r1_0) (View.ld x1 r1_0) (View.ld x2 r1_1) (View.ld x3 r1_2) (View.ld x5 r1_2) (View.ld x4 r1_2) (View.ld x6 r1_2) (View.ld x7 r1_2)) (k1_pay3 (View.ld x8 r1_1)) (View.ld x9 r1_2)⟩]

/-- The store tiles the buffer (checked by evaluation), so it covers it. -/
theorem cover1_10 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 4000000 in
/-- The kernel body on whole staging memrefs, the inputs' at read contents `xW` and the output's at anything, runs to
    the continuation holding the inputs' as they were and the output's at `out1_10` of the inputs'. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10 arg11 harg11) K := by
  simp only [cc1__apply_kernel_eq_skeleton]; unfold cc1__apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them (`V`); after the body at
    point `t` each input's buffer at its block and the output's at `out1_10` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Apply3.lean ====
/- The apply kernel of layer 1 (custom_call 3): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not (when it did not, the block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or
    not (when it did not, the block index has not moved), for any proof data over `V`'s arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or
    not (when it did not, the block index has not moved), for any proof data over `V`'s arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the pipeline fetched it there or
    not (when it did not, the block index has not moved), for any proof data over `V`'s arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the pipeline fetched it there or
    not (when it did not, the block index has not moved), for any proof data over `V`'s arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether the pipeline fetched it there or
    not (when it did not, the block index has not moved), for any proof data over `V`'s arrays whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, whether the pipeline fetched it there or
    not (when it did not, the block index has not moved), for any proof data over `V`'s arrays whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, whether the pipeline fetched it there or
    not (when it did not, the block index has not moved), for any proof data over `V`'s arrays whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, whether the pipeline fetched it there or
    not (when it did not, the block index has not moved), for any proof data over `V`'s arrays whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, whether the pipeline fetched it there or
    not (when it did not, the block index has not moved), for any proof data over `V`'s arrays whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, whole -/

abbrev r3_0 : Rect S2000x64 := Rect.unit (s := S2000x64) ![0, 0] S2000x64.size inb_S2000x64_S2000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-- The output window's buffer after the body, from the ten input windows' blocks: its one store, of the whole tile. -/
def out3_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r3_0, k3_pay1 (k3_pay2 (View.ld x0 r3_0) (View.ld x1 r3_0) (View.ld x2 r3_1) (View.ld x3 r3_2) (View.ld x5 r3_2) (View.ld x4 r3_2) (View.ld x6 r3_2) (View.ld x7 r3_2)) (k3_pay3 (View.ld x8 r3_1)) (View.ld x9 r3_2)⟩]

/-- The store tiles the buffer (checked by evaluation), so it covers it. -/
theorem cover3_10 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 4000000 in
/-- The kernel body on whole staging memrefs, the inputs' at read contents `xW` and the output's at anything, runs to
    the continuation holding the inputs' as they were and the output's at `out3_10` of the inputs'. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out3_10 x0 x1 x2 x3 x4 x5 x6 x7 x8 x9)) -∗ K ⟨⟩))
      ⊢ wp frame (wpE (defs₀ (F := F)) Variants.none c none) E (cc3__apply_kernel i arg1 harg1 arg2 harg2 arg3 harg3 arg4 harg4 arg5 harg5 arg6 harg6 arg7 harg7 arg8 harg8 arg9 harg9 arg10 harg10 arg11 harg11) K := by
  simp only [cc3__apply_kernel_eq_skeleton]; unfold cc3__apply_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The pipeline's proof data -/

/-- The proof data of the pipeline on core `c`: the arrays as the region finds them (`V`); after the body at
    point `t` each input's buffer at its block and the output's at `out3_10` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Apply5.lean ====
/- The apply kernel of layer 2 (custom_call 5): its region half at the buffer contents `V` the region is
   entered with. Each of the ten input windows holds its block of `V`'s array at every grid point; the body reads
   them, and leaves in the output window's buffer the row tile
   `max (max (((agg + x)·W1 + b1 − mean)·rsqrt (var + ε)·γ + β) 0 · W2 + b2) 0` as one full-tile store. -/
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it there or
    not (when it did not, the block index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it there or
    not (when it did not, the block index has not moved), for any proof data over `V`'s arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it there or
    not (when it did not, the block index has not moved), for any proof data over `V`'s arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it there or
    not (when it did not, the block index has not moved), for any proof data over `V`'s arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it there or
    not (when it did not, the block index has not moved), for any proof data over `V`'s arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether the pipeline fetched it there or
    not (when it did not, the block index has not moved), for any proof data over `V`'s arrays whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, whether the pipeline fetched it there or
    not (when it did not, the block index has not moved), for any proof data over `V`'s arrays whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, whether the pipeline fetched it there or
    not (when it did not, the block index has not moved), for any proof data over `V`'s arrays whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, whether the pipeline fetched it there or
    not (when it did not, the block index has not moved), for any proof data over `V`'s arrays whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, whether the pipeline fetched it there or
    not (when it did not, the block index has not moved), for any proof data over `V`'s arrays whose body leaves the block in place. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S2000x64 := Rect.unit (s := S2000x64) ![0, 0] S2000x64.size inb_S2000x64_S2000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-- The output window's buffer after the body, from the ten input windows' blocks: its one store, of the whole tile. -/
def out5_10 (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S2000x64 .f32 :=
  View.canon [⟨r5_0, k5_pay1 (k5_pay2 (View.ld x0 r5_0) (View.ld x1 r5_0) (View.ld x2 r5_1) (View.ld x3 r5_2) (View.ld x5 r5_2) (View.ld x4 r5_2) (View.ld x6 r5_2) (View.ld x7 r5_2)) (k5_pay3 (View.ld x8 r5_1)) (View.ld x9 r5_2)⟩]

/-- The store tiles the buffer (checked by evaluation), so it covers it. -/
theorem cover5_10 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 4000000 in
/-- The kernel body on whole staging memrefs, the inputs' at read contents `xW` and the output's at anything, runs to
    the continuation holding the inputs' as they were and the output's at `out5_10` of the inputs'. -/
theorem sound_kernel5 (c : Dev nD) (E : Set ℕ) (i : grid5.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2000x64 .f32) (harg11 : arg11.IsWhole)
    (x0 : Vec F S2000x64 .f32) (x1 : Vec F S2000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out5_10 x0 x1 x2 x3 x4 x5 x6 x7 x8 x9)) -∗ K ⟨⟩))
      ⊢ wp frame (wpE (defs₀ (F := F)) Variants.none c none) E (cc5__apply_kernel i arg1 harg1 arg2 harg2 arg3 harg3 arg4 harg4 arg5 harg5 arg6 harg6 arg7 harg7 arg8 harg8 arg9 harg9 arg10 harg10 arg11 harg11) K := by
  simp only [cc5__apply_kernel_eq_skeleton]; unfold cc5__apply_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover5_10 _)

/-! ## The pipeline's proof data -/

/-- The proof data of the pipeline on core `c`: the arrays as the region finds them (`V`); after the body at
    point `t` each input's buffer at its block and the output's at `out5_10` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 1000000 in
/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Run.lean ====
import proofs.«166406_j57140244906477_1_alg».proof.Proof.Gen.KernelIdeal.Launch
import proofs.«166406_j57140244906477_1_alg».proof.Proof.Gen.KernelIdeal.Skeleton
import proofs.«166406_j57140244906477_1_alg».proof.Proof.Gen.KernelIdeal.Points
import proofs.«166406_j57140244906477_1_alg».proof.Proof.KI.Stats0
import proofs.«166406_j57140244906477_1_alg».proof.Proof.KI.Stats2
import proofs.«166406_j57140244906477_1_alg».proof.Proof.KI.Stats4
import proofs.«166406_j57140244906477_1_alg».proof.Proof.KI.Apply1
import proofs.«166406_j57140244906477_1_alg».proof.Proof.KI.Apply3
import proofs.«166406_j57140244906477_1_alg».proof.Proof.KI.Apply5
import proofs.«166406_j57140244906477_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's twelve segments from the launch to the return

## The buffers' contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After the host stretch `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves a buffer it does not write. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After the host stretch `hostOps4` (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A host stretch leaves a buffer it does not write. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- After the host stretch `hostOps5` (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what its write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A host stretch leaves a buffer it does not write. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-! ### The arguments end as launched -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm' : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L' : GSem nD τ sig → Finset Unit := fun _ => ∅
abbrev lv' : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L' lv' 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L' lv' 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = (dat0 (V1 m ρ) c).Φ (Fin.last cfg0.N) from rfl]
    have h := hout0 (V1 m ρ) c
    unfold Pipeline.ΦA at h
    have h2 : (iprop(Pipeline.scopedRest (Ix := Unit) (Name := ℕ) (U := UR sig nD τ) (Lvl := ℕ) (Val := Elt F) spec0 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm' (pdats m ρ) () defs₀ 𝒱₀ L' lv' 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L' lv' 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm' (pdats m ρ) () defs₀ 𝒱₀ L' lv' 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L' lv' 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = (dat2 (V5 m ρ) c).Φ (Fin.last cfg2.N) from rfl]
    have h := hout2 (V5 m ρ) c
    unfold Pipeline.ΦA at h
    have h2 : (iprop(Pipeline.scopedRest (Ix := Unit) (Name := ℕ) (U := UR sig nD τ) (Lvl := ℕ) (Val := Elt F) spec2 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    exact h.trans h2
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm' (pdats m ρ) () defs₀ 𝒱₀ L' lv' 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L' lv' 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm' (pdats m ρ) () defs₀ 𝒱₀ L' lv' 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L' lv' 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = (dat4 (V9 m ρ) c).Φ (Fin.last cfg4.N) from rfl]
    have h := hout4 (V9 m ρ) c
    unfold Pipeline.ΦA at h
    have h2 : (iprop(Pipeline.scopedRest (Ix := Unit) (Name := ℕ) (U := UR sig nD τ) (Lvl := ℕ) (Val := Elt F) spec4 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec4 c) := by
      iintro ⟨Hr, Hp⟩
      isplitl [Hp]; · iexact Hp
      isplitr; · iempintro
      iexact Hr
    exact h.trans h2
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm' (pdats m ρ) () defs₀ 𝒱₀ L' lv' 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L' lv' 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L' lv') :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm' (pdats m ρ) () cellOf_inj emb₁ defs₀ 𝒱₀ L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The result array and the nine argument arrays at the end of the run. -/
theorem run_value : θ_run defs (onTc (τ := τ) (main (F := F))) ⟨m, fun _ => 0, ρ⟩ (fun r => ∀ c : Dev nD,
      r.2.mem ((c.tc : Thread nD τ).loc main_v111) = W12 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v111 (by decide)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.KernelIdeal.Fr
end
-- ==== Proof.KI.Keep.lean ====
/-
  Buffers a stretch of the program does not write keep their contents.

  Between the point where a buffer is last written and the point where it is read, every host stretch in between writes
  other buffers and every kernel in between either does not touch it or reads it through an input window (an input
  window's array is never written back). One equation per buffer and pair of points the value argument needs.
-/
import proofs.«166406_j57140244906477_1_alg».proof.Proof.KI.Run

set_option maxRecDepth 16384

noncomputable section

namespace Cert.KernelIdeal.Keep

open Cert.KernelIdeal Cert.KernelIdeal.Gen Cert.KernelIdeal.Fr
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := W1_of m ρ c main_arg0 (by decide)

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)

theorem keep_arg2_4_0 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)

theorem keep_arg2_8_0 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)

theorem keep_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)

theorem keep_arg3_8_0 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)

theorem keep_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)

theorem keep_arg4_8_0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)

theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)

theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)

theorem keep_arg6_4_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)

theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)

theorem keep_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)

theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)

theorem keep_arg8_4_0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)

theorem keep_arg8_8_0 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)

theorem keep_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := W3_of m ρ c main_v1 (by decide)
    _ = W1 m ρ c (Proc.devRef .tc main_v1) := W2_of_ne m ρ c main_v1 (by decide)

theorem keep_v1_8_1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of m ρ c main_v1 (by decide)
    _ = W5 m ρ c (Proc.devRef .tc main_v1) := W6_of_ne m ρ c main_v1 (by decide)
    _ = W4 m ρ c (Proc.devRef .tc main_v1) := W5_of m ρ c main_v1 (by decide)
    _ = W3 m ρ c (Proc.devRef .tc main_v1) := W4_of_ne m ρ c main_v1 (by decide)
    _ = W2 m ρ c (Proc.devRef .tc main_v1) := W3_of m ρ c main_v1 (by decide)
    _ = W1 m ρ c (Proc.devRef .tc main_v1) := W2_of_ne m ρ c main_v1 (by decide)

theorem keep_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := W3_of m ρ c main_v3 (by decide)
    _ = W1 m ρ c (Proc.devRef .tc main_v3) := W2_of_ne m ρ c main_v3 (by decide)

theorem keep_v3_8_1 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of m ρ c main_v3 (by decide)
    _ = W5 m ρ c (Proc.devRef .tc main_v3) := W6_of_ne m ρ c main_v3 (by decide)
    _ = W4 m ρ c (Proc.devRef .tc main_v3) := W5_of m ρ c main_v3 (by decide)
    _ = W3 m ρ c (Proc.devRef .tc main_v3) := W4_of_ne m ρ c main_v3 (by decide)
    _ = W2 m ρ c (Proc.devRef .tc main_v3) := W3_of m ρ c main_v3 (by decide)
    _ = W1 m ρ c (Proc.devRef .tc main_v3) := W2_of_ne m ρ c main_v3 (by decide)

theorem keep_v15_3_1 (c : Dev nD) : W3 m ρ c (Proc.devRef .tc main_v15) = W1 m ρ c (Proc.devRef .tc main_v15) :=
  calc W3 m ρ c (Proc.devRef .tc main_v15)
    _ = W2 m ρ c (Proc.devRef .tc main_v15) := W3_of m ρ c main_v15 (by decide)
    _ = W1 m ρ c (Proc.devRef .tc main_v15) := (W2_arr m ρ c 0).trans (((dat0 (V1 m ρ) c).arrAt_in 0 rfl _).trans (A_eq0 (V1 m ρ) c 0))

theorem keep_v17_3_1 (c : Dev nD) : W3 m ρ c (Proc.devRef .tc main_v17) = W1 m ρ c (Proc.devRef .tc main_v17) :=
  calc W3 m ρ c (Proc.devRef .tc main_v17)
    _ = W2 m ρ c (Proc.devRef .tc main_v17) := W3_of m ρ c main_v17 (by decide)
    _ = W1 m ρ c (Proc.devRef .tc main_v17) := (W2_arr m ρ c 2).trans (((dat0 (V1 m ρ) c).arrAt_in 2 rfl _).trans (A_eq0 (V1 m ρ) c 2))

theorem keep_v20_3_1 (c : Dev nD) : W3 m ρ c (Proc.devRef .tc main_v20) = W1 m ρ c (Proc.devRef .tc main_v20) :=
  calc W3 m ρ c (Proc.devRef .tc main_v20)
    _ = W2 m ρ c (Proc.devRef .tc main_v20) := W3_of m ρ c main_v20 (by decide)
    _ = W1 m ρ c (Proc.devRef .tc main_v20) := (W2_arr m ρ c 3).trans (((dat0 (V1 m ρ) c).arrAt_in 3 rfl _).trans (A_eq0 (V1 m ρ) c 3))

theorem keep_v22_3_1 (c : Dev nD) : W3 m ρ c (Proc.devRef .tc main_v22) = W1 m ρ c (Proc.devRef .tc main_v22) :=
  calc W3 m ρ c (Proc.devRef .tc main_v22)
    _ = W2 m ρ c (Proc.devRef .tc main_v22) := W3_of m ρ c main_v22 (by decide)
    _ = W1 m ρ c (Proc.devRef .tc main_v22) := W2_of_ne m ρ c main_v22 (by decide)

theorem keep_v25_3_1 (c : Dev nD) : W3 m ρ c (Proc.devRef .tc main_v25) = W1 m ρ c (Proc.devRef .tc main_v25) :=
  calc W3 m ρ c (Proc.devRef .tc main_v25)
    _ = W2 m ρ c (Proc.devRef .tc main_v25) := W3_of m ρ c main_v25 (by decide)
    _ = W1 m ρ c (Proc.devRef .tc main_v25) := W2_of_ne m ρ c main_v25 (by decide)

theorem keep_v28_3_1 (c : Dev nD) : W3 m ρ c (Proc.devRef .tc main_v28) = W1 m ρ c (Proc.devRef .tc main_v28) :=
  calc W3 m ρ c (Proc.devRef .tc main_v28)
    _ = W2 m ρ c (Proc.devRef .tc main_v28) := W3_of m ρ c main_v28 (by decide)
    _ = W1 m ρ c (Proc.devRef .tc main_v28) := W2_of_ne m ρ c main_v28 (by decide)

theorem keep_v31_3_1 (c : Dev nD) : W3 m ρ c (Proc.devRef .tc main_v31) = W1 m ρ c (Proc.devRef .tc main_v31) :=
  calc W3 m ρ c (Proc.devRef .tc main_v31)
    _ = W2 m ρ c (Proc.devRef .tc main_v31) := W3_of m ρ c main_v31 (by decide)
    _ = W1 m ρ c (Proc.devRef .tc main_v31) := W2_of_ne m ρ c main_v31 (by decide)

theorem keep_v39_5_4 (c : Dev nD) : W5 m ρ c (Proc.devRef .tc main_v39) = W4 m ρ c (Proc.devRef .tc main_v39) :=
  calc W5 m ρ c (Proc.devRef .tc main_v39)
    _ = W4 m ρ c (Proc.devRef .tc main_v39) := W5_of m ρ c main_v39 (by decide)

theorem keep_v39_7_4 (c : Dev nD) : W7 m ρ c (Proc.devRef .tc main_v39) = W4 m ρ c (Proc.devRef .tc main_v39) :=
  calc W7 m ρ c (Proc.devRef .tc main_v39)
    _ = W6 m ρ c (Proc.devRef .tc main_v39) := W7_of m ρ c main_v39 (by decide)
    _ = W5 m ρ c (Proc.devRef .tc main_v39) := (W6_arr m ρ c 1).trans (((dat2 (V5 m ρ) c).arrAt_in 1 rfl _).trans (A_eq2 (V5 m ρ) c 1))
    _ = W4 m ρ c (Proc.devRef .tc main_v39) := W5_of m ρ c main_v39 (by decide)

theorem keep_v51_7_5 (c : Dev nD) : W7 m ρ c (Proc.devRef .tc main_v51) = W5 m ρ c (Proc.devRef .tc main_v51) :=
  calc W7 m ρ c (Proc.devRef .tc main_v51)
    _ = W6 m ρ c (Proc.devRef .tc main_v51) := W7_of m ρ c main_v51 (by decide)
    _ = W5 m ρ c (Proc.devRef .tc main_v51) := (W6_arr m ρ c 0).trans (((dat2 (V5 m ρ) c).arrAt_in 0 rfl _).trans (A_eq2 (V5 m ρ) c 0))

theorem keep_v53_7_5 (c : Dev nD) : W7 m ρ c (Proc.devRef .tc main_v53) = W5 m ρ c (Proc.devRef .tc main_v53) :=
  calc W7 m ρ c (Proc.devRef .tc main_v53)
    _ = W6 m ρ c (Proc.devRef .tc main_v53) := W7_of m ρ c main_v53 (by decide)
    _ = W5 m ρ c (Proc.devRef .tc main_v53) := (W6_arr m ρ c 2).trans (((dat2 (V5 m ρ) c).arrAt_in 2 rfl _).trans (A_eq2 (V5 m ρ) c 2))

theorem keep_v56_7_5 (c : Dev nD) : W7 m ρ c (Proc.devRef .tc main_v56) = W5 m ρ c (Proc.devRef .tc main_v56) :=
  calc W7 m ρ c (Proc.devRef .tc main_v56)
    _ = W6 m ρ c (Proc.devRef .tc main_v56) := W7_of m ρ c main_v56 (by decide)
    _ = W5 m ρ c (Proc.devRef .tc main_v56) := (W6_arr m ρ c 3).trans (((dat2 (V5 m ρ) c).arrAt_in 3 rfl _).trans (A_eq2 (V5 m ρ) c 3))

theorem keep_v58_7_5 (c : Dev nD) : W7 m ρ c (Proc.devRef .tc main_v58) = W5 m ρ c (Proc.devRef .tc main_v58) :=
  calc W7 m ρ c (Proc.devRef .tc main_v58)
    _ = W6 m ρ c (Proc.devRef .tc main_v58) := W7_of m ρ c main_v58 (by decide)
    _ = W5 m ρ c (Proc.devRef .tc main_v58) := W6_of_ne m ρ c main_v58 (by decide)

theorem keep_v61_7_5 (c : Dev nD) : W7 m ρ c (Proc.devRef .tc main_v61) = W5 m ρ c (Proc.devRef .tc main_v61) :=
  calc W7 m ρ c (Proc.devRef .tc main_v61)
    _ = W6 m ρ c (Proc.devRef .tc main_v61) := W7_of m ρ c main_v61 (by decide)
    _ = W5 m ρ c (Proc.devRef .tc main_v61) := W6_of_ne m ρ c main_v61 (by decide)

theorem keep_v64_7_5 (c : Dev nD) : W7 m ρ c (Proc.devRef .tc main_v64) = W5 m ρ c (Proc.devRef .tc main_v64) :=
  calc W7 m ρ c (Proc.devRef .tc main_v64)
    _ = W6 m ρ c (Proc.devRef .tc main_v64) := W7_of m ρ c main_v64 (by decide)
    _ = W5 m ρ c (Proc.devRef .tc main_v64) := W6_of_ne m ρ c main_v64 (by decide)

theorem keep_v67_7_5 (c : Dev nD) : W7 m ρ c (Proc.devRef .tc main_v67) = W5 m ρ c (Proc.devRef .tc main_v67) :=
  calc W7 m ρ c (Proc.devRef .tc main_v67)
    _ = W6 m ρ c (Proc.devRef .tc main_v67) := W7_of m ρ c main_v67 (by decide)
    _ = W5 m ρ c (Proc.devRef .tc main_v67) := W6_of_ne m ρ c main_v67 (by decide)

theorem keep_v75_9_8 (c : Dev nD) : W9 m ρ c (Proc.devRef .tc main_v75) = W8 m ρ c (Proc.devRef .tc main_v75) :=
  calc W9 m ρ c (Proc.devRef .tc main_v75)
    _ = W8 m ρ c (Proc.devRef .tc main_v75) := W9_of m ρ c main_v75 (by decide)

theorem keep_v75_11_8 (c : Dev nD) : W11 m ρ c (Proc.devRef .tc main_v75) = W8 m ρ c (Proc.devRef .tc main_v75) :=
  calc W11 m ρ c (Proc.devRef .tc main_v75)
    _ = W10 m ρ c (Proc.devRef .tc main_v75) := W11_of m ρ c main_v75 (by decide)
    _ = W9 m ρ c (Proc.devRef .tc main_v75) := (W10_arr m ρ c 1).trans (((dat4 (V9 m ρ) c).arrAt_in 1 rfl _).trans (A_eq4 (V9 m ρ) c 1))
    _ = W8 m ρ c (Proc.devRef .tc main_v75) := W9_of m ρ c main_v75 (by decide)

theorem keep_v87_11_9 (c : Dev nD) : W11 m ρ c (Proc.devRef .tc main_v87) = W9 m ρ c (Proc.devRef .tc main_v87) :=
  calc W11 m ρ c (Proc.devRef .tc main_v87)
    _ = W10 m ρ c (Proc.devRef .tc main_v87) := W11_of m ρ c main_v87 (by decide)
    _ = W9 m ρ c (Proc.devRef .tc main_v87) := (W10_arr m ρ c 0).trans (((dat4 (V9 m ρ) c).arrAt_in 0 rfl _).trans (A_eq4 (V9 m ρ) c 0))

theorem keep_v89_11_9 (c : Dev nD) : W11 m ρ c (Proc.devRef .tc main_v89) = W9 m ρ c (Proc.devRef .tc main_v89) :=
  calc W11 m ρ c (Proc.devRef .tc main_v89)
    _ = W10 m ρ c (Proc.devRef .tc main_v89) := W11_of m ρ c main_v89 (by decide)
    _ = W9 m ρ c (Proc.devRef .tc main_v89) := (W10_arr m ρ c 2).trans (((dat4 (V9 m ρ) c).arrAt_in 2 rfl _).trans (A_eq4 (V9 m ρ) c 2))

theorem keep_v92_11_9 (c : Dev nD) : W11 m ρ c (Proc.devRef .tc main_v92) = W9 m ρ c (Proc.devRef .tc main_v92) :=
  calc W11 m ρ c (Proc.devRef .tc main_v92)
    _ = W10 m ρ c (Proc.devRef .tc main_v92) := W11_of m ρ c main_v92 (by decide)
    _ = W9 m ρ c (Proc.devRef .tc main_v92) := (W10_arr m ρ c 3).trans (((dat4 (V9 m ρ) c).arrAt_in 3 rfl _).trans (A_eq4 (V9 m ρ) c 3))

theorem keep_v94_11_9 (c : Dev nD) : W11 m ρ c (Proc.devRef .tc main_v94) = W9 m ρ c (Proc.devRef .tc main_v94) :=
  calc W11 m ρ c (Proc.devRef .tc main_v94)
    _ = W10 m ρ c (Proc.devRef .tc main_v94) := W11_of m ρ c main_v94 (by decide)
    _ = W9 m ρ c (Proc.devRef .tc main_v94) := W10_of_ne m ρ c main_v94 (by decide)

theorem keep_v97_11_9 (c : Dev nD) : W11 m ρ c (Proc.devRef .tc main_v97) = W9 m ρ c (Proc.devRef .tc main_v97) :=
  calc W11 m ρ c (Proc.devRef .tc main_v97)
    _ = W10 m ρ c (Proc.devRef .tc main_v97) := W11_of m ρ c main_v97 (by decide)
    _ = W9 m ρ c (Proc.devRef .tc main_v97) := W10_of_ne m ρ c main_v97 (by decide)

theorem keep_v100_11_9 (c : Dev nD) : W11 m ρ c (Proc.devRef .tc main_v100) = W9 m ρ c (Proc.devRef .tc main_v100) :=
  calc W11 m ρ c (Proc.devRef .tc main_v100)
    _ = W10 m ρ c (Proc.devRef .tc main_v100) := W11_of m ρ c main_v100 (by decide)
    _ = W9 m ρ c (Proc.devRef .tc main_v100) := W10_of_ne m ρ c main_v100 (by decide)

theorem keep_v103_11_9 (c : Dev nD) : W11 m ρ c (Proc.devRef .tc main_v103) = W9 m ρ c (Proc.devRef .tc main_v103) :=
  calc W11 m ρ c (Proc.devRef .tc main_v103)
    _ = W10 m ρ c (Proc.devRef .tc main_v103) := W11_of m ρ c main_v103 (by decide)
    _ = W9 m ρ c (Proc.devRef .tc main_v103) := W10_of_ne m ρ c main_v103 (by decide)

end Cert.KernelIdeal.Keep

end
-- ==== Proof.Spec.lean ====
/-
  The mathematics both programs compute, as plain functions on extended reals.

  A node-feature array is a function `Mat = Fin 100000 → Fin 64 → EReal`; a weight matrix `Wt`, a row `Row`.
  One layer: with `u = A x + x` (`A` the edge aggregation, the same host gather / multiply / scatter-add in both
  programs, here a parameter), `h = u·W1 + b1`; the batch mean over the 100000 rows; the batch variance in the
  kernel's form (mean of squares minus squared mean: `varK`) or the reference's (mean of squared deviations:
  `varR`); normalisation by `rsqrt (var + ε)`, scale and shift; `relu`; a second linear map; `relu`.
  The two forms of the variance are equal wherever every entry of `h` is a real number.
-/
import Idealize.ShloMosaic.PureOps.Ideal
import Idealize.ShloMosaic.Lib.ValueIdx

noncomputable section

namespace Cert.Spec

open Idealize.ShloMosaic

/-- A [100000, 64] array read at (row, column). -/
abbrev Mat : Type := Fin 100000 → Fin 64 → EReal
/-- A [64, 64] array read at (row, column). -/
abbrev Wt : Type := Fin 64 → Fin 64 → EReal
/-- A length-64 row. -/
abbrev Row : Type := Fin 64 → EReal

/-- The f32 literal 100000.0 (the number of rows), as the extended real the pattern denotes. -/
def cN : EReal := Ideal.ofBits .f32 0x47C35000#32
/-- The f32 literal nearest 1e-5 (the batch-norm epsilon), the same word in both programs. -/
def cEps : EReal := Ideal.ofBits .f32 0x3727C5AC#32

/-- A [100000, 64] array of the printed programs, read as a `Mat`. -/
def toMat (v : (⟨2, ![100000, 64]⟩ : Shape).Idx → EReal) : Mat := fun p q => v (ValueIdx.ix2 p q)
/-- A [64, 64] array read as a `Wt`. -/
def toWt (v : (⟨2, ![64, 64]⟩ : Shape).Idx → EReal) : Wt := fun k q => v (ValueIdx.ix2 k q)
/-- Row `l` of a [3, 64] parameter array. -/
def rowOf (v : (⟨2, ![3, 64]⟩ : Shape).Idx → EReal) (l : Fin 3) : Row := fun q => v (ValueIdx.ix2 l q)
/-- Slice `l` of a [3, 64, 64] parameter array. -/
def wtOf (v : (⟨3, ![3, 64, 64]⟩ : Shape).Idx → EReal) (l : Fin 3) : Wt := fun k q => v (ValueIdx.ix3 l k q)

/-- `u · W + b`: row `p`, column `q` is the sum over `k` of `u p k * W k q`, plus `b q`. -/
def lin (W : Wt) (b : Row) (u : Mat) : Mat := fun p q => (∑ k : Fin 64, u p k * W k q) + b q

/-- The column mean over the 100000 rows: the column sum divided by the literal 100000. -/
def mean (h : Mat) : Row := fun q => Ideal.div (∑ p : Fin 100000, h p q) cN

/-- The kernel's variance: the mean of squares minus the square of the mean. -/
def varK (h : Mat) : Row := fun q => Ideal.div (∑ p : Fin 100000, h p q * h p q) cN - mean h q * mean h q

/-- The reference's variance: the mean of the squared deviations from the mean. -/
def varR (h : Mat) : Row := fun q => Ideal.div (∑ p : Fin 100000, (h p q - mean h q) * (h p q - mean h q)) cN

/-- Batch normalisation with given statistics, scale `g` and shift `be`. -/
def norm (h : Mat) (mu var g be : Row) : Mat :=
  fun p q => (h p q - mu q) * Ideal.rsqrt (var q + cEps) * g q + be q

/-- The rectifier, entry by entry. -/
def relu (u : Mat) : Mat := fun p q => max (u p q) 0

/-- The layer's first linear map applied to aggregated-plus-own features. -/
def pre (A : Mat → Mat) (x : Mat) (W1 : Wt) (b1 : Row) : Mat := lin W1 b1 (fun p q => A x p q + x p q)

/-- One layer with a given variance form `var`. -/
def layerWith (var : Mat → Row) (A : Mat → Mat) (x : Mat) (W1 : Wt) (b1 g be : Row) (W2 : Wt) (b2 : Row) : Mat :=
  relu (lin W2 b2 (relu (norm (pre A x W1 b1) (mean (pre A x W1 b1)) (var (pre A x W1 b1)) g be)))

/-- One layer as the kernel computes it. -/
def layerK := layerWith varK
/-- One layer as the reference computes it. -/
def layerR := layerWith varR

/-- The three layers, layer `l` taking slice `l` of each parameter array. -/
def netWith (var : Mat → Row) (A : Mat → Mat) (x : Mat) (W1 : Fin 3 → Wt) (b1 g be : Fin 3 → Row) (W2 : Fin 3 → Wt) (b2 : Fin 3 → Row) : Mat :=
  layerWith var A (layerWith var A (layerWith var A x (W1 0) (b1 0) (g 0) (be 0) (W2 0) (b2 0))
    (W1 1) (b1 1) (g 1) (be 1) (W2 1) (b2 1)) (W1 2) (b1 2) (g 2) (be 2) (W2 2) (b2 2)

/-! ## The edge aggregation

  Edge `e` carries a source row number `src e` and a target row number `dst e` (32-bit words read signed) and a
  weight `ea e`. A negative source number is first shifted up by 100000 (the wrap of a negative index), then
  clamped into `[0, 99999]` (a gather clamps its start index). The aggregation at row `p` sums, over the edges whose
  target number is exactly `p`, the source row's entry times the edge's weight, starting from zero. -/

/-- A negative row number shifted up by the number of rows; others unchanged. -/
def wrapNeg (i : BitVec 32) : BitVec 32 := if i.slt 0#32 then i + 100000#32 else i
/-- A signed row number clamped into `[0, 99999]`. -/
def rowAt (i : BitVec 32) : Fin 100000 := ⟨min i.toInt.toNat 99999, by omega⟩
/-- The edge aggregation: row `p`, column `q`. -/
def agg (src dst : Fin 1600000 → BitVec 32) (ea : Fin 1600000 → EReal) (x : Mat) : Mat :=
  fun p q => 0 + ∑ e ∈ Finset.univ.filter (fun e : Fin 1600000 => (dst e).toInt = (p.val : Int)),
    x (rowAt (wrapNeg (src e))) q * ea e
/-- The source row numbers: row 0 of the [2, 1600000] edge array. -/
def srcOf (ei : (⟨2, ![2, 1600000]⟩ : Shape).Idx → BitVec 32) : Fin 1600000 → BitVec 32 := fun e => ei (ValueIdx.ix2 0 e)
/-- The target row numbers: row 1 of the edge array. -/
def dstOf (ei : (⟨2, ![2, 1600000]⟩ : Shape).Idx → BitVec 32) : Fin 1600000 → BitVec 32 := fun e => ei (ValueIdx.ix2 1 e)
/-- The edge weights: the one column of the [1600000, 1] array. -/
def eaOf (v : (⟨2, ![1600000, 1]⟩ : Shape).Idx → EReal) : Fin 1600000 → EReal := fun e => v (ValueIdx.ix2 e 0)

/-- An extended real that is a real number. -/
def Fin' (x : EReal) : Prop := x ≠ ⊤ ∧ x ≠ ⊥

end Cert.Spec

end
-- ==== Proof.LibRowScatter.lean ====
import Idealize.ShloMosaic.PureOps.Ideal
import Idealize.ShloMosaic.Lib.ValueIdx

/-!
# Row gather and row accumulating scatter, read at an index

For a table `x` of `N` rows and `D` columns and a column `idx` of `E` integer row numbers:

* the ROW GATHER `x[idx]` has `E` rows; its row `e` is row `idx e` of `x`, the row number read as a signed
  integer and clamped into `[0, N - 1]`;
* the ROW ACCUMULATING SCATTER (a segment sum) of updates `upd` of `E` rows and `D` columns adds, to the entry
  `(p, q)` of `x`, the entries `upd (e, q)` of all rows `e` whose row number `idx e`, read as a signed integer, is
  exactly `p`; a row whose number is negative or at least `N` is dropped.

Both are stated for any dimension-number record whose lists are those of a gather or scatter along axis 0 with whole
rows as slices, over natural numbers `N`, `D`, `E` that stay symbolic.
-/

noncomputable section

open scoped BigOperators

namespace Idealize.ShloMosaic.RowScatter

open Idealize.ShloMosaic Idealize.ShloMosaic.ValueIdx

/-! ## The row accumulating scatter -/

section Scatter
variable {N D E : Nat}

/-- The dimension numbers of a scatter of whole rows along axis 0: operand `[N, D]`, scatter indices `[E, 1]` (one
    row number per update row, the index vector on axis 1), updates `[E, D]` whose axis 1 is the window axis. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update `(e, c)` starts at the signed row number of `e`. -/
theorem rowScatterDims_start_zero {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 0 = (idx (ix2 (j 0) 0)).toInt := by
  unfold ScatterDims.start
  rw [dif_pos (show (0 : Fin 2) ∈ (rowScatterDims N D E wf).scatterDimsToOperandDims from List.mem_singleton.mpr rfl)]
  have hsi : (rowScatterDims N D E wf).siIdx j ⟨List.idxOf (0 : Fin 2) (rowScatterDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every window starts at `0`: no scatter index names that axis. -/
theorem rowScatterDims_start_one {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 1 = 0 := by
  unfold ScatterDims.start
  rw [dif_neg (show (1 : Fin 2) ∉ ([0] : List (Fin 2)) by decide)]

/-- The row axis is an inserted axis: its window coordinate is `0`. -/
theorem rowScatterDims_window_zero (wf : ScatterDims.WF ⟨2, ![N, D]⟩ ⟨2, ![E, 1]⟩ ⟨2, ![E, D]⟩ [1] [0] [0] 1)
    (j : (⟨2, ![E, D]⟩ : Shape).Idx) :
    (rowScatterDims N D E wf).window j 0 = 0 := by
  unfold ScatterDims.window
  rw [dif_neg (by simp [Shape.kept, List.mem_filter])]

/-- The column axis is the window axis: its window coordinate is the update's column. -/
theorem rowScatterDims_window_one (wf : ScatterDims.WF ⟨2, ![N, D]⟩ ⟨2, ![E, 1]⟩ ⟨2, ![E, D]⟩ [1] [0] [0] 1)
    (j : (⟨2, ![E, D]⟩ : Shape).Idx) :
    (rowScatterDims N D E wf).window j 1 = (j 1).val := by
  unfold ScatterDims.window
  rw [dif_pos (by simp [Shape.kept, List.mem_filter])]
  rfl

/-- WHERE AN UPDATE LANDS: update `j = (e, c)` lands on entry `(p, q)` exactly when the signed row number of `e` is
    `p` and `c = q`. A row number outside `[0, N)` equals no `p`, so such an update lands nowhere. -/
theorem rowScatterDims_resultIdx?_eq_some_iff {w : Nat}
    (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (p : Fin N) (q : Fin D) :
    (rowScatterDims N D E wf).resultIdx? j idx = some (ix2 p q) ↔
      (idx (ix2 (j 0) 0)).toInt = (p.val : Int) ∧ j 1 = q := by
  have hs0 := rowScatterDims_start_zero wf j idx
  have hs1 := rowScatterDims_start_one wf j idx
  have hw0 := rowScatterDims_window_zero wf j
  have hw1 := rowScatterDims_window_one wf j
  have hjD : (j 1).val < D := idx2_lt1 j
  have hpN : p.val < N := p.isLt
  unfold ScatterDims.resultIdx?
  split
  · rename_i h
    rw [Option.some.injEq]
    constructor
    · intro hf
      have e0 : ((rowScatterDims N D E wf).start j idx 0 + ((rowScatterDims N D E wf).window j 0 : Nat)).toNat = p.val :=
        congrArg (fun f : (⟨2, ![N, D]⟩ : Shape).Idx => (f 0).val) hf
      have e1 : ((rowScatterDims N D E wf).start j idx 1 + ((rowScatterDims N D E wf).window j 1 : Nat)).toNat = q.val :=
        congrArg (fun f : (⟨2, ![N, D]⟩ : Shape).Idx => (f 1).val) hf
      have h0 := (h 0).1
      rw [hs0, hw0] at e0 h0
      rw [hs1, hw1] at e1
      refine ⟨by omega, Fin.ext (by omega)⟩
    · rintro ⟨ht, hq⟩
      funext a; refine Fin.ext ?_
      match a with
      | ⟨0, _⟩ =>
        show ((rowScatterDims N D E wf).start j idx 0 + ((rowScatterDims N D E wf).window j 0 : Nat)).toNat = p.val
        rw [hs0, hw0, ht]; omega
      | ⟨1, _⟩ =>
        show ((rowScatterDims N D E wf).start j idx 1 + ((rowScatterDims N D E wf).window j 1 : Nat)).toNat = q.val
        rw [hs1, hw1, hq]; omega
  · rename_i h
    constructor
    · intro hn; cases hn
    · rintro ⟨ht, hq⟩
      refine absurd (fun a => ?_) h
      match a with
      | ⟨0, _⟩ =>
        show 0 ≤ (rowScatterDims N D E wf).start j idx 0 + ((rowScatterDims N D E wf).window j 0 : Nat) ∧
          (rowScatterDims N D E wf).start j idx 0 + ((rowScatterDims N D E wf).window j 0 : Nat) < (N : Int)
        rw [hs0, hw0, ht]; omega
      | ⟨1, _⟩ =>
        show 0 ≤ (rowScatterDims N D E wf).start j idx 1 + ((rowScatterDims N D E wf).window j 1 : Nat) ∧
          (rowScatterDims N D E wf).start j idx 1 + ((rowScatterDims N D E wf).window j 1 : Nat) < (D : Int)
        rw [hs1, hw1]; omega

/-- THE ROW ACCUMULATING SCATTER READ AT `(p, q)`, at the ideal instance: the operand's entry plus the sum, over the
    update rows `e` whose signed row number is exactly `p`, of the update's entry `(e, q)`. Update rows whose row
    number is negative or at least `N` contribute nothing. Holds for every record `d` with these dimension
    numbers. -/
theorem scatterAdd_rows_apply {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (p : Fin N) (q : Fin D) :
    Host.scatterAdd (F := Ideal) d x idx upd (ix2 p q) =
      x (ix2 p q) + ∑ e ∈ Finset.univ.filter (fun e : Fin E => (idx (ix2 e 0)).toInt = (p.val : Int)), upd (ix2 e q) := by
  obtain ⟨uw, iw, sd, iv, wf⟩ := d
  simp only at h1 h2 h3 h4
  subst h1 h2 h3 h4
  show x (ix2 p q) + ∑ j ∈ Finset.univ.filter
      (fun j => (rowScatterDims N D E wf).resultIdx? j idx = some (ix2 p q)), upd j = _
  congr 1
  rw [Finset.sum_filter, Finset.sum_filter, sum_idx2]
  refine Finset.sum_congr rfl fun e _ => ?_
  have hcond : ∀ b : Fin D, ((rowScatterDims N D E wf).resultIdx? (ix2 e b) idx = some (ix2 p q)) ↔
      ((idx (ix2 e 0)).toInt = (p.val : Int) ∧ b = q) :=
    fun b => rowScatterDims_resultIdx?_eq_some_iff wf (ix2 e b) idx p q
  simp only [hcond]
  by_cases hp : (idx (ix2 e 0)).toInt = (p.val : Int)
  · simp [hp]
  · simp [hp]

/-- The same scatter when every update entry is one value `c` (a count of the rows sent to `p`, weighted by `c`): the
    operand's entry plus `c` summed once for every update row whose signed row number is exactly `p`. -/
theorem scatterAdd_rows_apply_of_const {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ) (c : Ideal φ)
    (hc : ∀ j, upd j = c) (p : Fin N) (q : Fin D) :
    Host.scatterAdd (F := Ideal) d x idx upd (ix2 p q) =
      x (ix2 p q) + ∑ _e ∈ Finset.univ.filter (fun e : Fin E => (idx (ix2 e 0)).toInt = (p.val : Int)), c := by
  rw [scatterAdd_rows_apply d h1 h2 h3 h4 x idx upd p q]
  simp only [hc]

end Scatter

/-! ## The row gather -/

section Gather
variable {N D E : Nat} {α : Type}

/-- The row number of gathered row `e`: the entry `idx (e, 0)` read as a signed integer and clamped into
    `[0, N - 1]` (a negative number reads row `0`, a number past the end reads the last row). -/
def clampRow {w : Nat} (hN : 0 < N) (idx : IVec ⟨2, ![E, 1]⟩ w) (e : Fin E) : Fin N :=
  ⟨min (idx (ix2 e 0)).toInt.toNat (N - 1), by omega⟩

/-- The clamped row number as a natural number. -/
theorem clampRow_val {w : Nat} (hN : 0 < N) (idx : IVec ⟨2, ![E, 1]⟩ w) (e : Fin E) :
    (clampRow hN idx e).val = min (idx (ix2 e 0)).toInt.toNat (N - 1) := rfl

/-- A row number that is already in range is not changed by the clamp. -/
theorem clampRow_of_toInt_eq {w : Nat} (hN : 0 < N) (idx : IVec ⟨2, ![E, 1]⟩ w) (e : Fin E) (p : Fin N)
    (h : (idx (ix2 e 0)).toInt = (p.val : Int)) : clampRow hN idx e = p := by
  refine Fin.ext ?_
  have hp := p.isLt
  rw [clampRow_val, h]
  omega

/-- A row number below `N` is clamped from below only: the clamp is its natural-number part (`0` when it is negative). -/
theorem clampRow_val_of_lt {w : Nat} (hN : 0 < N) (idx : IVec ⟨2, ![E, 1]⟩ w) (e : Fin E)
    (h : (idx (ix2 e 0)).toInt < (N : Int)) : (clampRow hN idx e).val = (idx (ix2 e 0)).toInt.toNat := by
  rw [clampRow_val]
  omega

/-- The dimension numbers of a gather of whole rows along axis 0: operand `[N, D]`, start indices `[E, 1]` (one row
    number per result row, the index vector on axis 1), slices of one row (`[1, D]`) with the row axis collapsed,
    result `[E, D]` whose axis 1 is the offset axis. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the operand's entry in column `q` of the row whose number is `idx (e, 0)`, read
    signed and clamped into `[0, N - 1]`. Holds for every record `g` with these dimension numbers and slice sizes. -/
theorem gather_rows_apply {w : Nat} (hN : 0 < N) (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D])
    (x : (⟨2, ![N, D]⟩ : Shape).Idx → α) (idx : IVec ⟨2, ![E, 1]⟩ w) (e : Fin E) (q : Fin D) :
    Host.gather g x idx (ix2 e q) = x (ix2 (clampRow hN idx e) q) := by
  obtain ⟨od, cd, ob, sb, sm, iv, ss, wf⟩ := g
  simp only at h1 h2 h3 h4 h5 h6 h7
  subst h1 h2 h3 h4 h5 h6 h7
  show x ((rowGatherDims N D E wf).operandIdx (ix2 e q) idx) = _
  congr 1
  funext a; refine Fin.ext ?_
  match a with
  | ⟨0, _⟩ =>
    show (rowGatherDims N D E wf).start (ix2 e q) idx 0 + (rowGatherDims N D E wf).batchCoord (ix2 e q) 0 +
      (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1 +
      (rowGatherDims N D E wf).offCoord (ix2 e q) 1 = q.val
    have hst : (rowGatherDims N D E wf).start (ix2 e q) idx 1 = 0 := by
      unfold GatherDims.start
      rw [dif_neg (show (1 : Fin 2) ∉ ([0] : List (Fin 2)) by decide)]
    have hoff : (rowGatherDims N D E wf).offCoord (ix2 e q) 1 = q.val := by
      unfold GatherDims.offCoord
      rw [dif_pos (by simp [Shape.kept, List.mem_filter])]
      rfl
    rw [GatherDims.batchCoord_eq_zero _ _ _ List.not_mem_nil, hst, hoff]
    omega

end Gather

end Idealize.ShloMosaic.RowScatter

end
-- ==== Proof.LibBroadcastReads.lean ====
/-
  A host `broadcast_in_dim` read at an index, in the five forms a keepdims reduction or a bias addition meets.

  `broadcast_in_dim` places the operand's axes at chosen axes of the result and repeats it along the others. Read at an
  index built from coordinates:
  • a scalar repeated over any shape reads the scalar (`fill_apply`);
  • a vector `[a]` laid as a column `[a, 1]` reads, at `(p, 0)`, its entry `p` (`asCol_apply`);
  • a column `[a, 1]` repeated along `b` columns reads, at `(p, q)`, the column's entry of row `p` (`repeatCol_apply`);
  • a vector `[b]` laid as a row `[1, b]` reads, at `(0, q)`, its entry `q` (`asRow_apply`);
  • a row `[1, b]` repeated along `a` rows reads, at `(p, q)`, the row's entry `q` (`repeatRow_apply`).
  The axis map is a variable with the one coordinate that matters given as a hypothesis (closed by `rfl` at a printed
  `![0]`, `![1]`, `![0, 1]`), so that a lemma applies to a printed operation whatever type its numerals were elaborated
  at. A column form needs `a ≠ 1`: with one row the broadcast reads the same entry, but by its other rule.
-/
import Idealize.ShloMosaic.Lib.Pipeline.Value
import Idealize.ShloMosaic.Lib.ValueIdx

namespace Cert.Lib.BroadcastReads

open Idealize.ShloMosaic Idealize.ShloMosaic.ValueIdx

variable {α : Type} {a b : Nat}

/-- A scalar repeated over any shape reads the scalar. -/
theorem fill_apply {t : Shape} (dims : Fin (⟨0, ![]⟩ : Shape).rank → Fin t.rank)
    (hb : (⟨0, ![]⟩ : Shape).BroadcastsInDim t dims) (x : (⟨0, ![]⟩ : Shape).Idx → α) (i : t.Idx) :
    broadcastInDim t dims hb x i = x ix0 :=
  broadcastInDim_apply dims hb x i ix0 fun d => d.elim0

/-- A vector laid as a column reads, at `(p, 0)`, the vector's entry `p`. -/
theorem asCol_apply (ha : a ≠ 1) (dims : Fin (⟨1, ![a]⟩ : Shape).rank → Fin (⟨2, ![a, 1]⟩ : Shape).rank)
    (hd0 : (dims 0).val = 0) (hb : (⟨1, ![a]⟩ : Shape).BroadcastsInDim ⟨2, ![a, 1]⟩ dims)
    (v : (⟨1, ![a]⟩ : Shape).Idx → α) (p : Fin a) :
    broadcastInDim ⟨2, ![a, 1]⟩ dims hb v (ix2 p (0 : Fin 1)) = v (ix1 p) := by
  refine broadcastInDim_apply dims hb v (ix2 p (0 : Fin 1)) (ix1 p) fun d => ?_
  match d with
  | ⟨0, _⟩ =>
    show p.val = if a = 1 then 0 else (ix2 p (0 : Fin 1) (dims 0)).val
    rw [if_neg ha]
    have e : dims 0 = (0 : Fin 2) := Fin.ext hd0
    rw [e]

/-- A column repeated along each row reads, at `(p, q)`, the column's entry of row `p`. -/
theorem repeatCol_apply (ha : a ≠ 1) (dims : Fin (⟨2, ![a, 1]⟩ : Shape).rank → Fin (⟨2, ![a, b]⟩ : Shape).rank)
    (hd0 : (dims 0).val = 0) (hb : (⟨2, ![a, 1]⟩ : Shape).BroadcastsInDim ⟨2, ![a, b]⟩ dims)
    (col : (⟨2, ![a, 1]⟩ : Shape).Idx → α) (p : Fin a) (q : Fin b) :
    broadcastInDim ⟨2, ![a, b]⟩ dims hb col (ix2 p q) = col (ix2 p (0 : Fin 1)) := by
  refine broadcastInDim_apply dims hb col (ix2 p q) (ix2 p (0 : Fin 1)) fun d => ?_
  match d with
  | ⟨0, _⟩ =>
    show p.val = if a = 1 then 0 else (ix2 p q (dims 0)).val
    rw [if_neg ha]
    have e : dims 0 = (0 : Fin 2) := Fin.ext hd0
    rw [e]
  | ⟨1, _⟩ =>
    show 0 = if (1 : Nat) = 1 then 0 else (ix2 p q (dims 1)).val
    rw [if_pos rfl]

/-- A vector laid as one row reads, at `(0, q)`, its entry `q`. -/
theorem asRow_apply (dims : Fin (⟨1, ![b]⟩ : Shape).rank → Fin (⟨2, ![1, b]⟩ : Shape).rank) (hd : (dims 0).val = 1)
    (hb : (⟨1, ![b]⟩ : Shape).BroadcastsInDim ⟨2, ![1, b]⟩ dims) (v : (⟨1, ![b]⟩ : Shape).Idx → α) (q : Fin b) :
    broadcastInDim ⟨2, ![1, b]⟩ dims hb v (ix2 (0 : Fin 1) q) = v (ix1 q) := by
  refine broadcastInDim_apply dims hb v (ix2 (0 : Fin 1) q) (ix1 q) fun d => ?_
  match d with
  | ⟨0, _⟩ =>
    show q.val = if b = 1 then 0 else (ix2 (0 : Fin 1) q (dims 0)).val
    have e : dims 0 = (1 : Fin 2) := Fin.ext hd
    rw [e]
    split
    · have := q.isLt; omega
    · rfl

/-- A row repeated along `a` rows reads, at `(p, q)`, the row's entry `q`. -/
theorem repeatRow_apply (dims : Fin (⟨2, ![1, b]⟩ : Shape).rank → Fin (⟨2, ![a, b]⟩ : Shape).rank) (hd : (dims 1).val = 1)
    (hb : (⟨2, ![1, b]⟩ : Shape).BroadcastsInDim ⟨2, ![a, b]⟩ dims) (row : (⟨2, ![1, b]⟩ : Shape).Idx → α) (p : Fin a) (q : Fin b) :
    broadcastInDim ⟨2, ![a, b]⟩ dims hb row (ix2 p q) = row (ix2 (0 : Fin 1) q) := by
  refine broadcastInDim_apply dims hb row (ix2 p q) (ix2 (0 : Fin 1) q) fun d => ?_
  match d with
  | ⟨0, _⟩ =>
    show 0 = if (1 : Nat) = 1 then 0 else (ix2 p q (dims 0)).val
    rw [if_pos rfl]
  | ⟨1, _⟩ =>
    show q.val = if b = 1 then 0 else (ix2 p q (dims 1)).val
    have e : dims 1 = (1 : Fin 2) := Fin.ext hd
    rw [e]
    split
    · have := q.isLt; omega
    · rfl

end Cert.Lib.BroadcastReads
-- ==== Proof.AggRead.lean ====
/-
  The edge aggregation both programs print on the host, read at an entry.

  The host text: the two rows of the [2, 1600000] edge array are cut out and re-laid as vectors of source and target row
  numbers; a negative source number is shifted up by 100000; the source numbers, as a column, drive a gather of whole
  rows of the [100000, 64] feature array; each gathered row is multiplied by its edge's weight (the [1600000, 1] weight
  column repeated along the 64 columns); the products are added, row by row, into a zero array at the rows the target
  numbers name. Read at (p, q) this is `Cert.Spec.agg`: zero plus the sum, over the edges whose target number is
  exactly p, of the clamped source row's entry q times the edge's weight. The statement is generic in the two dimension
  records (given their field equations) and in the shape facts the printed operations cite, so that any program printing
  this chain instantiates it.
-/
import proofs.«166406_j57140244906477_1_alg».proof.Proof.Spec
import proofs.«166406_j57140244906477_1_alg».proof.Proof.LibRowScatter
import proofs.«166406_j57140244906477_1_alg».proof.Proof.LibBroadcastReads
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.AggRead

open Idealize.ShloMosaic Idealize.ShloMosaic.ValueIdx Idealize.ShloMosaic.RowScatter Cert.Lib.BroadcastReads

/-- The feature array's shape. -/
abbrev SX : Shape := ⟨2, ![100000, 64]⟩
/-- The edge array's shape: row 0 the source numbers, row 1 the target numbers. -/
abbrev SE2 : Shape := ⟨2, ![2, 1600000]⟩
/-- One row of the edge array. -/
abbrev SE1 : Shape := ⟨2, ![1, 1600000]⟩
/-- A vector with one entry per edge. -/
abbrev SE : Shape := ⟨1, ![1600000]⟩
/-- A column with one entry per edge. -/
abbrev SEc : Shape := ⟨2, ![1600000, 1]⟩
/-- One row of 64 entries per edge. -/
abbrev SM : Shape := ⟨2, ![1600000, 64]⟩
/-- The scalar shape. -/
abbrev S0 : Shape := ⟨0, ![]⟩

/-- Row `r` of the edge array, cut out and re-laid as a vector, reads at `e` the array's entry `(r, e)`. -/
theorem row_apply (r : Fin 2) (hs : SE2.Slices ![r.val, 0] SE1) (hc : SE1.ShapeCasts SE) (ei : IVec SE2 32)
    (e : Fin 1600000) :
    shapeCast SE (extractStridedSlice SE1 ![r.val, 0] ei hs) hc (ix1 e) = ei (ix2 r e) := by
  rw [shapeCast_1a_a_apply]
  exact slice2_axis0_apply r.val ei hs 0 e r (by simp)

/-- The one-bit word of a signed comparison selects as the comparison decides. -/
theorem select_slt (i a b : BitVec 32) :
    Scalar.select (IntOp.cmpi .slt i 0#32) a b = if i.slt 0#32 then a else b := by
  unfold Scalar.select IntOp.cmpi
  cases h : i.slt 0#32 <;> simp

/-- A signed 32-bit row number clamped into `[0, 99999]` by the gather is `Cert.Spec.rowAt` of it. -/
theorem clampRow_eq (idx : IVec SEc 32) (e : Fin 1600000) (w : BitVec 32) (h : idx (ix2 e 0) = w) :
    clampRow (N := 100000) (by decide) idx e = Cert.Spec.rowAt w := by
  refine Fin.ext ?_
  rw [clampRow_val, h]
  rfl

/-- THE EDGE AGGREGATION READ AT AN ENTRY, from the vectors of source and target row numbers `s` and `d`: the
    printed host chain from there on, at the ideal instance, is `Cert.Spec.agg` of the two vectors' entries, the
    edge weights and the feature array. -/
theorem agg_read_vec
    (gd : GatherDims SX SEc SM)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 64])
    (sd : ScatterDims SX SEc SM)
    (s1 : sd.updateWindowDims = [1]) (s2 : sd.insertedWindowDims = [0]) (s3 : sd.scatterDimsToOperandDims = [0])
    (s4 : sd.indexVectorDim = 1)
    (hb0 : S0.BroadcastsInDim SE (![] : Fin 0 → Fin SE.rank))
    (hbc : SE.BroadcastsInDim SEc (![0] : Fin 1 → Fin SEc.rank))
    (hbm : SEc.BroadcastsInDim SM (![0, 1] : Fin 2 → Fin SM.rank))
    (hbz : S0.BroadcastsInDim SX (![] : Fin 0 → Fin SX.rank))
    (s d : IVec SE 32) (ea : FVec Ideal SEc .f32) (x : FVec Ideal SX .f32) :
    Cert.Spec.toMat (Host.scatterAdd (F := Ideal) sd
        (broadcastInDim SX ![] hbz (constant (F := Ideal) S0 .f32 0x00000000#32))
        (broadcastInDim SEc ![0] hbc d)
        (mulf (Host.gather gd x (broadcastInDim SEc ![0] hbc
            (select (cmpi .slt s (broadcastInDim SE ![] hb0 (constantI S0 32 0#32)))
              (addi s (broadcastInDim SE ![] hb0 (constantI S0 32 100000#32)))
              s)))
          (broadcastInDim SM ![0, 1] hbm ea)))
      = Cert.Spec.agg (fun e => s (ix1 e)) (fun e => d (ix1 e)) (Cert.Spec.eaOf ea) (Cert.Spec.toMat x) := by
  funext p q
  show Host.scatterAdd (F := Ideal) sd _ _ _ (ix2 p q) = _
  rw [scatterAdd_rows_apply sd s1 s2 s3 s4]
  unfold Cert.Spec.agg
  rw [fill_apply, constant_apply, Ideal.ofBits_zero_f32]
  have hdst : ∀ e : Fin 1600000, broadcastInDim SEc ![0] hbc d (ix2 e (0 : Fin 1)) = d (ix1 e) :=
    fun e => asCol_apply (by decide) _ rfl hbc d e
  refine congrArg (fun t : EReal => 0 + t) ?_
  refine Finset.sum_congr (Finset.filter_congr fun e _ => by rw [hdst e]) fun e _ => ?_
  rw [mulf_apply, gather_rows_apply (by decide) gd g1 g2 g3 g4 g5 g6 g7, repeatCol_apply (by decide) _ rfl]
  rw [clampRow_eq _ e (Cert.Spec.wrapNeg (s (ix1 e)))]
  · rfl
  · rw [asCol_apply (by decide) _ rfl, select_apply]
    show Scalar.select (IntOp.cmpi .slt _ _) (IntOp.addi _ _) _ = _
    rw [fill_apply, constantI_apply, fill_apply, constantI_apply, select_slt]
    rfl

/-- THE EDGE AGGREGATION READ AT AN ENTRY, from the edge array: the printed host chain, at the ideal instance, is
    `Cert.Spec.agg` of the source numbers, the target numbers, the edge weights and the feature array. -/
theorem agg_read
    (gd : GatherDims SX SEc SM)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 64])
    (sd : ScatterDims SX SEc SM)
    (s1 : sd.updateWindowDims = [1]) (s2 : sd.insertedWindowDims = [0]) (s3 : sd.scatterDimsToOperandDims = [0])
    (s4 : sd.indexVectorDim = 1)
    (hs0 : SE2.Slices ![0, 0] SE1) (hs1 : SE2.Slices ![1, 0] SE1) (hc : SE1.ShapeCasts SE)
    (hb0 : S0.BroadcastsInDim SE (![] : Fin 0 → Fin SE.rank))
    (hbc : SE.BroadcastsInDim SEc (![0] : Fin 1 → Fin SEc.rank))
    (hbm : SEc.BroadcastsInDim SM (![0, 1] : Fin 2 → Fin SM.rank))
    (hbz : S0.BroadcastsInDim SX (![] : Fin 0 → Fin SX.rank))
    (ei : IVec SE2 32) (ea : FVec Ideal SEc .f32) (x : FVec Ideal SX .f32) :
    Cert.Spec.toMat (Host.scatterAdd (F := Ideal) sd
        (broadcastInDim SX ![] hbz (constant (F := Ideal) S0 .f32 0x00000000#32))
        (broadcastInDim SEc ![0] hbc (shapeCast SE (extractStridedSlice SE1 ![1, 0] ei hs1) hc))
        (mulf (Host.gather gd x (broadcastInDim SEc ![0] hbc
            (select (cmpi .slt (shapeCast SE (extractStridedSlice SE1 ![0, 0] ei hs0) hc) (broadcastInDim SE ![] hb0 (constantI S0 32 0#32)))
              (addi (shapeCast SE (extractStridedSlice SE1 ![0, 0] ei hs0) hc) (broadcastInDim SE ![] hb0 (constantI S0 32 100000#32)))
              (shapeCast SE (extractStridedSlice SE1 ![0, 0] ei hs0) hc))))
          (broadcastInDim SM ![0, 1] hbm ea)))
      = Cert.Spec.agg (Cert.Spec.srcOf ei) (Cert.Spec.dstOf ei) (Cert.Spec.eaOf ea) (Cert.Spec.toMat x) := by
  rw [agg_read_vec gd g1 g2 g3 g4 g5 g6 g7 sd s1 s2 s3 s4 hb0 hbc hbm hbz]
  have hsrc : (fun e : Fin 1600000 => shapeCast SE (extractStridedSlice SE1 ![0, 0] ei hs0) hc (ix1 e)) = Cert.Spec.srcOf ei :=
    funext fun e => row_apply 0 hs0 hc ei e
  have hdst : (fun e : Fin 1600000 => shapeCast SE (extractStridedSlice SE1 ![1, 0] ei hs1) hc (ix1 e)) = Cert.Spec.dstOf ei :=
    funext fun e => row_apply 1 hs1 hc ei e
  rw [hsrc, hdst]

end Cert.AggRead

end
-- ==== Proof.KI.HostRead.lean ====
/-
  What the host stretches of the kernel program write, read at an entry, from any valuation of the buffers.

  Before each layer's statistics kernel the host computes the edge aggregation of the layer's input and cuts the layer's
  slice out of every parameter array: slice `l` of a [3, 64, 64] weight array re-laid as [64, 64], row `l` of a
  [3, 64] array re-laid as a [1, 64] row. Between the statistics kernel and the apply kernel it turns the two rows of
  sums into the batch mean (the sum divided by the literal 100000) and the variance (the sum of squares divided by the
  same literal, minus the square of the mean).
-/
import proofs.«166406_j57140244906477_1_alg».proof.Proof.Gen.KernelIdeal.Launch
import proofs.«166406_j57140244906477_1_alg».proof.Proof.Spec
import proofs.«166406_j57140244906477_1_alg».proof.Proof.AggRead
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.ShloMosaic.StableHlo

/-! ## Two layout chains over variables -/

/-- Slice `l` of a [3, 64, 64] array, re-laid as [64, 64], reads at `(k, q)` the array's entry `(l, k, q)`. -/
theorem wslice_apply (l : Fin 3) (hs : (⟨3, ![3, 64, 64]⟩ : Shape).Slices ![l.val, 0, 0] ⟨3, ![1, 64, 64]⟩)
    (hc : (⟨3, ![1, 64, 64]⟩ : Shape).ShapeCasts ⟨2, ![64, 64]⟩) (A : FVec Ideal ⟨3, ![3, 64, 64]⟩ .f32) (k q : Fin 64) :
    shapeCast ⟨2, ![64, 64]⟩ (extractStridedSlice ⟨3, ![1, 64, 64]⟩ ![l.val, 0, 0] A hs) hc (ix2 k q) = A (ix3 l k q) := by
  rw [shapeCast_1ab_ab_apply]
  refine extractStridedSlice_apply _ _ _ _ (ix3 l k q) fun a => ?_
  match a with
  | ⟨0, _⟩ => exact (Nat.add_zero _).symm
  | ⟨1, _⟩ => exact (Nat.zero_add _).symm
  | ⟨2, _⟩ => exact (Nat.zero_add _).symm

/-- Row `l` of a [3, 64] array, re-laid as a vector and then as a [1, 64] row, reads at `(0, q)` the array's entry
    `(l, q)`. -/
theorem rslice_apply (l : Fin 3) (hs : (⟨2, ![3, 64]⟩ : Shape).Slices ![l.val, 0] ⟨2, ![1, 64]⟩)
    (hc1 : (⟨2, ![1, 64]⟩ : Shape).ShapeCasts ⟨1, ![64]⟩) (hc2 : (⟨1, ![64]⟩ : Shape).ShapeCasts ⟨2, ![1, 64]⟩)
    (A : FVec Ideal ⟨2, ![3, 64]⟩ .f32) (u : Fin 1) (q : Fin 64) :
    shapeCast ⟨2, ![1, 64]⟩ (shapeCast ⟨1, ![64]⟩ (extractStridedSlice ⟨2, ![1, 64]⟩ ![l.val, 0] A hs) hc1) hc2 (ix2 u q)
      = A (ix2 l q) := by
  rw [shapeCast_a_1a_apply, shapeCast_1a_a_apply]
  exact slice2_axis0_apply l.val A hs 0 q l (by simp)

variable (V : Valuation τ sig (Elt Ideal))

/-! ## The host stretch before layer 1's statistics kernel -/

/-- The vector of source row numbers reads, at `e`, entry `(0, e)` of the edge array. -/
theorem ops0_v1 (e : Fin 1600000) :
    StableHlo.after (hostOps0 (F := Ideal)) V (Proc.devRef .tc main_v1) (ix1 e)
      = Cert.Spec.srcOf (V (Proc.devRef .tc main_arg1)) e := by
  refine Eq.trans ?_ (Cert.AggRead.row_apply 0 Facts₀.slices_S2x1600000_S1x1600000_0_0 Facts₀.shapeCasts_S1x1600000_S1600000
    (V (Proc.devRef .tc main_arg1)) e)
  refine congrFun ?_ (ix1 e)
  after_results
  rfl

/-- The vector of target row numbers reads, at `e`, entry `(1, e)` of the edge array. -/
theorem ops0_v3 (e : Fin 1600000) :
    StableHlo.after (hostOps0 (F := Ideal)) V (Proc.devRef .tc main_v3) (ix1 e)
      = Cert.Spec.dstOf (V (Proc.devRef .tc main_arg1)) e := by
  refine Eq.trans ?_ (Cert.AggRead.row_apply 1 Facts₀.slices_S2x1600000_S1x1600000_1_0 Facts₀.shapeCasts_S1x1600000_S1600000
    (V (Proc.devRef .tc main_arg1)) e)
  refine congrFun ?_ (ix1 e)
  after_results
  rfl

/-- The aggregated features of the first layer's input. -/
theorem ops0_agg :
    Cert.Spec.toMat (StableHlo.after (hostOps0 (F := Ideal)) V (Proc.devRef .tc main_v15))
      = Cert.Spec.agg (Cert.Spec.srcOf (V (Proc.devRef .tc main_arg1))) (Cert.Spec.dstOf (V (Proc.devRef .tc main_arg1)))
          (Cert.Spec.eaOf (V (Proc.devRef .tc main_arg2))) (Cert.Spec.toMat (V (Proc.devRef .tc main_arg0))) := by
  have e := (show StableHlo.after (hostOps0 (F := Ideal)) V (Proc.devRef .tc main_v15) = _ by after_results)
  rw [e]
  exact Cert.AggRead.agg_read gather_S100000x64_S1600000x1_S1600000x64_1_0_n_n_0_1_164 rfl rfl rfl rfl rfl rfl rfl
    scatter_S100000x64_S1600000x1_S1600000x64_1_0_0_1 rfl rfl rfl rfl
    Facts₀.slices_S2x1600000_S1x1600000_0_0 Facts₀.slices_S2x1600000_S1x1600000_1_0 Facts₀.shapeCasts_S1x1600000_S1600000
    Facts₀.bcast_S_S1600000 Facts₀.bcast_S1600000_S1600000x1_0 Facts₀.bcast_S1600000x1_S1600000x64_0_1 Facts₀.bcast_S_S100000x64
    (V (Proc.devRef .tc main_arg1)) (V (Proc.devRef .tc main_arg2)) (V (Proc.devRef .tc main_arg0))

/-- Layer 1's first weight matrix. -/
theorem ops0_W1 :
    Cert.Spec.toWt (StableHlo.after (hostOps0 (F := Ideal)) V (Proc.devRef .tc main_v17))
      = Cert.Spec.wtOf (V (Proc.devRef .tc main_arg3)) 0 := by
  funext k q
  refine Eq.trans ?_ (wslice_apply 0 Facts₀.slices_S3x64x64_S1x64x64_0_0_0 Facts₀.shapeCasts_S1x64x64_S64x64 (V (Proc.devRef .tc main_arg3)) k q)
  refine congrFun ?_ (ix2 k q)
  after_results
  rfl

/-- Layer 1's first bias row. -/
theorem ops0_b1 (u : Fin 1) (q : Fin 64) :
    StableHlo.after (hostOps0 (F := Ideal)) V (Proc.devRef .tc main_v20) (ix2 u q)
      = Cert.Spec.rowOf (V (Proc.devRef .tc main_arg4)) 0 q := by
  refine Eq.trans ?_ (rslice_apply 0 Facts₀.slices_S3x64_S1x64_0_0 Facts₀.shapeCasts_S1x64_S64 Facts₀.shapeCasts_S64_S1x64 (V (Proc.devRef .tc main_arg4)) u q)
  refine congrFun ?_ (ix2 u q)
  after_results
  rfl

/-- Layer 1's second weight matrix. -/
theorem ops0_W2 :
    Cert.Spec.toWt (StableHlo.after (hostOps0 (F := Ideal)) V (Proc.devRef .tc main_v22))
      = Cert.Spec.wtOf (V (Proc.devRef .tc main_arg7)) 0 := by
  funext k q
  refine Eq.trans ?_ (wslice_apply 0 Facts₀.slices_S3x64x64_S1x64x64_0_0_0 Facts₀.shapeCasts_S1x64x64_S64x64 (V (Proc.devRef .tc main_arg7)) k q)
  refine congrFun ?_ (ix2 k q)
  after_results
  rfl

/-- Layer 1's second bias row. -/
theorem ops0_b2 (u : Fin 1) (q : Fin 64) :
    StableHlo.after (hostOps0 (F := Ideal)) V (Proc.devRef .tc main_v25) (ix2 u q)
      = Cert.Spec.rowOf (V (Proc.devRef .tc main_arg8)) 0 q := by
  refine Eq.trans ?_ (rslice_apply 0 Facts₀.slices_S3x64_S1x64_0_0 Facts₀.shapeCasts_S1x64_S64 Facts₀.shapeCasts_S64_S1x64 (V (Proc.devRef .tc main_arg8)) u q)
  refine congrFun ?_ (ix2 u q)
  after_results
  rfl

/-- Layer 1's scale row. -/
theorem ops0_gamma (u : Fin 1) (q : Fin 64) :
    StableHlo.after (hostOps0 (F := Ideal)) V (Proc.devRef .tc main_v28) (ix2 u q)
      = Cert.Spec.rowOf (V (Proc.devRef .tc main_arg5)) 0 q := by
  refine Eq.trans ?_ (rslice_apply 0 Facts₀.slices_S3x64_S1x64_0_0 Facts₀.shapeCasts_S1x64_S64 Facts₀.shapeCasts_S64_S1x64 (V (Proc.devRef .tc main_arg5)) u q)
  refine congrFun ?_ (ix2 u q)
  after_results
  rfl

/-- Layer 1's shift row. -/
theorem ops0_beta (u : Fin 1) (q : Fin 64) :
    StableHlo.after (hostOps0 (F := Ideal)) V (Proc.devRef .tc main_v31) (ix2 u q)
      = Cert.Spec.rowOf (V (Proc.devRef .tc main_arg6)) 0 q := by
  refine Eq.trans ?_ (rslice_apply 0 Facts₀.slices_S3x64_S1x64_0_0 Facts₀.shapeCasts_S1x64_S64 Facts₀.shapeCasts_S64_S1x64 (V (Proc.devRef .tc main_arg6)) u q)
  refine congrFun ?_ (ix2 u q)
  after_results
  rfl

/-! ## The host stretch between layer 1's two kernels -/

/-- The batch mean: the row of sums divided by the literal 100000. -/
theorem ops1_mean (j : (⟨2, ![1, 64]⟩ : Shape).Idx) :
    StableHlo.after (hostOps1 (F := Ideal)) V (Proc.devRef .tc main_v34) j
      = Ideal.div (V (Proc.devRef .tc main_v32_0) j) Cert.Spec.cN := by
  refine Eq.trans (congrFun (show StableHlo.after (hostOps1 (F := Ideal)) V (Proc.devRef .tc main_v34) = _ by after_results) j) ?_
  rfl

/-- The batch variance: the row of sums of squares divided by the literal 100000, minus the square of the mean. -/
theorem ops1_var (j : (⟨2, ![1, 64]⟩ : Shape).Idx) :
    StableHlo.after (hostOps1 (F := Ideal)) V (Proc.devRef .tc main_v38) j
      = Ideal.div (V (Proc.devRef .tc main_v32_1) j) Cert.Spec.cN
        - Ideal.div (V (Proc.devRef .tc main_v32_0) j) Cert.Spec.cN * Ideal.div (V (Proc.devRef .tc main_v32_0) j) Cert.Spec.cN := by
  refine Eq.trans (congrFun (show StableHlo.after (hostOps1 (F := Ideal)) V (Proc.devRef .tc main_v38) = _ by after_results) j) ?_
  rfl

end Cert.KernelIdeal.HostRead

end
-- ==== Proof.KI.ApplyFn.lean ====
/-
  What one apply pass writes, as a function of the arrays it reads.

  With `A` the aggregated features, `X` the node features, `W1 b1` the first linear map, `mu var` the batch statistics,
  `g be` the scale and shift and `W2 b2` the second linear map, the pass writes at row `p`, column `q`
  `relu (relu (norm ((A + X)·W1 + b1) mu var g be)·W2 + b2)`, in the vocabulary of the specification.
-/
import proofs.«166406_j57140244906477_1_alg».proof.Proof.Spec
import Idealize.ShloMosaic.PureOps.Ideal.Laws

noncomputable section

namespace Cert.ApplyFn

open Idealize.ShloMosaic Idealize.ShloMosaic.ValueIdx
open scoped BigOperators

/-- The one row of a [1, 64] array. -/
def rowv (v : (⟨2, ![1, 64]⟩ : Shape).Idx → EReal) : Cert.Spec.Row := fun q => v (ix2 (0 : Fin 1) q)

/-- The apply pass as a function on extended reals: row `p`, column `q` of what it writes. -/
def applyM (A X : (⟨2, ![100000, 64]⟩ : Shape).Idx → EReal) (W1 : (⟨2, ![64, 64]⟩ : Shape).Idx → EReal)
    (b1 mu var g be : (⟨2, ![1, 64]⟩ : Shape).Idx → EReal) (W2 : (⟨2, ![64, 64]⟩ : Shape).Idx → EReal)
    (b2 : (⟨2, ![1, 64]⟩ : Shape).Idx → EReal) : Cert.Spec.Mat :=
  Cert.Spec.relu (Cert.Spec.lin (Cert.Spec.toWt W2) (rowv b2) (Cert.Spec.relu (Cert.Spec.norm
    (Cert.Spec.lin (Cert.Spec.toWt W1) (rowv b1) (fun p q => Cert.Spec.toMat A p q + Cert.Spec.toMat X p q))
    (rowv mu) (rowv var) (rowv g) (rowv be))))

/-- The same as an array of shape [100000, 64]. -/
def applyG (A X : (⟨2, ![100000, 64]⟩ : Shape).Idx → EReal) (W1 : (⟨2, ![64, 64]⟩ : Shape).Idx → EReal)
    (b1 mu var g be : (⟨2, ![1, 64]⟩ : Shape).Idx → EReal) (W2 : (⟨2, ![64, 64]⟩ : Shape).Idx → EReal)
    (b2 : (⟨2, ![1, 64]⟩ : Shape).Idx → EReal) : (⟨2, ![100000, 64]⟩ : Shape).Idx → EReal :=
  fun i => applyM A X W1 b1 mu var g be W2 b2 (i 0) (i 1)

/-- Read at `(p, q)`, entry by entry. -/
theorem applyG_apply (A X : (⟨2, ![100000, 64]⟩ : Shape).Idx → EReal) (W1 : (⟨2, ![64, 64]⟩ : Shape).Idx → EReal)
    (b1 mu var g be : (⟨2, ![1, 64]⟩ : Shape).Idx → EReal) (W2 : (⟨2, ![64, 64]⟩ : Shape).Idx → EReal)
    (b2 : (⟨2, ![1, 64]⟩ : Shape).Idx → EReal) (p : Fin 100000) (q : Fin 64) :
    applyG A X W1 b1 mu var g be W2 b2 (ix2 p q)
      = max ((∑ k : Fin 64, max (((((∑ j : Fin 64, (A (ix2 p j) + X (ix2 p j)) * W1 (ix2 j k)) + b1 (ix2 (0 : Fin 1) k))
            - mu (ix2 (0 : Fin 1) k)) * Ideal.rsqrt (var (ix2 (0 : Fin 1) k) + Cert.Spec.cEps)) * g (ix2 (0 : Fin 1) k)
            + be (ix2 (0 : Fin 1) k)) 0 * W2 (ix2 k q)) + b2 (ix2 (0 : Fin 1) q)) 0 := rfl

/-- The reciprocal square root of a vector, entry by entry. -/
theorem rsqrt_apply {s : Shape} {φ : FTy} (a : FVec Ideal s φ) (i : s.Idx) : rsqrt a i = Ideal.rsqrt (a i) := rfl

theorem hz : (![0, 0] : Fin 2 → Nat) = fun _ => 0 := funext fun a => by fin_cases a <;> rfl

end Cert.ApplyFn

end
-- ==== Proof.KI.LayerParts.lean ====
/-
  One layer from its parts.

  The apply pass writes `relu (relu (norm ((A + X)·W1 + b1) mu var g be)·W2 + b2)` of the ten arrays it reads. When the
  arrays are: the edge aggregation of the layer's input, the input itself, the layer's parameters, and for `mu` and `var`
  the batch mean and the kernel's variance of `(A + X)·W1 + b1`, this is the specification's layer with the kernel's
  variance. The batch statistics themselves come from the two rows of column sums the statistics pass leaves: the mean is
  the sum over the literal 100000, the variance the sum of squares over the same literal minus the squared mean.
-/
import proofs.«166406_j57140244906477_1_alg».proof.Proof.Spec
import proofs.«166406_j57140244906477_1_alg».proof.Proof.KI.ApplyFn

noncomputable section

namespace Cert.KernelIdeal.Parts

open Idealize.ShloMosaic Idealize.ShloMosaic.ValueIdx Cert.Spec Cert.ApplyFn

/-- The batch mean from the row of column sums. -/
theorem mean_of_sum (h : Mat) (s0 mu : (⟨2, ![1, 64]⟩ : Shape).Idx → EReal)
    (hs0 : ∀ q : Fin 64, s0 (ix2 (0 : Fin 1) q) = ∑ p : Fin 100000, h p q)
    (hmu : ∀ j, mu j = Ideal.div (s0 j) cN) : rowv mu = mean h := by
  funext q
  show mu (ix2 (0 : Fin 1) q) = Ideal.div (∑ p : Fin 100000, h p q) cN
  rw [hmu, hs0]

/-- The kernel's variance from the two rows of column sums. -/
theorem varK_of_sums (h : Mat) (s0 s1 va : (⟨2, ![1, 64]⟩ : Shape).Idx → EReal)
    (hs0 : ∀ q : Fin 64, s0 (ix2 (0 : Fin 1) q) = ∑ p : Fin 100000, h p q)
    (hs1 : ∀ q : Fin 64, s1 (ix2 (0 : Fin 1) q) = ∑ p : Fin 100000, h p q * h p q)
    (hva : ∀ j, va j = Ideal.div (s1 j) cN - Ideal.div (s0 j) cN * Ideal.div (s0 j) cN) : rowv va = varK h := by
  funext q
  show va (ix2 (0 : Fin 1) q)
    = Ideal.div (∑ p : Fin 100000, h p q * h p q) cN
      - Ideal.div (∑ p : Fin 100000, h p q) cN * Ideal.div (∑ p : Fin 100000, h p q) cN
  rw [hva, hs0, hs1]

/-- The layer's first linear map from its parts: the map over arrays that read as the aggregated input, the input, the
    weight and the bias row is the specification's `pre`. -/
theorem pre_of_parts (A : Mat → Mat) (x : Mat) (W1 : Wt) (b1 : Row)
    (Aa Xa : (⟨2, ![100000, 64]⟩ : Shape).Idx → EReal) (W1a : (⟨2, ![64, 64]⟩ : Shape).Idx → EReal)
    (b1a : (⟨2, ![1, 64]⟩ : Shape).Idx → EReal)
    (hA : toMat Aa = A x) (hX : toMat Xa = x) (hW1 : toWt W1a = W1) (hb1 : rowv b1a = b1) :
    lin (toWt W1a) (fun q => b1a (ix2 (0 : Fin 1) q)) (fun p q => toMat Aa p q + toMat Xa p q) = pre A x W1 b1 := by
  unfold pre
  rw [← hA, ← hX, ← hW1, ← hb1]
  rfl

/-- The edge aggregation depends on the row numbers, the weights and the features only through their values. -/
theorem agg_congr {s s' d d' : Fin 1600000 → BitVec 32} {ea ea' : Fin 1600000 → EReal} {x x' : Mat}
    (hs : ∀ e, s e = s' e) (hd : ∀ e, d e = d' e) (hea : ea = ea') (hx : x = x') : agg s d ea x = agg s' d' ea' x' := by
  obtain rfl : s = s' := funext hs
  obtain rfl : d = d' := funext hd
  subst hea hx
  rfl

/-- ONE LAYER FROM ITS PARTS: the apply pass on arrays that read as the layer's aggregated input, input, parameters and
    batch statistics writes the specification's layer with the kernel's variance. -/
theorem layer_of_parts (A : Mat → Mat) (x : Mat) (W1 : Wt) (b1 g be : Row) (W2 : Wt) (b2 : Row)
    (Aa Xa : (⟨2, ![100000, 64]⟩ : Shape).Idx → EReal) (W1a : (⟨2, ![64, 64]⟩ : Shape).Idx → EReal)
    (b1a mua vara ga bea : (⟨2, ![1, 64]⟩ : Shape).Idx → EReal) (W2a : (⟨2, ![64, 64]⟩ : Shape).Idx → EReal)
    (b2a : (⟨2, ![1, 64]⟩ : Shape).Idx → EReal)
    (hA : toMat Aa = A x) (hX : toMat Xa = x) (hW1 : toWt W1a = W1) (hb1 : rowv b1a = b1)
    (hmu : rowv mua = mean (pre A x W1 b1)) (hvar : rowv vara = varK (pre A x W1 b1))
    (hg : rowv ga = g) (hbe : rowv bea = be) (hW2 : toWt W2a = W2) (hb2 : rowv b2a = b2) :
    toMat (applyG Aa Xa W1a b1a mua vara ga bea W2a b2a) = layerWith varK A x W1 b1 g be W2 b2 := by
  show applyM Aa Xa W1a b1a mua vara ga bea W2a b2a = _
  unfold applyM layerWith
  rw [hA, hX, hW1, hb1, hg, hbe, hW2, hb2, hmu, hvar]
  rfl

end Cert.KernelIdeal.Parts

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.KI.ApplyPay1.lean ====
/-
  The apply kernel's payloads of custom_call 1, read at an index, at the ideal values: the truncations to bf16 are the
  identity there, each matrix product into the zero accumulator is the plain finite sum, and a [1, 64] row broadcast
  over the 2000 rows of a tile reads the row's entry.
-/
import proofs.«166406_j57140244906477_1_alg».proof.Proof.Gen.KernelIdeal.Skeleton
import proofs.«166406_j57140244906477_1_alg».proof.Proof.LibPlainDot
import proofs.«166406_j57140244906477_1_alg».proof.Proof.KI.ApplyFn
import Idealize.ShloMosaic.Lib.Pipeline.Value
import Idealize.ShloMosaic.Lib.ValueLayout

noncomputable section

namespace Cert.KernelIdeal.Fr

open Cert.KernelIdeal Cert.KernelIdeal.Gen Cert.ApplyFn
open Idealize.ShloMosaic Idealize.ShloMosaic.ValueIdx
open scoped BigOperators

/-- The first linear map, the normalisation and the rectifier, at row `r` of the tile and column `k`. -/
theorem pay1_2_apply (x0 x1 : Vec Ideal S2000x64 .f32) (x2 : Vec Ideal S64x64 .f32) (x3 x5 x4 x6 x7 : Vec Ideal S1x64 .f32)
    (r : Fin 2000) (k : Fin 64) :
    k1_pay2 (F := Ideal) x0 x1 x2 x3 x5 x4 x6 x7 (ix2 r k)
      = max (((((∑ j : Fin 64, (x0 (ix2 r j) + x1 (ix2 r j)) * x2 (ix2 j k)) + x3 (ix2 (0 : Fin 1) k)) - x4 (ix2 (0 : Fin 1) k))
          * Ideal.rsqrt (x5 (ix2 (0 : Fin 1) k) + Cert.Spec.cEps)) * x6 (ix2 (0 : Fin 1) k) + x7 (ix2 (0 : Fin 1) k)) 0 := by
  unfold k1_pay2
  simp only [shapeCast_self]
  rw [truncf_apply, maximumf_apply, addf_apply, mulf_apply, mulf_apply, subf_apply, addf_apply, broadcast_apply]
  simp only [broadcastTo_1b_ab_apply, rsqrt_apply, addf_apply, broadcast_apply]
  simp only [matmul]
  rw [show dot_S2000x64_S64x64_S2000x64_1_0_0_1_n_n = DotDims.plain 2000 64 64 from rfl, Cert.Lib.PlainDot.matmul_zero_apply]
  simp only [truncf_apply, addf_apply, Ideal.ofBits_def, Ideal.ofBits_zero_f32]
  rfl

/-- The second weight matrix as the product reads it. -/
theorem pay1_3_apply (x8 : Vec Ideal S64x64 .f32) (k q : Fin 64) : k1_pay3 (F := Ideal) x8 (ix2 k q) = x8 (ix2 k q) := by
  unfold k1_pay3
  simp only [shapeCast_self]
  rfl

/-- The second linear map and the rectifier, at row `r` of the tile and column `q`. -/
theorem pay1_1_apply (a : FVec Ideal S2000x64 .bf16) (b : FVec Ideal S64x64 .bf16) (x9 : Vec Ideal S1x64 .f32) (r : Fin 2000) (q : Fin 64) :
    k1_pay1 (F := Ideal) a b x9 (ix2 r q) = max ((∑ k : Fin 64, a (ix2 r k) * b (ix2 k q)) + x9 (ix2 (0 : Fin 1) q)) 0 := by
  unfold k1_pay1
  simp only [shapeCast_self]
  rw [maximumf_apply, addf_apply, broadcast_apply]
  simp only [broadcastTo_1b_ab_apply]
  simp only [matmul]
  rw [show dot_S2000x64_S64x64_S2000x64_1_0_0_1_n_n = DotDims.plain 2000 64 64 from rfl, Cert.Lib.PlainDot.matmul_zero_apply]
  simp only [Ideal.ofBits_def, Ideal.ofBits_zero_f32]

/-- The whole body's stored value at row `r` of the tile and column `q`, from the ten buffers it reads. -/
theorem pay1_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    k1_pay1 (F := Ideal) (k1_pay2 x0 x1 x2 x3 x5 x4 x6 x7) (k1_pay3 x8) x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  rw [pay1_1_apply]
  simp only [pay1_2_apply, pay1_3_apply]

end Cert.KernelIdeal.Fr

end
-- ==== Proof.KI.ApplyVal1.lean ====
/-
  What the apply pass of custom_call 1 leaves in its output array, at the ideal values: the array the pipeline's
  write-backs leave is, index by index, the apply function of the ten arrays the pass reads as the region finds them.

  Point `t` of the 50 reads rows `2000 t … 2000 t + 1999` of the aggregated and the node features and the whole of the
  eight small arrays, and writes back the same rows of the result; the 50 row tiles cover the [100000, 64] array.
-/
import proofs.«166406_j57140244906477_1_alg».proof.Proof.KI.Apply1
import proofs.«166406_j57140244906477_1_alg».proof.Proof.KI.ApplyPay1
import Idealize.ShloMosaic.Lib.Pipeline.Value

noncomputable section

namespace Cert.KernelIdeal.Fr

open Cert.KernelIdeal Cert.KernelIdeal.Gen Cert.ApplyFn
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits -/

/-- The printed index maps, decided over the grid: the two feature windows and the output move one row tile per
    point; the eight small windows stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row `r` of tile `t` is a row of the array. -/
theorem rowLt1 (t : Fin cfg1.N) (r : Fin 2000) : 2000 * t.val + r.val < 100000 := by
  have := t.isLt; have hN : cfg1.N = 50 := N_1; omega

/-- Window 0's block at point `t`: element `(r, j)` of the block is element `(2000 t + r, j)` of the array. -/
theorem emb1_0 (t : Fin cfg1.N) (r : Fin 2000) (j : Fin 64) :
    ((cfg1.win 0).blk t).view.emb (ix2 r j) = (ix2 ⟨2000 * t.val + r.val, rowLt1 t r⟩ j : S100000x64.Idx) := by
  obtain ⟨e0, e1, -⟩ := idx1 t
  funext a; apply Fin.ext
  match a with
  | ⟨0, _⟩ => show win1_0.index t (0 : Fin 2) * 2000 + 1 * r.val = 2000 * t.val + r.val; omega
  | ⟨1, _⟩ => show win1_0.index t (1 : Fin 2) * 64 + 1 * j.val = j.val; omega

/-- Window 1's block at point `t`: element `(r, j)` of the block is element `(2000 t + r, j)` of the array. -/
theorem emb1_1 (t : Fin cfg1.N) (r : Fin 2000) (j : Fin 64) :
    ((cfg1.win 1).blk t).view.emb (ix2 r j) = (ix2 ⟨2000 * t.val + r.val, rowLt1 t r⟩ j : S100000x64.Idx) := by
  obtain ⟨-, -, e0, e1, -⟩ := idx1 t
  funext a; apply Fin.ext
  match a with
  | ⟨0, _⟩ => show win1_1.index t (0 : Fin 2) * 2000 + 1 * r.val = 2000 * t.val + r.val; omega
  | ⟨1, _⟩ => show win1_1.index t (1 : Fin 2) * 64 + 1 * j.val = j.val; omega

/-- Window 10's block at point `t`: element `(r, j)` of the block is element `(2000 t + r, j)` of the array. -/
theorem emb1_10 (t : Fin cfg1.N) (r : Fin 2000) (j : Fin 64) :
    ((cfg1.win 10).blk t).view.emb (ix2 r j) = (ix2 ⟨2000 * t.val + r.val, rowLt1 t r⟩ j : S100000x64.Idx) := by
  obtain ⟨-, -, -, -, e0, e1, -⟩ := idx1 t
  funext a; apply Fin.ext
  match a with
  | ⟨0, _⟩ => show win1_10.index t (0 : Fin 2) * 2000 + 1 * r.val = 2000 * t.val + r.val; omega
  | ⟨1, _⟩ => show win1_10.index t (1 : Fin 2) * 64 + 1 * j.val = j.val; omega

/-- Window 2's block is its whole array, at every point. -/
theorem emb1_2 (t : Fin cfg1.N) (y : S64x64.Idx) : ((cfg1.win 2).blk t).view.emb y = y := by
  obtain ⟨-, -, -, -, -, -, e0, e1, -⟩ := idx1 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block is its whole array, at every point. -/
theorem emb1_3 (t : Fin cfg1.N) (y : S1x64.Idx) : ((cfg1.win 3).blk t).view.emb y = y := by
  obtain ⟨-, -, -, -, -, -, -, -, e0, e1, -⟩ := idx1 t
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block is its whole array, at every point. -/
theorem emb1_4 (t : Fin cfg1.N) (y : S1x64.Idx) : ((cfg1.win 4).blk t).view.emb y = y := by
  obtain ⟨-, -, -, -, -, -, -, -, -, -, e0, e1, -⟩ := idx1 t
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5's block is its whole array, at every point. -/
theorem emb1_5 (t : Fin cfg1.N) (y : S1x64.Idx) : ((cfg1.win 5).blk t).view.emb y = y := by
  obtain ⟨-, -, -, -, -, -, -, -, -, -, -, -, e0, e1, -⟩ := idx1 t
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Window 6's block is its whole array, at every point. -/
theorem emb1_6 (t : Fin cfg1.N) (y : S1x64.Idx) : ((cfg1.win 6).blk t).view.emb y = y := by
  obtain ⟨-, -, -, -, -, -, -, -, -, -, -, -, -, -, e0, e1, -⟩ := idx1 t
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Window 7's block is its whole array, at every point. -/
theorem emb1_7 (t : Fin cfg1.N) (y : S1x64.Idx) : ((cfg1.win 7).blk t).view.emb y = y := by
  obtain ⟨-, -, -, -, -, -, -, -, -, -, -, -, -, -, -, -, e0, e1, -⟩ := idx1 t
  funext a; apply Fin.ext
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- Window 8's block is its whole array, at every point. -/
theorem emb1_8 (t : Fin cfg1.N) (y : S64x64.Idx) : ((cfg1.win 8).blk t).view.emb y = y := by
  obtain ⟨-, -, -, -, -, -, -, -, -, -, -, -, -, -, -, -, -, -, e0, e1, -⟩ := idx1 t
  funext a; apply Fin.ext
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- Window 9's block is its whole array, at every point. -/
theorem emb1_9 (t : Fin cfg1.N) (y : S1x64.Idx) : ((cfg1.win 9).blk t).view.emb y = y := by
  obtain ⟨-, -, -, -, -, -, -, -, -, -, -, -, -, -, -, -, -, -, -, -, e0, e1⟩ := idx1 t
  funext a; apply Fin.ext
  match a with
  | ⟨0, _⟩ => show win1_9.index t (0 : Fin 2) * 1 + 1 * (y 0).val = (y 0).val; omega
  | ⟨1, _⟩ => show win1_9.index t (1 : Fin 2) * 64 + 1 * (y 1).val = (y 1).val; omega

/-! ## The blocks the body reads, off the arrays -/

theorem iblk1_0_apply (c : Dev nD) (t : Fin cfg1.N) (r : Fin 2000) (j : Fin 64) :
    (iblk1 V c 0 t : Vec Ideal S2000x64 .f32) (ix2 r j)
      = (V c (Pipeline.arrRef spec1 0) : S100000x64.Idx → EReal) (ix2 ⟨2000 * t.val + r.val, rowLt1 t r⟩ j) := by
  unfold iblk1
  rw [View.read_apply, emb1_0]
  rfl

theorem iblk1_1_apply (c : Dev nD) (t : Fin cfg1.N) (r : Fin 2000) (j : Fin 64) :
    (iblk1 V c 1 t : Vec Ideal S2000x64 .f32) (ix2 r j)
      = (V c (Pipeline.arrRef spec1 1) : S100000x64.Idx → EReal) (ix2 ⟨2000 * t.val + r.val, rowLt1 t r⟩ j) := by
  unfold iblk1
  rw [View.read_apply, emb1_1]
  rfl

theorem iblk1_2_apply (c : Dev nD) (t : Fin cfg1.N) (y : S64x64.Idx) :
    (iblk1 V c 2 t : Vec Ideal S64x64 .f32) y = (V c (Pipeline.arrRef spec1 2) : S64x64.Idx → EReal) y := by
  unfold iblk1
  rw [View.read_apply, emb1_2]
  rfl

theorem iblk1_3_apply (c : Dev nD) (t : Fin cfg1.N) (y : S1x64.Idx) :
    (iblk1 V c 3 t : Vec Ideal S1x64 .f32) y = (V c (Pipeline.arrRef spec1 3) : S1x64.Idx → EReal) y := by
  unfold iblk1
  rw [View.read_apply, emb1_3]
  rfl

theorem iblk1_4_apply (c : Dev nD) (t : Fin cfg1.N) (y : S1x64.Idx) :
    (iblk1 V c 4 t : Vec Ideal S1x64 .f32) y = (V c (Pipeline.arrRef spec1 4) : S1x64.Idx → EReal) y := by
  unfold iblk1
  rw [View.read_apply, emb1_4]
  rfl

theorem iblk1_5_apply (c : Dev nD) (t : Fin cfg1.N) (y : S1x64.Idx) :
    (iblk1 V c 5 t : Vec Ideal S1x64 .f32) y = (V c (Pipeline.arrRef spec1 5) : S1x64.Idx → EReal) y := by
  unfold iblk1
  rw [View.read_apply, emb1_5]
  rfl

theorem iblk1_6_apply (c : Dev nD) (t : Fin cfg1.N) (y : S1x64.Idx) :
    (iblk1 V c 6 t : Vec Ideal S1x64 .f32) y = (V c (Pipeline.arrRef spec1 6) : S1x64.Idx → EReal) y := by
  unfold iblk1
  rw [View.read_apply, emb1_6]
  rfl

theorem iblk1_7_apply (c : Dev nD) (t : Fin cfg1.N) (y : S1x64.Idx) :
    (iblk1 V c 7 t : Vec Ideal S1x64 .f32) y = (V c (Pipeline.arrRef spec1 7) : S1x64.Idx → EReal) y := by
  unfold iblk1
  rw [View.read_apply, emb1_7]
  rfl

theorem iblk1_8_apply (c : Dev nD) (t : Fin cfg1.N) (y : S64x64.Idx) :
    (iblk1 V c 8 t : Vec Ideal S64x64 .f32) y = (V c (Pipeline.arrRef spec1 8) : S64x64.Idx → EReal) y := by
  unfold iblk1
  rw [View.read_apply, emb1_8]
  rfl

theorem iblk1_9_apply (c : Dev nD) (t : Fin cfg1.N) (y : S1x64.Idx) :
    (iblk1 V c 9 t : Vec Ideal S1x64 .f32) y = (V c (Pipeline.arrRef spec1 9) : S1x64.Idx → EReal) y := by
  unfold iblk1
  rw [View.read_apply, emb1_9]
  rfl

/-! ## What the body stores, at an index -/

/-- The output buffer after the body, at row `r` of the tile and column `q`: the one store covers the buffer and
    every load reads a whole buffer. -/
theorem out1_10_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    out1_10 (F := Ideal) x0 x1 x2 x3 x4 x5 x6 x7 x8 x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  unfold out1_10
  rw [View.canon_unit_zero hz]
  simp only [View.ld_unit_zero (S := S2000x64) hz, View.ld_unit_zero (S := S64x64) hz, View.ld_unit_zero (S := S1x64) hz]
  exact pay1_apply x0 x1 x2 x3 x4 x5 x6 x7 x8 x9 r q

/-! ## From blocks to the array -/

/-- What point `t` writes back is block `t` of the apply function of the arrays as the region finds them. -/
theorem flushed1_eq (c : Dev nD) (t : Fin cfg1.N) :
    (dat1 V c).flushed 10 t = ((cfg1.win 10).blk t).view.read (Elt Ideal)
      (applyG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 10).cut (grid1.coords t) ((dat1 V c).after 10 t) = _
  rw [after1_10]
  funext y
  obtain ⟨r, q, rfl⟩ : ∃ (r : Fin 2000) (q : Fin 64), y = ix2 r q := ⟨y 0, y 1, eq_ix2 y⟩
  rw [View.read_apply, emb1_10]
  refine (out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r q).trans ?_
  simp only [iblk1_0_apply, iblk1_1_apply, iblk1_2_apply, iblk1_3_apply, iblk1_4_apply, iblk1_5_apply, iblk1_6_apply, iblk1_7_apply, iblk1_8_apply, iblk1_9_apply]
  exact (applyG_apply (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) ⟨2000 * t.val + r.val, rowLt1 t r⟩ q).symm

/-- An index of the array is in point `t`'s block iff each coordinate is in the block's range on its axis. -/
theorem mem_blk1 (t : Fin cfg1.N) (i : S100000x64.Idx) :
    i ∈ ((cfg1.win 10).blk t).view.set ↔ ∀ a : Fin 2, win1_10.index t a * S2000x64.size a ≤ (i a).val ∧ (i a).val < win1_10.index t a * S2000x64.size a + S2000x64.size a := by
  show i ∈ ((View.whole main_v39).slice (win1_10.rect t)).set ↔ _
  rw [View.set_slice_whole, Rect.mem_set_unit]
  exact Iff.rfl

/-- Every index of the array is in the block of the point its row falls in. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : cfg1.N = 50 := N_1
  have ht : (i 0).val / 2000 < cfg1.N := by omega
  obtain ⟨-, -, -, -, e0, e1, -⟩ := idx1 ⟨(i 0).val / 2000, ht⟩
  refine ⟨⟨(i 0).val / 2000, ht⟩, flush1_10 _, ?_⟩
  rw [mem_blk1]
  intro a
  match a with
  | ⟨0, _⟩ =>
    show win1_10.index ⟨(i 0).val / 2000, ht⟩ (0 : Fin 2) * 2000 ≤ (i 0).val ∧ (i 0).val < win1_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, ht⟩ (1 : Fin 2) * 64 ≤ (i 1).val ∧ (i 1).val < win1_10.index ⟨(i 0).val / 2000, ht⟩ (1 : Fin 2) * 64 + 64
    rw [e1]; omega

/-- The output array after the region's write-backs is the apply function of the ten arrays the region finds. -/
theorem arrAt1_10 (c : Dev nD) :
    (dat1 V c).arrAt 10 cfg1.N = applyG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 V c).arrAt_eq_of_cover 10 _ (fun t _ => flushed1_eq V c t) cover1

/-- The same with the ten arrays named: whatever the region-entry contents of the windows' arrays are called. -/
theorem apply1_value (c : Dev nD) (A X : S100000x64.Idx → EReal) (W1 : S64x64.Idx → EReal) (b1 mu var g be : S1x64.Idx → EReal)
    (W2 : S64x64.Idx → EReal) (b2 : S1x64.Idx → EReal)
    (h0 : V c (Pipeline.arrRef spec1 0) = A) (h1 : V c (Pipeline.arrRef spec1 1) = X) (h2 : V c (Pipeline.arrRef spec1 2) = W1)
    (h3 : V c (Pipeline.arrRef spec1 3) = b1) (h4 : V c (Pipeline.arrRef spec1 4) = mu) (h5 : V c (Pipeline.arrRef spec1 5) = var)
    (h6 : V c (Pipeline.arrRef spec1 6) = g) (h7 : V c (Pipeline.arrRef spec1 7) = be) (h8 : V c (Pipeline.arrRef spec1 8) = W2)
    (h9 : V c (Pipeline.arrRef spec1 9) = b2) :
    (dat1 V c).arrAt 10 cfg1.N = applyG A X W1 b1 mu var g be W2 b2 := by
  subst h0 h1 h2 h3 h4 h5 h6 h7 h8 h9
  exact arrAt1_10 V c

end Cert.KernelIdeal.Fr

end
-- ==== Proof.KI.K0Pay.lean ====
/-
  The statistics kernel's block computations, read at an entry, at the ideal values.

  For a block of 2000 rows the kernel forms `h = (a + x) · W + b` (the aggregated and the own features added, a plain
  64-column product into a zero accumulator, the bias row repeated down the rows; the narrowing of the operands is the
  identity on extended reals), adds the column sums of `h` to one carried row and the column sums of `h * h` to a
  second carried row. At the first grid point both carried rows are set to zero.
-/
import proofs.«166406_j57140244906477_1_alg».proof.Proof.Gen.KernelIdeal.Skeleton
import proofs.«166406_j57140244906477_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- Summing a `[M, K]` array down its columns: the source index over the column `q` with the row `r` inserted is
    `(r, q)`. -/
theorem lift_col (M K : Nat) (hred : (⟨2, ![M, K]⟩ : Shape).Reduces [0] ⟨1, ![K]⟩) (q : Fin K) (r : Fin M) :
    hred.lift (ix1 q) r = ix2 r q := by
  funext c
  apply Fin.ext
  match c with
  | ⟨0, _⟩ => rfl
  | ⟨1, _⟩ => rfl

/-- A column sum of a `[2000, 64]` block into a `[64]` vector, read at `q`: the sum over the 2000 rows. -/
theorem colsum_apply (src : FVec Ideal ⟨2, ![2000, 64]⟩ .f32) (h : (⟨2, ![2000, 64]⟩ : Shape).Reduces [0] ⟨1, ![64]⟩)
    (hφ : FKind.Formats .f32) (hacc : (0x00000000#32 : BitVec 32) = FKind.add.neutral .f32 hφ) (q : Fin 64) :
    multiReduction (F := Ideal) .add [0] ⟨1, ![64]⟩ src 0x00000000#32 h hφ hacc (ix1 q) = ∑ r : Fin 2000, src (ix2 r q) :=
  (Ideal.multiReduction_add_single src 0x00000000#32 h hφ hacc (ix1 q)).trans
    (Finset.sum_congr rfl fun r _ => by rw [lift_col 2000 64 h q r])

/-- The block's pre-normalisation values `h = (a + x) · W + b`, read at row `r`, column `q`. -/
theorem k0_pay3_apply (a x : FVec Ideal ⟨2, ![2000, 64]⟩ .f32) (w : FVec Ideal ⟨2, ![64, 64]⟩ .f32)
    (b : FVec Ideal ⟨2, ![1, 64]⟩ .f32) (r : Fin 2000) (q : Fin 64) :
    k0_pay3 (F := Ideal) a x w b (ix2 r q)
      = (∑ k : Fin 64, (a (ix2 r k) + x (ix2 r k)) * w (ix2 k q)) + b (ix2 (0 : Fin 1) q) := by
  unfold k0_pay3
  simp only [shapeCast_self]
  rw [addf_apply, broadcastTo_1b_ab_apply]
  refine congrArg (· + b (ix2 (0 : Fin 1) q)) ?_
  refine (Cert.Lib.PlainDot.matmul_zero_apply 2000 64 64 none _ _ r q).trans ?_
  exact Finset.sum_congr rfl fun k _ => by rw [truncf_apply, truncf_apply, addf_apply]

/-- The carried row of sums after a block: what it held plus the block's column sums of `h`. -/
theorem k0_pay4_apply (a x : FVec Ideal ⟨2, ![2000, 64]⟩ .f32) (w : FVec Ideal ⟨2, ![64, 64]⟩ .f32)
    (b s : FVec Ideal ⟨2, ![1, 64]⟩ .f32) (q : Fin 64) :
    k0_pay4 (F := Ideal) a x w b s (ix2 (0 : Fin 1) q)
      = s (ix2 (0 : Fin 1) q) + ∑ r : Fin 2000, k0_pay3 (F := Ideal) a x w b (ix2 r q) := by
  unfold k0_pay4
  simp only [shapeCast_self]
  rw [addf_apply, shapeCast_a_1a_apply]
  exact congrArg (s (ix2 (0 : Fin 1) q) + ·) (colsum_apply _ _ _ _ q)

/-- The carried row of sums of squares after a block: what it held plus the block's column sums of `h * h`. -/
theorem k0_pay5_apply (a x : FVec Ideal ⟨2, ![2000, 64]⟩ .f32) (w : FVec Ideal ⟨2, ![64, 64]⟩ .f32)
    (b s : FVec Ideal ⟨2, ![1, 64]⟩ .f32) (q : Fin 64) :
    k0_pay5 (F := Ideal) a x w b s (ix2 (0 : Fin 1) q)
      = s (ix2 (0 : Fin 1) q)
        + ∑ r : Fin 2000, k0_pay3 (F := Ideal) a x w b (ix2 r q) * k0_pay3 (F := Ideal) a x w b (ix2 r q) := by
  unfold k0_pay5
  simp only [shapeCast_self]
  rw [addf_apply, shapeCast_a_1a_apply]
  exact congrArg (s (ix2 (0 : Fin 1) q) + ·) (colsum_apply _ _ _ _ q)

/-- At the first grid point the row of sums is set to zero. -/
theorem k0_pay1_apply (j : (⟨2, ![1, 64]⟩ : Shape).Idx) : k0_pay1 (F := Ideal) j = 0 := by
  unfold k0_pay1
  simp only [shapeCast_self]
  exact Ideal.ofBits_zero_f32

/-- At the first grid point the row of sums of squares is set to zero. -/
theorem k0_pay2_apply (j : (⟨2, ![1, 64]⟩ : Shape).Idx) : k0_pay2 (F := Ideal) j = 0 := by
  unfold k0_pay2
  simp only [shapeCast_self]
  exact Ideal.ofBits_zero_f32

/-! ## The second layer's statistics kernel -/

/-- The block's pre-normalisation values `h = (a + x) · W + b` of the layer's statistics kernel, read at row `r`, column `q`. -/
theorem k2_pay3_apply (a x : FVec Ideal ⟨2, ![2000, 64]⟩ .f32) (w : FVec Ideal ⟨2, ![64, 64]⟩ .f32)
    (b : FVec Ideal ⟨2, ![1, 64]⟩ .f32) (r : Fin 2000) (q : Fin 64) :
    k2_pay3 (F := Ideal) a x w b (ix2 r q)
      = (∑ k : Fin 64, (a (ix2 r k) + x (ix2 r k)) * w (ix2 k q)) + b (ix2 (0 : Fin 1) q) := by
  unfold k2_pay3
  simp only [shapeCast_self]
  rw [addf_apply, broadcastTo_1b_ab_apply]
  refine congrArg (· + b (ix2 (0 : Fin 1) q)) ?_
  refine (Cert.Lib.PlainDot.matmul_zero_apply 2000 64 64 none _ _ r q).trans ?_
  exact Finset.sum_congr rfl fun k _ => by rw [truncf_apply, truncf_apply, addf_apply]

/-- The carried row of sums after a block: what it held plus the block's column sums of `h`. -/
theorem k2_pay4_apply (a x : FVec Ideal ⟨2, ![2000, 64]⟩ .f32) (w : FVec Ideal ⟨2, ![64, 64]⟩ .f32)
    (b s : FVec Ideal ⟨2, ![1, 64]⟩ .f32) (q : Fin 64) :
    k2_pay4 (F := Ideal) a x w b s (ix2 (0 : Fin 1) q)
      = s (ix2 (0 : Fin 1) q) + ∑ r : Fin 2000, k2_pay3 (F := Ideal) a x w b (ix2 r q) := by
  unfold k2_pay4
  simp only [shapeCast_self]
  rw [addf_apply, shapeCast_a_1a_apply]
  exact congrArg (s (ix2 (0 : Fin 1) q) + ·) (colsum_apply _ _ _ _ q)

/-- The carried row of sums of squares after a block: what it held plus the block's column sums of `h * h`. -/
theorem k2_pay5_apply (a x : FVec Ideal ⟨2, ![2000, 64]⟩ .f32) (w : FVec Ideal ⟨2, ![64, 64]⟩ .f32)
    (b s : FVec Ideal ⟨2, ![1, 64]⟩ .f32) (q : Fin 64) :
    k2_pay5 (F := Ideal) a x w b s (ix2 (0 : Fin 1) q)
      = s (ix2 (0 : Fin 1) q)
        + ∑ r : Fin 2000, k2_pay3 (F := Ideal) a x w b (ix2 r q) * k2_pay3 (F := Ideal) a x w b (ix2 r q) := by
  unfold k2_pay5
  simp only [shapeCast_self]
  rw [addf_apply, shapeCast_a_1a_apply]
  exact congrArg (s (ix2 (0 : Fin 1) q) + ·) (colsum_apply _ _ _ _ q)

/-- At the first grid point the row of sums is set to zero. -/
theorem k2_pay1_apply (j : (⟨2, ![1, 64]⟩ : Shape).Idx) : k2_pay1 (F := Ideal) j = 0 := by
  unfold k2_pay1
  simp only [shapeCast_self]
  exact Ideal.ofBits_zero_f32

/-- At the first grid point the row of sums of squares is set to zero. -/
theorem k2_pay2_apply (j : (⟨2, ![1, 64]⟩ : Shape).Idx) : k2_pay2 (F := Ideal) j = 0 := by
  unfold k2_pay2
  simp only [shapeCast_self]
  exact Ideal.ofBits_zero_f32

/-! ## The third layer's statistics kernel -/

/-- The block's pre-normalisation values `h = (a + x) · W + b` of the layer's statistics kernel, read at row `r`, column `q`. -/
theorem k4_pay3_apply (a x : FVec Ideal ⟨2, ![2000, 64]⟩ .f32) (w : FVec Ideal ⟨2, ![64, 64]⟩ .f32)
    (b : FVec Ideal ⟨2, ![1, 64]⟩ .f32) (r : Fin 2000) (q : Fin 64) :
    k4_pay3 (F := Ideal) a x w b (ix2 r q)
      = (∑ k : Fin 64, (a (ix2 r k) + x (ix2 r k)) * w (ix2 k q)) + b (ix2 (0 : Fin 1) q) := by
  unfold k4_pay3
  simp only [shapeCast_self]
  rw [addf_apply, broadcastTo_1b_ab_apply]
  refine congrArg (· + b (ix2 (0 : Fin 1) q)) ?_
  refine (Cert.Lib.PlainDot.matmul_zero_apply 2000 64 64 none _ _ r q).trans ?_
  exact Finset.sum_congr rfl fun k _ => by rw [truncf_apply, truncf_apply, addf_apply]

/-- The carried row of sums after a block: what it held plus the block's column sums of `h`. -/
theorem k4_pay4_apply (a x : FVec Ideal ⟨2, ![2000, 64]⟩ .f32) (w : FVec Ideal ⟨2, ![64, 64]⟩ .f32)
    (b s : FVec Ideal ⟨2, ![1, 64]⟩ .f32) (q : Fin 64) :
    k4_pay4 (F := Ideal) a x w b s (ix2 (0 : Fin 1) q)
      = s (ix2 (0 : Fin 1) q) + ∑ r : Fin 2000, k4_pay3 (F := Ideal) a x w b (ix2 r q) := by
  unfold k4_pay4
  simp only [shapeCast_self]
  rw [addf_apply, shapeCast_a_1a_apply]
  exact congrArg (s (ix2 (0 : Fin 1) q) + ·) (colsum_apply _ _ _ _ q)

/-- The carried row of sums of squares after a block: what it held plus the block's column sums of `h * h`. -/
theorem k4_pay5_apply (a x : FVec Ideal ⟨2, ![2000, 64]⟩ .f32) (w : FVec Ideal ⟨2, ![64, 64]⟩ .f32)
    (b s : FVec Ideal ⟨2, ![1, 64]⟩ .f32) (q : Fin 64) :
    k4_pay5 (F := Ideal) a x w b s (ix2 (0 : Fin 1) q)
      = s (ix2 (0 : Fin 1) q)
        + ∑ r : Fin 2000, k4_pay3 (F := Ideal) a x w b (ix2 r q) * k4_pay3 (F := Ideal) a x w b (ix2 r q) := by
  unfold k4_pay5
  simp only [shapeCast_self]
  rw [addf_apply, shapeCast_a_1a_apply]
  exact congrArg (s (ix2 (0 : Fin 1) q) + ·) (colsum_apply _ _ _ _ q)

/-- At the first grid point the row of sums is set to zero. -/
theorem k4_pay1_apply (j : (⟨2, ![1, 64]⟩ : Shape).Idx) : k4_pay1 (F := Ideal) j = 0 := by
  unfold k4_pay1
  simp only [shapeCast_self]
  exact Ideal.ofBits_zero_f32

/-- At the first grid point the row of sums of squares is set to zero. -/
theorem k4_pay2_apply (j : (⟨2, ![1, 64]⟩ : Shape).Idx) : k4_pay2 (F := Ideal) j = 0 := by
  unfold k4_pay2
  simp only [shapeCast_self]
  exact Ideal.ofBits_zero_f32

end Cert.KernelIdeal.Pay

end
-- ==== Proof.KI.StatsMath.lean ====
/-
  Accumulating tile sums gives the sum over all rows.

  The 100000 rows are 50 tiles of 2000 consecutive rows. A quantity that starts, at the first tile, as zero plus the
  tile's sum and at each later tile adds that tile's sum to what the tile before left is, after the last tile, the
  sum over all rows: addition in a commutative monoid needs no further hypothesis.
-/
import Mathlib

namespace Cert.KernelIdeal.StatsMath

/-- The sum over 100000 rows, regrouped as 50 tiles of 2000 rows. -/
theorem sum_tiles {M : Type} [AddCommMonoid M] (f : Fin 100000 → M) :
    ∑ p : Fin 100000, f p
      = ∑ t : Fin 50, ∑ r : Fin 2000, f ⟨2000 * t.val + r.val, by have := t.isLt; have := r.isLt; omega⟩ := by
  rw [← Fintype.sum_prod_type' (f := fun (t : Fin 50) (r : Fin 2000) =>
    f ⟨2000 * t.val + r.val, by have := t.isLt; have := r.isLt; omega⟩)]
  refine (Fintype.sum_equiv (finProdFinEquiv.trans (finCongr (by norm_num : 50 * 2000 = 100000))) _ _ ?_).symm
  rintro ⟨t, r⟩
  refine congrArg f (Fin.ext ?_)
  simp only [Equiv.trans_apply, finCongr_apply, Fin.coe_cast, finProdFinEquiv_apply_val]
  omega

/-- A running total that starts at zero plus the first term and then adds one term per step is the sum of the
    terms so far. -/
theorem acc_eq_sum {M : Type} [AddCommMonoid M] (g a : (n : ℕ) → n < 50 → M)
    (h0 : ∀ h, a 0 h = 0 + g 0 h)
    (hs : ∀ n (h : n + 1 < 50), a (n + 1) h = a n (Nat.lt_of_succ_lt h) + g (n + 1) h) :
    ∀ n (h : n < 50), a n h = ∑ t : Fin (n + 1), g t.val (by have := t.isLt; omega)
  | 0, h => by
    rw [h0, zero_add, Fin.sum_univ_one]
    rfl
  | n + 1, h => by
    rw [hs, acc_eq_sum g a h0 hs n (Nat.lt_of_succ_lt h)]
    exact (Fin.sum_univ_castSucc (fun t : Fin (n + 2) => g t.val (by have := t.isLt; omega))).symm

/-- After the last of the 50 tiles the running total of tile sums is the sum over all 100000 rows. -/
theorem tiles_total {M : Type} [AddCommMonoid M] (f : Fin 100000 → M) (a : (n : ℕ) → n < 50 → M)
    (h0 : ∀ h : 0 < 50, a 0 h = 0 + ∑ r : Fin 2000, f ⟨2000 * 0 + r.val, by have := r.isLt; omega⟩)
    (hs : ∀ n (h : n + 1 < 50), a (n + 1) h
      = a n (Nat.lt_of_succ_lt h) + ∑ r : Fin 2000, f ⟨2000 * (n + 1) + r.val, by have := r.isLt; omega⟩) :
    a 49 (by norm_num) = ∑ p : Fin 100000, f p := by
  rw [sum_tiles f]
  exact acc_eq_sum (fun n hn => ∑ r : Fin 2000, f ⟨2000 * n + r.val, by have := r.isLt; omega⟩) a h0 hs 49 (by norm_num)

end Cert.KernelIdeal.StatsMath
-- ==== Proof.KI.StatsVal0.lean ====
/-
  The statistics region's two output rows, as column sums over all 100000 rows.

  The region visits 50 tiles of 2000 rows. At each tile it forms `h = (agg + x) · W1 + b1` for the tile's rows and
  adds the tile's column sums of `h`, and of `h * h`, to two carried rows, which start at zero; after the last tile
  the carried rows are written to the two output rows. Read at an entry, each tile's `h` is the whole arrays' `h` at
  rows `2000 t … 2000 t + 1999`, so the output rows hold the sums over all rows. Addition of extended reals is a
  commutative monoid, which is all the regrouping needs.
-/
import proofs.«166406_j57140244906477_1_alg».proof.Proof.KI.Stats0
import proofs.«166406_j57140244906477_1_alg».proof.Proof.KI.K0Pay
import proofs.«166406_j57140244906477_1_alg».proof.Proof.KI.StatsMath
import proofs.«166406_j57140244906477_1_alg».proof.Proof.Spec
import Idealize.ShloMosaic.Lib.Pipeline.Value
import Idealize.ShloMosaic.Lib.ValueIdx

set_option maxRecDepth 16384

noncomputable section

namespace Cert.KernelIdeal.StatsVal0

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The statistics region's two output rows as column sums over all rows

The region's two output rows are written back once, at the last grid point, with what the two scratch rows hold then.
Each input block, read at an entry, is an entry of its whole array: the two feature arrays' block at point `t` is rows
`2000 t … 2000 t + 1999`, the weight and the bias row are the whole arrays at every point. So the scratch rows after
point `n` hold the sums over the rows of tiles `0 … n`, and after the last point the sums over all 100000 rows. -/

/-- The printed index maps, decided over the grid: the two feature windows' block index is the grid point on the row
    axis and zero on the column axis; the other windows' block indices are zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of tile `t` is a row of the array. -/
theorem row_lt (t : Fin cfg0.N) (r : Fin 2000) : 2000 * t.val + r.val < 100000 := by
  have h1 := t.isLt
  have hN : cfg0.N = 50 := N_0
  have h2 := r.isLt
  omega

/-- The aggregated features' block at point `t`, read at `(r, k)`, is the array at row `2000 t + r`. -/
theorem blk0_read (c : Dev nD) (t : Fin cfg0.N) (r : Fin 2000) (k : Fin 64) :
    iblk0 V c 0 t (ix2 r k) = V c (Pipeline.arrRef spec0 0) (ix2 ⟨2000 * t.val + r.val, row_lt t r⟩ k) := by
  obtain ⟨e0, e1, -⟩ := idx_facts t
  show V c (Pipeline.arrRef spec0 0) (((cfg0.win 0).blk t).view.emb (ix2 r k)) = _
  refine congrArg _ (funext fun a => Fin.ext ?_)
  match a with
  | ⟨0, _⟩ => show win0_0.index t (0 : Fin 2) * 2000 + 1 * r.val = 2000 * t.val + r.val; omega
  | ⟨1, _⟩ => show win0_0.index t (1 : Fin 2) * 64 + 1 * k.val = k.val; omega

/-- The own features' block at point `t`, read at `(r, k)`, is the array at row `2000 t + r`. -/
theorem blk1_read (c : Dev nD) (t : Fin cfg0.N) (r : Fin 2000) (k : Fin 64) :
    iblk0 V c 1 t (ix2 r k) = V c (Pipeline.arrRef spec0 1) (ix2 ⟨2000 * t.val + r.val, row_lt t r⟩ k) := by
  obtain ⟨-, -, e0, e1, -⟩ := idx_facts t
  show V c (Pipeline.arrRef spec0 1) (((cfg0.win 1).blk t).view.emb (ix2 r k)) = _
  refine congrArg _ (funext fun a => Fin.ext ?_)
  match a with
  | ⟨0, _⟩ => show win0_1.index t (0 : Fin 2) * 2000 + 1 * r.val = 2000 * t.val + r.val; omega
  | ⟨1, _⟩ => show win0_1.index t (1 : Fin 2) * 64 + 1 * k.val = k.val; omega

/-- The weight's block is the whole weight at every point. -/
theorem blk2_read (c : Dev nD) (t : Fin cfg0.N) (k q : Fin 64) :
    iblk0 V c 2 t (ix2 k q) = V c (Pipeline.arrRef spec0 2) (ix2 k q) := by
  obtain ⟨-, -, -, -, e0, e1, -⟩ := idx_facts t
  show V c (Pipeline.arrRef spec0 2) (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The bias row's block is the whole row at every point. -/
theorem blk3_read (c : Dev nD) (t : Fin cfg0.N) (q : Fin 64) :
    iblk0 V c 3 t (ix2 (0 : Fin 1) q) = V c (Pipeline.arrRef spec0 3) (ix2 (0 : Fin 1) q) := by
  obtain ⟨-, -, -, -, -, -, e0, e1, -⟩ := idx_facts t
  show V c (Pipeline.arrRef spec0 3) (((cfg0.win 3).blk t).view.emb (ix2 (0 : Fin 1) q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 64 + 1 * q.val = q.val; omega

/-- The layer's first linear map applied to aggregated-plus-own features, over the arrays as the region finds them. -/
def hMat (c : Dev nD) : Cert.Spec.Mat :=
  Cert.Spec.lin (Cert.Spec.toWt (V c (Pipeline.arrRef spec0 2))) (fun q => V c (Pipeline.arrRef spec0 3) (ix2 (0 : Fin 1) q))
    (fun p q => Cert.Spec.toMat (V c (Pipeline.arrRef spec0 0)) p q + Cert.Spec.toMat (V c (Pipeline.arrRef spec0 1)) p q)

/-- The tile's pre-normalisation value at row `r` is the whole-array value at row `2000 t + r`. -/
theorem pay3_tile (c : Dev nD) (t : Fin cfg0.N) (r : Fin 2000) (q : Fin 64) :
    k0_pay3 (F := Ideal) (iblk0 V c 0 t) (iblk0 V c 1 t) (iblk0 V c 2 t) (iblk0 V c 3 t) (ix2 r q)
      = hMat V c ⟨2000 * t.val + r.val, row_lt t r⟩ q := by
  refine (Cert.KernelIdeal.Pay.k0_pay3_apply _ _ _ _ r q).trans ?_
  simp only [blk0_read, blk1_read, blk2_read, blk3_read]
  rfl

/-- A point number below 50 is a grid point. -/
theorem lt_N {n : ℕ} (hn : n < 50) : n < cfg0.N := by
  have hN : cfg0.N = 50 := N_0
  omega

/-- After the first point the row of sums holds zero plus the first tile's column sums. -/
theorem sum_zero (c : Dev nD) (hn : 0 < cfg0.N) (q : Fin 64) :
    (acc0 V c 0 hn).1 (ix2 (0 : Fin 1) q)
      = 0 + ∑ r : Fin 2000, hMat V c ⟨2000 * 0 + r.val, by have := r.isLt; omega⟩ q := by
  show k0_pay4 (F := Ideal) (iblk0 V c 0 ⟨0, hn⟩) (iblk0 V c 1 ⟨0, hn⟩) (iblk0 V c 2 ⟨0, hn⟩) (iblk0 V c 3 ⟨0, hn⟩)
    (k0_pay1 (F := Ideal)) (ix2 (0 : Fin 1) q) = _
  refine (Cert.KernelIdeal.Pay.k0_pay4_apply _ _ _ _ _ q).trans ?_
  rw [Cert.KernelIdeal.Pay.k0_pay1_apply]
  exact congrArg (0 + ·) (Finset.sum_congr rfl fun r _ => pay3_tile V c ⟨0, hn⟩ r q)

/-- After a later point the row of sums holds what the point before left plus the tile's column sums. -/
theorem sum_succ (c : Dev nD) (n : ℕ) (hn : n + 1 < cfg0.N) (q : Fin 64) :
    (acc0 V c (n + 1) hn).1 (ix2 (0 : Fin 1) q)
      = (acc0 V c n (Nat.lt_of_succ_lt hn)).1 (ix2 (0 : Fin 1) q)
        + ∑ r : Fin 2000, hMat V c ⟨2000 * (n + 1) + r.val, row_lt ⟨n + 1, hn⟩ r⟩ q := by
  show k0_pay4 (F := Ideal) (iblk0 V c 0 ⟨n + 1, hn⟩) (iblk0 V c 1 ⟨n + 1, hn⟩) (iblk0 V c 2 ⟨n + 1, hn⟩)
    (iblk0 V c 3 ⟨n + 1, hn⟩) (acc0 V c n (Nat.lt_of_succ_lt hn)).1 (ix2 (0 : Fin 1) q) = _
  refine (Cert.KernelIdeal.Pay.k0_pay4_apply _ _ _ _ _ q).trans ?_
  exact congrArg ((acc0 V c n (Nat.lt_of_succ_lt hn)).1 (ix2 (0 : Fin 1) q) + ·)
    (Finset.sum_congr rfl fun r _ => pay3_tile V c ⟨n + 1, hn⟩ r q)

/-- After the first point the row of sums of squares holds zero plus the first tile's column sums of squares. -/
theorem sq_zero (c : Dev nD) (hn : 0 < cfg0.N) (q : Fin 64) :
    (acc0 V c 0 hn).2 (ix2 (0 : Fin 1) q)
      = 0 + ∑ r : Fin 2000, hMat V c ⟨2000 * 0 + r.val, by have := r.isLt; omega⟩ q
          * hMat V c ⟨2000 * 0 + r.val, by have := r.isLt; omega⟩ q := by
  show k0_pay5 (F := Ideal) (iblk0 V c 0 ⟨0, hn⟩) (iblk0 V c 1 ⟨0, hn⟩) (iblk0 V c 2 ⟨0, hn⟩) (iblk0 V c 3 ⟨0, hn⟩)
    (k0_pay2 (F := Ideal)) (ix2 (0 : Fin 1) q) = _
  refine (Cert.KernelIdeal.Pay.k0_pay5_apply _ _ _ _ _ q).trans ?_
  rw [Cert.KernelIdeal.Pay.k0_pay2_apply]
  exact congrArg (0 + ·) (Finset.sum_congr rfl fun r _ => by rw [pay3_tile V c ⟨0, hn⟩ r q])

/-- After a later point the row of sums of squares holds what the point before left plus the tile's. -/
theorem sq_succ (c : Dev nD) (n : ℕ) (hn : n + 1 < cfg0.N) (q : Fin 64) :
    (acc0 V c (n + 1) hn).2 (ix2 (0 : Fin 1) q)
      = (acc0 V c n (Nat.lt_of_succ_lt hn)).2 (ix2 (0 : Fin 1) q)
        + ∑ r : Fin 2000, hMat V c ⟨2000 * (n + 1) + r.val, row_lt ⟨n + 1, hn⟩ r⟩ q
            * hMat V c ⟨2000 * (n + 1) + r.val, row_lt ⟨n + 1, hn⟩ r⟩ q := by
  show k0_pay5 (F := Ideal) (iblk0 V c 0 ⟨n + 1, hn⟩) (iblk0 V c 1 ⟨n + 1, hn⟩) (iblk0 V c 2 ⟨n + 1, hn⟩)
    (iblk0 V c 3 ⟨n + 1, hn⟩) (acc0 V c n (Nat.lt_of_succ_lt hn)).2 (ix2 (0 : Fin 1) q) = _
  refine (Cert.KernelIdeal.Pay.k0_pay5_apply _ _ _ _ _ q).trans ?_
  exact congrArg ((acc0 V c n (Nat.lt_of_succ_lt hn)).2 (ix2 (0 : Fin 1) q) + ·)
    (Finset.sum_congr rfl fun r _ => by rw [pay3_tile V c ⟨n + 1, hn⟩ r q])

/-- After the last point the row of sums holds the column sums over all rows. -/
theorem sum_total (c : Dev nD) (q : Fin 64) :
    (acc0 V c 49 (lt_N (by norm_num))).1 (ix2 (0 : Fin 1) q) = ∑ p : Fin 100000, hMat V c p q :=
  Cert.KernelIdeal.StatsMath.tiles_total (fun p => hMat V c p q)
    (fun n hn => (acc0 V c n (lt_N hn)).1 (ix2 (0 : Fin 1) q))
    (fun h => sum_zero V c (lt_N h) q) (fun n h => sum_succ V c n (lt_N h) q)

/-- After the last point the row of sums of squares holds the column sums of squares over all rows. -/
theorem sq_total (c : Dev nD) (q : Fin 64) :
    (acc0 V c 49 (lt_N (by norm_num))).2 (ix2 (0 : Fin 1) q) = ∑ p : Fin 100000, hMat V c p q * hMat V c p q :=
  Cert.KernelIdeal.StatsMath.tiles_total (fun p => hMat V c p q * hMat V c p q)
    (fun n hn => (acc0 V c n (lt_N hn)).2 (ix2 (0 : Fin 1) q))
    (fun h => sq_zero V c (lt_N h) q) (fun n h => sq_succ V c n (lt_N h) q)

/-- An index of the output row is in point `t`'s block iff each coordinate is in the block's range on its axis. -/
theorem mem_blk4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v32_0).slice (win0_4.rect t)).set ↔ _
  rw [View.set_slice_whole, Rect.mem_set_unit]
  exact Iff.rfl

theorem mem_blk5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v32_1).slice (win0_5.rect t)).set ↔ _
  rw [View.set_slice_whole, Rect.mem_set_unit]
  exact Iff.rfl

/-- The last grid point. -/
abbrev tLast : Fin cfg0.N := ⟨49, lt_N (by norm_num)⟩

/-- The only point that writes the output rows back is the last one. -/
theorem eq_last_of_flush (t : Fin cfg0.N) (h : t.val % 50 = 49) : t = tLast := by
  have h1 := t.isLt
  have hN : cfg0.N = 50 := N_0
  exact Fin.ext (by show t.val = 49; omega)

/-- What the last point writes back to the first output row is the row of sums, as a block of itself. -/
theorem flushed4_eq (c : Dev nD) (t : Fin cfg0.N) (hf : (cfg0.win 4).flush t = true) :
    (dat0 V c).flushed 4 t = ((cfg0.win 4).blk t).view.read (Elt Ideal) (acc0 V c 49 (lt_N (by norm_num))).1 := by
  obtain rfl := eq_last_of_flush t ((flush0_4 t).mp hf)
  obtain ⟨-, -, -, -, -, -, -, -, e0, e1, -⟩ := idx_facts tLast
  show (cfg0.win 4).cut (grid0.coords tLast) ((dat0 V c).after 4 tLast) = _
  rw [after0_4]
  funext j
  show (acc0 V c 49 (lt_N (by norm_num))).1 j = (acc0 V c 49 (lt_N (by norm_num))).1 (((cfg0.win 4).blk tLast).view.emb j)
  refine congrArg _ (funext fun a => Fin.ext ?_)
  match a with
  | ⟨0, _⟩ => show (j 0).val = win0_4.index tLast (0 : Fin 2) * 1 + 1 * (j 0).val; omega
  | ⟨1, _⟩ => show (j 1).val = win0_4.index tLast (1 : Fin 2) * 64 + 1 * (j 1).val; omega

theorem flushed5_eq (c : Dev nD) (t : Fin cfg0.N) (hf : (cfg0.win 5).flush t = true) :
    (dat0 V c).flushed 5 t = ((cfg0.win 5).blk t).view.read (Elt Ideal) (acc0 V c 49 (lt_N (by norm_num))).2 := by
  obtain rfl := eq_last_of_flush t ((flush0_5 t).mp hf)
  obtain ⟨-, -, -, -, -, -, -, -, -, -, e0, e1⟩ := idx_facts tLast
  show (cfg0.win 5).cut (grid0.coords tLast) ((dat0 V c).after 5 tLast) = _
  rw [after0_5]
  funext j
  show (acc0 V c 49 (lt_N (by norm_num))).2 j = (acc0 V c 49 (lt_N (by norm_num))).2 (((cfg0.win 5).blk tLast).view.emb j)
  refine congrArg _ (funext fun a => Fin.ext ?_)
  match a with
  | ⟨0, _⟩ => show (j 0).val = win0_5.index tLast (0 : Fin 2) * 1 + 1 * (j 0).val; omega
  | ⟨1, _⟩ => show (j 1).val = win0_5.index tLast (1 : Fin 2) * 64 + 1 * (j 1).val; omega

/-- Every index of the first output row is in the last point's block. -/
theorem cover4 (i : S1x64.Idx) : ∃ t : Fin cfg0.N, (cfg0.win 4).flush t = true ∧ i ∈ ((cfg0.win 4).blk t).view.set := by
  refine ⟨tLast, (flush0_4 tLast).mpr (by decide), ?_⟩
  obtain ⟨-, -, -, -, -, -, -, -, e0, e1, -⟩ := idx_facts tLast
  rw [mem_blk4]
  intro a
  match a with
  | ⟨0, _⟩ =>
    show win0_4.index tLast (0 : Fin 2) * 1 ≤ (i 0).val ∧ (i 0).val < win0_4.index tLast (0 : Fin 2) * 1 + 1
    have hi : (i 0).val < 1 := (i 0).isLt
    omega
  | ⟨1, _⟩ =>
    show win0_4.index tLast (1 : Fin 2) * 64 ≤ (i 1).val ∧ (i 1).val < win0_4.index tLast (1 : Fin 2) * 64 + 64
    have hi : (i 1).val < 64 := (i 1).isLt
    omega

theorem cover5 (i : S1x64.Idx) : ∃ t : Fin cfg0.N, (cfg0.win 5).flush t = true ∧ i ∈ ((cfg0.win 5).blk t).view.set := by
  refine ⟨tLast, (flush0_5 tLast).mpr (by decide), ?_⟩
  obtain ⟨-, -, -, -, -, -, -, -, -, -, e0, e1⟩ := idx_facts tLast
  rw [mem_blk5]
  intro a
  match a with
  | ⟨0, _⟩ =>
    show win0_5.index tLast (0 : Fin 2) * 1 ≤ (i 0).val ∧ (i 0).val < win0_5.index tLast (0 : Fin 2) * 1 + 1
    have hi : (i 0).val < 1 := (i 0).isLt
    omega
  | ⟨1, _⟩ =>
    show win0_5.index tLast (1 : Fin 2) * 64 ≤ (i 1).val ∧ (i 1).val < win0_5.index tLast (1 : Fin 2) * 64 + 64
    have hi : (i 1).val < 64 := (i 1).isLt
    omega

/-- After the region the first output row is the row of sums after the last point. -/
theorem arr4_eq (c : Dev nD) : (dat0 V c).arrAt 4 cfg0.N = (acc0 V c 49 (lt_N (by norm_num))).1 :=
  (dat0 V c).arrAt_eq_of_cover 4 _ (fun t hf => flushed4_eq V c t hf) cover4

/-- After the region the second output row is the row of sums of squares after the last point. -/
theorem arr5_eq (c : Dev nD) : (dat0 V c).arrAt 5 cfg0.N = (acc0 V c 49 (lt_N (by norm_num))).2 :=
  (dat0 V c).arrAt_eq_of_cover 5 _ (fun t hf => flushed5_eq V c t hf) cover5

/-- THE FIRST OUTPUT ROW after the region: the column sums, over all 100000 rows, of the layer's first linear map. -/
theorem stats_sum (c : Dev nD) (q : Fin 64) :
    (dat0 V c).arrAt 4 cfg0.N (ix2 (0 : Fin 1) q) = ∑ p : Fin 100000, hMat V c p q :=
  (congrFun (arr4_eq V c) (ix2 (0 : Fin 1) q)).trans (sum_total V c q)

/-- THE SECOND OUTPUT ROW after the region: the column sums of its squares. -/
theorem stats_sq (c : Dev nD) (q : Fin 64) :
    (dat0 V c).arrAt 5 cfg0.N (ix2 (0 : Fin 1) q) = ∑ p : Fin 100000, hMat V c p q * hMat V c p q :=
  (congrFun (arr5_eq V c) (ix2 (0 : Fin 1) q)).trans (sq_total V c q)

/-- The same over named arrays: with `X0`, `X1`, `Wm`, `B` the aggregated features, the own features, the weight and
    the bias row as the region finds them. -/
theorem stats_sum0 (c : Dev nD) (X0 X1 : S100000x64.Idx → EReal) (Wm : S64x64.Idx → EReal) (B : S1x64.Idx → EReal)
    (h0 : X0 = V c (Pipeline.arrRef spec0 0)) (h1 : X1 = V c (Pipeline.arrRef spec0 1))
    (h2 : Wm = V c (Pipeline.arrRef spec0 2)) (h3 : B = V c (Pipeline.arrRef spec0 3)) (q : Fin 64) :
    (dat0 V c).arrAt 4 cfg0.N (ix2 (0 : Fin 1) q)
      = ∑ p : Fin 100000, Cert.Spec.lin (Cert.Spec.toWt Wm) (fun q => B (ix2 (0 : Fin 1) q))
          (fun p q => Cert.Spec.toMat X0 p q + Cert.Spec.toMat X1 p q) p q := by
  subst h0 h1 h2 h3
  exact stats_sum V c q

theorem stats_sq0 (c : Dev nD) (X0 X1 : S100000x64.Idx → EReal) (Wm : S64x64.Idx → EReal) (B : S1x64.Idx → EReal)
    (h0 : X0 = V c (Pipeline.arrRef spec0 0)) (h1 : X1 = V c (Pipeline.arrRef spec0 1))
    (h2 : Wm = V c (Pipeline.arrRef spec0 2)) (h3 : B = V c (Pipeline.arrRef spec0 3)) (q : Fin 64) :
    (dat0 V c).arrAt 5 cfg0.N (ix2 (0 : Fin 1) q)
      = ∑ p : Fin 100000, Cert.Spec.lin (Cert.Spec.toWt Wm) (fun q => B (ix2 (0 : Fin 1) q))
            (fun p q => Cert.Spec.toMat X0 p q + Cert.Spec.toMat X1 p q) p q
          * Cert.Spec.lin (Cert.Spec.toWt Wm) (fun q => B (ix2 (0 : Fin 1) q))
            (fun p q => Cert.Spec.toMat X0 p q + Cert.Spec.toMat X1 p q) p q := by
  subst h0 h1 h2 h3
  exact stats_sq V c q

end Cert.KernelIdeal.StatsVal0
end
-- ==== Proof.KI.Layer1Val.lean ====
/-
  The kernel program's value, layer 1: walking the buffers' contents from one segment boundary to the next.

  At the statistics kernel's entry the host has left the aggregation of the layer's input and the layer's slices of the
  parameter arrays; the statistics kernel leaves the two rows of column sums of the first linear map; the host turns
  them into the batch mean and the kernel's variance; the apply kernel writes the layer from these. Buffers nothing in
  between writes are read where they were left.
-/
import proofs.«166406_j57140244906477_1_alg».proof.Proof.KI.Run
import proofs.«166406_j57140244906477_1_alg».proof.Proof.KI.Keep
import proofs.«166406_j57140244906477_1_alg».proof.Proof.KI.HostRead
import proofs.«166406_j57140244906477_1_alg».proof.Proof.KI.LayerParts
import proofs.«166406_j57140244906477_1_alg».proof.Proof.KI.ApplyVal1
import proofs.«166406_j57140244906477_1_alg».proof.Proof.KI.StatsVal0

set_option maxRecDepth 16384

noncomputable section

namespace Cert.KernelIdeal.Walk

open Cert.KernelIdeal Cert.KernelIdeal.Gen Cert.KernelIdeal.Fr Cert.KernelIdeal.Keep Cert.KernelIdeal.HostRead Cert.KernelIdeal.Parts
open Cert.ApplyFn
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-! ## The specification's inputs, read off the launch contents -/

/-- The edge aggregation with the launch's edge array and edge weights. -/
abbrev aggOp : Cert.Spec.Mat → Cert.Spec.Mat :=
  Cert.Spec.agg (Cert.Spec.srcOf (W0 m ρ c (Proc.devRef .tc main_arg1))) (Cert.Spec.dstOf (W0 m ρ c (Proc.devRef .tc main_arg1)))
    (Cert.Spec.eaOf (W0 m ρ c (Proc.devRef .tc main_arg2)))
/-- The launch's node features. -/
abbrev x0 : Cert.Spec.Mat := Cert.Spec.toMat (W0 m ρ c (Proc.devRef .tc main_arg0))
/-- The layers' parameters. -/
abbrev pW1 (l : Fin 3) : Cert.Spec.Wt := Cert.Spec.wtOf (W0 m ρ c (Proc.devRef .tc main_arg3)) l
abbrev pb1 (l : Fin 3) : Cert.Spec.Row := Cert.Spec.rowOf (W0 m ρ c (Proc.devRef .tc main_arg4)) l
abbrev pg (l : Fin 3) : Cert.Spec.Row := Cert.Spec.rowOf (W0 m ρ c (Proc.devRef .tc main_arg5)) l
abbrev pbe (l : Fin 3) : Cert.Spec.Row := Cert.Spec.rowOf (W0 m ρ c (Proc.devRef .tc main_arg6)) l
abbrev pW2 (l : Fin 3) : Cert.Spec.Wt := Cert.Spec.wtOf (W0 m ρ c (Proc.devRef .tc main_arg7)) l
abbrev pb2 (l : Fin 3) : Cert.Spec.Row := Cert.Spec.rowOf (W0 m ρ c (Proc.devRef .tc main_arg8)) l
/-- The features after one, two and three layers. -/
def x1 : Cert.Spec.Mat := Cert.Spec.layerWith Cert.Spec.varK (aggOp m ρ c) (x0 m ρ c) (pW1 m ρ c 0) (pb1 m ρ c 0) (pg m ρ c 0) (pbe m ρ c 0) (pW2 m ρ c 0) (pb2 m ρ c 0)
def x2 : Cert.Spec.Mat := Cert.Spec.layerWith Cert.Spec.varK (aggOp m ρ c) (x1 m ρ c) (pW1 m ρ c 1) (pb1 m ρ c 1) (pg m ρ c 1) (pbe m ρ c 1) (pW2 m ρ c 1) (pb2 m ρ c 1)
def x3 : Cert.Spec.Mat := Cert.Spec.layerWith Cert.Spec.varK (aggOp m ρ c) (x2 m ρ c) (pW1 m ρ c 2) (pb1 m ρ c 2) (pg m ρ c 2) (pbe m ρ c 2) (pW2 m ρ c 2) (pb2 m ρ c 2)

/-! ## The first layer -/

/-- At the statistics kernel's entry the aggregation buffer reads as the aggregation of the layer's input. -/
theorem in0_agg : Cert.Spec.toMat (W1 m ρ c (Proc.devRef .tc main_v15)) = aggOp m ρ c (x0 m ρ c) := ops0_agg (W0 m ρ c)

/-- The layer's input. -/
theorem in0_x : Cert.Spec.toMat (W1 m ρ c (Proc.devRef .tc main_arg0)) = x0 m ρ c := by
  rw [keep_arg0_1_0 m ρ c]

theorem in0_W1 : Cert.Spec.toWt (W1 m ρ c (Proc.devRef .tc main_v17)) = pW1 m ρ c 0 := ops0_W1 (W0 m ρ c)

theorem in0_b1 : rowv (W1 m ρ c (Proc.devRef .tc main_v20)) = pb1 m ρ c 0 := funext fun q => ops0_b1 (W0 m ρ c) 0 q

theorem in0_W2 : Cert.Spec.toWt (W1 m ρ c (Proc.devRef .tc main_v22)) = pW2 m ρ c 0 := ops0_W2 (W0 m ρ c)

theorem in0_b2 : rowv (W1 m ρ c (Proc.devRef .tc main_v25)) = pb2 m ρ c 0 := funext fun q => ops0_b2 (W0 m ρ c) 0 q

theorem in0_gamma : rowv (W1 m ρ c (Proc.devRef .tc main_v28)) = pg m ρ c 0 := funext fun q => ops0_gamma (W0 m ρ c) 0 q

theorem in0_beta : rowv (W1 m ρ c (Proc.devRef .tc main_v31)) = pbe m ρ c 0 := funext fun q => ops0_beta (W0 m ρ c) 0 q

/-- What the statistics kernel sums: the layer's first linear map of aggregated-plus-own features. -/
theorem hmat0 : Cert.KernelIdeal.StatsVal0.hMat (V1 m ρ) c = Cert.Spec.pre (aggOp m ρ c) (x0 m ρ c) (pW1 m ρ c 0) (pb1 m ρ c 0) :=
  pre_of_parts _ _ _ _ _ _ _ _ (in0_agg m ρ c) (in0_x m ρ c) (in0_W1 m ρ c) (in0_b1 m ρ c)

/-- After the statistics kernel the first output row holds the column sums. -/
theorem sum0 (q : Fin 64) : W2 m ρ c (Proc.devRef .tc main_v32_0) (ix2 (0 : Fin 1) q) = ∑ p : Fin 100000, Cert.Spec.pre (aggOp m ρ c) (x0 m ρ c) (pW1 m ρ c 0) (pb1 m ρ c 0) p q :=
  (congrFun (W2_arr m ρ c 4) (ix2 (0 : Fin 1) q)).trans
    ((Cert.KernelIdeal.StatsVal0.stats_sum (V1 m ρ) c q).trans (by rw [hmat0 m ρ c]))

/-- And the second the column sums of squares. -/
theorem sq0 (q : Fin 64) : W2 m ρ c (Proc.devRef .tc main_v32_1) (ix2 (0 : Fin 1) q) = ∑ p : Fin 100000, Cert.Spec.pre (aggOp m ρ c) (x0 m ρ c) (pW1 m ρ c 0) (pb1 m ρ c 0) p q * Cert.Spec.pre (aggOp m ρ c) (x0 m ρ c) (pW1 m ρ c 0) (pb1 m ρ c 0) p q :=
  (congrFun (W2_arr m ρ c 5) (ix2 (0 : Fin 1) q)).trans
    ((Cert.KernelIdeal.StatsVal0.stats_sq (V1 m ρ) c q).trans (by rw [hmat0 m ρ c]))

/-- The host's mean row is the batch mean. -/
theorem mean0 : rowv (W3 m ρ c (Proc.devRef .tc main_v34)) = Cert.Spec.mean (Cert.Spec.pre (aggOp m ρ c) (x0 m ρ c) (pW1 m ρ c 0) (pb1 m ρ c 0)) :=
  mean_of_sum _ _ _ (sum0 m ρ c) (fun j => ops1_mean (W2 m ρ c) j)

/-- The host's variance row is the kernel's variance. -/
theorem var0 : rowv (W3 m ρ c (Proc.devRef .tc main_v38)) = Cert.Spec.varK (Cert.Spec.pre (aggOp m ρ c) (x0 m ρ c) (pW1 m ρ c 0) (pb1 m ρ c 0)) :=
  varK_of_sums _ _ _ _ (sum0 m ρ c) (sq0 m ρ c) (fun j => ops1_var (W2 m ρ c) j)

/-- LAYER 1: after the apply kernel its output buffer reads as the specification's layer of the layer's input. -/
theorem layer1 : Cert.Spec.toMat (W4 m ρ c (Proc.devRef .tc main_v39)) = x1 m ρ c := by
  have hA : Cert.Spec.toMat (W3 m ρ c (Proc.devRef .tc main_v15)) = aggOp m ρ c (x0 m ρ c) := by
    rw [keep_v15_3_1 m ρ c]; exact in0_agg m ρ c
  have hX : Cert.Spec.toMat (W3 m ρ c (Proc.devRef .tc main_arg0)) = x0 m ρ c := by
    rw [keep_arg0_3_0 m ρ c]
  have hW1 : Cert.Spec.toWt (W3 m ρ c (Proc.devRef .tc main_v17)) = pW1 m ρ c 0 := by
    rw [keep_v17_3_1 m ρ c]; exact in0_W1 m ρ c
  have hb1 : rowv (W3 m ρ c (Proc.devRef .tc main_v20)) = pb1 m ρ c 0 := by
    rw [keep_v20_3_1 m ρ c]; exact in0_b1 m ρ c
  have hg : rowv (W3 m ρ c (Proc.devRef .tc main_v28)) = pg m ρ c 0 := by
    rw [keep_v28_3_1 m ρ c]; exact in0_gamma m ρ c
  have hbe : rowv (W3 m ρ c (Proc.devRef .tc main_v31)) = pbe m ρ c 0 := by
    rw [keep_v31_3_1 m ρ c]; exact in0_beta m ρ c
  have hW2 : Cert.Spec.toWt (W3 m ρ c (Proc.devRef .tc main_v22)) = pW2 m ρ c 0 := by
    rw [keep_v22_3_1 m ρ c]; exact in0_W2 m ρ c
  have hb2 : rowv (W3 m ρ c (Proc.devRef .tc main_v25)) = pb2 m ρ c 0 := by
    rw [keep_v25_3_1 m ρ c]; exact in0_b2 m ρ c
  have e : W4 m ρ c (Proc.devRef .tc main_v39) = _ := (W4_arr m ρ c 10).trans (arrAt1_10 (V3 m ρ) c)
  rw [e]
  unfold x1
  exact layer_of_parts (aggOp m ρ c) (x0 m ρ c) (pW1 m ρ c 0) (pb1 m ρ c 0) (pg m ρ c 0) (pbe m ρ c 0) (pW2 m ρ c 0) (pb2 m ρ c 0)
    _ _ _ _ _ _ _ _ _ _ hA hX hW1 hb1 (mean0 m ρ c) (var0 m ρ c) hg hbe hW2 hb2

end Cert.KernelIdeal.Walk

end
-- ==== Proof.KI.HostRead2.lean ====
/-
  What the host stretches around the second layer's two kernels write, read at an entry, from any valuation of the
  buffers: the edge aggregation of the first layer's output, slice 1 of every parameter array, and the batch mean and
  variance from the two rows of sums.
-/
import proofs.«166406_j57140244906477_1_alg».proof.Proof.KI.HostRead

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.ShloMosaic.StableHlo

variable (V : Valuation τ sig (Elt Ideal))

/-! ## The host stretch before layer 2's statistics kernel -/

/-- The aggregated features of layer 2's input, from the vectors of source and target row numbers the first host
    stretch left. -/
theorem ops2_agg :
    Cert.Spec.toMat (StableHlo.after (hostOps2 (F := Ideal)) V (Proc.devRef .tc main_v51))
      = Cert.Spec.agg (fun e => V (Proc.devRef .tc main_v1) (ix1 e)) (fun e => V (Proc.devRef .tc main_v3) (ix1 e))
          (Cert.Spec.eaOf (V (Proc.devRef .tc main_arg2))) (Cert.Spec.toMat (V (Proc.devRef .tc main_v39))) := by
  have e := (show StableHlo.after (hostOps2 (F := Ideal)) V (Proc.devRef .tc main_v51) = _ by after_results)
  rw [e]
  exact Cert.AggRead.agg_read_vec gather_S100000x64_S1600000x1_S1600000x64_1_0_n_n_0_1_164 rfl rfl rfl rfl rfl rfl rfl
    scatter_S100000x64_S1600000x1_S1600000x64_1_0_0_1 rfl rfl rfl rfl
    Facts₀.bcast_S_S1600000 Facts₀.bcast_S1600000_S1600000x1_0 Facts₀.bcast_S1600000x1_S1600000x64_0_1 Facts₀.bcast_S_S100000x64
    (V (Proc.devRef .tc main_v1)) (V (Proc.devRef .tc main_v3)) (V (Proc.devRef .tc main_arg2)) (V (Proc.devRef .tc main_v39))

/-- Layer 2's first weight matrix. -/
theorem ops2_W1 :
    Cert.Spec.toWt (StableHlo.after (hostOps2 (F := Ideal)) V (Proc.devRef .tc main_v53))
      = Cert.Spec.wtOf (V (Proc.devRef .tc main_arg3)) 1 := by
  funext k q
  refine Eq.trans ?_ (wslice_apply 1 Facts₀.slices_S3x64x64_S1x64x64_1_0_0 Facts₀.shapeCasts_S1x64x64_S64x64 (V (Proc.devRef .tc main_arg3)) k q)
  refine congrFun ?_ (ix2 k q)
  after_results
  rfl

/-- Layer 2's first bias row. -/
theorem ops2_b1 (u : Fin 1) (q : Fin 64) :
    StableHlo.after (hostOps2 (F := Ideal)) V (Proc.devRef .tc main_v56) (ix2 u q)
      = Cert.Spec.rowOf (V (Proc.devRef .tc main_arg4)) 1 q := by
  refine Eq.trans ?_ (rslice_apply 1 Facts₀.slices_S3x64_S1x64_1_0 Facts₀.shapeCasts_S1x64_S64 Facts₀.shapeCasts_S64_S1x64 (V (Proc.devRef .tc main_arg4)) u q)
  refine congrFun ?_ (ix2 u q)
  after_results
  rfl

/-- Layer 2's second weight matrix. -/
theorem ops2_W2 :
    Cert.Spec.toWt (StableHlo.after (hostOps2 (F := Ideal)) V (Proc.devRef .tc main_v58))
      = Cert.Spec.wtOf (V (Proc.devRef .tc main_arg7)) 1 := by
  funext k q
  refine Eq.trans ?_ (wslice_apply 1 Facts₀.slices_S3x64x64_S1x64x64_1_0_0 Facts₀.shapeCasts_S1x64x64_S64x64 (V (Proc.devRef .tc main_arg7)) k q)
  refine congrFun ?_ (ix2 k q)
  after_results
  rfl

/-- Layer 2's second bias row. -/
theorem ops2_b2 (u : Fin 1) (q : Fin 64) :
    StableHlo.after (hostOps2 (F := Ideal)) V (Proc.devRef .tc main_v61) (ix2 u q)
      = Cert.Spec.rowOf (V (Proc.devRef .tc main_arg8)) 1 q := by
  refine Eq.trans ?_ (rslice_apply 1 Facts₀.slices_S3x64_S1x64_1_0 Facts₀.shapeCasts_S1x64_S64 Facts₀.shapeCasts_S64_S1x64 (V (Proc.devRef .tc main_arg8)) u q)
  refine congrFun ?_ (ix2 u q)
  after_results
  rfl

/-- Layer 2's scale row. -/
theorem ops2_gamma (u : Fin 1) (q : Fin 64) :
    StableHlo.after (hostOps2 (F := Ideal)) V (Proc.devRef .tc main_v64) (ix2 u q)
      = Cert.Spec.rowOf (V (Proc.devRef .tc main_arg5)) 1 q := by
  refine Eq.trans ?_ (rslice_apply 1 Facts₀.slices_S3x64_S1x64_1_0 Facts₀.shapeCasts_S1x64_S64 Facts₀.shapeCasts_S64_S1x64 (V (Proc.devRef .tc main_arg5)) u q)
  refine congrFun ?_ (ix2 u q)
  after_results
  rfl

/-- Layer 2's shift row. -/
theorem ops2_beta (u : Fin 1) (q : Fin 64) :
    StableHlo.after (hostOps2 (F := Ideal)) V (Proc.devRef .tc main_v67) (ix2 u q)
      = Cert.Spec.rowOf (V (Proc.devRef .tc main_arg6)) 1 q := by
  refine Eq.trans ?_ (rslice_apply 1 Facts₀.slices_S3x64_S1x64_1_0 Facts₀.shapeCasts_S1x64_S64 Facts₀.shapeCasts_S64_S1x64 (V (Proc.devRef .tc main_arg6)) u q)
  refine congrFun ?_ (ix2 u q)
  after_results
  rfl

/-! ## The host stretch between layer 2's two kernels -/

/-- The batch mean: the row of sums divided by the literal 100000. -/
theorem ops3_mean (j : (⟨2, ![1, 64]⟩ : Shape).Idx) :
    StableHlo.after (hostOps3 (F := Ideal)) V (Proc.devRef .tc main_v70) j
      = Ideal.div (V (Proc.devRef .tc main_v68_0) j) Cert.Spec.cN := by
  refine Eq.trans (congrFun (show StableHlo.after (hostOps3 (F := Ideal)) V (Proc.devRef .tc main_v70) = _ by after_results) j) ?_
  rfl

/-- The batch variance: the row of sums of squares divided by the literal 100000, minus the square of the mean. -/
theorem ops3_var (j : (⟨2, ![1, 64]⟩ : Shape).Idx) :
    StableHlo.after (hostOps3 (F := Ideal)) V (Proc.devRef .tc main_v74) j
      = Ideal.div (V (Proc.devRef .tc main_v68_1) j) Cert.Spec.cN
        - Ideal.div (V (Proc.devRef .tc main_v68_0) j) Cert.Spec.cN * Ideal.div (V (Proc.devRef .tc main_v68_0) j) Cert.Spec.cN := by
  refine Eq.trans (congrFun (show StableHlo.after (hostOps3 (F := Ideal)) V (Proc.devRef .tc main_v74) = _ by after_results) j) ?_
  rfl

end Cert.KernelIdeal.HostRead

end
-- ==== Proof.KI.ApplyPay3.lean ====
/-
  The apply kernel's payloads of custom_call 3, read at an index, at the ideal values: the truncations to bf16 are the
  identity there, each matrix product into the zero accumulator is the plain finite sum, and a [1, 64] row broadcast
  over the 2000 rows of a tile reads the row's entry.
-/
import proofs.«166406_j57140244906477_1_alg».proof.Proof.Gen.KernelIdeal.Skeleton
import proofs.«166406_j57140244906477_1_alg».proof.Proof.LibPlainDot
import proofs.«166406_j57140244906477_1_alg».proof.Proof.KI.ApplyFn
import Idealize.ShloMosaic.Lib.Pipeline.Value
import Idealize.ShloMosaic.Lib.ValueLayout

noncomputable section

namespace Cert.KernelIdeal.Fr

open Cert.KernelIdeal Cert.KernelIdeal.Gen Cert.ApplyFn
open Idealize.ShloMosaic Idealize.ShloMosaic.ValueIdx
open scoped BigOperators

/-- The first linear map, the normalisation and the rectifier, at row `r` of the tile and column `k`. -/
theorem pay3_2_apply (x0 x1 : Vec Ideal S2000x64 .f32) (x2 : Vec Ideal S64x64 .f32) (x3 x5 x4 x6 x7 : Vec Ideal S1x64 .f32)
    (r : Fin 2000) (k : Fin 64) :
    k3_pay2 (F := Ideal) x0 x1 x2 x3 x5 x4 x6 x7 (ix2 r k)
      = max (((((∑ j : Fin 64, (x0 (ix2 r j) + x1 (ix2 r j)) * x2 (ix2 j k)) + x3 (ix2 (0 : Fin 1) k)) - x4 (ix2 (0 : Fin 1) k))
          * Ideal.rsqrt (x5 (ix2 (0 : Fin 1) k) + Cert.Spec.cEps)) * x6 (ix2 (0 : Fin 1) k) + x7 (ix2 (0 : Fin 1) k)) 0 := by
  unfold k3_pay2
  simp only [shapeCast_self]
  rw [truncf_apply, maximumf_apply, addf_apply, mulf_apply, mulf_apply, subf_apply, addf_apply, broadcast_apply]
  simp only [broadcastTo_1b_ab_apply, rsqrt_apply, addf_apply, broadcast_apply]
  simp only [matmul]
  rw [show dot_S2000x64_S64x64_S2000x64_1_0_0_1_n_n = DotDims.plain 2000 64 64 from rfl, Cert.Lib.PlainDot.matmul_zero_apply]
  simp only [truncf_apply, addf_apply, Ideal.ofBits_def, Ideal.ofBits_zero_f32]
  rfl

/-- The second weight matrix as the product reads it. -/
theorem pay3_3_apply (x8 : Vec Ideal S64x64 .f32) (k q : Fin 64) : k3_pay3 (F := Ideal) x8 (ix2 k q) = x8 (ix2 k q) := by
  unfold k3_pay3
  simp only [shapeCast_self]

/-- The second linear map and the rectifier, at row `r` of the tile and column `q`. -/
theorem pay3_1_apply (a : FVec Ideal S2000x64 .bf16) (b : FVec Ideal S64x64 .f32) (x9 : Vec Ideal S1x64 .f32) (r : Fin 2000) (q : Fin 64) :
    k3_pay1 (F := Ideal) a b x9 (ix2 r q) = max ((∑ k : Fin 64, a (ix2 r k) * b (ix2 k q)) + x9 (ix2 (0 : Fin 1) q)) 0 := by
  unfold k3_pay1
  simp only [shapeCast_self]
  rw [maximumf_apply, addf_apply, broadcast_apply]
  simp only [broadcastTo_1b_ab_apply]
  simp only [matmul]
  rw [show dot_S2000x64_S64x64_S2000x64_1_0_0_1_n_n = DotDims.plain 2000 64 64 from rfl, Cert.Lib.PlainDot.matmul_zero_apply]
  simp only [truncf_apply, Ideal.ofBits_def, Ideal.ofBits_zero_f32]

/-- The whole body's stored value at row `r` of the tile and column `q`, from the ten buffers it reads. -/
theorem pay3_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    k3_pay1 (F := Ideal) (k3_pay2 x0 x1 x2 x3 x5 x4 x6 x7) (k3_pay3 x8) x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  rw [pay3_1_apply]
  simp only [pay3_2_apply, pay3_3_apply]

end Cert.KernelIdeal.Fr

end
-- ==== Proof.KI.ApplyVal3.lean ====
/-
  What the apply pass of custom_call 3 leaves in its output array, at the ideal values: the array the pipeline's
  write-backs leave is, index by index, the apply function of the ten arrays the pass reads as the region finds them.

  Point `t` of the 50 reads rows `2000 t … 2000 t + 1999` of the aggregated and the node features and the whole of the
  eight small arrays, and writes back the same rows of the result; the 50 row tiles cover the [100000, 64] array.
-/
import proofs.«166406_j57140244906477_1_alg».proof.Proof.KI.Apply3
import proofs.«166406_j57140244906477_1_alg».proof.Proof.KI.ApplyPay3
import Idealize.ShloMosaic.Lib.Pipeline.Value

noncomputable section

namespace Cert.KernelIdeal.Fr

open Cert.KernelIdeal Cert.KernelIdeal.Gen Cert.ApplyFn
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits -/

/-- The printed index maps, decided over the grid: the two feature windows and the output move one row tile per
    point; the eight small windows stay at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_10.index t (0 : Fin 2) = t.val ∧ win3_10.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

/-- Row `r` of tile `t` is a row of the array. -/
theorem rowLt3 (t : Fin cfg3.N) (r : Fin 2000) : 2000 * t.val + r.val < 100000 := by
  have := t.isLt; have hN : cfg3.N = 50 := N_3; omega

/-- Window 0's block at point `t`: element `(r, j)` of the block is element `(2000 t + r, j)` of the array. -/
theorem emb3_0 (t : Fin cfg3.N) (r : Fin 2000) (j : Fin 64) :
    ((cfg3.win 0).blk t).view.emb (ix2 r j) = (ix2 ⟨2000 * t.val + r.val, rowLt3 t r⟩ j : S100000x64.Idx) := by
  obtain ⟨e0, e1, -⟩ := idx3 t
  funext a; apply Fin.ext
  match a with
  | ⟨0, _⟩ => show win3_0.index t (0 : Fin 2) * 2000 + 1 * r.val = 2000 * t.val + r.val; omega
  | ⟨1, _⟩ => show win3_0.index t (1 : Fin 2) * 64 + 1 * j.val = j.val; omega

/-- Window 1's block at point `t`: element `(r, j)` of the block is element `(2000 t + r, j)` of the array. -/
theorem emb3_1 (t : Fin cfg3.N) (r : Fin 2000) (j : Fin 64) :
    ((cfg3.win 1).blk t).view.emb (ix2 r j) = (ix2 ⟨2000 * t.val + r.val, rowLt3 t r⟩ j : S100000x64.Idx) := by
  obtain ⟨-, -, e0, e1, -⟩ := idx3 t
  funext a; apply Fin.ext
  match a with
  | ⟨0, _⟩ => show win3_1.index t (0 : Fin 2) * 2000 + 1 * r.val = 2000 * t.val + r.val; omega
  | ⟨1, _⟩ => show win3_1.index t (1 : Fin 2) * 64 + 1 * j.val = j.val; omega

/-- Window 10's block at point `t`: element `(r, j)` of the block is element `(2000 t + r, j)` of the array. -/
theorem emb3_10 (t : Fin cfg3.N) (r : Fin 2000) (j : Fin 64) :
    ((cfg3.win 10).blk t).view.emb (ix2 r j) = (ix2 ⟨2000 * t.val + r.val, rowLt3 t r⟩ j : S100000x64.Idx) := by
  obtain ⟨-, -, -, -, e0, e1, -⟩ := idx3 t
  funext a; apply Fin.ext
  match a with
  | ⟨0, _⟩ => show win3_10.index t (0 : Fin 2) * 2000 + 1 * r.val = 2000 * t.val + r.val; omega
  | ⟨1, _⟩ => show win3_10.index t (1 : Fin 2) * 64 + 1 * j.val = j.val; omega

/-- Window 2's block is its whole array, at every point. -/
theorem emb3_2 (t : Fin cfg3.N) (y : S64x64.Idx) : ((cfg3.win 2).blk t).view.emb y = y := by
  obtain ⟨-, -, -, -, -, -, e0, e1, -⟩ := idx3 t
  funext a; apply Fin.ext
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- Window 3's block is its whole array, at every point. -/
theorem emb3_3 (t : Fin cfg3.N) (y : S1x64.Idx) : ((cfg3.win 3).blk t).view.emb y = y := by
  obtain ⟨-, -, -, -, -, -, -, -, e0, e1, -⟩ := idx3 t
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4's block is its whole array, at every point. -/
theorem emb3_4 (t : Fin cfg3.N) (y : S1x64.Idx) : ((cfg3.win 4).blk t).view.emb y = y := by
  obtain ⟨-, -, -, -, -, -, -, -, -, -, e0, e1, -⟩ := idx3 t
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block is its whole array, at every point. -/
theorem emb3_5 (t : Fin cfg3.N) (y : S1x64.Idx) : ((cfg3.win 5).blk t).view.emb y = y := by
  obtain ⟨-, -, -, -, -, -, -, -, -, -, -, -, e0, e1, -⟩ := idx3 t
  funext a; apply Fin.ext
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- Window 6's block is its whole array, at every point. -/
theorem emb3_6 (t : Fin cfg3.N) (y : S1x64.Idx) : ((cfg3.win 6).blk t).view.emb y = y := by
  obtain ⟨-, -, -, -, -, -, -, -, -, -, -, -, -, -, e0, e1, -⟩ := idx3 t
  funext a; apply Fin.ext
  match a with
  | ⟨0, _⟩ => show win3_6.index t (0 : Fin 2) * 1 + 1 * (y 0).val = (y 0).val; omega
  | ⟨1, _⟩ => show win3_6.index t (1 : Fin 2) * 64 + 1 * (y 1).val = (y 1).val; omega

/-- Window 7's block is its whole array, at every point. -/
theorem emb3_7 (t : Fin cfg3.N) (y : S1x64.Idx) : ((cfg3.win 7).blk t).view.emb y = y := by
  obtain ⟨-, -, -, -, -, -, -, -, -, -, -, -, -, -, -, -, e0, e1, -⟩ := idx3 t
  funext a; apply Fin.ext
  match a with
  | ⟨0, _⟩ => show win3_7.index t (0 : Fin 2) * 1 + 1 * (y 0).val = (y 0).val; omega
  | ⟨1, _⟩ => show win3_7.index t (1 : Fin 2) * 64 + 1 * (y 1).val = (y 1).val; omega

/-- Window 8's block is its whole array, at every point. -/
theorem emb3_8 (t : Fin cfg3.N) (y : S64x64.Idx) : ((cfg3.win 8).blk t).view.emb y = y := by
  obtain ⟨-, -, -, -, -, -, -, -, -, -, -, -, -, -, -, -, -, -, e0, e1, -⟩ := idx3 t
  funext a; apply Fin.ext
  match a with
  | ⟨0, _⟩ => show win3_8.index t (0 : Fin 2) * 64 + 1 * (y 0).val = (y 0).val; omega
  | ⟨1, _⟩ => show win3_8.index t (1 : Fin 2) * 64 + 1 * (y 1).val = (y 1).val; omega

/-- Window 9's block is its whole array, at every point. -/
theorem emb3_9 (t : Fin cfg3.N) (y : S1x64.Idx) : ((cfg3.win 9).blk t).view.emb y = y := by
  obtain ⟨-, -, -, -, -, -, -, -, -, -, -, -, -, -, -, -, -, -, -, -, e0, e1⟩ := idx3 t
  funext a; apply Fin.ext
  match a with
  | ⟨0, _⟩ => show win3_9.index t (0 : Fin 2) * 1 + 1 * (y 0).val = (y 0).val; omega
  | ⟨1, _⟩ => show win3_9.index t (1 : Fin 2) * 64 + 1 * (y 1).val = (y 1).val; omega

/-! ## The blocks the body reads, off the arrays -/

theorem iblk3_0_apply (c : Dev nD) (t : Fin cfg3.N) (r : Fin 2000) (j : Fin 64) :
    (iblk3 V c 0 t : Vec Ideal S2000x64 .f32) (ix2 r j)
      = (V c (Pipeline.arrRef spec3 0) : S100000x64.Idx → EReal) (ix2 ⟨2000 * t.val + r.val, rowLt3 t r⟩ j) := by
  unfold iblk3
  rw [View.read_apply, emb3_0]
  rfl

theorem iblk3_1_apply (c : Dev nD) (t : Fin cfg3.N) (r : Fin 2000) (j : Fin 64) :
    (iblk3 V c 1 t : Vec Ideal S2000x64 .f32) (ix2 r j)
      = (V c (Pipeline.arrRef spec3 1) : S100000x64.Idx → EReal) (ix2 ⟨2000 * t.val + r.val, rowLt3 t r⟩ j) := by
  unfold iblk3
  rw [View.read_apply, emb3_1]
  rfl

theorem iblk3_2_apply (c : Dev nD) (t : Fin cfg3.N) (y : S64x64.Idx) :
    (iblk3 V c 2 t : Vec Ideal S64x64 .f32) y = (V c (Pipeline.arrRef spec3 2) : S64x64.Idx → EReal) y := by
  unfold iblk3
  rw [View.read_apply, emb3_2]
  rfl

theorem iblk3_3_apply (c : Dev nD) (t : Fin cfg3.N) (y : S1x64.Idx) :
    (iblk3 V c 3 t : Vec Ideal S1x64 .f32) y = (V c (Pipeline.arrRef spec3 3) : S1x64.Idx → EReal) y := by
  unfold iblk3
  rw [View.read_apply, emb3_3]
  rfl

theorem iblk3_4_apply (c : Dev nD) (t : Fin cfg3.N) (y : S1x64.Idx) :
    (iblk3 V c 4 t : Vec Ideal S1x64 .f32) y = (V c (Pipeline.arrRef spec3 4) : S1x64.Idx → EReal) y := by
  unfold iblk3
  rw [View.read_apply, emb3_4]
  rfl

theorem iblk3_5_apply (c : Dev nD) (t : Fin cfg3.N) (y : S1x64.Idx) :
    (iblk3 V c 5 t : Vec Ideal S1x64 .f32) y = (V c (Pipeline.arrRef spec3 5) : S1x64.Idx → EReal) y := by
  unfold iblk3
  rw [View.read_apply, emb3_5]
  rfl

theorem iblk3_6_apply (c : Dev nD) (t : Fin cfg3.N) (y : S1x64.Idx) :
    (iblk3 V c 6 t : Vec Ideal S1x64 .f32) y = (V c (Pipeline.arrRef spec3 6) : S1x64.Idx → EReal) y := by
  unfold iblk3
  rw [View.read_apply, emb3_6]
  rfl

theorem iblk3_7_apply (c : Dev nD) (t : Fin cfg3.N) (y : S1x64.Idx) :
    (iblk3 V c 7 t : Vec Ideal S1x64 .f32) y = (V c (Pipeline.arrRef spec3 7) : S1x64.Idx → EReal) y := by
  unfold iblk3
  rw [View.read_apply, emb3_7]
  rfl

theorem iblk3_8_apply (c : Dev nD) (t : Fin cfg3.N) (y : S64x64.Idx) :
    (iblk3 V c 8 t : Vec Ideal S64x64 .f32) y = (V c (Pipeline.arrRef spec3 8) : S64x64.Idx → EReal) y := by
  unfold iblk3
  rw [View.read_apply, emb3_8]
  rfl

theorem iblk3_9_apply (c : Dev nD) (t : Fin cfg3.N) (y : S1x64.Idx) :
    (iblk3 V c 9 t : Vec Ideal S1x64 .f32) y = (V c (Pipeline.arrRef spec3 9) : S1x64.Idx → EReal) y := by
  unfold iblk3
  rw [View.read_apply, emb3_9]
  rfl

/-! ## What the body stores, at an index -/

/-- The output buffer after the body, at row `r` of the tile and column `q`: the one store covers the buffer and
    every load reads a whole buffer. -/
theorem out3_10_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    out3_10 (F := Ideal) x0 x1 x2 x3 x4 x5 x6 x7 x8 x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  unfold out3_10
  rw [View.canon_unit_zero hz]
  simp only [View.ld_unit_zero (S := S2000x64) hz, View.ld_unit_zero (S := S64x64) hz, View.ld_unit_zero (S := S1x64) hz]
  exact pay3_apply x0 x1 x2 x3 x4 x5 x6 x7 x8 x9 r q

/-! ## From blocks to the array -/

set_option maxHeartbeats 2000000 in
/-- What point `t` writes back is block `t` of the apply function of the arrays as the region finds them. -/
theorem flushed3_eq (c : Dev nD) (t : Fin cfg3.N) :
    (dat3 V c).flushed 10 t = ((cfg3.win 10).blk t).view.read (Elt Ideal)
      (applyG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9))) := by
  show (cfg3.win 10).cut (grid3.coords t) ((dat3 V c).after 10 t) = _
  rw [after3_10]
  funext y
  obtain ⟨r, q, rfl⟩ : ∃ (r : Fin 2000) (q : Fin 64), y = ix2 r q := ⟨y 0, y 1, eq_ix2 y⟩
  rw [View.read_apply, emb3_10]
  refine (out3_10_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) r q).trans ?_
  simp only [iblk3_0_apply, iblk3_1_apply, iblk3_2_apply, iblk3_3_apply, iblk3_4_apply, iblk3_5_apply, iblk3_6_apply, iblk3_7_apply, iblk3_8_apply, iblk3_9_apply]
  exact (applyG_apply (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) ⟨2000 * t.val + r.val, rowLt3 t r⟩ q).symm

/-- An index of the array is in point `t`'s block iff each coordinate is in the block's range on its axis. -/
theorem mem_blk3 (t : Fin cfg3.N) (i : S100000x64.Idx) :
    i ∈ ((cfg3.win 10).blk t).view.set ↔ ∀ a : Fin 2, win3_10.index t a * S2000x64.size a ≤ (i a).val ∧ (i a).val < win3_10.index t a * S2000x64.size a + S2000x64.size a := by
  show i ∈ ((View.whole main_v75).slice (win3_10.rect t)).set ↔ _
  rw [View.set_slice_whole, Rect.mem_set_unit]
  exact Iff.rfl

/-- Every index of the array is in the block of the point its row falls in. -/
theorem cover3 (i : S100000x64.Idx) :
    ∃ t : Fin cfg3.N, (cfg3.win 10).flush t = true ∧ i ∈ ((cfg3.win 10).blk t).view.set := by
  have hi0 : (i 0).val < 100000 := (i 0).isLt
  have hi1 : (i 1).val < 64 := (i 1).isLt
  have hN : cfg3.N = 50 := N_3
  have ht : (i 0).val / 2000 < cfg3.N := by omega
  obtain ⟨-, -, -, -, e0, e1, -⟩ := idx3 ⟨(i 0).val / 2000, ht⟩
  refine ⟨⟨(i 0).val / 2000, ht⟩, flush3_10 _, ?_⟩
  rw [mem_blk3]
  intro a
  match a with
  | ⟨0, _⟩ =>
    show win3_10.index ⟨(i 0).val / 2000, ht⟩ (0 : Fin 2) * 2000 ≤ (i 0).val ∧ (i 0).val < win3_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_10.index ⟨(i 0).val / 2000, ht⟩ (1 : Fin 2) * 64 ≤ (i 1).val ∧ (i 1).val < win3_10.index ⟨(i 0).val / 2000, ht⟩ (1 : Fin 2) * 64 + 64
    rw [e1]; omega

/-- The output array after the region's write-backs is the apply function of the ten arrays the region finds. -/
theorem arrAt3_10 (c : Dev nD) :
    (dat3 V c).arrAt 10 cfg3.N = applyG (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (dat3 V c).arrAt_eq_of_cover 10 _ (fun t _ => flushed3_eq V c t) cover3

/-- The same with the ten arrays named: whatever the region-entry contents of the windows' arrays are called. -/
theorem apply3_value (c : Dev nD) (A X : S100000x64.Idx → EReal) (W1 : S64x64.Idx → EReal) (b1 mu var g be : S1x64.Idx → EReal)
    (W2 : S64x64.Idx → EReal) (b2 : S1x64.Idx → EReal)
    (h0 : V c (Pipeline.arrRef spec3 0) = A) (h1 : V c (Pipeline.arrRef spec3 1) = X) (h2 : V c (Pipeline.arrRef spec3 2) = W1)
    (h3 : V c (Pipeline.arrRef spec3 3) = b1) (h4 : V c (Pipeline.arrRef spec3 4) = mu) (h5 : V c (Pipeline.arrRef spec3 5) = var)
    (h6 : V c (Pipeline.arrRef spec3 6) = g) (h7 : V c (Pipeline.arrRef spec3 7) = be) (h8 : V c (Pipeline.arrRef spec3 8) = W2)
    (h9 : V c (Pipeline.arrRef spec3 9) = b2) :
    (dat3 V c).arrAt 10 cfg3.N = applyG A X W1 b1 mu var g be W2 b2 := by
  subst h0 h1 h2 h3 h4 h5 h6 h7 h8 h9
  exact arrAt3_10 V c

end Cert.KernelIdeal.Fr

end
-- ==== Proof.KI.StatsVal2.lean ====
/-
  The statistics region's two output rows, as column sums over all 100000 rows.

  The region visits 50 tiles of 2000 rows. At each tile it forms `h = (agg + x) · W1 + b1` for the tile's rows and
  adds the tile's column sums of `h`, and of `h * h`, to two carried rows, which start at zero; after the last tile
  the carried rows are written to the two output rows. Read at an entry, each tile's `h` is the whole arrays' `h` at
  rows `2000 t … 2000 t + 1999`, so the output rows hold the sums over all rows. Addition of extended reals is a
  commutative monoid, which is all the regrouping needs.
-/
import proofs.«166406_j57140244906477_1_alg».proof.Proof.KI.Stats2
import proofs.«166406_j57140244906477_1_alg».proof.Proof.KI.K0Pay
import proofs.«166406_j57140244906477_1_alg».proof.Proof.KI.StatsMath
import proofs.«166406_j57140244906477_1_alg».proof.Proof.Spec
import Idealize.ShloMosaic.Lib.Pipeline.Value
import Idealize.ShloMosaic.Lib.ValueIdx

set_option maxRecDepth 16384

noncomputable section

namespace Cert.KernelIdeal.StatsVal2

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The statistics region's two output rows as column sums over all rows

The region's two output rows are written back once, at the last grid point, with what the two scratch rows hold then.
Each input block, read at an entry, is an entry of its whole array: the two feature arrays' block at point `t` is rows
`2000 t … 2000 t + 1999`, the weight and the bias row are the whole arrays at every point. So the scratch rows after
point `n` hold the sums over the rows of tiles `0 … n`, and after the last point the sums over all 100000 rows. -/

/-- The printed index maps, decided over the grid: the two feature windows' block index is the grid point on the row
    axis and zero on the column axis; the other windows' block indices are zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of tile `t` is a row of the array. -/
theorem row_lt (t : Fin cfg2.N) (r : Fin 2000) : 2000 * t.val + r.val < 100000 := by
  have h1 := t.isLt
  have hN : cfg2.N = 50 := N_2
  have h2 := r.isLt
  omega

/-- The aggregated features' block at point `t`, read at `(r, k)`, is the array at row `2000 t + r`. -/
theorem blk0_read (c : Dev nD) (t : Fin cfg2.N) (r : Fin 2000) (k : Fin 64) :
    iblk2 V c 0 t (ix2 r k) = V c (Pipeline.arrRef spec2 0) (ix2 ⟨2000 * t.val + r.val, row_lt t r⟩ k) := by
  obtain ⟨e0, e1, -⟩ := idx_facts t
  show V c (Pipeline.arrRef spec2 0) (((cfg2.win 0).blk t).view.emb (ix2 r k)) = _
  refine congrArg _ (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * k.val = k.val; omega

/-- The own features' block at point `t`, read at `(r, k)`, is the array at row `2000 t + r`. -/
theorem blk1_read (c : Dev nD) (t : Fin cfg2.N) (r : Fin 2000) (k : Fin 64) :
    iblk2 V c 1 t (ix2 r k) = V c (Pipeline.arrRef spec2 1) (ix2 ⟨2000 * t.val + r.val, row_lt t r⟩ k) := by
  obtain ⟨-, -, e0, e1, -⟩ := idx_facts t
  show V c (Pipeline.arrRef spec2 1) (((cfg2.win 1).blk t).view.emb (ix2 r k)) = _
  refine congrArg _ (funext fun a => Fin.ext ?_)
  match a with
  | ⟨0, _⟩ => show win2_1.index t (0 : Fin 2) * 2000 + 1 * r.val = 2000 * t.val + r.val; omega
  | ⟨1, _⟩ => show win2_1.index t (1 : Fin 2) * 64 + 1 * k.val = k.val; omega

/-- The weight's block is the whole weight at every point. -/
theorem blk2_read (c : Dev nD) (t : Fin cfg2.N) (k q : Fin 64) :
    iblk2 V c 2 t (ix2 k q) = V c (Pipeline.arrRef spec2 2) (ix2 k q) := by
  obtain ⟨-, -, -, -, e0, e1, -⟩ := idx_facts t
  show V c (Pipeline.arrRef spec2 2) (((cfg2.win 2).blk t).view.emb (ix2 k q)) = _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The bias row's block is the whole row at every point. -/
theorem blk3_read (c : Dev nD) (t : Fin cfg2.N) (q : Fin 64) :
    iblk2 V c 3 t (ix2 (0 : Fin 1) q) = V c (Pipeline.arrRef spec2 3) (ix2 (0 : Fin 1) q) := by
  obtain ⟨-, -, -, -, -, -, e0, e1, -⟩ := idx_facts t
  show V c (Pipeline.arrRef spec2 3) (((cfg2.win 3).blk t).view.emb (ix2 (0 : Fin 1) q)) = _
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega

/-- The layer's first linear map applied to aggregated-plus-own features, over the arrays as the region finds them. -/
def hMat (c : Dev nD) : Cert.Spec.Mat :=
  Cert.Spec.lin (Cert.Spec.toWt (V c (Pipeline.arrRef spec2 2))) (fun q => V c (Pipeline.arrRef spec2 3) (ix2 (0 : Fin 1) q))
    (fun p q => Cert.Spec.toMat (V c (Pipeline.arrRef spec2 0)) p q + Cert.Spec.toMat (V c (Pipeline.arrRef spec2 1)) p q)

/-- The tile's pre-normalisation value at row `r` is the whole-array value at row `2000 t + r`. -/
theorem pay3_tile (c : Dev nD) (t : Fin cfg2.N) (r : Fin 2000) (q : Fin 64) :
    k2_pay3 (F := Ideal) (iblk2 V c 0 t) (iblk2 V c 1 t) (iblk2 V c 2 t) (iblk2 V c 3 t) (ix2 r q)
      = hMat V c ⟨2000 * t.val + r.val, row_lt t r⟩ q := by
  refine (Cert.KernelIdeal.Pay.k2_pay3_apply _ _ _ _ r q).trans ?_
  simp only [blk0_read, blk1_read, blk2_read, blk3_read]
  rfl

/-- A point number below 50 is a grid point. -/
theorem lt_N {n : ℕ} (hn : n < 50) : n < cfg2.N := by
  have hN : cfg2.N = 50 := N_2
  omega

/-- After the first point the row of sums holds zero plus the first tile's column sums. -/
theorem sum_zero (c : Dev nD) (hn : 0 < cfg2.N) (q : Fin 64) :
    (acc2 V c 0 hn).1 (ix2 (0 : Fin 1) q)
      = 0 + ∑ r : Fin 2000, hMat V c ⟨2000 * 0 + r.val, by have := r.isLt; omega⟩ q := by
  show k2_pay4 (F := Ideal) (iblk2 V c 0 ⟨0, hn⟩) (iblk2 V c 1 ⟨0, hn⟩) (iblk2 V c 2 ⟨0, hn⟩) (iblk2 V c 3 ⟨0, hn⟩)
    (k2_pay1 (F := Ideal)) (ix2 (0 : Fin 1) q) = _
  refine (Cert.KernelIdeal.Pay.k2_pay4_apply _ _ _ _ _ q).trans ?_
  rw [Cert.KernelIdeal.Pay.k2_pay1_apply]
  exact congrArg (0 + ·) (Finset.sum_congr rfl fun r _ => pay3_tile V c ⟨0, hn⟩ r q)

/-- After a later point the row of sums holds what the point before left plus the tile's column sums. -/
theorem sum_succ (c : Dev nD) (n : ℕ) (hn : n + 1 < cfg2.N) (q : Fin 64) :
    (acc2 V c (n + 1) hn).1 (ix2 (0 : Fin 1) q)
      = (acc2 V c n (Nat.lt_of_succ_lt hn)).1 (ix2 (0 : Fin 1) q)
        + ∑ r : Fin 2000, hMat V c ⟨2000 * (n + 1) + r.val, row_lt ⟨n + 1, hn⟩ r⟩ q := by
  show k2_pay4 (F := Ideal) (iblk2 V c 0 ⟨n + 1, hn⟩) (iblk2 V c 1 ⟨n + 1, hn⟩) (iblk2 V c 2 ⟨n + 1, hn⟩)
    (iblk2 V c 3 ⟨n + 1, hn⟩) (acc2 V c n (Nat.lt_of_succ_lt hn)).1 (ix2 (0 : Fin 1) q) = _
  refine (Cert.KernelIdeal.Pay.k2_pay4_apply _ _ _ _ _ q).trans ?_
  exact congrArg ((acc2 V c n (Nat.lt_of_succ_lt hn)).1 (ix2 (0 : Fin 1) q) + ·)
    (Finset.sum_congr rfl fun r _ => pay3_tile V c ⟨n + 1, hn⟩ r q)

/-- After the first point the row of sums of squares holds zero plus the first tile's column sums of squares. -/
theorem sq_zero (c : Dev nD) (hn : 0 < cfg2.N) (q : Fin 64) :
    (acc2 V c 0 hn).2 (ix2 (0 : Fin 1) q)
      = 0 + ∑ r : Fin 2000, hMat V c ⟨2000 * 0 + r.val, by have := r.isLt; omega⟩ q
          * hMat V c ⟨2000 * 0 + r.val, by have := r.isLt; omega⟩ q := by
  show k2_pay5 (F := Ideal) (iblk2 V c 0 ⟨0, hn⟩) (iblk2 V c 1 ⟨0, hn⟩) (iblk2 V c 2 ⟨0, hn⟩) (iblk2 V c 3 ⟨0, hn⟩)
    (k2_pay2 (F := Ideal)) (ix2 (0 : Fin 1) q) = _
  refine (Cert.KernelIdeal.Pay.k2_pay5_apply _ _ _ _ _ q).trans ?_
  rw [Cert.KernelIdeal.Pay.k2_pay2_apply]
  exact congrArg (0 + ·) (Finset.sum_congr rfl fun r _ => by rw [pay3_tile V c ⟨0, hn⟩ r q])

/-- After a later point the row of sums of squares holds what the point before left plus the tile's. -/
theorem sq_succ (c : Dev nD) (n : ℕ) (hn : n + 1 < cfg2.N) (q : Fin 64) :
    (acc2 V c (n + 1) hn).2 (ix2 (0 : Fin 1) q)
      = (acc2 V c n (Nat.lt_of_succ_lt hn)).2 (ix2 (0 : Fin 1) q)
        + ∑ r : Fin 2000, hMat V c ⟨2000 * (n + 1) + r.val, row_lt ⟨n + 1, hn⟩ r⟩ q
            * hMat V c ⟨2000 * (n + 1) + r.val, row_lt ⟨n + 1, hn⟩ r⟩ q := by
  show k2_pay5 (F := Ideal) (iblk2 V c 0 ⟨n + 1, hn⟩) (iblk2 V c 1 ⟨n + 1, hn⟩) (iblk2 V c 2 ⟨n + 1, hn⟩)
    (iblk2 V c 3 ⟨n + 1, hn⟩) (acc2 V c n (Nat.lt_of_succ_lt hn)).2 (ix2 (0 : Fin 1) q) = _
  refine (Cert.KernelIdeal.Pay.k2_pay5_apply _ _ _ _ _ q).trans ?_
  exact congrArg ((acc2 V c n (Nat.lt_of_succ_lt hn)).2 (ix2 (0 : Fin 1) q) + ·)
    (Finset.sum_congr rfl fun r _ => by rw [pay3_tile V c ⟨n + 1, hn⟩ r q])

/-- After the last point the row of sums holds the column sums over all rows. -/
theorem sum_total (c : Dev nD) (q : Fin 64) :
    (acc2 V c 49 (lt_N (by norm_num))).1 (ix2 (0 : Fin 1) q) = ∑ p : Fin 100000, hMat V c p q :=
  Cert.KernelIdeal.StatsMath.tiles_total (fun p => hMat V c p q)
    (fun n hn => (acc2 V c n (lt_N hn)).1 (ix2 (0 : Fin 1) q))
    (fun h => sum_zero V c (lt_N h) q) (fun n h => sum_succ V c n (lt_N h) q)

/-- After the last point the row of sums of squares holds the column sums of squares over all rows. -/
theorem sq_total (c : Dev nD) (q : Fin 64) :
    (acc2 V c 49 (lt_N (by norm_num))).2 (ix2 (0 : Fin 1) q) = ∑ p : Fin 100000, hMat V c p q * hMat V c p q :=
  Cert.KernelIdeal.StatsMath.tiles_total (fun p => hMat V c p q * hMat V c p q)
    (fun n hn => (acc2 V c n (lt_N hn)).2 (ix2 (0 : Fin 1) q))
    (fun h => sq_zero V c (lt_N h) q) (fun n h => sq_succ V c n (lt_N h) q)

/-- An index of the output row is in point `t`'s block iff each coordinate is in the block's range on its axis. -/
theorem mem_blk4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole main_v68_0).slice (win2_4.rect t)).set ↔ _
  rw [View.set_slice_whole, Rect.mem_set_unit]
  exact Iff.rfl

theorem mem_blk5 (t : Fin cfg2.N) (i : S1x64.Idx) :
    i ∈ ((cfg2.win 5).blk t).view.set ↔ ∀ a : Fin 2, win2_5.index t a * S1x64.size a ≤ (i a).val ∧ (i a).val < win2_5.index t a * S1x64.size a + S1x64.size a := by
  show i ∈ ((View.whole main_v68_1).slice (win2_5.rect t)).set ↔ _
  rw [View.set_slice_whole, Rect.mem_set_unit]
  exact Iff.rfl

/-- The last grid point. -/
abbrev tLast : Fin cfg2.N := ⟨49, lt_N (by norm_num)⟩

/-- The only point that writes the output rows back is the last one. -/
theorem eq_last_of_flush (t : Fin cfg2.N) (h : t.val % 50 = 49) : t = tLast := by
  have h1 := t.isLt
  have hN : cfg2.N = 50 := N_2
  exact Fin.ext (by show t.val = 49; omega)

/-- What the last point writes back to the first output row is the row of sums, as a block of itself. -/
theorem flushed4_eq (c : Dev nD) (t : Fin cfg2.N) (hf : (cfg2.win 4).flush t = true) :
    (dat2 V c).flushed 4 t = ((cfg2.win 4).blk t).view.read (Elt Ideal) (acc2 V c 49 (lt_N (by norm_num))).1 := by
  obtain rfl := eq_last_of_flush t ((flush2_4 t).mp hf)
  obtain ⟨-, -, -, -, -, -, -, -, e0, e1, -⟩ := idx_facts tLast
  show (cfg2.win 4).cut (grid2.coords tLast) ((dat2 V c).after 4 tLast) = _
  rw [after2_4]
  funext j
  show (acc2 V c 49 (lt_N (by norm_num))).1 j = (acc2 V c 49 (lt_N (by norm_num))).1 (((cfg2.win 4).blk tLast).view.emb j)
  refine congrArg _ (funext fun a => Fin.ext ?_)
  match a with
  | ⟨0, _⟩ => show (j 0).val = win2_4.index tLast (0 : Fin 2) * 1 + 1 * (j 0).val; omega
  | ⟨1, _⟩ => show (j 1).val = win2_4.index tLast (1 : Fin 2) * 64 + 1 * (j 1).val; omega

theorem flushed5_eq (c : Dev nD) (t : Fin cfg2.N) (hf : (cfg2.win 5).flush t = true) :
    (dat2 V c).flushed 5 t = ((cfg2.win 5).blk t).view.read (Elt Ideal) (acc2 V c 49 (lt_N (by norm_num))).2 := by
  obtain rfl := eq_last_of_flush t ((flush2_5 t).mp hf)
  obtain ⟨-, -, -, -, -, -, -, -, -, -, e0, e1⟩ := idx_facts tLast
  show (cfg2.win 5).cut (grid2.coords tLast) ((dat2 V c).after 5 tLast) = _
  rw [after2_5]
  funext j
  show (acc2 V c 49 (lt_N (by norm_num))).2 j = (acc2 V c 49 (lt_N (by norm_num))).2 (((cfg2.win 5).blk tLast).view.emb j)
  refine congrArg _ (funext fun a => Fin.ext ?_)
  match a with
  | ⟨0, _⟩ => show (j 0).val = win2_5.index tLast (0 : Fin 2) * 1 + 1 * (j 0).val; omega
  | ⟨1, _⟩ => show (j 1).val = win2_5.index tLast (1 : Fin 2) * 64 + 1 * (j 1).val; omega

/-- Every index of the first output row is in the last point's block. -/
theorem cover4 (i : S1x64.Idx) : ∃ t : Fin cfg2.N, (cfg2.win 4).flush t = true ∧ i ∈ ((cfg2.win 4).blk t).view.set := by
  refine ⟨tLast, (flush2_4 tLast).mpr (by decide), ?_⟩
  obtain ⟨-, -, -, -, -, -, -, -, e0, e1, -⟩ := idx_facts tLast
  rw [mem_blk4]
  intro a
  match a with
  | ⟨0, _⟩ =>
    show win2_4.index tLast (0 : Fin 2) * 1 ≤ (i 0).val ∧ (i 0).val < win2_4.index tLast (0 : Fin 2) * 1 + 1
    have hi : (i 0).val < 1 := (i 0).isLt
    omega
  | ⟨1, _⟩ =>
    show win2_4.index tLast (1 : Fin 2) * 64 ≤ (i 1).val ∧ (i 1).val < win2_4.index tLast (1 : Fin 2) * 64 + 64
    have hi : (i 1).val < 64 := (i 1).isLt
    omega

theorem cover5 (i : S1x64.Idx) : ∃ t : Fin cfg2.N, (cfg2.win 5).flush t = true ∧ i ∈ ((cfg2.win 5).blk t).view.set := by
  refine ⟨tLast, (flush2_5 tLast).mpr (by decide), ?_⟩
  obtain ⟨-, -, -, -, -, -, -, -, -, -, e0, e1⟩ := idx_facts tLast
  rw [mem_blk5]
  intro a
  match a with
  | ⟨0, _⟩ =>
    show win2_5.index tLast (0 : Fin 2) * 1 ≤ (i 0).val ∧ (i 0).val < win2_5.index tLast (0 : Fin 2) * 1 + 1
    have hi : (i 0).val < 1 := (i 0).isLt
    omega
  | ⟨1, _⟩ =>
    show win2_5.index tLast (1 : Fin 2) * 64 ≤ (i 1).val ∧ (i 1).val < win2_5.index tLast (1 : Fin 2) * 64 + 64
    have hi : (i 1).val < 64 := (i 1).isLt
    omega

/-- After the region the first output row is the row of sums after the last point. -/
theorem arr4_eq (c : Dev nD) : (dat2 V c).arrAt 4 cfg2.N = (acc2 V c 49 (lt_N (by norm_num))).1 :=
  (dat2 V c).arrAt_eq_of_cover 4 _ (fun t hf => flushed4_eq V c t hf) cover4

/-- After the region the second output row is the row of sums of squares after the last point. -/
theorem arr5_eq (c : Dev nD) : (dat2 V c).arrAt 5 cfg2.N = (acc2 V c 49 (lt_N (by norm_num))).2 :=
  (dat2 V c).arrAt_eq_of_cover 5 _ (fun t hf => flushed5_eq V c t hf) cover5

/-- THE FIRST OUTPUT ROW after the region: the column sums, over all 100000 rows, of the layer's first linear map. -/
theorem stats_sum (c : Dev nD) (q : Fin 64) :
    (dat2 V c).arrAt 4 cfg2.N (ix2 (0 : Fin 1) q) = ∑ p : Fin 100000, hMat V c p q :=
  (congrFun (arr4_eq V c) (ix2 (0 : Fin 1) q)).trans (sum_total V c q)

/-- THE SECOND OUTPUT ROW after the region: the column sums of its squares. -/
theorem stats_sq (c : Dev nD) (q : Fin 64) :
    (dat2 V c).arrAt 5 cfg2.N (ix2 (0 : Fin 1) q) = ∑ p : Fin 100000, hMat V c p q * hMat V c p q :=
  (congrFun (arr5_eq V c) (ix2 (0 : Fin 1) q)).trans (sq_total V c q)

/-- The same over named arrays: with `X0`, `X1`, `Wm`, `B` the aggregated features, the own features, the weight and
    the bias row as the region finds them. -/
theorem stats_sum2 (c : Dev nD) (X0 X1 : S100000x64.Idx → EReal) (Wm : S64x64.Idx → EReal) (B : S1x64.Idx → EReal)
    (h0 : X0 = V c (Pipeline.arrRef spec2 0)) (h1 : X1 = V c (Pipeline.arrRef spec2 1))
    (h2 : Wm = V c (Pipeline.arrRef spec2 2)) (h3 : B = V c (Pipeline.arrRef spec2 3)) (q : Fin 64) :
    (dat2 V c).arrAt 4 cfg2.N (ix2 (0 : Fin 1) q)
      = ∑ p : Fin 100000, Cert.Spec.lin (Cert.Spec.toWt Wm) (fun q => B (ix2 (0 : Fin 1) q))
          (fun p q => Cert.Spec.toMat X0 p q + Cert.Spec.toMat X1 p q) p q := by
  subst h0 h1 h2 h3
  exact stats_sum V c q

theorem stats_sq2 (c : Dev nD) (X0 X1 : S100000x64.Idx → EReal) (Wm : S64x64.Idx → EReal) (B : S1x64.Idx → EReal)
    (h0 : X0 = V c (Pipeline.arrRef spec2 0)) (h1 : X1 = V c (Pipeline.arrRef spec2 1))
    (h2 : Wm = V c (Pipeline.arrRef spec2 2)) (h3 : B = V c (Pipeline.arrRef spec2 3)) (q : Fin 64) :
    (dat2 V c).arrAt 5 cfg2.N (ix2 (0 : Fin 1) q)
      = ∑ p : Fin 100000, Cert.Spec.lin (Cert.Spec.toWt Wm) (fun q => B (ix2 (0 : Fin 1) q))
            (fun p q => Cert.Spec.toMat X0 p q + Cert.Spec.toMat X1 p q) p q
          * Cert.Spec.lin (Cert.Spec.toWt Wm) (fun q => B (ix2 (0 : Fin 1) q))
            (fun p q => Cert.Spec.toMat X0 p q + Cert.Spec.toMat X1 p q) p q := by
  subst h0 h1 h2 h3
  exact stats_sq V c q

end Cert.KernelIdeal.StatsVal2
end
-- ==== Proof.KI.Layer2Val.lean ====
/-
  The kernel program's value, layer 2: walking the buffers' contents from one segment boundary to the next.

  At the statistics kernel's entry the host has left the aggregation of the layer's input and the layer's slices of the
  parameter arrays; the statistics kernel leaves the two rows of column sums of the first linear map; the host turns
  them into the batch mean and the kernel's variance; the apply kernel writes the layer from these. Buffers nothing in
  between writes are read where they were left.
-/
import proofs.«166406_j57140244906477_1_alg».proof.Proof.KI.Layer1Val
import proofs.«166406_j57140244906477_1_alg».proof.Proof.KI.HostRead2
import proofs.«166406_j57140244906477_1_alg».proof.Proof.KI.ApplyVal3
import proofs.«166406_j57140244906477_1_alg».proof.Proof.KI.StatsVal2

set_option maxRecDepth 16384

noncomputable section

namespace Cert.KernelIdeal.Walk

open Cert.KernelIdeal Cert.KernelIdeal.Gen Cert.KernelIdeal.Fr Cert.KernelIdeal.Keep Cert.KernelIdeal.HostRead Cert.KernelIdeal.Parts
open Cert.ApplyFn
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-! ## The second layer -/

/-- At the statistics kernel's entry the aggregation buffer reads as the aggregation of the layer's input. -/
theorem in1_agg : Cert.Spec.toMat (W5 m ρ c (Proc.devRef .tc main_v51)) = aggOp m ρ c (x1 m ρ c) :=
  (ops2_agg (W4 m ρ c)).trans (agg_congr
    (fun e => (congrFun (keep_v1_4_1 m ρ c) (ix1 e)).trans (ops0_v1 (W0 m ρ c) e))
    (fun e => (congrFun (keep_v3_4_1 m ρ c) (ix1 e)).trans (ops0_v3 (W0 m ρ c) e))
    (congrArg Cert.Spec.eaOf (keep_arg2_4_0 m ρ c)) (layer1 m ρ c))

/-- The layer's input. -/
theorem in1_x : Cert.Spec.toMat (W5 m ρ c (Proc.devRef .tc main_v39)) = x1 m ρ c := by
  rw [keep_v39_5_4 m ρ c]
  exact layer1 m ρ c

theorem in1_W1 : Cert.Spec.toWt (W5 m ρ c (Proc.devRef .tc main_v53)) = pW1 m ρ c 1 :=
  (ops2_W1 (W4 m ρ c)).trans (by rw [keep_arg3_4_0 m ρ c])

theorem in1_b1 : rowv (W5 m ρ c (Proc.devRef .tc main_v56)) = pb1 m ρ c 1 :=
  funext fun q => (ops2_b1 (W4 m ρ c) 0 q).trans (by rw [keep_arg4_4_0 m ρ c])

theorem in1_W2 : Cert.Spec.toWt (W5 m ρ c (Proc.devRef .tc main_v58)) = pW2 m ρ c 1 :=
  (ops2_W2 (W4 m ρ c)).trans (by rw [keep_arg7_4_0 m ρ c])

theorem in1_b2 : rowv (W5 m ρ c (Proc.devRef .tc main_v61)) = pb2 m ρ c 1 :=
  funext fun q => (ops2_b2 (W4 m ρ c) 0 q).trans (by rw [keep_arg8_4_0 m ρ c])

theorem in1_gamma : rowv (W5 m ρ c (Proc.devRef .tc main_v64)) = pg m ρ c 1 :=
  funext fun q => (ops2_gamma (W4 m ρ c) 0 q).trans (by rw [keep_arg5_4_0 m ρ c])

theorem in1_beta : rowv (W5 m ρ c (Proc.devRef .tc main_v67)) = pbe m ρ c 1 :=
  funext fun q => (ops2_beta (W4 m ρ c) 0 q).trans (by rw [keep_arg6_4_0 m ρ c])

/-- What the statistics kernel sums: the layer's first linear map of aggregated-plus-own features. -/
theorem hmat1 : Cert.KernelIdeal.StatsVal2.hMat (V5 m ρ) c = Cert.Spec.pre (aggOp m ρ c) (x1 m ρ c) (pW1 m ρ c 1) (pb1 m ρ c 1) :=
  pre_of_parts _ _ _ _ _ _ _ _ (in1_agg m ρ c) (in1_x m ρ c) (in1_W1 m ρ c) (in1_b1 m ρ c)

/-- After the statistics kernel the first output row holds the column sums. -/
theorem sum1 (q : Fin 64) : W6 m ρ c (Proc.devRef .tc main_v68_0) (ix2 (0 : Fin 1) q) = ∑ p : Fin 100000, Cert.Spec.pre (aggOp m ρ c) (x1 m ρ c) (pW1 m ρ c 1) (pb1 m ρ c 1) p q :=
  (congrFun (W6_arr m ρ c 4) (ix2 (0 : Fin 1) q)).trans
    ((Cert.KernelIdeal.StatsVal2.stats_sum (V5 m ρ) c q).trans (by rw [hmat1 m ρ c]))

/-- And the second the column sums of squares. -/
theorem sq1 (q : Fin 64) : W6 m ρ c (Proc.devRef .tc main_v68_1) (ix2 (0 : Fin 1) q) = ∑ p : Fin 100000, Cert.Spec.pre (aggOp m ρ c) (x1 m ρ c) (pW1 m ρ c 1) (pb1 m ρ c 1) p q * Cert.Spec.pre (aggOp m ρ c) (x1 m ρ c) (pW1 m ρ c 1) (pb1 m ρ c 1) p q :=
  (congrFun (W6_arr m ρ c 5) (ix2 (0 : Fin 1) q)).trans
    ((Cert.KernelIdeal.StatsVal2.stats_sq (V5 m ρ) c q).trans (by rw [hmat1 m ρ c]))

/-- The host's mean row is the batch mean. -/
theorem mean1 : rowv (W7 m ρ c (Proc.devRef .tc main_v70)) = Cert.Spec.mean (Cert.Spec.pre (aggOp m ρ c) (x1 m ρ c) (pW1 m ρ c 1) (pb1 m ρ c 1)) :=
  mean_of_sum _ _ _ (sum1 m ρ c) (fun j => ops3_mean (W6 m ρ c) j)

/-- The host's variance row is the kernel's variance. -/
theorem var1 : rowv (W7 m ρ c (Proc.devRef .tc main_v74)) = Cert.Spec.varK (Cert.Spec.pre (aggOp m ρ c) (x1 m ρ c) (pW1 m ρ c 1) (pb1 m ρ c 1)) :=
  varK_of_sums _ _ _ _ (sum1 m ρ c) (sq1 m ρ c) (fun j => ops3_var (W6 m ρ c) j)

/-- LAYER 2: after the apply kernel its output buffer reads as the specification's layer of the layer's input. -/
theorem layer2 : Cert.Spec.toMat (W8 m ρ c (Proc.devRef .tc main_v75)) = x2 m ρ c := by
  have hA : Cert.Spec.toMat (W7 m ρ c (Proc.devRef .tc main_v51)) = aggOp m ρ c (x1 m ρ c) := by
    rw [keep_v51_7_5 m ρ c]; exact in1_agg m ρ c
  have hX : Cert.Spec.toMat (W7 m ρ c (Proc.devRef .tc main_v39)) = x1 m ρ c := by
    rw [keep_v39_7_4 m ρ c]; exact layer1 m ρ c
  have hW1 : Cert.Spec.toWt (W7 m ρ c (Proc.devRef .tc main_v53)) = pW1 m ρ c 1 := by
    rw [keep_v53_7_5 m ρ c]; exact in1_W1 m ρ c
  have hb1 : rowv (W7 m ρ c (Proc.devRef .tc main_v56)) = pb1 m ρ c 1 := by
    rw [keep_v56_7_5 m ρ c]; exact in1_b1 m ρ c
  have hg : rowv (W7 m ρ c (Proc.devRef .tc main_v64)) = pg m ρ c 1 := by
    rw [keep_v64_7_5 m ρ c]; exact in1_gamma m ρ c
  have hbe : rowv (W7 m ρ c (Proc.devRef .tc main_v67)) = pbe m ρ c 1 := by
    rw [keep_v67_7_5 m ρ c]; exact in1_beta m ρ c
  have hW2 : Cert.Spec.toWt (W7 m ρ c (Proc.devRef .tc main_v58)) = pW2 m ρ c 1 := by
    rw [keep_v58_7_5 m ρ c]; exact in1_W2 m ρ c
  have hb2 : rowv (W7 m ρ c (Proc.devRef .tc main_v61)) = pb2 m ρ c 1 := by
    rw [keep_v61_7_5 m ρ c]; exact in1_b2 m ρ c
  have e : W8 m ρ c (Proc.devRef .tc main_v75) = _ := (W8_arr m ρ c 10).trans (arrAt3_10 (V7 m ρ) c)
  rw [e]
  unfold x2
  exact layer_of_parts (aggOp m ρ c) (x1 m ρ c) (pW1 m ρ c 1) (pb1 m ρ c 1) (pg m ρ c 1) (pbe m ρ c 1) (pW2 m ρ c 1) (pb2 m ρ c 1)
    _ _ _ _ _ _ _ _ _ _ hA hX hW1 hb1 (mean1 m ρ c) (var1 m ρ c) hg hbe hW2 hb2

end Cert.KernelIdeal.Walk

end
-- ==== Proof.KI.HostRead4.lean ====
/-
  What the host stretches around the third layer's two kernels write, read at an entry, from any valuation of the
  buffers: the edge aggregation of the second layer's output, slice 2 of every parameter array, and the batch mean and
  variance from the two rows of sums.
-/
import proofs.«166406_j57140244906477_1_alg».proof.Proof.KI.HostRead

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.ShloMosaic.StableHlo

variable (V : Valuation τ sig (Elt Ideal))

/-! ## The host stretch before layer 3's statistics kernel -/

/-- The aggregated features of layer 3's input, from the vectors of source and target row numbers the first host
    stretch left. -/
theorem ops4_agg :
    Cert.Spec.toMat (StableHlo.after (hostOps4 (F := Ideal)) V (Proc.devRef .tc main_v87))
      = Cert.Spec.agg (fun e => V (Proc.devRef .tc main_v1) (ix1 e)) (fun e => V (Proc.devRef .tc main_v3) (ix1 e))
          (Cert.Spec.eaOf (V (Proc.devRef .tc main_arg2))) (Cert.Spec.toMat (V (Proc.devRef .tc main_v75))) := by
  have e := (show StableHlo.after (hostOps4 (F := Ideal)) V (Proc.devRef .tc main_v87) = _ by after_results)
  rw [e]
  exact Cert.AggRead.agg_read_vec gather_S100000x64_S1600000x1_S1600000x64_1_0_n_n_0_1_164 rfl rfl rfl rfl rfl rfl rfl
    scatter_S100000x64_S1600000x1_S1600000x64_1_0_0_1 rfl rfl rfl rfl
    Facts₀.bcast_S_S1600000 Facts₀.bcast_S1600000_S1600000x1_0 Facts₀.bcast_S1600000x1_S1600000x64_0_1 Facts₀.bcast_S_S100000x64
    (V (Proc.devRef .tc main_v1)) (V (Proc.devRef .tc main_v3)) (V (Proc.devRef .tc main_arg2)) (V (Proc.devRef .tc main_v75))

/-- Layer 3's first weight matrix. -/
theorem ops4_W1 :
    Cert.Spec.toWt (StableHlo.after (hostOps4 (F := Ideal)) V (Proc.devRef .tc main_v89))
      = Cert.Spec.wtOf (V (Proc.devRef .tc main_arg3)) 2 := by
  funext k q
  refine Eq.trans ?_ (wslice_apply 2 Facts₀.slices_S3x64x64_S1x64x64_2_0_0 Facts₀.shapeCasts_S1x64x64_S64x64 (V (Proc.devRef .tc main_arg3)) k q)
  refine congrFun ?_ (ix2 k q)
  after_results
  rfl

/-- Layer 3's first bias row. -/
theorem ops4_b1 (u : Fin 1) (q : Fin 64) :
    StableHlo.after (hostOps4 (F := Ideal)) V (Proc.devRef .tc main_v92) (ix2 u q)
      = Cert.Spec.rowOf (V (Proc.devRef .tc main_arg4)) 2 q := by
  refine Eq.trans ?_ (rslice_apply 2 Facts₀.slices_S3x64_S1x64_2_0 Facts₀.shapeCasts_S1x64_S64 Facts₀.shapeCasts_S64_S1x64 (V (Proc.devRef .tc main_arg4)) u q)
  refine congrFun ?_ (ix2 u q)
  after_results
  rfl

/-- Layer 3's second weight matrix. -/
theorem ops4_W2 :
    Cert.Spec.toWt (StableHlo.after (hostOps4 (F := Ideal)) V (Proc.devRef .tc main_v94))
      = Cert.Spec.wtOf (V (Proc.devRef .tc main_arg7)) 2 := by
  funext k q
  refine Eq.trans ?_ (wslice_apply 2 Facts₀.slices_S3x64x64_S1x64x64_2_0_0 Facts₀.shapeCasts_S1x64x64_S64x64 (V (Proc.devRef .tc main_arg7)) k q)
  refine congrFun ?_ (ix2 k q)
  after_results
  rfl

/-- Layer 3's second bias row. -/
theorem ops4_b2 (u : Fin 1) (q : Fin 64) :
    StableHlo.after (hostOps4 (F := Ideal)) V (Proc.devRef .tc main_v97) (ix2 u q)
      = Cert.Spec.rowOf (V (Proc.devRef .tc main_arg8)) 2 q := by
  refine Eq.trans ?_ (rslice_apply 2 Facts₀.slices_S3x64_S1x64_2_0 Facts₀.shapeCasts_S1x64_S64 Facts₀.shapeCasts_S64_S1x64 (V (Proc.devRef .tc main_arg8)) u q)
  refine congrFun ?_ (ix2 u q)
  after_results
  rfl

/-- Layer 3's scale row. -/
theorem ops4_gamma (u : Fin 1) (q : Fin 64) :
    StableHlo.after (hostOps4 (F := Ideal)) V (Proc.devRef .tc main_v100) (ix2 u q)
      = Cert.Spec.rowOf (V (Proc.devRef .tc main_arg5)) 2 q := by
  refine Eq.trans ?_ (rslice_apply 2 Facts₀.slices_S3x64_S1x64_2_0 Facts₀.shapeCasts_S1x64_S64 Facts₀.shapeCasts_S64_S1x64 (V (Proc.devRef .tc main_arg5)) u q)
  refine congrFun ?_ (ix2 u q)
  after_results
  rfl

/-- Layer 3's shift row. -/
theorem ops4_beta (u : Fin 1) (q : Fin 64) :
    StableHlo.after (hostOps4 (F := Ideal)) V (Proc.devRef .tc main_v103) (ix2 u q)
      = Cert.Spec.rowOf (V (Proc.devRef .tc main_arg6)) 2 q := by
  refine Eq.trans ?_ (rslice_apply 2 Facts₀.slices_S3x64_S1x64_2_0 Facts₀.shapeCasts_S1x64_S64 Facts₀.shapeCasts_S64_S1x64 (V (Proc.devRef .tc main_arg6)) u q)
  refine congrFun ?_ (ix2 u q)
  after_results
  rfl

/-! ## The host stretch between layer 3's two kernels -/

/-- The batch mean: the row of sums divided by the literal 100000. -/
theorem ops5_mean (j : (⟨2, ![1, 64]⟩ : Shape).Idx) :
    StableHlo.after (hostOps5 (F := Ideal)) V (Proc.devRef .tc main_v106) j
      = Ideal.div (V (Proc.devRef .tc main_v104_0) j) Cert.Spec.cN := by
  refine Eq.trans (congrFun (show StableHlo.after (hostOps5 (F := Ideal)) V (Proc.devRef .tc main_v106) = _ by after_results) j) ?_
  rfl

/-- The batch variance: the row of sums of squares divided by the literal 100000, minus the square of the mean. -/
theorem ops5_var (j : (⟨2, ![1, 64]⟩ : Shape).Idx) :
    StableHlo.after (hostOps5 (F := Ideal)) V (Proc.devRef .tc main_v110) j
      = Ideal.div (V (Proc.devRef .tc main_v104_1) j) Cert.Spec.cN
        - Ideal.div (V (Proc.devRef .tc main_v104_0) j) Cert.Spec.cN * Ideal.div (V (Proc.devRef .tc main_v104_0) j) Cert.Spec.cN := by
  refine Eq.trans (congrFun (show StableHlo.after (hostOps5 (F := Ideal)) V (Proc.devRef .tc main_v110) = _ by after_results) j) ?_
  rfl

end Cert.KernelIdeal.HostRead

end
-- ==== Proof.KI.ApplyPay5.lean ====
/-
  The apply kernel's payloads of custom_call 5, read at an index, at the ideal values: the truncations to bf16 are the
  identity there, each matrix product into the zero accumulator is the plain finite sum, and a [1, 64] row broadcast
  over the 2000 rows of a tile reads the row's entry.
-/
import proofs.«166406_j57140244906477_1_alg».proof.Proof.Gen.KernelIdeal.Skeleton
import proofs.«166406_j57140244906477_1_alg».proof.Proof.LibPlainDot
import proofs.«166406_j57140244906477_1_alg».proof.Proof.KI.ApplyFn
import Idealize.ShloMosaic.Lib.Pipeline.Value
import Idealize.ShloMosaic.Lib.ValueLayout

noncomputable section

namespace Cert.KernelIdeal.Fr

open Cert.KernelIdeal Cert.KernelIdeal.Gen Cert.ApplyFn
open Idealize.ShloMosaic Idealize.ShloMosaic.ValueIdx
open scoped BigOperators

/-- The first linear map, the normalisation and the rectifier, at row `r` of the tile and column `k`. -/
theorem pay5_2_apply (x0 x1 : Vec Ideal S2000x64 .f32) (x2 : Vec Ideal S64x64 .f32) (x3 x5 x4 x6 x7 : Vec Ideal S1x64 .f32)
    (r : Fin 2000) (k : Fin 64) :
    k5_pay2 (F := Ideal) x0 x1 x2 x3 x5 x4 x6 x7 (ix2 r k)
      = max (((((∑ j : Fin 64, (x0 (ix2 r j) + x1 (ix2 r j)) * x2 (ix2 j k)) + x3 (ix2 (0 : Fin 1) k)) - x4 (ix2 (0 : Fin 1) k))
          * Ideal.rsqrt (x5 (ix2 (0 : Fin 1) k) + Cert.Spec.cEps)) * x6 (ix2 (0 : Fin 1) k) + x7 (ix2 (0 : Fin 1) k)) 0 := by
  unfold k5_pay2
  simp only [shapeCast_self]
  rw [truncf_apply, maximumf_apply, addf_apply, mulf_apply, mulf_apply, subf_apply, addf_apply, broadcast_apply]
  simp only [broadcastTo_1b_ab_apply, rsqrt_apply, addf_apply, broadcast_apply]
  simp only [matmul]
  rw [show dot_S2000x64_S64x64_S2000x64_1_0_0_1_n_n = DotDims.plain 2000 64 64 from rfl, Cert.Lib.PlainDot.matmul_zero_apply]
  simp only [truncf_apply, addf_apply, Ideal.ofBits_def, Ideal.ofBits_zero_f32]
  rfl

/-- The second weight matrix as the product reads it. -/
theorem pay5_3_apply (x8 : Vec Ideal S64x64 .f32) (k q : Fin 64) : k5_pay3 (F := Ideal) x8 (ix2 k q) = x8 (ix2 k q) := by
  unfold k5_pay3
  simp only [shapeCast_self]

/-- The second linear map and the rectifier, at row `r` of the tile and column `q`. -/
theorem pay5_1_apply (a : FVec Ideal S2000x64 .bf16) (b : FVec Ideal S64x64 .f32) (x9 : Vec Ideal S1x64 .f32) (r : Fin 2000) (q : Fin 64) :
    k5_pay1 (F := Ideal) a b x9 (ix2 r q) = max ((∑ k : Fin 64, a (ix2 r k) * b (ix2 k q)) + x9 (ix2 (0 : Fin 1) q)) 0 := by
  unfold k5_pay1
  simp only [shapeCast_self]
  rw [maximumf_apply, addf_apply, broadcast_apply]
  simp only [broadcastTo_1b_ab_apply]
  simp only [matmul]
  rw [show dot_S2000x64_S64x64_S2000x64_1_0_0_1_n_n = DotDims.plain 2000 64 64 from rfl, Cert.Lib.PlainDot.matmul_zero_apply]
  simp only [truncf_apply, Ideal.ofBits_def, Ideal.ofBits_zero_f32]

/-- The whole body's stored value at row `r` of the tile and column `q`, from the ten buffers it reads. -/
theorem pay5_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    k5_pay1 (F := Ideal) (k5_pay2 x0 x1 x2 x3 x5 x4 x6 x7) (k5_pay3 x8) x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  rw [pay5_1_apply]
  simp only [pay5_2_apply, pay5_3_apply]

end Cert.KernelIdeal.Fr

end
-- ==== Proof.KI.ApplyVal5.lean ====
/-
  What the apply pass of custom_call 5 leaves in its output array, at the ideal values: the array the pipeline's
  write-backs leave is, index by index, the apply function of the ten arrays the pass reads as the region finds them.

  Point `t` of the 50 reads rows `2000 t … 2000 t + 1999` of the aggregated and the node features and the whole of the
  eight small arrays, and writes back the same rows of the result; the 50 row tiles cover the [100000, 64] array.
-/
import proofs.«166406_j57140244906477_1_alg».proof.Proof.KI.Apply5
import proofs.«166406_j57140244906477_1_alg».proof.Proof.KI.ApplyPay5
import Idealize.ShloMosaic.Lib.Pipeline.Value

noncomputable section

namespace Cert.KernelIdeal.Fr

open Cert.KernelIdeal Cert.KernelIdeal.Gen Cert.ApplyFn
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits -/

/-- The printed index maps, decided over the grid: the two feature windows and the output move one row tile per
    point; the eight small windows stay at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_10.index t (0 : Fin 2) = t.val ∧ win5_10.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0 :=
  (by decide +kernel : ∀ t : Fin grid5.N, _)

/-- Row `r` of tile `t` is a row of the array. -/
theorem rowLt5 (t : Fin cfg5.N) (r : Fin 2000) : 2000 * t.val + r.val < 100000 := by
  have := t.isLt; have hN : cfg5.N = 50 := N_5; omega

/-- Window 0's block at point `t`: element `(r, j)` of the block is element `(2000 t + r, j)` of the array. -/
theorem emb5_0 (t : Fin cfg5.N) (r : Fin 2000) (j : Fin 64) :
    ((cfg5.win 0).blk t).view.emb (ix2 r j) = (ix2 ⟨2000 * t.val + r.val, rowLt5 t r⟩ j : S100000x64.Idx) := by
  obtain ⟨e0, e1, -⟩ := idx5 t
  funext a; apply Fin.ext
  match a with
  | ⟨0, _⟩ => show win5_0.index t (0 : Fin 2) * 2000 + 1 * r.val = 2000 * t.val + r.val; omega
  | ⟨1, _⟩ => show win5_0.index t (1 : Fin 2) * 64 + 1 * j.val = j.val; omega

/-- Window 1's block at point `t`: element `(r, j)` of the block is element `(2000 t + r, j)` of the array. -/
theorem emb5_1 (t : Fin cfg5.N) (r : Fin 2000) (j : Fin 64) :
    ((cfg5.win 1).blk t).view.emb (ix2 r j) = (ix2 ⟨2000 * t.val + r.val, rowLt5 t r⟩ j : S100000x64.Idx) := by
  obtain ⟨-, -, e0, e1, -⟩ := idx5 t
  funext a; apply Fin.ext
  match a with
  | ⟨0, _⟩ => show win5_1.index t (0 : Fin 2) * 2000 + 1 * r.val = 2000 * t.val + r.val; omega
  | ⟨1, _⟩ => show win5_1.index t (1 : Fin 2) * 64 + 1 * j.val = j.val; omega

/-- Window 10's block at point `t`: element `(r, j)` of the block is element `(2000 t + r, j)` of the array. -/
theorem emb5_10 (t : Fin cfg5.N) (r : Fin 2000) (j : Fin 64) :
    ((cfg5.win 10).blk t).view.emb (ix2 r j) = (ix2 ⟨2000 * t.val + r.val, rowLt5 t r⟩ j : S100000x64.Idx) := by
  obtain ⟨-, -, -, -, e0, e1, -⟩ := idx5 t
  funext a; apply Fin.ext
  match a with
  | ⟨0, _⟩ => show win5_10.index t (0 : Fin 2) * 2000 + 1 * r.val = 2000 * t.val + r.val; omega
  | ⟨1, _⟩ => show win5_10.index t (1 : Fin 2) * 64 + 1 * j.val = j.val; omega

/-- Window 2's block is its whole array, at every point. -/
theorem emb5_2 (t : Fin cfg5.N) (y : S64x64.Idx) : ((cfg5.win 2).blk t).view.emb y = y := by
  obtain ⟨-, -, -, -, -, -, e0, e1, -⟩ := idx5 t
  funext a; apply Fin.ext
  match a with
  | ⟨0, _⟩ => show win5_2.index t (0 : Fin 2) * 64 + 1 * (y 0).val = (y 0).val; omega
  | ⟨1, _⟩ => show win5_2.index t (1 : Fin 2) * 64 + 1 * (y 1).val = (y 1).val; omega

/-- Window 3's block is its whole array, at every point. -/
theorem emb5_3 (t : Fin cfg5.N) (y : S1x64.Idx) : ((cfg5.win 3).blk t).view.emb y = y := by
  obtain ⟨-, -, -, -, -, -, -, -, e0, e1, -⟩ := idx5 t
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Window 4's block is its whole array, at every point. -/
theorem emb5_4 (t : Fin cfg5.N) (y : S1x64.Idx) : ((cfg5.win 4).blk t).view.emb y = y := by
  obtain ⟨-, -, -, -, -, -, -, -, -, -, e0, e1, -⟩ := idx5 t
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- Window 5's block is its whole array, at every point. -/
theorem emb5_5 (t : Fin cfg5.N) (y : S1x64.Idx) : ((cfg5.win 5).blk t).view.emb y = y := by
  obtain ⟨-, -, -, -, -, -, -, -, -, -, -, -, e0, e1, -⟩ := idx5 t
  funext a; apply Fin.ext
  match a with
  | ⟨0, _⟩ => show win5_5.index t (0 : Fin 2) * 1 + 1 * (y 0).val = (y 0).val; omega
  | ⟨1, _⟩ => show win5_5.index t (1 : Fin 2) * 64 + 1 * (y 1).val = (y 1).val; omega

/-- Window 6's block is its whole array, at every point. -/
theorem emb5_6 (t : Fin cfg5.N) (y : S1x64.Idx) : ((cfg5.win 6).blk t).view.emb y = y := by
  obtain ⟨-, -, -, -, -, -, -, -, -, -, -, -, -, -, e0, e1, -⟩ := idx5 t
  funext a; apply Fin.ext
  match a with
  | ⟨0, _⟩ => show win5_6.index t (0 : Fin 2) * 1 + 1 * (y 0).val = (y 0).val; omega
  | ⟨1, _⟩ => show win5_6.index t (1 : Fin 2) * 64 + 1 * (y 1).val = (y 1).val; omega

/-- Window 7's block is its whole array, at every point. -/
theorem emb5_7 (t : Fin cfg5.N) (y : S1x64.Idx) : ((cfg5.win 7).blk t).view.emb y = y := by
  obtain ⟨-, -, -, -, -, -, -, -, -, -, -, -, -, -, -, -, e0, e1, -⟩ := idx5 t
  funext a; apply Fin.ext
  match a with
  | ⟨0, _⟩ => show win5_7.index t (0 : Fin 2) * 1 + 1 * (y 0).val = (y 0).val; omega
  | ⟨1, _⟩ => show win5_7.index t (1 : Fin 2) * 64 + 1 * (y 1).val = (y 1).val; omega

/-- Window 8's block is its whole array, at every point. -/
theorem emb5_8 (t : Fin cfg5.N) (y : S64x64.Idx) : ((cfg5.win 8).blk t).view.emb y = y := by
  obtain ⟨-, -, -, -, -, -, -, -, -, -, -, -, -, -, -, -, -, -, e0, e1, -⟩ := idx5 t
  funext a; apply Fin.ext
  match a with
  | ⟨0, _⟩ => show win5_8.index t (0 : Fin 2) * 64 + 1 * (y 0).val = (y 0).val; omega
  | ⟨1, _⟩ => show win5_8.index t (1 : Fin 2) * 64 + 1 * (y 1).val = (y 1).val; omega

/-- Window 9's block is its whole array, at every point. -/
theorem emb5_9 (t : Fin cfg5.N) (y : S1x64.Idx) : ((cfg5.win 9).blk t).view.emb y = y := by
  obtain ⟨-, -, -, -, -, -, -, -, -, -, -, -, -, -, -, -, -, -, -, -, e0, e1⟩ := idx5 t
  funext a; apply Fin.ext
  match a with
  | ⟨0, _⟩ => show win5_9.index t (0 : Fin 2) * 1 + 1 * (y 0).val = (y 0).val; omega
  | ⟨1, _⟩ => show win5_9.index t (1 : Fin 2) * 64 + 1 * (y 1).val = (y 1).val; omega

/-! ## The blocks the body reads, off the arrays -/

theorem iblk5_0_apply (c : Dev nD) (t : Fin cfg5.N) (r : Fin 2000) (j : Fin 64) :
    (iblk5 V c 0 t : Vec Ideal S2000x64 .f32) (ix2 r j)
      = (V c (Pipeline.arrRef spec5 0) : S100000x64.Idx → EReal) (ix2 ⟨2000 * t.val + r.val, rowLt5 t r⟩ j) := by
  unfold iblk5
  rw [View.read_apply, emb5_0]
  rfl

theorem iblk5_1_apply (c : Dev nD) (t : Fin cfg5.N) (r : Fin 2000) (j : Fin 64) :
    (iblk5 V c 1 t : Vec Ideal S2000x64 .f32) (ix2 r j)
      = (V c (Pipeline.arrRef spec5 1) : S100000x64.Idx → EReal) (ix2 ⟨2000 * t.val + r.val, rowLt5 t r⟩ j) := by
  unfold iblk5
  rw [View.read_apply, emb5_1]
  rfl

theorem iblk5_2_apply (c : Dev nD) (t : Fin cfg5.N) (y : S64x64.Idx) :
    (iblk5 V c 2 t : Vec Ideal S64x64 .f32) y = (V c (Pipeline.arrRef spec5 2) : S64x64.Idx → EReal) y := by
  unfold iblk5
  rw [View.read_apply, emb5_2]
  rfl

theorem iblk5_3_apply (c : Dev nD) (t : Fin cfg5.N) (y : S1x64.Idx) :
    (iblk5 V c 3 t : Vec Ideal S1x64 .f32) y = (V c (Pipeline.arrRef spec5 3) : S1x64.Idx → EReal) y := by
  unfold iblk5
  rw [View.read_apply, emb5_3]
  rfl

theorem iblk5_4_apply (c : Dev nD) (t : Fin cfg5.N) (y : S1x64.Idx) :
    (iblk5 V c 4 t : Vec Ideal S1x64 .f32) y = (V c (Pipeline.arrRef spec5 4) : S1x64.Idx → EReal) y := by
  unfold iblk5
  rw [View.read_apply, emb5_4]
  rfl

theorem iblk5_5_apply (c : Dev nD) (t : Fin cfg5.N) (y : S1x64.Idx) :
    (iblk5 V c 5 t : Vec Ideal S1x64 .f32) y = (V c (Pipeline.arrRef spec5 5) : S1x64.Idx → EReal) y := by
  unfold iblk5
  rw [View.read_apply, emb5_5]
  rfl

theorem iblk5_6_apply (c : Dev nD) (t : Fin cfg5.N) (y : S1x64.Idx) :
    (iblk5 V c 6 t : Vec Ideal S1x64 .f32) y = (V c (Pipeline.arrRef spec5 6) : S1x64.Idx → EReal) y := by
  unfold iblk5
  rw [View.read_apply, emb5_6]
  rfl

theorem iblk5_7_apply (c : Dev nD) (t : Fin cfg5.N) (y : S1x64.Idx) :
    (iblk5 V c 7 t : Vec Ideal S1x64 .f32) y = (V c (Pipeline.arrRef spec5 7) : S1x64.Idx → EReal) y := by
  unfold iblk5
  rw [View.read_apply, emb5_7]
  rfl

theorem iblk5_8_apply (c : Dev nD) (t : Fin cfg5.N) (y : S64x64.Idx) :
    (iblk5 V c 8 t : Vec Ideal S64x64 .f32) y = (V c (Pipeline.arrRef spec5 8) : S64x64.Idx → EReal) y := by
  unfold iblk5
  rw [View.read_apply, emb5_8]
  rfl

theorem iblk5_9_apply (c : Dev nD) (t : Fin cfg5.N) (y : S1x64.Idx) :
    (iblk5 V c 9 t : Vec Ideal S1x64 .f32) y = (V c (Pipeline.arrRef spec5 9) : S1x64.Idx → EReal) y := by
  unfold iblk5
  rw [View.read_apply, emb5_9]
  rfl

/-! ## What the body stores, at an index -/

/-- The output buffer after the body, at row `r` of the tile and column `q`: the one store covers the buffer and
    every load reads a whole buffer. -/
theorem out5_10_apply (x0 x1 : Vec Ideal S2000x64 .f32) (x2 : Vec Ideal S64x64 .f32) (x3 x4 x5 x6 x7 : Vec Ideal S1x64 .f32)
    (x8 : Vec Ideal S64x64 .f32) (x9 : Vec Ideal S1x64 .f32) (r : Fin 2000) (q : Fin 64) :
    out5_10 (F := Ideal) x0 x1 x2 x3 x4 x5 x6 x7 x8 x9 (ix2 r q)
      = max ((∑ k : Fin 64, max (((((∑ j : Fin 64, (x0 (ix2 r j) + x1 (ix2 r j)) * x2 (ix2 j k)) + x3 (ix2 (0 : Fin 1) k))
            - x4 (ix2 (0 : Fin 1) k)) * Ideal.rsqrt (x5 (ix2 (0 : Fin 1) k) + Cert.Spec.cEps)) * x6 (ix2 (0 : Fin 1) k)
            + x7 (ix2 (0 : Fin 1) k)) 0 * x8 (ix2 k q)) + x9 (ix2 (0 : Fin 1) q)) 0 := by
  unfold out5_10
  rw [View.canon_unit_zero hz]
  simp only [View.ld_unit_zero (S := S2000x64) hz, View.ld_unit_zero (S := S64x64) hz, View.ld_unit_zero (S := S1x64) hz]
  exact pay5_apply x0 x1 x2 x3 x4 x5 x6 x7 x8 x9 r q

/-! ## From blocks to the array -/

set_option maxHeartbeats 2000000 in
/-- What point `t` writes back is block `t` of the apply function of the arrays as the region finds them. -/
theorem flushed5_eq (c : Dev nD) (t : Fin cfg5.N) :
    (dat5 V c).flushed 10 t = ((cfg5.win 10).blk t).view.read (Elt Ideal)
      (applyG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9))) := by
  show (cfg5.win 10).cut (grid5.coords t) ((dat5 V c).after 10 t) = _
  rw [after5_10]
  funext y
  obtain ⟨r, q, rfl⟩ : ∃ (r : Fin 2000) (q : Fin 64), y = ix2 r q := ⟨y 0, y 1, eq_ix2 y⟩
  rw [View.read_apply, emb5_10]
  refine (out5_10_apply (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) r q).trans ?_
  simp only [iblk5_0_apply, iblk5_1_apply, iblk5_2_apply, iblk5_3_apply, iblk5_4_apply, iblk5_5_apply, iblk5_6_apply, iblk5_7_apply, iblk5_8_apply, iblk5_9_apply]
  exact (applyG_apply (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) ⟨2000 * t.val + r.val, rowLt5 t r⟩ q).symm

/-- An index of the array is in point `t`'s block iff each coordinate is in the block's range on its axis. -/
theorem mem_blk5 (t : Fin cfg5.N) (i : S100000x64.Idx) :
    i ∈ ((cfg5.win 10).blk t).view.set ↔ ∀ a : Fin 2, win5_10.index t a * S2000x64.size a ≤ (i a).val ∧ (i a).val < win5_10.index t a * S2000x64.size a + S2000x64.size a := by
  show i ∈ ((View.whole main_v111).slice (win5_10.rect t)).set ↔ _
  rw [View.set_slice_whole, Rect.mem_set_unit]
  exact Iff.rfl

/-- Every index of the array is in the block of the point its row falls in. -/
theorem cover5 (i : S100000x64.Idx) :
    ∃ t : Fin cfg5.N, (cfg5.win 10).flush t = true ∧ i ∈ ((cfg5.win 10).blk t).view.set := by
  have hi0 : (i 0).val < 100000 := (i 0).isLt
  have hi1 : (i 1).val < 64 := (i 1).isLt
  have hN : cfg5.N = 50 := N_5
  have ht : (i 0).val / 2000 < cfg5.N := by omega
  obtain ⟨-, -, -, -, e0, e1, -⟩ := idx5 ⟨(i 0).val / 2000, ht⟩
  refine ⟨⟨(i 0).val / 2000, ht⟩, flush5_10 _, ?_⟩
  rw [mem_blk5]
  intro a
  match a with
  | ⟨0, _⟩ =>
    show win5_10.index ⟨(i 0).val / 2000, ht⟩ (0 : Fin 2) * 2000 ≤ (i 0).val ∧ (i 0).val < win5_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_10.index ⟨(i 0).val / 2000, ht⟩ (1 : Fin 2) * 64 ≤ (i 1).val ∧ (i 1).val < win5_10.index ⟨(i 0).val / 2000, ht⟩ (1 : Fin 2) * 64 + 64
    rw [e1]; omega

/-- The output array after the region's write-backs is the apply function of the ten arrays the region finds. -/
theorem arrAt5_10 (c : Dev nD) :
    (dat5 V c).arrAt 10 cfg5.N = applyG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) :=
  (dat5 V c).arrAt_eq_of_cover 10 _ (fun t _ => flushed5_eq V c t) cover5

/-- The same with the ten arrays named: whatever the region-entry contents of the windows' arrays are called. -/
theorem apply5_value (c : Dev nD) (A X : S100000x64.Idx → EReal) (W1 : S64x64.Idx → EReal) (b1 mu var g be : S1x64.Idx → EReal)
    (W2 : S64x64.Idx → EReal) (b2 : S1x64.Idx → EReal)
    (h0 : V c (Pipeline.arrRef spec5 0) = A) (h1 : V c (Pipeline.arrRef spec5 1) = X) (h2 : V c (Pipeline.arrRef spec5 2) = W1)
    (h3 : V c (Pipeline.arrRef spec5 3) = b1) (h4 : V c (Pipeline.arrRef spec5 4) = mu) (h5 : V c (Pipeline.arrRef spec5 5) = var)
    (h6 : V c (Pipeline.arrRef spec5 6) = g) (h7 : V c (Pipeline.arrRef spec5 7) = be) (h8 : V c (Pipeline.arrRef spec5 8) = W2)
    (h9 : V c (Pipeline.arrRef spec5 9) = b2) :
    (dat5 V c).arrAt 10 cfg5.N = applyG A X W1 b1 mu var g be W2 b2 := by
  subst h0 h1 h2 h3 h4 h5 h6 h7 h8 h9
  exact arrAt5_10 V c

end Cert.KernelIdeal.Fr

end
-- ==== Proof.KI.StatsVal4.lean ====
/-
  The statistics region's two output rows, as column sums over all 100000 rows.

  The region visits 50 tiles of 2000 rows. At each tile it forms `h = (agg + x) · W1 + b1` for the tile's rows and
  adds the tile's column sums of `h`, and of `h * h`, to two carried rows, which start at zero; after the last tile
  the carried rows are written to the two output rows. Read at an entry, each tile's `h` is the whole arrays' `h` at
  rows `2000 t … 2000 t + 1999`, so the output rows hold the sums over all rows. Addition of extended reals is a
  commutative monoid, which is all the regrouping needs.
-/
import proofs.«166406_j57140244906477_1_alg».proof.Proof.KI.Stats4
import proofs.«166406_j57140244906477_1_alg».proof.Proof.KI.K0Pay
import proofs.«166406_j57140244906477_1_alg».proof.Proof.KI.StatsMath
import proofs.«166406_j57140244906477_1_alg».proof.Proof.Spec
import Idealize.ShloMosaic.Lib.Pipeline.Value
import Idealize.ShloMosaic.Lib.ValueIdx

set_option maxRecDepth 16384

noncomputable section

namespace Cert.KernelIdeal.StatsVal4

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # The statistics region's two output rows as column sums over all rows

The region's two output rows are written back once, at the last grid point, with what the two scratch rows hold then.
Each input block, read at an entry, is an entry of its whole array: the two feature arrays' block at point `t` is rows
`2000 t … 2000 t + 1999`, the weight and the bias row are the whole arrays at every point. So the scratch rows after
point `n` hold the sums over the rows of tiles `0 … n`, and after the last point the sums over all 100000 rows. -/

/-- The printed index maps, decided over the grid: the two feature windows' block index is the grid point on the row
    axis and zero on the column axis; the other windows' block indices are zero. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row `r` of tile `t` is a row of the array. -/
theorem row_lt (t : Fin cfg4.N) (r : Fin 2000) : 2000 * t.val + r.val < 100000 := by
  have h1 := t.isLt
  have hN : cfg4.N = 50 := N_4
  have h2 := r.isLt
  omega

/-- The aggregated features' block at point `t`, read at `(r, k)`, is the array at row `2000 t + r`. -/
theorem blk0_read (c : Dev nD) (t : Fin cfg4.N) (r : Fin 2000) (k : Fin 64) :
    iblk4 V c 0 t (ix2 r k) = V c (Pipeline.arrRef spec4 0) (ix2 ⟨2000 * t.val + r.val, row_lt t r⟩ k) := by
  obtain ⟨e0, e1, -⟩ := idx_facts t
  show V c (Pipeline.arrRef spec4 0) (((cfg4.win 0).blk t).view.emb (ix2 r k)) = _
  refine congrArg _ (funext fun a => Fin.ext ?_)
  match a with
  | ⟨0, _⟩ => show win4_0.index t (0 : Fin 2) * 2000 + 1 * r.val = 2000 * t.val + r.val; omega
  | ⟨1, _⟩ => show win4_0.index t (1 : Fin 2) * 64 + 1 * k.val = k.val; omega

/-- The own features' block at point `t`, read at `(r, k)`, is the array at row `2000 t + r`. -/
theorem blk1_read (c : Dev nD) (t : Fin cfg4.N) (r : Fin 2000) (k : Fin 64) :
    iblk4 V c 1 t (ix2 r k) = V c (Pipeline.arrRef spec4 1) (ix2 ⟨2000 * t.val + r.val, row_lt t r⟩ k) := by
  obtain ⟨-, -, e0, e1, -⟩ := idx_facts t
  show V c (Pipeline.arrRef spec4 1) (((cfg4.win 1).blk t).view.emb (ix2 r k)) = _
  refine congrArg _ (funext fun a => Fin.ext ?_)
  match a with
  | ⟨0, _⟩ => show win4_1.index t (0 : Fin 2) * 2000 + 1 * r.val = 2000 * t.val + r.val; omega
  | ⟨1, _⟩ => show win4_1.index t (1 : Fin 2) * 64 + 1 * k.val = k.val; omega

/-- The weight's block is the whole weight at every point. -/
theorem blk2_read (c : Dev nD) (t : Fin cfg4.N) (k q : Fin 64) :
    iblk4 V c 2 t (ix2 k q) = V c (Pipeline.arrRef spec4 2) (ix2 k q) := by
  obtain ⟨-, -, -, -, e0, e1, -⟩ := idx_facts t
  show V c (Pipeline.arrRef spec4 2) (((cfg4.win 2).blk t).view.emb (ix2 k q)) = _
  refine congrArg _ (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

/-- The bias row's block is the whole row at every point. -/
theorem blk3_read (c : Dev nD) (t : Fin cfg4.N) (q : Fin 64) :
    iblk4 V c 3 t (ix2 (0 : Fin 1) q) = V c (Pipeline.arrRef spec4 3) (ix2 (0 : Fin 1) q) := by
  obtain ⟨-, -, -, -, -, -, e0, e1, -⟩ := idx_facts t
  show V c (Pipeline.arrRef spec4 3) (((cfg4.win 3).blk t).view.emb (ix2 (0 : Fin 1) q)) = _
  refine congrArg _ (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 64 + 1 * q.val = q.val; omega

/-- The layer's first linear map applied to aggregated-plus-own features, over the arrays as the region finds them. -/
def hMat (c : Dev nD) : Cert.Spec.Mat :=
  Cert.Spec.lin (Cert.Spec.toWt (V c (Pipeline.arrRef spec4 2))) (fun q => V c (Pipeline.arrRef spec4 3) (ix2 (0 : Fin 1) q))
    (fun p q => Cert.Spec.toMat (V c (Pipeline.arrRef spec4 0)) p q + Cert.Spec.toMat (V c (Pipeline.arrRef spec4 1)) p q)

/-- The tile's pre-normalisation value at row `r` is the whole-array value at row `2000 t + r`. -/
theorem pay3_tile (c : Dev nD) (t : Fin cfg4.N) (r : Fin 2000) (q : Fin 64) :
    k4_pay3 (F := Ideal) (iblk4 V c 0 t) (iblk4 V c 1 t) (iblk4 V c 2 t) (iblk4 V c 3 t) (ix2 r q)
      = hMat V c ⟨2000 * t.val + r.val, row_lt t r⟩ q := by
  refine (Cert.KernelIdeal.Pay.k4_pay3_apply _ _ _ _ r q).trans ?_
  simp only [blk0_read, blk1_read, blk2_read, blk3_read]
  rfl

/-- A point number below 50 is a grid point. -/
theorem lt_N {n : ℕ} (hn : n < 50) : n < cfg4.N := by
  have hN : cfg4.N = 50 := N_4
  omega

/-- After the first point the row of sums holds zero plus the first tile's column sums. -/
theorem sum_zero (c : Dev nD) (hn : 0 < cfg4.N) (q : Fin 64) :
    (acc4 V c 0 hn).1 (ix2 (0 : Fin 1) q)
      = 0 + ∑ r : Fin 2000, hMat V c ⟨2000 * 0 + r.val, by have := r.isLt; omega⟩ q := by
  show k4_pay4 (F := Ideal) (iblk4 V c 0 ⟨0, hn⟩) (iblk4 V c 1 ⟨0, hn⟩) (iblk4 V c 2 ⟨0, hn⟩) (iblk4 V c 3 ⟨0, hn⟩)
    (k4_pay1 (F := Ideal)) (ix2 (0 : Fin 1) q) = _
  refine (Cert.KernelIdeal.Pay.k4_pay4_apply _ _ _ _ _ q).trans ?_
  rw [Cert.KernelIdeal.Pay.k4_pay1_apply]
  exact congrArg (0 + ·) (Finset.sum_congr rfl fun r _ => pay3_tile V c ⟨0, hn⟩ r q)

/-- After a later point the row of sums holds what the point before left plus the tile's column sums. -/
theorem sum_succ (c : Dev nD) (n : ℕ) (hn : n + 1 < cfg4.N) (q : Fin 64) :
    (acc4 V c (n + 1) hn).1 (ix2 (0 : Fin 1) q)
      = (acc4 V c n (Nat.lt_of_succ_lt hn)).1 (ix2 (0 : Fin 1) q)
        + ∑ r : Fin 2000, hMat V c ⟨2000 * (n + 1) + r.val, row_lt ⟨n + 1, hn⟩ r⟩ q := by
  show k4_pay4 (F := Ideal) (iblk4 V c 0 ⟨n + 1, hn⟩) (iblk4 V c 1 ⟨n + 1, hn⟩) (iblk4 V c 2 ⟨n + 1, hn⟩)
    (iblk4 V c 3 ⟨n + 1, hn⟩) (acc4 V c n (Nat.lt_of_succ_lt hn)).1 (ix2 (0 : Fin 1) q) = _
  refine (Cert.KernelIdeal.Pay.k4_pay4_apply _ _ _ _ _ q).trans ?_
  exact congrArg ((acc4 V c n (Nat.lt_of_succ_lt hn)).1 (ix2 (0 : Fin 1) q) + ·)
    (Finset.sum_congr rfl fun r _ => pay3_tile V c ⟨n + 1, hn⟩ r q)

/-- After the first point the row of sums of squares holds zero plus the first tile's column sums of squares. -/
theorem sq_zero (c : Dev nD) (hn : 0 < cfg4.N) (q : Fin 64) :
    (acc4 V c 0 hn).2 (ix2 (0 : Fin 1) q)
      = 0 + ∑ r : Fin 2000, hMat V c ⟨2000 * 0 + r.val, by have := r.isLt; omega⟩ q
          * hMat V c ⟨2000 * 0 + r.val, by have := r.isLt; omega⟩ q := by
  show k4_pay5 (F := Ideal) (iblk4 V c 0 ⟨0, hn⟩) (iblk4 V c 1 ⟨0, hn⟩) (iblk4 V c 2 ⟨0, hn⟩) (iblk4 V c 3 ⟨0, hn⟩)
    (k4_pay2 (F := Ideal)) (ix2 (0 : Fin 1) q) = _
  refine (Cert.KernelIdeal.Pay.k4_pay5_apply _ _ _ _ _ q).trans ?_
  rw [Cert.KernelIdeal.Pay.k4_pay2_apply]
  exact congrArg (0 + ·) (Finset.sum_congr rfl fun r _ => by rw [pay3_tile V c ⟨0, hn⟩ r q])

/-- After a later point the row of sums of squares holds what the point before left plus the tile's. -/
theorem sq_succ (c : Dev nD) (n : ℕ) (hn : n + 1 < cfg4.N) (q : Fin 64) :
    (acc4 V c (n + 1) hn).2 (ix2 (0 : Fin 1) q)
      = (acc4 V c n (Nat.lt_of_succ_lt hn)).2 (ix2 (0 : Fin 1) q)
        + ∑ r : Fin 2000, hMat V c ⟨2000 * (n + 1) + r.val, row_lt ⟨n + 1, hn⟩ r⟩ q
            * hMat V c ⟨2000 * (n + 1) + r.val, row_lt ⟨n + 1, hn⟩ r⟩ q := by
  show k4_pay5 (F := Ideal) (iblk4 V c 0 ⟨n + 1, hn⟩) (iblk4 V c 1 ⟨n + 1, hn⟩) (iblk4 V c 2 ⟨n + 1, hn⟩)
    (iblk4 V c 3 ⟨n + 1, hn⟩) (acc4 V c n (Nat.lt_of_succ_lt hn)).2 (ix2 (0 : Fin 1) q) = _
  refine (Cert.KernelIdeal.Pay.k4_pay5_apply _ _ _ _ _ q).trans ?_
  exact congrArg ((acc4 V c n (Nat.lt_of_succ_lt hn)).2 (ix2 (0 : Fin 1) q) + ·)
    (Finset.sum_congr rfl fun r _ => by rw [pay3_tile V c ⟨n + 1, hn⟩ r q])

/-- After the last point the row of sums holds the column sums over all rows. -/
theorem sum_total (c : Dev nD) (q : Fin 64) :
    (acc4 V c 49 (lt_N (by norm_num))).1 (ix2 (0 : Fin 1) q) = ∑ p : Fin 100000, hMat V c p q :=
  Cert.KernelIdeal.StatsMath.tiles_total (fun p => hMat V c p q)
    (fun n hn => (acc4 V c n (lt_N hn)).1 (ix2 (0 : Fin 1) q))
    (fun h => sum_zero V c (lt_N h) q) (fun n h => sum_succ V c n (lt_N h) q)

/-- After the last point the row of sums of squares holds the column sums of squares over all rows. -/
theorem sq_total (c : Dev nD) (q : Fin 64) :
    (acc4 V c 49 (lt_N (by norm_num))).2 (ix2 (0 : Fin 1) q) = ∑ p : Fin 100000, hMat V c p q * hMat V c p q :=
  Cert.KernelIdeal.StatsMath.tiles_total (fun p => hMat V c p q * hMat V c p q)
    (fun n hn => (acc4 V c n (lt_N hn)).2 (ix2 (0 : Fin 1) q))
    (fun h => sq_zero V c (lt_N h) q) (fun n h => sq_succ V c n (lt_N h) q)

/-- An index of the output row is in point `t`'s block iff each coordinate is in the block's range on its axis. -/
theorem mem_blk4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v104_0).slice (win4_4.rect t)).set ↔ _
  rw [View.set_slice_whole, Rect.mem_set_unit]
  exact Iff.rfl

theorem mem_blk5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v104_1).slice (win4_5.rect t)).set ↔ _
  rw [View.set_slice_whole, Rect.mem_set_unit]
  exact Iff.rfl

/-- The last grid point. -/
abbrev tLast : Fin cfg4.N := ⟨49, lt_N (by norm_num)⟩

/-- The only point that writes the output rows back is the last one. -/
theorem eq_last_of_flush (t : Fin cfg4.N) (h : t.val % 50 = 49) : t = tLast := by
  have h1 := t.isLt
  have hN : cfg4.N = 50 := N_4
  exact Fin.ext (by show t.val = 49; omega)

/-- What the last point writes back to the first output row is the row of sums, as a block of itself. -/
theorem flushed4_eq (c : Dev nD) (t : Fin cfg4.N) (hf : (cfg4.win 4).flush t = true) :
    (dat4 V c).flushed 4 t = ((cfg4.win 4).blk t).view.read (Elt Ideal) (acc4 V c 49 (lt_N (by norm_num))).1 := by
  obtain rfl := eq_last_of_flush t ((flush4_4 t).mp hf)
  obtain ⟨-, -, -, -, -, -, -, -, e0, e1, -⟩ := idx_facts tLast
  show (cfg4.win 4).cut (grid4.coords tLast) ((dat4 V c).after 4 tLast) = _
  rw [after4_4]
  funext j
  show (acc4 V c 49 (lt_N (by norm_num))).1 j = (acc4 V c 49 (lt_N (by norm_num))).1 (((cfg4.win 4).blk tLast).view.emb j)
  refine congrArg _ (funext fun a => Fin.ext ?_)
  match a with
  | ⟨0, _⟩ => show (j 0).val = win4_4.index tLast (0 : Fin 2) * 1 + 1 * (j 0).val; omega
  | ⟨1, _⟩ => show (j 1).val = win4_4.index tLast (1 : Fin 2) * 64 + 1 * (j 1).val; omega

theorem flushed5_eq (c : Dev nD) (t : Fin cfg4.N) (hf : (cfg4.win 5).flush t = true) :
    (dat4 V c).flushed 5 t = ((cfg4.win 5).blk t).view.read (Elt Ideal) (acc4 V c 49 (lt_N (by norm_num))).2 := by
  obtain rfl := eq_last_of_flush t ((flush4_5 t).mp hf)
  obtain ⟨-, -, -, -, -, -, -, -, -, -, e0, e1⟩ := idx_facts tLast
  show (cfg4.win 5).cut (grid4.coords tLast) ((dat4 V c).after 5 tLast) = _
  rw [after4_5]
  funext j
  show (acc4 V c 49 (lt_N (by norm_num))).2 j = (acc4 V c 49 (lt_N (by norm_num))).2 (((cfg4.win 5).blk tLast).view.emb j)
  refine congrArg _ (funext fun a => Fin.ext ?_)
  match a with
  | ⟨0, _⟩ => show (j 0).val = win4_5.index tLast (0 : Fin 2) * 1 + 1 * (j 0).val; omega
  | ⟨1, _⟩ => show (j 1).val = win4_5.index tLast (1 : Fin 2) * 64 + 1 * (j 1).val; omega

/-- Every index of the first output row is in the last point's block. -/
theorem cover4 (i : S1x64.Idx) : ∃ t : Fin cfg4.N, (cfg4.win 4).flush t = true ∧ i ∈ ((cfg4.win 4).blk t).view.set := by
  refine ⟨tLast, (flush4_4 tLast).mpr (by decide), ?_⟩
  obtain ⟨-, -, -, -, -, -, -, -, e0, e1, -⟩ := idx_facts tLast
  rw [mem_blk4]
  intro a
  match a with
  | ⟨0, _⟩ =>
    show win4_4.index tLast (0 : Fin 2) * 1 ≤ (i 0).val ∧ (i 0).val < win4_4.index tLast (0 : Fin 2) * 1 + 1
    have hi : (i 0).val < 1 := (i 0).isLt
    omega
  | ⟨1, _⟩ =>
    show win4_4.index tLast (1 : Fin 2) * 64 ≤ (i 1).val ∧ (i 1).val < win4_4.index tLast (1 : Fin 2) * 64 + 64
    have hi : (i 1).val < 64 := (i 1).isLt
    omega

theorem cover5 (i : S1x64.Idx) : ∃ t : Fin cfg4.N, (cfg4.win 5).flush t = true ∧ i ∈ ((cfg4.win 5).blk t).view.set := by
  refine ⟨tLast, (flush4_5 tLast).mpr (by decide), ?_⟩
  obtain ⟨-, -, -, -, -, -, -, -, -, -, e0, e1⟩ := idx_facts tLast
  rw [mem_blk5]
  intro a
  match a with
  | ⟨0, _⟩ =>
    show win4_5.index tLast (0 : Fin 2) * 1 ≤ (i 0).val ∧ (i 0).val < win4_5.index tLast (0 : Fin 2) * 1 + 1
    have hi : (i 0).val < 1 := (i 0).isLt
    omega
  | ⟨1, _⟩ =>
    show win4_5.index tLast (1 : Fin 2) * 64 ≤ (i 1).val ∧ (i 1).val < win4_5.index tLast (1 : Fin 2) * 64 + 64
    have hi : (i 1).val < 64 := (i 1).isLt
    omega

/-- After the region the first output row is the row of sums after the last point. -/
theorem arr4_eq (c : Dev nD) : (dat4 V c).arrAt 4 cfg4.N = (acc4 V c 49 (lt_N (by norm_num))).1 :=
  (dat4 V c).arrAt_eq_of_cover 4 _ (fun t hf => flushed4_eq V c t hf) cover4

/-- After the region the second output row is the row of sums of squares after the last point. -/
theorem arr5_eq (c : Dev nD) : (dat4 V c).arrAt 5 cfg4.N = (acc4 V c 49 (lt_N (by norm_num))).2 :=
  (dat4 V c).arrAt_eq_of_cover 5 _ (fun t hf => flushed5_eq V c t hf) cover5

/-- THE FIRST OUTPUT ROW after the region: the column sums, over all 100000 rows, of the layer's first linear map. -/
theorem stats_sum (c : Dev nD) (q : Fin 64) :
    (dat4 V c).arrAt 4 cfg4.N (ix2 (0 : Fin 1) q) = ∑ p : Fin 100000, hMat V c p q :=
  (congrFun (arr4_eq V c) (ix2 (0 : Fin 1) q)).trans (sum_total V c q)

/-- THE SECOND OUTPUT ROW after the region: the column sums of its squares. -/
theorem stats_sq (c : Dev nD) (q : Fin 64) :
    (dat4 V c).arrAt 5 cfg4.N (ix2 (0 : Fin 1) q) = ∑ p : Fin 100000, hMat V c p q * hMat V c p q :=
  (congrFun (arr5_eq V c) (ix2 (0 : Fin 1) q)).trans (sq_total V c q)

/-- The same over named arrays: with `X0`, `X1`, `Wm`, `B` the aggregated features, the own features, the weight and
    the bias row as the region finds them. -/
theorem stats_sum4 (c : Dev nD) (X0 X1 : S100000x64.Idx → EReal) (Wm : S64x64.Idx → EReal) (B : S1x64.Idx → EReal)
    (h0 : X0 = V c (Pipeline.arrRef spec4 0)) (h1 : X1 = V c (Pipeline.arrRef spec4 1))
    (h2 : Wm = V c (Pipeline.arrRef spec4 2)) (h3 : B = V c (Pipeline.arrRef spec4 3)) (q : Fin 64) :
    (dat4 V c).arrAt 4 cfg4.N (ix2 (0 : Fin 1) q)
      = ∑ p : Fin 100000, Cert.Spec.lin (Cert.Spec.toWt Wm) (fun q => B (ix2 (0 : Fin 1) q))
          (fun p q => Cert.Spec.toMat X0 p q + Cert.Spec.toMat X1 p q) p q := by
  subst h0 h1 h2 h3
  exact stats_sum V c q

theorem stats_sq4 (c : Dev nD) (X0 X1 : S100000x64.Idx → EReal) (Wm : S64x64.Idx → EReal) (B : S1x64.Idx → EReal)
    (h0 : X0 = V c (Pipeline.arrRef spec4 0)) (h1 : X1 = V c (Pipeline.arrRef spec4 1))
    (h2 : Wm = V c (Pipeline.arrRef spec4 2)) (h3 : B = V c (Pipeline.arrRef spec4 3)) (q : Fin 64) :
    (dat4 V c).arrAt 5 cfg4.N (ix2 (0 : Fin 1) q)
      = ∑ p : Fin 100000, Cert.Spec.lin (Cert.Spec.toWt Wm) (fun q => B (ix2 (0 : Fin 1) q))
            (fun p q => Cert.Spec.toMat X0 p q + Cert.Spec.toMat X1 p q) p q
          * Cert.Spec.lin (Cert.Spec.toWt Wm) (fun q => B (ix2 (0 : Fin 1) q))
            (fun p q => Cert.Spec.toMat X0 p q + Cert.Spec.toMat X1 p q) p q := by
  subst h0 h1 h2 h3
  exact stats_sq V c q

end Cert.KernelIdeal.StatsVal4
end
-- ==== Proof.KI.Layer3Val.lean ====
/-
  The kernel program's value, layer 3: walking the buffers' contents from one segment boundary to the next.

  At the statistics kernel's entry the host has left the aggregation of the layer's input and the layer's slices of the
  parameter arrays; the statistics kernel leaves the two rows of column sums of the first linear map; the host turns
  them into the batch mean and the kernel's variance; the apply kernel writes the layer from these. Buffers nothing in
  between writes are read where they were left.
-/
import proofs.«166406_j57140244906477_1_alg».proof.Proof.KI.Layer2Val
import proofs.«166406_j57140244906477_1_alg».proof.Proof.KI.HostRead4
import proofs.«166406_j57140244906477_1_alg».proof.Proof.KI.ApplyVal5
import proofs.«166406_j57140244906477_1_alg».proof.Proof.KI.StatsVal4

set_option maxRecDepth 16384

noncomputable section

namespace Cert.KernelIdeal.Walk

open Cert.KernelIdeal Cert.KernelIdeal.Gen Cert.KernelIdeal.Fr Cert.KernelIdeal.Keep Cert.KernelIdeal.HostRead Cert.KernelIdeal.Parts
open Cert.ApplyFn
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-! ## The third layer -/

/-- At the statistics kernel's entry the aggregation buffer reads as the aggregation of the layer's input. -/
theorem in2_agg : Cert.Spec.toMat (W9 m ρ c (Proc.devRef .tc main_v87)) = aggOp m ρ c (x2 m ρ c) :=
  (ops4_agg (W8 m ρ c)).trans (agg_congr
    (fun e => (congrFun (keep_v1_8_1 m ρ c) (ix1 e)).trans (ops0_v1 (W0 m ρ c) e))
    (fun e => (congrFun (keep_v3_8_1 m ρ c) (ix1 e)).trans (ops0_v3 (W0 m ρ c) e))
    (congrArg Cert.Spec.eaOf (keep_arg2_8_0 m ρ c)) (layer2 m ρ c))

/-- The layer's input. -/
theorem in2_x : Cert.Spec.toMat (W9 m ρ c (Proc.devRef .tc main_v75)) = x2 m ρ c := by
  rw [keep_v75_9_8 m ρ c]
  exact layer2 m ρ c

theorem in2_W1 : Cert.Spec.toWt (W9 m ρ c (Proc.devRef .tc main_v89)) = pW1 m ρ c 2 :=
  (ops4_W1 (W8 m ρ c)).trans (by rw [keep_arg3_8_0 m ρ c])

theorem in2_b1 : rowv (W9 m ρ c (Proc.devRef .tc main_v92)) = pb1 m ρ c 2 :=
  funext fun q => (ops4_b1 (W8 m ρ c) 0 q).trans (by rw [keep_arg4_8_0 m ρ c])

theorem in2_W2 : Cert.Spec.toWt (W9 m ρ c (Proc.devRef .tc main_v94)) = pW2 m ρ c 2 :=
  (ops4_W2 (W8 m ρ c)).trans (by rw [keep_arg7_8_0 m ρ c])

theorem in2_b2 : rowv (W9 m ρ c (Proc.devRef .tc main_v97)) = pb2 m ρ c 2 :=
  funext fun q => (ops4_b2 (W8 m ρ c) 0 q).trans (by rw [keep_arg8_8_0 m ρ c])

theorem in2_gamma : rowv (W9 m ρ c (Proc.devRef .tc main_v100)) = pg m ρ c 2 :=
  funext fun q => (ops4_gamma (W8 m ρ c) 0 q).trans (by rw [keep_arg5_8_0 m ρ c])

theorem in2_beta : rowv (W9 m ρ c (Proc.devRef .tc main_v103)) = pbe m ρ c 2 :=
  funext fun q => (ops4_beta (W8 m ρ c) 0 q).trans (by rw [keep_arg6_8_0 m ρ c])

/-- What the statistics kernel sums: the layer's first linear map of aggregated-plus-own features. -/
theorem hmat2 : Cert.KernelIdeal.StatsVal4.hMat (V9 m ρ) c = Cert.Spec.pre (aggOp m ρ c) (x2 m ρ c) (pW1 m ρ c 2) (pb1 m ρ c 2) :=
  pre_of_parts _ _ _ _ _ _ _ _ (in2_agg m ρ c) (in2_x m ρ c) (in2_W1 m ρ c) (in2_b1 m ρ c)

/-- After the statistics kernel the first output row holds the column sums. -/
theorem sum2 (q : Fin 64) : W10 m ρ c (Proc.devRef .tc main_v104_0) (ix2 (0 : Fin 1) q) = ∑ p : Fin 100000, Cert.Spec.pre (aggOp m ρ c) (x2 m ρ c) (pW1 m ρ c 2) (pb1 m ρ c 2) p q :=
  (congrFun (W10_arr m ρ c 4) (ix2 (0 : Fin 1) q)).trans
    ((Cert.KernelIdeal.StatsVal4.stats_sum (V9 m ρ) c q).trans (by rw [hmat2 m ρ c]))

/-- And the second the column sums of squares. -/
theorem sq2 (q : Fin 64) : W10 m ρ c (Proc.devRef .tc main_v104_1) (ix2 (0 : Fin 1) q) = ∑ p : Fin 100000, Cert.Spec.pre (aggOp m ρ c) (x2 m ρ c) (pW1 m ρ c 2) (pb1 m ρ c 2) p q * Cert.Spec.pre (aggOp m ρ c) (x2 m ρ c) (pW1 m ρ c 2) (pb1 m ρ c 2) p q :=
  (congrFun (W10_arr m ρ c 5) (ix2 (0 : Fin 1) q)).trans
    ((Cert.KernelIdeal.StatsVal4.stats_sq (V9 m ρ) c q).trans (by rw [hmat2 m ρ c]))

/-- The host's mean row is the batch mean. -/
theorem mean2 : rowv (W11 m ρ c (Proc.devRef .tc main_v106)) = Cert.Spec.mean (Cert.Spec.pre (aggOp m ρ c) (x2 m ρ c) (pW1 m ρ c 2) (pb1 m ρ c 2)) :=
  mean_of_sum _ _ _ (sum2 m ρ c) (fun j => ops5_mean (W10 m ρ c) j)

/-- The host's variance row is the kernel's variance. -/
theorem var2 : rowv (W11 m ρ c (Proc.devRef .tc main_v110)) = Cert.Spec.varK (Cert.Spec.pre (aggOp m ρ c) (x2 m ρ c) (pW1 m ρ c 2) (pb1 m ρ c 2)) :=
  varK_of_sums _ _ _ _ (sum2 m ρ c) (sq2 m ρ c) (fun j => ops5_var (W10 m ρ c) j)

/-- LAYER 3: after the apply kernel its output buffer reads as the specification's layer of the layer's input. -/
theorem layer3 : Cert.Spec.toMat (W12 m ρ c (Proc.devRef .tc main_v111)) = x3 m ρ c := by
  have hA : Cert.Spec.toMat (W11 m ρ c (Proc.devRef .tc main_v87)) = aggOp m ρ c (x2 m ρ c) := by
    rw [keep_v87_11_9 m ρ c]; exact in2_agg m ρ c
  have hX : Cert.Spec.toMat (W11 m ρ c (Proc.devRef .tc main_v75)) = x2 m ρ c := by
    rw [keep_v75_11_8 m ρ c]; exact layer2 m ρ c
  have hW1 : Cert.Spec.toWt (W11 m ρ c (Proc.devRef .tc main_v89)) = pW1 m ρ c 2 := by
    rw [keep_v89_11_9 m ρ c]; exact in2_W1 m ρ c
  have hb1 : rowv (W11 m ρ c (Proc.devRef .tc main_v92)) = pb1 m ρ c 2 := by
    rw [keep_v92_11_9 m ρ c]; exact in2_b1 m ρ c
  have hg : rowv (W11 m ρ c (Proc.devRef .tc main_v100)) = pg m ρ c 2 := by
    rw [keep_v100_11_9 m ρ c]; exact in2_gamma m ρ c
  have hbe : rowv (W11 m ρ c (Proc.devRef .tc main_v103)) = pbe m ρ c 2 := by
    rw [keep_v103_11_9 m ρ c]; exact in2_beta m ρ c
  have hW2 : Cert.Spec.toWt (W11 m ρ c (Proc.devRef .tc main_v94)) = pW2 m ρ c 2 := by
    rw [keep_v94_11_9 m ρ c]; exact in2_W2 m ρ c
  have hb2 : rowv (W11 m ρ c (Proc.devRef .tc main_v97)) = pb2 m ρ c 2 := by
    rw [keep_v97_11_9 m ρ c]; exact in2_b2 m ρ c
  have e : W12 m ρ c (Proc.devRef .tc main_v111) = _ := (W12_arr m ρ c 10).trans (arrAt5_10 (V11 m ρ) c)
  rw [e]
  unfold x3
  exact layer_of_parts (aggOp m ρ c) (x2 m ρ c) (pW1 m ρ c 2) (pb1 m ρ c 2) (pg m ρ c 2) (pbe m ρ c 2) (pW2 m ρ c 2) (pb2 m ρ c 2)
    _ _ _ _ _ _ _ _ _ _ hA hX hW1 hb1 (mean2 m ρ c) (var2 m ρ c) hg hbe hW2 hb2

end Cert.KernelIdeal.Walk

end
-- ==== Proof.KI.KVal.lean ====
/-
  The kernel program's value: what it leaves in its output buffer is the specification's three layers with the
  kernel's variance, of the launch's node features, edge array, edge weights and parameter arrays.
-/
import proofs.«166406_j57140244906477_1_alg».proof.Proof.KI.Layer3Val

set_option maxRecDepth 16384

noncomputable section

namespace Cert.KernelIdeal.Fr

open Cert.KernelIdeal Cert.KernelIdeal.Gen
open Idealize.ShloMosaic Idealize.ShloMosaic.TcCoe Idealize.ShloMosaic.ValueIdx

/-- THE KERNEL PROGRAM'S VALUE at the ideal instance. -/
theorem kernel_value (m : (ℓ : Loc nD τ sig) → Buf (Elt Ideal) ℓ) (ρ : Dev nD → PrngReg) (c : Dev nD) :
    Cert.Spec.toMat (W12 (F := Ideal) m ρ c (Proc.devRef .tc main_v111))
      = Cert.Spec.netWith Cert.Spec.varK
          (Cert.Spec.agg (Cert.Spec.srcOf (m ((c : Thread nD τ).loc main_arg1))) (Cert.Spec.dstOf (m ((c : Thread nD τ).loc main_arg1)))
            (Cert.Spec.eaOf (m ((c : Thread nD τ).loc main_arg2))))
          (Cert.Spec.toMat (m ((c : Thread nD τ).loc main_arg0)))
          (fun l => Cert.Spec.wtOf (m ((c : Thread nD τ).loc main_arg3)) l)
          (fun l => Cert.Spec.rowOf (m ((c : Thread nD τ).loc main_arg4)) l)
          (fun l => Cert.Spec.rowOf (m ((c : Thread nD τ).loc main_arg5)) l)
          (fun l => Cert.Spec.rowOf (m ((c : Thread nD τ).loc main_arg6)) l)
          (fun l => Cert.Spec.wtOf (m ((c : Thread nD τ).loc main_arg7)) l)
          (fun l => Cert.Spec.rowOf (m ((c : Thread nD τ).loc main_arg8)) l) :=
  (Cert.KernelIdeal.Walk.layer3 m ρ c).trans rfl

end Cert.KernelIdeal.Fr

end
-- ==== Proof.RefTerm.lean ====
/-
  The reference program's host operations composed into pure functions of array contents: one function per
  stage of a layer (edge aggregation, first linear map, column mean, column variance, normalisation, rectifier,
  second linear map), a layer as their composition, the parameter slices, and the whole result as three layers.
  Each body is the stage's operations applied in program order, written out.
-/
import proofs.«166406_j57140244906477_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The edge aggregation as the program's operations compose it: the wrapped source numbers, the gather of rows, the product with the broadcast edge weights, the scatter-add into zeros. -/
def aggT (x : (⟨S100000x64, .f32⟩ : BufTy).Contents (Elt F)) (src dst : (⟨S1600000, .i32⟩ : BufTy).Contents (Elt F)) (ea : (⟨S1600000x1, .f32⟩ : BufTy).Contents (Elt F)) : (⟨S100000x64, .f32⟩ : BufTy).Contents (Elt F) :=
  (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) dst) ((mulf : (⟨S1600000x64, .f32⟩ : BufTy).Contents (Elt F) → (⟨S1600000x64, .f32⟩ : BufTy).Contents (Elt F) → (⟨S1600000x64, .f32⟩ : BufTy).Contents (Elt F)) (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) x ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) src))) ((broadcastInDim S1600000x64 ![0, 1] bcast_S1600000x1_S1600000x64_0_1 : (⟨S1600000x1, .f32⟩ : BufTy).Contents (Elt F) → (⟨S1600000x64, .f32⟩ : BufTy).Contents (Elt F)) ea)))

/-- The first linear map: (aggregate + own) times the weights, plus the broadcast bias row. -/
def preT (ag x : (⟨S100000x64, .f32⟩ : BufTy).Contents (Elt F)) (W1 : (⟨S64x64, .f32⟩ : BufTy).Contents (Elt F)) (b1 : (⟨S64, .f32⟩ : BufTy).Contents (Elt F)) : (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) ag x) W1) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b1)))

/-- The column mean: the column sums from zero, divided by the broadcast row count. -/
def meanT (h : (⟨S100000x64, .f32⟩ : BufTy).Contents (Elt F)) : (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) h ((constant S_ .f32 0x00000000#32) : (⟨S_, .f32⟩ : BufTy).Contents (Elt F))) ((broadcastInDim S64 ![] bcast_S_S64 : (⟨S_, .f32⟩ : BufTy).Contents (Elt F) → (⟨S64, .f32⟩ : BufTy).Contents (Elt F)) ((constant S_ .f32 0x47C35000#32) : (⟨S_, .f32⟩ : BufTy).Contents (Elt F))))

/-- The column variance as the outlined function computes it: the mean of the squared deviations, divided by the row count less the converted integer zero, selected against a NaN fill on that difference being positive. -/
def varT (h : (⟨S100000x64, .f32⟩ : BufTy).Contents (Elt F)) : (⟨S64, .f32⟩ : BufTy).Contents (Elt F) :=
  (((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))) ((constant S_ .f32 0x00000000#32) : (⟨S_, .f32⟩ : BufTy).Contents (Elt F))) ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) h (((broadcastInDim S100000x64 ![0, 1] bcast_S1x64_S100000x64_0_1) : (⟨S1x64, .f32⟩ : BufTy).Contents (Elt F) → (⟨S100000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) h ((constant S_ .f32 0x00000000#32) : (⟨S_, .f32⟩ : BufTy).Contents (Elt F)))) (((broadcastInDim S1x64 ![] bcast_S_S1x64) : (⟨S_, .f32⟩ : BufTy).Contents (Elt F) → (⟨S1x64, .f32⟩ : BufTy).Contents (Elt F)) ((constant S_ .f32 0x47C35000#32) : (⟨S_, .f32⟩ : BufTy).Contents (Elt F)))))) ((subf : (⟨S100000x64, .f32⟩ : BufTy).Contents (Elt F) → (⟨S100000x64, .f32⟩ : BufTy).Contents (Elt F) → (⟨S100000x64, .f32⟩ : BufTy).Contents (Elt F)) h (((broadcastInDim S100000x64 ![0, 1] bcast_S1x64_S100000x64_0_1) : (⟨S1x64, .f32⟩ : BufTy).Contents (Elt F) → (⟨S100000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) h ((constant S_ .f32 0x00000000#32) : (⟨S_, .f32⟩ : BufTy).Contents (Elt F)))) (((broadcastInDim S1x64 ![] bcast_S_S1x64) : (⟨S_, .f32⟩ : BufTy).Contents (Elt F) → (⟨S1x64, .f32⟩ : BufTy).Contents (Elt F)) ((constant S_ .f32 0x47C35000#32) : (⟨S_, .f32⟩ : BufTy).Contents (Elt F))))))) ((constant S_ .f32 0x00000000#32) : (⟨S_, .f32⟩ : BufTy).Contents (Elt F))) (((broadcastInDim S64 ![] bcast_S_S64) : (⟨S_, .f32⟩ : BufTy).Contents (Elt F) → (⟨S64, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F)))))) (((broadcastInDim S64 ![] bcast_S_S64) : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- Normalisation: (h − mean) · rsqrt(var + ε) · scale + shift, each row broadcast down the columns. -/
def normT (h : (⟨S100000x64, .f32⟩ : BufTy).Contents (Elt F)) (mu va g be : (⟨S64, .f32⟩ : BufTy).Contents (Elt F)) : (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) h ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) mu))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) va ((broadcastInDim S64 ![] bcast_S_S64 : (⟨S_, .f32⟩ : BufTy).Contents (Elt F) → (⟨S64, .f32⟩ : BufTy).Contents (Elt F)) ((constant S_ .f32 0x3727C5AC#32) : (⟨S_, .f32⟩ : BufTy).Contents (Elt F)))))))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) g))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) be)))

/-- The rectifier: the maximum with a broadcast zero. -/
def reluT (u : (⟨S100000x64, .f32⟩ : BufTy).Contents (Elt F)) : (⟨S100000x64, .f32⟩ : BufTy).Contents (Elt F) :=
  ((maximumf : (⟨S100000x64, .f32⟩ : BufTy).Contents (Elt F) → (⟨S100000x64, .f32⟩ : BufTy).Contents (Elt F) → (⟨S100000x64, .f32⟩ : BufTy).Contents (Elt F)) u (((broadcastInDim S100000x64 ![] bcast_S_S100000x64) : (⟨S_, .f32⟩ : BufTy).Contents (Elt F) → (⟨S100000x64, .f32⟩ : BufTy).Contents (Elt F)) ((constant S_ .f32 0x00000000#32) : (⟨S_, .f32⟩ : BufTy).Contents (Elt F))))

/-- The second linear map. -/
def lin2T (u : (⟨S100000x64, .f32⟩ : BufTy).Contents (Elt F)) (W2 : (⟨S64x64, .f32⟩ : BufTy).Contents (Elt F)) (b2 : (⟨S64, .f32⟩ : BufTy).Contents (Elt F)) : (⟨S100000x64, .f32⟩ : BufTy).Contents (Elt F) :=
  ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) u W2) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b2)))

/-- One layer: aggregate, first linear map, batch statistics, normalisation, rectifier, second linear map, rectifier. -/
def layerT (x : (⟨S100000x64, .f32⟩ : BufTy).Contents (Elt F)) (src dst : (⟨S1600000, .i32⟩ : BufTy).Contents (Elt F)) (ea : (⟨S1600000x1, .f32⟩ : BufTy).Contents (Elt F)) (W1 : (⟨S64x64, .f32⟩ : BufTy).Contents (Elt F)) (b1 g be : (⟨S64, .f32⟩ : BufTy).Contents (Elt F)) (W2 : (⟨S64x64, .f32⟩ : BufTy).Contents (Elt F)) (b2 : (⟨S64, .f32⟩ : BufTy).Contents (Elt F)) : (⟨S100000x64, .f32⟩ : BufTy).Contents (Elt F) :=
  reluT (lin2T (reluT (normT (preT (aggT x src dst ea) x W1 b1) (meanT (preT (aggT x src dst ea) x W1 b1)) (varT (preT (aggT x src dst ea) x W1 b1)) g be)) W2 b2)

/-- The source row numbers: row 0 of the edge array, as a vector. -/
def srcT (ei : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000)

/-- The target row numbers: row 1 of the edge array, as a vector. -/
def dstT (ei : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000)

/-- Slice 0 of the first weight array. -/
def w1S0 (a : (⟨S3x64x64, .f32⟩ : BufTy).Contents (Elt F)) : (⟨S64x64, .f32⟩ : BufTy).Contents (Elt F) :=
  (shapeCast S64x64 (((extractStridedSlice S1x64x64 ![0, 0, 0] · slices_S3x64x64_S1x64x64_0_0_0) : (⟨S3x64x64, .f32⟩ : BufTy).Contents (Elt F) → (⟨S1x64x64, .f32⟩ : BufTy).Contents (Elt F)) a) shapeCasts_S1x64x64_S64x64)

/-- Slice 0 of the first bias array. -/
def b1S0 (a : (⟨S3x64, .f32⟩ : BufTy).Contents (Elt F)) : (⟨S64, .f32⟩ : BufTy).Contents (Elt F) :=
  (shapeCast S64 (((extractStridedSlice S1x64 ![0, 0] · slices_S3x64_S1x64_0_0) : (⟨S3x64, .f32⟩ : BufTy).Contents (Elt F) → (⟨S1x64, .f32⟩ : BufTy).Contents (Elt F)) a) shapeCasts_S1x64_S64)

/-- Slice 0 of the scale array. -/
def gS0 (a : (⟨S3x64, .f32⟩ : BufTy).Contents (Elt F)) : (⟨S64, .f32⟩ : BufTy).Contents (Elt F) :=
  (shapeCast S64 (((extractStridedSlice S1x64 ![0, 0] · slices_S3x64_S1x64_0_0) : (⟨S3x64, .f32⟩ : BufTy).Contents (Elt F) → (⟨S1x64, .f32⟩ : BufTy).Contents (Elt F)) a) shapeCasts_S1x64_S64)

/-- Slice 0 of the shift array. -/
def beS0 (a : (⟨S3x64, .f32⟩ : BufTy).Contents (Elt F)) : (⟨S64, .f32⟩ : BufTy).Contents (Elt F) :=
  (shapeCast S64 (((extractStridedSlice S1x64 ![0, 0] · slices_S3x64_S1x64_0_0) : (⟨S3x64, .f32⟩ : BufTy).Contents (Elt F) → (⟨S1x64, .f32⟩ : BufTy).Contents (Elt F)) a) shapeCasts_S1x64_S64)

/-- Slice 0 of the second weight array. -/
def w2S0 (a : (⟨S3x64x64, .f32⟩ : BufTy).Contents (Elt F)) : (⟨S64x64, .f32⟩ : BufTy).Contents (Elt F) :=
  (shapeCast S64x64 (((extractStridedSlice S1x64x64 ![0, 0, 0] · slices_S3x64x64_S1x64x64_0_0_0) : (⟨S3x64x64, .f32⟩ : BufTy).Contents (Elt F) → (⟨S1x64x64, .f32⟩ : BufTy).Contents (Elt F)) a) shapeCasts_S1x64x64_S64x64)

/-- Slice 0 of the second bias array. -/
def b2S0 (a : (⟨S3x64, .f32⟩ : BufTy).Contents (Elt F)) : (⟨S64, .f32⟩ : BufTy).Contents (Elt F) :=
  (shapeCast S64 (((extractStridedSlice S1x64 ![0, 0] · slices_S3x64_S1x64_0_0) : (⟨S3x64, .f32⟩ : BufTy).Contents (Elt F) → (⟨S1x64, .f32⟩ : BufTy).Contents (Elt F)) a) shapeCasts_S1x64_S64)

/-- Slice 1 of the first weight array. -/
def w1S1 (a : (⟨S3x64x64, .f32⟩ : BufTy).Contents (Elt F)) : (⟨S64x64, .f32⟩ : BufTy).Contents (Elt F) :=
  (shapeCast S64x64 (((extractStridedSlice S1x64x64 ![1, 0, 0] · slices_S3x64x64_S1x64x64_1_0_0) : (⟨S3x64x64, .f32⟩ : BufTy).Contents (Elt F) → (⟨S1x64x64, .f32⟩ : BufTy).Contents (Elt F)) a) shapeCasts_S1x64x64_S64x64)

/-- Slice 1 of the first bias array. -/
def b1S1 (a : (⟨S3x64, .f32⟩ : BufTy).Contents (Elt F)) : (⟨S64, .f32⟩ : BufTy).Contents (Elt F) :=
  (shapeCast S64 (((extractStridedSlice S1x64 ![1, 0] · slices_S3x64_S1x64_1_0) : (⟨S3x64, .f32⟩ : BufTy).Contents (Elt F) → (⟨S1x64, .f32⟩ : BufTy).Contents (Elt F)) a) shapeCasts_S1x64_S64)

/-- Slice 1 of the scale array. -/
def gS1 (a : (⟨S3x64, .f32⟩ : BufTy).Contents (Elt F)) : (⟨S64, .f32⟩ : BufTy).Contents (Elt F) :=
  (shapeCast S64 (((extractStridedSlice S1x64 ![1, 0] · slices_S3x64_S1x64_1_0) : (⟨S3x64, .f32⟩ : BufTy).Contents (Elt F) → (⟨S1x64, .f32⟩ : BufTy).Contents (Elt F)) a) shapeCasts_S1x64_S64)

/-- Slice 1 of the shift array. -/
def beS1 (a : (⟨S3x64, .f32⟩ : BufTy).Contents (Elt F)) : (⟨S64, .f32⟩ : BufTy).Contents (Elt F) :=
  (shapeCast S64 (((extractStridedSlice S1x64 ![1, 0] · slices_S3x64_S1x64_1_0) : (⟨S3x64, .f32⟩ : BufTy).Contents (Elt F) → (⟨S1x64, .f32⟩ : BufTy).Contents (Elt F)) a) shapeCasts_S1x64_S64)

/-- Slice 1 of the second weight array. -/
def w2S1 (a : (⟨S3x64x64, .f32⟩ : BufTy).Contents (Elt F)) : (⟨S64x64, .f32⟩ : BufTy).Contents (Elt F) :=
  (shapeCast S64x64 (((extractStridedSlice S1x64x64 ![1, 0, 0] · slices_S3x64x64_S1x64x64_1_0_0) : (⟨S3x64x64, .f32⟩ : BufTy).Contents (Elt F) → (⟨S1x64x64, .f32⟩ : BufTy).Contents (Elt F)) a) shapeCasts_S1x64x64_S64x64)

/-- Slice 1 of the second bias array. -/
def b2S1 (a : (⟨S3x64, .f32⟩ : BufTy).Contents (Elt F)) : (⟨S64, .f32⟩ : BufTy).Contents (Elt F) :=
  (shapeCast S64 (((extractStridedSlice S1x64 ![1, 0] · slices_S3x64_S1x64_1_0) : (⟨S3x64, .f32⟩ : BufTy).Contents (Elt F) → (⟨S1x64, .f32⟩ : BufTy).Contents (Elt F)) a) shapeCasts_S1x64_S64)

/-- Slice 2 of the first weight array. -/
def w1S2 (a : (⟨S3x64x64, .f32⟩ : BufTy).Contents (Elt F)) : (⟨S64x64, .f32⟩ : BufTy).Contents (Elt F) :=
  (shapeCast S64x64 (((extractStridedSlice S1x64x64 ![2, 0, 0] · slices_S3x64x64_S1x64x64_2_0_0) : (⟨S3x64x64, .f32⟩ : BufTy).Contents (Elt F) → (⟨S1x64x64, .f32⟩ : BufTy).Contents (Elt F)) a) shapeCasts_S1x64x64_S64x64)

/-- Slice 2 of the first bias array. -/
def b1S2 (a : (⟨S3x64, .f32⟩ : BufTy).Contents (Elt F)) : (⟨S64, .f32⟩ : BufTy).Contents (Elt F) :=
  (shapeCast S64 (((extractStridedSlice S1x64 ![2, 0] · slices_S3x64_S1x64_2_0) : (⟨S3x64, .f32⟩ : BufTy).Contents (Elt F) → (⟨S1x64, .f32⟩ : BufTy).Contents (Elt F)) a) shapeCasts_S1x64_S64)

/-- Slice 2 of the scale array. -/
def gS2 (a : (⟨S3x64, .f32⟩ : BufTy).Contents (Elt F)) : (⟨S64, .f32⟩ : BufTy).Contents (Elt F) :=
  (shapeCast S64 (((extractStridedSlice S1x64 ![2, 0] · slices_S3x64_S1x64_2_0) : (⟨S3x64, .f32⟩ : BufTy).Contents (Elt F) → (⟨S1x64, .f32⟩ : BufTy).Contents (Elt F)) a) shapeCasts_S1x64_S64)

/-- Slice 2 of the shift array. -/
def beS2 (a : (⟨S3x64, .f32⟩ : BufTy).Contents (Elt F)) : (⟨S64, .f32⟩ : BufTy).Contents (Elt F) :=
  (shapeCast S64 (((extractStridedSlice S1x64 ![2, 0] · slices_S3x64_S1x64_2_0) : (⟨S3x64, .f32⟩ : BufTy).Contents (Elt F) → (⟨S1x64, .f32⟩ : BufTy).Contents (Elt F)) a) shapeCasts_S1x64_S64)

/-- Slice 2 of the second weight array. -/
def w2S2 (a : (⟨S3x64x64, .f32⟩ : BufTy).Contents (Elt F)) : (⟨S64x64, .f32⟩ : BufTy).Contents (Elt F) :=
  (shapeCast S64x64 (((extractStridedSlice S1x64x64 ![2, 0, 0] · slices_S3x64x64_S1x64x64_2_0_0) : (⟨S3x64x64, .f32⟩ : BufTy).Contents (Elt F) → (⟨S1x64x64, .f32⟩ : BufTy).Contents (Elt F)) a) shapeCasts_S1x64x64_S64x64)

/-- Slice 2 of the second bias array. -/
def b2S2 (a : (⟨S3x64, .f32⟩ : BufTy).Contents (Elt F)) : (⟨S64, .f32⟩ : BufTy).Contents (Elt F) :=
  (shapeCast S64 (((extractStridedSlice S1x64 ![2, 0] · slices_S3x64_S1x64_2_0) : (⟨S3x64, .f32⟩ : BufTy).Contents (Elt F) → (⟨S1x64, .f32⟩ : BufTy).Contents (Elt F)) a) shapeCasts_S1x64_S64)

/-- The whole program's result as a term of its nine arguments: three layers, layer l on slice l of each parameter array. -/
def refTerm (a0 : (⟨S100000x64, .f32⟩ : BufTy).Contents (Elt F)) (a1 : (⟨S2x1600000, .i32⟩ : BufTy).Contents (Elt F)) (a2 : (⟨S1600000x1, .f32⟩ : BufTy).Contents (Elt F)) (a3 : (⟨S3x64x64, .f32⟩ : BufTy).Contents (Elt F)) (a4 : (⟨S3x64, .f32⟩ : BufTy).Contents (Elt F)) (a5 : (⟨S3x64, .f32⟩ : BufTy).Contents (Elt F)) (a6 : (⟨S3x64, .f32⟩ : BufTy).Contents (Elt F)) (a7 : (⟨S3x64x64, .f32⟩ : BufTy).Contents (Elt F)) (a8 : (⟨S3x64, .f32⟩ : BufTy).Contents (Elt F)) : (⟨S100000x64, .f32⟩ : BufTy).Contents (Elt F) :=
  layerT (layerT (layerT a0 (srcT a1) (dstT a1) a2 (w1S0 a3) (b1S0 a4) (gS0 a5) (beS0 a6) (w2S0 a7) (b2S0 a8)) (srcT a1) (dstT a1) a2 (w1S1 a3) (b1S1 a4) (gS1 a5) (beS1 a6) (w2S1 a7) (b2S1 a8)) (srcT a1) (dstT a1) a2 (w1S2 a3) (b1S2 a4) (gS2 a5) (beS2 a6) (w2S2 a7) (b2S2 a8)

/-- The contents after two lines of operations in a row: the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.RefRun

end
-- ==== Proof.RefL0.lean ====
/-
  Layer 0 of the reference program (and the four operations before it): its host operations in order, stage by stage; for each stage the buffers it
  writes, that every other buffer passes through it unchanged, and that its result buffer ends at the stage's function
  of the buffers it reads; then the layer as the stages in a row.
-/
import proofs.«166406_j57140244906477_1_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The two rows of the edge array cut out and flattened: four operations. -/
def pre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
/-- The buffers the operations of `pre` write. -/
abbrev pre_W : List (Ref sig .tc) := [main_v0, main_v1, main_v2, main_v3]
theorem pre_sub : (pre : List (HloOp τ sig (Elt F))).Forall fun op => op.bufs ⊆ tcRefs τ sig := by
  unfold pre
  exact ⟨unary_bufs_sub .., reshape_bufs_sub .., unary_bufs_sub .., reshape_bufs_sub ..⟩
theorem pre_fresh : ∀ op ∈ (pre : List (HloOp τ sig (Elt F))), op.fresh = ∅ := by
  unfold pre
  intro _ h
  (repeat (cases h with | head => rfl | tail _ h => ?_))
  exact nomatch h
theorem pre_writes : (pre : List (HloOp τ sig (Elt F))).Forall fun op => op.writes ⊆ (pre_W.map (Proc.devRef (τ := τ) .tc)).toFinset := by
  unfold pre
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `pre` do not write keeps its contents through them. -/
theorem pre_keep (W : Valuation τ sig (Elt F)) (r : Ref sig .tc) (h : r ∉ pre_W) :
    after pre W (no_index (Proc.devRef .tc r)) = W (Proc.devRef .tc r) :=
  after_of_writes_sub pre W pre_writes h
theorem pre_src (W : Valuation τ sig (Elt F)) :
    after pre W (no_index (Proc.devRef .tc main_v1)) = srcT (W (Proc.devRef .tc main_arg1)) := by
  unfold pre
  after_results_simp
  all_goals rfl
theorem pre_dst (W : Valuation τ sig (Elt F)) :
    after pre W (no_index (Proc.devRef .tc main_v3)) = dstT (W (Proc.devRef .tc main_arg1)) := by
  unfold pre
  after_results_simp
  all_goals rfl

/-- Layer 0, the edge aggregation: fifteen operations. -/
def A0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg2 main_v11 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v10 main_v11 main_v12 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v13 (broadcastInDim S100000x64 ![] bcast_S_S100000x64 : (⟨S_, .f32⟩ : BufTy).Contents (Elt F) → (⟨S100000x64, .f32⟩ : BufTy).Contents (Elt F)),
    StableHlo.unary main_v3 main_v14 (broadcastInDim S1600000x1 ![0] bcast_S1600000_S1600000x1_0 : (⟨S1600000, .i32⟩ : BufTy).Contents (Elt F) → (⟨S1600000x1, .i32⟩ : BufTy).Contents (Elt F)),
    StableHlo.ternary main_v13 main_v14 main_v12 main_v15 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers the operations of `A0` write. -/
abbrev A0_W : List (Ref sig .tc) := [main_c, main_v4, main_v5, main_c_0, main_v6, main_v7, main_v8, main_v9, main_v10, main_v11, main_v12, main_cst, main_v13, main_v14, main_v15]
theorem A0_sub : (A0 : List (HloOp τ sig (Elt F))).Forall fun op => op.bufs ⊆ tcRefs τ sig := by
  unfold A0
  exact ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem A0_fresh : ∀ op ∈ (A0 : List (HloOp τ sig (Elt F))), op.fresh = ∅ := by
  unfold A0
  intro _ h
  (repeat (cases h with | head => rfl | tail _ h => ?_))
  exact nomatch h
theorem A0_writes : (A0 : List (HloOp τ sig (Elt F))).Forall fun op => op.writes ⊆ (A0_W.map (Proc.devRef (τ := τ) .tc)).toFinset := by
  unfold A0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `A0` do not write keeps its contents through them. -/
theorem A0_keep (W : Valuation τ sig (Elt F)) (r : Ref sig .tc) (h : r ∉ A0_W) :
    after A0 W (no_index (Proc.devRef .tc r)) = W (Proc.devRef .tc r) :=
  after_of_writes_sub A0 W A0_writes h
theorem A0_out (W : Valuation τ sig (Elt F)) :
    after A0 W (no_index (Proc.devRef .tc main_v15)) = aggT (W (Proc.devRef .tc main_arg0)) (W (Proc.devRef .tc main_v1)) (W (Proc.devRef .tc main_v3)) (W (Proc.devRef .tc main_arg2)) := by
  unfold A0
  after_results_simp
  all_goals rfl

/-- Layer 0, the first linear map: nine operations. -/
def B0 : List (HloOp τ sig (Elt F)) :=
  [ StableHlo.binary main_v15 main_arg0 main_v16 (addf : (⟨S100000x64, .f32⟩ : BufTy).Contents (Elt F) → (⟨S100000x64, .f32⟩ : BufTy).Contents (Elt F) → (⟨S100000x64, .f32⟩ : BufTy).Contents (Elt F)),
    StableHlo.unary main_arg3 main_v17 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v17 main_v18 rfl shapeCasts_S1x64x64_S64x64,
    StableHlo.binary main_v16 main_v18 main_v19 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v20 ((extractStridedSlice S1x64 ![0, 0] · slices_S3x64_S1x64_0_0) : (⟨S3x64, .f32⟩ : BufTy).Contents (Elt F) → (⟨S1x64, .f32⟩ : BufTy).Contents (Elt F)),
    StableHlo.reshape main_v20 main_v21 rfl shapeCasts_S1x64_S64,
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v23 main_v24 (addf : (⟨S100000x64, .f32⟩ : BufTy).Contents (Elt F) → (⟨S100000x64, .f32⟩ : BufTy).Contents (Elt F) → (⟨S100000x64, .f32⟩ : BufTy).Contents (Elt F)) ]
/-- The buffers the operations of `B0` write. -/
abbrev B0_W : List (Ref sig .tc) := [main_v16, main_v17, main_v18, main_v19, main_v20, main_v21, main_v22, main_v23, main_v24]
theorem B0_sub : (B0 : List (HloOp τ sig (Elt F))).Forall fun op => op.bufs ⊆ tcRefs τ sig := by
  unfold B0
  exact ⟨binary_bufs_sub .., unary_bufs_sub .., reshape_bufs_sub .., binary_bufs_sub .., unary_bufs_sub .., reshape_bufs_sub .., unary_bufs_sub .., unary_bufs_sub .., binary_bufs_sub ..⟩
theorem B0_fresh : ∀ op ∈ (B0 : List (HloOp τ sig (Elt F))), op.fresh = ∅ := by
  unfold B0
  intro _ h
  (repeat (cases h with | head => rfl | tail _ h => ?_))
  exact nomatch h
theorem B0_writes : (B0 : List (HloOp τ sig (Elt F))).Forall fun op => op.writes ⊆ (B0_W.map (Proc.devRef (τ := τ) .tc)).toFinset := by
  unfold B0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `B0` do not write keeps its contents through them. -/
theorem B0_keep (W : Valuation τ sig (Elt F)) (r : Ref sig .tc) (h : r ∉ B0_W) :
    after B0 W (no_index (Proc.devRef .tc r)) = W (Proc.devRef .tc r) :=
  after_of_writes_sub B0 W B0_writes h
theorem B0_out (W : Valuation τ sig (Elt F)) :
    after B0 W (no_index (Proc.devRef .tc main_v24)) = preT (W (Proc.devRef .tc main_v15)) (W (Proc.devRef .tc main_arg0)) (w1S0 (W (Proc.devRef .tc main_arg3))) (b1S0 (W (Proc.devRef .tc main_arg4))) := by
  unfold B0
  after_results_simp
  all_goals rfl

/-- Layer 0, the column mean: five operations. -/
def C0 : List (HloOp τ sig (Elt F)) :=
  [ StableHlo.nullary main_cst_1 (constant S_ .f32 0x00000000#32),
    StableHlo.binary main_v24 main_cst_1 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)) ]
/-- The buffers the operations of `C0` write. -/
abbrev C0_W : List (Ref sig .tc) := [main_cst_1, main_v25, main_cst_2, main_v26, main_v27]
theorem C0_sub : (C0 : List (HloOp τ sig (Elt F))).Forall fun op => op.bufs ⊆ tcRefs τ sig := by
  unfold C0
  exact ⟨nullary_bufs_sub .., binary_bufs_sub .., nullary_bufs_sub .., unary_bufs_sub .., binary_bufs_sub ..⟩
theorem C0_fresh : ∀ op ∈ (C0 : List (HloOp τ sig (Elt F))), op.fresh = ∅ := by
  unfold C0
  intro _ h
  (repeat (cases h with | head => rfl | tail _ h => ?_))
  exact nomatch h
theorem C0_writes : (C0 : List (HloOp τ sig (Elt F))).Forall fun op => op.writes ⊆ (C0_W.map (Proc.devRef (τ := τ) .tc)).toFinset := by
  unfold C0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `C0` do not write keeps its contents through them. -/
theorem C0_keep (W : Valuation τ sig (Elt F)) (r : Ref sig .tc) (h : r ∉ C0_W) :
    after C0 W (no_index (Proc.devRef .tc r)) = W (Proc.devRef .tc r) :=
  after_of_writes_sub C0 W C0_writes h
theorem C0_out (W : Valuation τ sig (Elt F)) :
    after C0 W (no_index (Proc.devRef .tc main_v27)) = meanT (W (Proc.devRef .tc main_v24)) := by
  unfold C0
  after_results_simp
  all_goals rfl

/-- Layer 0, the column variance (the integer zero, then the outlined function's twenty-two operations). -/
def D0 : List (HloOp τ sig (Elt F)) :=
  [ StableHlo.nullary main_c_3 (constantI S_ 32 0#32),
    StableHlo.TRef.nullary main_call0.cst (constant S_ .f32 0x00000000#32),
    StableHlo.TRef.binary (.of main_v24) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v24) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]
/-- The buffers the operations of `D0` write. -/
abbrev D0_W : List (Ref sig .tc) := [main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]
theorem D0_sub : (D0 : List (HloOp τ sig (Elt F))).Forall fun op => op.bufs ⊆ tcRefs τ sig := by
  unfold D0
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem D0_fresh : ∀ op ∈ (D0 : List (HloOp τ sig (Elt F))), op.fresh = ∅ := by
  unfold D0
  intro _ h
  (repeat (cases h with | head => rfl | tail _ h => ?_))
  exact nomatch h
theorem D0_writes : (D0 : List (HloOp τ sig (Elt F))).Forall fun op => op.writes ⊆ (D0_W.map (Proc.devRef (τ := τ) .tc)).toFinset := by
  unfold D0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `D0` do not write keeps its contents through them. -/
theorem D0_keep (W : Valuation τ sig (Elt F)) (r : Ref sig .tc) (h : r ∉ D0_W) :
    after D0 W (no_index (Proc.devRef .tc r)) = W (Proc.devRef .tc r) :=
  after_of_writes_sub D0 W D0_writes h
theorem D0_out (W : Valuation τ sig (Elt F)) :
    after D0 W (no_index (Proc.devRef .tc main_v28)) = varT (W (Proc.devRef .tc main_v24)) := by
  unfold D0
  after_results_simp
  all_goals rfl

/-- Layer 0, the normalisation: twenty operations. -/
def E0 : List (HloOp τ sig (Elt F)) :=
  [ StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v36 main_v37 (mulf : (⟨S100000x64, .f32⟩ : BufTy).Contents (Elt F) → (⟨S100000x64, .f32⟩ : BufTy).Contents (Elt F) → (⟨S100000x64, .f32⟩ : BufTy).Contents (Elt F)),
    StableHlo.unary main_arg5 main_v38 ((extractStridedSlice S1x64 ![0, 0] · slices_S3x64_S1x64_0_0) : (⟨S3x64, .f32⟩ : BufTy).Contents (Elt F) → (⟨S1x64, .f32⟩ : BufTy).Contents (Elt F)),
    StableHlo.reshape main_v38 main_v39 rfl shapeCasts_S1x64_S64,
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v41 main_v42 (mulf : (⟨S100000x64, .f32⟩ : BufTy).Contents (Elt F) → (⟨S100000x64, .f32⟩ : BufTy).Contents (Elt F) → (⟨S100000x64, .f32⟩ : BufTy).Contents (Elt F)),
    StableHlo.unary main_arg6 main_v43 ((extractStridedSlice S1x64 ![0, 0] · slices_S3x64_S1x64_0_0) : (⟨S3x64, .f32⟩ : BufTy).Contents (Elt F) → (⟨S1x64, .f32⟩ : BufTy).Contents (Elt F)),
    StableHlo.reshape main_v43 main_v44 rfl shapeCasts_S1x64_S64,
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v46 main_v47 (addf : (⟨S100000x64, .f32⟩ : BufTy).Contents (Elt F) → (⟨S100000x64, .f32⟩ : BufTy).Contents (Elt F) → (⟨S100000x64, .f32⟩ : BufTy).Contents (Elt F)) ]
/-- The buffers the operations of `E0` write. -/
abbrev E0_W : List (Ref sig .tc) := [main_v29, main_v30, main_v31, main_cst_4, main_v32, main_v33, main_v34, main_v35, main_v36, main_v37, main_v38, main_v39, main_v40, main_v41, main_v42, main_v43, main_v44, main_v45, main_v46, main_v47]
theorem E0_sub : (E0 : List (HloOp τ sig (Elt F))).Forall fun op => op.bufs ⊆ tcRefs τ sig := by
  unfold E0
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem E0_fresh : ∀ op ∈ (E0 : List (HloOp τ sig (Elt F))), op.fresh = ∅ := by
  unfold E0
  intro _ h
  (repeat (cases h with | head => rfl | tail _ h => ?_))
  exact nomatch h
theorem E0_writes : (E0 : List (HloOp τ sig (Elt F))).Forall fun op => op.writes ⊆ (E0_W.map (Proc.devRef (τ := τ) .tc)).toFinset := by
  unfold E0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `E0` do not write keeps its contents through them. -/
theorem E0_keep (W : Valuation τ sig (Elt F)) (r : Ref sig .tc) (h : r ∉ E0_W) :
    after E0 W (no_index (Proc.devRef .tc r)) = W (Proc.devRef .tc r) :=
  after_of_writes_sub E0 W E0_writes h
theorem E0_out (W : Valuation τ sig (Elt F)) :
    after E0 W (no_index (Proc.devRef .tc main_v47)) = normT (W (Proc.devRef .tc main_v24)) (W (Proc.devRef .tc main_v27)) (W (Proc.devRef .tc main_v28)) (gS0 (W (Proc.devRef .tc main_arg5))) (beS0 (W (Proc.devRef .tc main_arg6))) := by
  unfold E0
  after_results_simp
  all_goals rfl

/-- Layer 0, the first rectifier: three operations. -/
def F0 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v47) main_call1.v0 main_call1.v1 maximumf ]
/-- The buffers the operations of `F0` write. -/
abbrev F0_W : List (Ref sig .tc) := [main_call1_cst, main_call1_v0, main_v48]
theorem F0_sub : (F0 : List (HloOp τ sig (Elt F))).Forall fun op => op.bufs ⊆ tcRefs τ sig := by
  unfold F0
  exact ⟨nullary_bufs_sub .., unary_bufs_sub .., binary_bufs_sub ..⟩
theorem F0_fresh : ∀ op ∈ (F0 : List (HloOp τ sig (Elt F))), op.fresh = ∅ := by
  unfold F0
  intro _ h
  (repeat (cases h with | head => rfl | tail _ h => ?_))
  exact nomatch h
theorem F0_writes : (F0 : List (HloOp τ sig (Elt F))).Forall fun op => op.writes ⊆ (F0_W.map (Proc.devRef (τ := τ) .tc)).toFinset := by
  unfold F0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `F0` do not write keeps its contents through them. -/
theorem F0_keep (W : Valuation τ sig (Elt F)) (r : Ref sig .tc) (h : r ∉ F0_W) :
    after F0 W (no_index (Proc.devRef .tc r)) = W (Proc.devRef .tc r) :=
  after_of_writes_sub F0 W F0_writes h
theorem F0_out (W : Valuation τ sig (Elt F)) :
    after F0 W (no_index (Proc.devRef .tc main_v48)) = reluT (W (Proc.devRef .tc main_v47)) := by
  unfold F0
  after_results_simp
  all_goals rfl

/-- Layer 0, the second linear map: eight operations. -/
def G0 : List (HloOp τ sig (Elt F)) :=
  [ StableHlo.unary main_arg7 main_v49 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v52 ((extractStridedSlice S1x64 ![0, 0] · slices_S3x64_S1x64_0_0) : (⟨S3x64, .f32⟩ : BufTy).Contents (Elt F) → (⟨S1x64, .f32⟩ : BufTy).Contents (Elt F)),
    StableHlo.reshape main_v52 main_v53 rfl shapeCasts_S1x64_S64,
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v55 main_v56 (addf : (⟨S100000x64, .f32⟩ : BufTy).Contents (Elt F) → (⟨S100000x64, .f32⟩ : BufTy).Contents (Elt F) → (⟨S100000x64, .f32⟩ : BufTy).Contents (Elt F)) ]
/-- The buffers the operations of `G0` write. -/
abbrev G0_W : List (Ref sig .tc) := [main_v49, main_v50, main_v51, main_v52, main_v53, main_v54, main_v55, main_v56]
theorem G0_sub : (G0 : List (HloOp τ sig (Elt F))).Forall fun op => op.bufs ⊆ tcRefs τ sig := by
  unfold G0
  exact ⟨unary_bufs_sub .., reshape_bufs_sub .., binary_bufs_sub .., unary_bufs_sub .., reshape_bufs_sub .., unary_bufs_sub .., unary_bufs_sub .., binary_bufs_sub ..⟩
theorem G0_fresh : ∀ op ∈ (G0 : List (HloOp τ sig (Elt F))), op.fresh = ∅ := by
  unfold G0
  intro _ h
  (repeat (cases h with | head => rfl | tail _ h => ?_))
  exact nomatch h
theorem G0_writes : (G0 : List (HloOp τ sig (Elt F))).Forall fun op => op.writes ⊆ (G0_W.map (Proc.devRef (τ := τ) .tc)).toFinset := by
  unfold G0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `G0` do not write keeps its contents through them. -/
theorem G0_keep (W : Valuation τ sig (Elt F)) (r : Ref sig .tc) (h : r ∉ G0_W) :
    after G0 W (no_index (Proc.devRef .tc r)) = W (Proc.devRef .tc r) :=
  after_of_writes_sub G0 W G0_writes h
theorem G0_out (W : Valuation τ sig (Elt F)) :
    after G0 W (no_index (Proc.devRef .tc main_v56)) = lin2T (W (Proc.devRef .tc main_v48)) (w2S0 (W (Proc.devRef .tc main_arg7))) (b2S0 (W (Proc.devRef .tc main_arg8))) := by
  unfold G0
  after_results_simp
  all_goals rfl

/-- Layer 0, the second rectifier: three operations. -/
def H0 : List (HloOp τ sig (Elt F)) :=
  [ StableHlo.TRef.nullary main_call2.cst (constant S_ .f32 0x00000000#32),
    StableHlo.TRef.unary main_call2.cst main_call2.v0 (broadcastInDim S100000x64 ![] bcast_S_S100000x64),
    StableHlo.TRef.binary (.of main_v56) main_call2.v0 main_call2.v1 maximumf ]
/-- The buffers the operations of `H0` write. -/
abbrev H0_W : List (Ref sig .tc) := [main_call2_cst, main_call2_v0, main_v57]
theorem H0_sub : (H0 : List (HloOp τ sig (Elt F))).Forall fun op => op.bufs ⊆ tcRefs τ sig := by
  unfold H0
  exact ⟨nullary_bufs_sub .., unary_bufs_sub .., binary_bufs_sub ..⟩
theorem H0_fresh : ∀ op ∈ (H0 : List (HloOp τ sig (Elt F))), op.fresh = ∅ := by
  unfold H0
  intro _ h
  (repeat (cases h with | head => rfl | tail _ h => ?_))
  exact nomatch h
theorem H0_writes : (H0 : List (HloOp τ sig (Elt F))).Forall fun op => op.writes ⊆ (H0_W.map (Proc.devRef (τ := τ) .tc)).toFinset := by
  unfold H0
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `H0` do not write keeps its contents through them. -/
theorem H0_keep (W : Valuation τ sig (Elt F)) (r : Ref sig .tc) (h : r ∉ H0_W) :
    after H0 W (no_index (Proc.devRef .tc r)) = W (Proc.devRef .tc r) :=
  after_of_writes_sub H0 W H0_writes h
theorem H0_out (W : Valuation τ sig (Elt F)) :
    after H0 W (no_index (Proc.devRef .tc main_v57)) = reluT (W (Proc.devRef .tc main_v56)) := by
  unfold H0
  after_results_simp
  all_goals rfl

/-- Layer 0's operations, stage after stage. -/
def L0 : List (HloOp τ sig (Elt F)) := A0 ++ B0 ++ C0 ++ D0 ++ E0 ++ F0 ++ G0 ++ H0
theorem L0_sub : (L0 : List (HloOp τ sig (Elt F))).Forall fun op => op.bufs ⊆ tcRefs τ sig := by
  unfold L0
  simp only [List.forall_append]
  exact ⟨⟨⟨⟨⟨⟨⟨A0_sub, B0_sub⟩, C0_sub⟩, D0_sub⟩, E0_sub⟩, F0_sub⟩, G0_sub⟩, H0_sub⟩
theorem L0_fresh : ∀ op ∈ (L0 : List (HloOp τ sig (Elt F))), op.fresh = ∅ := by
  unfold L0
  intro op h
  simp only [List.mem_append] at h
  rcases h with ((((((h | h) | h) | h) | h) | h) | h) | h
  exacts [A0_fresh op h, B0_fresh op h, C0_fresh op h, D0_fresh op h, E0_fresh op h, F0_fresh op h, G0_fresh op h, H0_fresh op h]
/-- The arguments and the two edge-number vectors pass through layer 0 unchanged: none of its operations writes them. -/
theorem L0_keep (W : Valuation τ sig (Elt F)) (r : Ref sig .tc) (h : r ∈ [main_arg0, main_arg1, main_arg2, main_arg3, main_arg4, main_arg5, main_arg6, main_arg7, main_arg8, main_v1, main_v3]) :
    after L0 W (no_index (Proc.devRef .tc r)) = W (Proc.devRef .tc r) := by
  simp only [List.mem_cons, List.mem_nil_iff, or_false] at h
  unfold L0
  rcases h with rfl | rfl | rfl | rfl | rfl | rfl | rfl | rfl | rfl | rfl | rfl <;>
    simp (disch := decide) only [after_app, A0_keep, B0_keep, C0_keep, D0_keep, E0_keep, F0_keep, G0_keep, H0_keep]
/-- Layer 0's result is the layer function of what the layer found in its input, the edge-number vectors, the edge weights and its slices of the parameter arrays. -/
theorem L0_out (W : Valuation τ sig (Elt F)) :
    after L0 W (no_index (Proc.devRef .tc main_v57)) = layerT (W (Proc.devRef .tc main_arg0)) (W (Proc.devRef .tc main_v1)) (W (Proc.devRef .tc main_v3)) (W (Proc.devRef .tc main_arg2)) (w1S0 (W (Proc.devRef .tc main_arg3))) (b1S0 (W (Proc.devRef .tc main_arg4))) (gS0 (W (Proc.devRef .tc main_arg5))) (beS0 (W (Proc.devRef .tc main_arg6))) (w2S0 (W (Proc.devRef .tc main_arg7))) (b2S0 (W (Proc.devRef .tc main_arg8))) := by
  unfold L0 layerT
  simp (disch := decide) only [after_app, A0_out, B0_out, C0_out, D0_out, E0_out, F0_out, G0_out, H0_out, A0_keep, B0_keep, C0_keep, D0_keep, E0_keep, F0_keep, G0_keep, H0_keep]

end Cert.ReferenceIdeal.RefRun

end
-- ==== Proof.RefL1.lean ====
/-
  Layer 1 of the reference program: its host operations in order, stage by stage; for each stage the buffers it
  writes, that every other buffer passes through it unchanged, and that its result buffer ends at the stage's function
  of the buffers it reads; then the layer as the stages in a row.
-/
import proofs.«166406_j57140244906477_1_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- Layer 1, the edge aggregation: fifteen operations. -/
def A1 : List (HloOp τ sig (Elt F)) :=
  [ StableHlo.nullary main_c_5 (constantI S_ 32 0#32),
    StableHlo.unary main_c_5 main_v58 (broadcastInDim S1600000 ![] bcast_S_S1600000 : (⟨S_, .i32⟩ : BufTy).Contents (Elt F) → (⟨S1600000, .i32⟩ : BufTy).Contents (Elt F)),
    StableHlo.binary main_v1 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v60 (broadcastInDim S1600000 ![] bcast_S_S1600000 : (⟨S_, .i32⟩ : BufTy).Contents (Elt F) → (⟨S1600000, .i32⟩ : BufTy).Contents (Elt F)),
    StableHlo.binary main_v1 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v57 main_v63 main_v64 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg2 main_v65 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v64 main_v65 main_v66 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v67 (broadcastInDim S100000x64 ![] bcast_S_S100000x64 : (⟨S_, .f32⟩ : BufTy).Contents (Elt F) → (⟨S100000x64, .f32⟩ : BufTy).Contents (Elt F)),
    StableHlo.unary main_v3 main_v68 (broadcastInDim S1600000x1 ![0] bcast_S1600000_S1600000x1_0 : (⟨S1600000, .i32⟩ : BufTy).Contents (Elt F) → (⟨S1600000x1, .i32⟩ : BufTy).Contents (Elt F)),
    StableHlo.ternary main_v67 main_v68 main_v66 main_v69 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers the operations of `A1` write. -/
abbrev A1_W : List (Ref sig .tc) := [main_c_5, main_v58, main_v59, main_c_6, main_v60, main_v61, main_v62, main_v63, main_v64, main_v65, main_v66, main_cst_7, main_v67, main_v68, main_v69]
theorem A1_sub : (A1 : List (HloOp τ sig (Elt F))).Forall fun op => op.bufs ⊆ tcRefs τ sig := by
  unfold A1
  exact ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem A1_fresh : ∀ op ∈ (A1 : List (HloOp τ sig (Elt F))), op.fresh = ∅ := by
  unfold A1
  intro _ h
  (repeat (cases h with | head => rfl | tail _ h => ?_))
  exact nomatch h
theorem A1_writes : (A1 : List (HloOp τ sig (Elt F))).Forall fun op => op.writes ⊆ (A1_W.map (Proc.devRef (τ := τ) .tc)).toFinset := by
  unfold A1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `A1` do not write keeps its contents through them. -/
theorem A1_keep (W : Valuation τ sig (Elt F)) (r : Ref sig .tc) (h : r ∉ A1_W) :
    after A1 W (no_index (Proc.devRef .tc r)) = W (Proc.devRef .tc r) :=
  after_of_writes_sub A1 W A1_writes h
theorem A1_out (W : Valuation τ sig (Elt F)) :
    after A1 W (no_index (Proc.devRef .tc main_v69)) = aggT (W (Proc.devRef .tc main_v57)) (W (Proc.devRef .tc main_v1)) (W (Proc.devRef .tc main_v3)) (W (Proc.devRef .tc main_arg2)) := by
  unfold A1
  after_results_simp
  all_goals rfl

/-- Layer 1, the first linear map: nine operations. -/
def B1 : List (HloOp τ sig (Elt F)) :=
  [ StableHlo.binary main_v69 main_v57 main_v70 (addf : (⟨S100000x64, .f32⟩ : BufTy).Contents (Elt F) → (⟨S100000x64, .f32⟩ : BufTy).Contents (Elt F) → (⟨S100000x64, .f32⟩ : BufTy).Contents (Elt F)),
    StableHlo.unary main_arg3 main_v71 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v71 main_v72 rfl shapeCasts_S1x64x64_S64x64,
    StableHlo.binary main_v70 main_v72 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v77 main_v78 (addf : (⟨S100000x64, .f32⟩ : BufTy).Contents (Elt F) → (⟨S100000x64, .f32⟩ : BufTy).Contents (Elt F) → (⟨S100000x64, .f32⟩ : BufTy).Contents (Elt F)) ]
/-- The buffers the operations of `B1` write. -/
abbrev B1_W : List (Ref sig .tc) := [main_v70, main_v71, main_v72, main_v73, main_v74, main_v75, main_v76, main_v77, main_v78]
theorem B1_sub : (B1 : List (HloOp τ sig (Elt F))).Forall fun op => op.bufs ⊆ tcRefs τ sig := by
  unfold B1
  exact ⟨binary_bufs_sub .., unary_bufs_sub .., reshape_bufs_sub .., binary_bufs_sub .., unary_bufs_sub .., reshape_bufs_sub .., unary_bufs_sub .., unary_bufs_sub .., binary_bufs_sub ..⟩
theorem B1_fresh : ∀ op ∈ (B1 : List (HloOp τ sig (Elt F))), op.fresh = ∅ := by
  unfold B1
  intro _ h
  (repeat (cases h with | head => rfl | tail _ h => ?_))
  exact nomatch h
theorem B1_writes : (B1 : List (HloOp τ sig (Elt F))).Forall fun op => op.writes ⊆ (B1_W.map (Proc.devRef (τ := τ) .tc)).toFinset := by
  unfold B1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `B1` do not write keeps its contents through them. -/
theorem B1_keep (W : Valuation τ sig (Elt F)) (r : Ref sig .tc) (h : r ∉ B1_W) :
    after B1 W (no_index (Proc.devRef .tc r)) = W (Proc.devRef .tc r) :=
  after_of_writes_sub B1 W B1_writes h
theorem B1_out (W : Valuation τ sig (Elt F)) :
    after B1 W (no_index (Proc.devRef .tc main_v78)) = preT (W (Proc.devRef .tc main_v69)) (W (Proc.devRef .tc main_v57)) (w1S1 (W (Proc.devRef .tc main_arg3))) (b1S1 (W (Proc.devRef .tc main_arg4))) := by
  unfold B1
  after_results_simp
  all_goals rfl

/-- Layer 1, the column mean: five operations. -/
def C1 : List (HloOp τ sig (Elt F)) :=
  [ StableHlo.nullary main_cst_8 (constant S_ .f32 0x00000000#32),
    StableHlo.binary main_v78 main_cst_8 main_v79 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v80 (broadcastInDim S64 ![] bcast_S_S64 : (⟨S_, .f32⟩ : BufTy).Contents (Elt F) → (⟨S64, .f32⟩ : BufTy).Contents (Elt F)),
    StableHlo.binary main_v79 main_v80 main_v81 (Host.divf : (⟨S64, .f32⟩ : BufTy).Contents (Elt F) → (⟨S64, .f32⟩ : BufTy).Contents (Elt F) → (⟨S64, .f32⟩ : BufTy).Contents (Elt F)) ]
/-- The buffers the operations of `C1` write. -/
abbrev C1_W : List (Ref sig .tc) := [main_cst_8, main_v79, main_cst_9, main_v80, main_v81]
theorem C1_sub : (C1 : List (HloOp τ sig (Elt F))).Forall fun op => op.bufs ⊆ tcRefs τ sig := by
  unfold C1
  exact ⟨nullary_bufs_sub .., binary_bufs_sub .., nullary_bufs_sub .., unary_bufs_sub .., binary_bufs_sub ..⟩
theorem C1_fresh : ∀ op ∈ (C1 : List (HloOp τ sig (Elt F))), op.fresh = ∅ := by
  unfold C1
  intro _ h
  (repeat (cases h with | head => rfl | tail _ h => ?_))
  exact nomatch h
theorem C1_writes : (C1 : List (HloOp τ sig (Elt F))).Forall fun op => op.writes ⊆ (C1_W.map (Proc.devRef (τ := τ) .tc)).toFinset := by
  unfold C1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `C1` do not write keeps its contents through them. -/
theorem C1_keep (W : Valuation τ sig (Elt F)) (r : Ref sig .tc) (h : r ∉ C1_W) :
    after C1 W (no_index (Proc.devRef .tc r)) = W (Proc.devRef .tc r) :=
  after_of_writes_sub C1 W C1_writes h
theorem C1_out (W : Valuation τ sig (Elt F)) :
    after C1 W (no_index (Proc.devRef .tc main_v81)) = meanT (W (Proc.devRef .tc main_v78)) := by
  unfold C1
  after_results_simp
  all_goals rfl

/-- Layer 1, the column variance (the integer zero, then the outlined function's twenty-two operations). -/
def D1 : List (HloOp τ sig (Elt F)) :=
  [ StableHlo.nullary main_c_10 (constantI S_ 32 0#32),
    StableHlo.TRef.nullary main_call3.cst (constant S_ .f32 0x00000000#32),
    StableHlo.TRef.binary (.of main_v78) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v78) main_call3.v4 main_call3.v5 subf,
    StableHlo.TRef.binary main_call3.v5 main_call3.v5 main_call3.v6 mulf,
    StableHlo.TRef.unary (.of main_c_10) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]
/-- The buffers the operations of `D1` write. -/
abbrev D1_W : List (Ref sig .tc) := [main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v82]
theorem D1_sub : (D1 : List (HloOp τ sig (Elt F))).Forall fun op => op.bufs ⊆ tcRefs τ sig := by
  unfold D1
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem D1_fresh : ∀ op ∈ (D1 : List (HloOp τ sig (Elt F))), op.fresh = ∅ := by
  unfold D1
  intro _ h
  (repeat (cases h with | head => rfl | tail _ h => ?_))
  exact nomatch h
theorem D1_writes : (D1 : List (HloOp τ sig (Elt F))).Forall fun op => op.writes ⊆ (D1_W.map (Proc.devRef (τ := τ) .tc)).toFinset := by
  unfold D1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `D1` do not write keeps its contents through them. -/
theorem D1_keep (W : Valuation τ sig (Elt F)) (r : Ref sig .tc) (h : r ∉ D1_W) :
    after D1 W (no_index (Proc.devRef .tc r)) = W (Proc.devRef .tc r) :=
  after_of_writes_sub D1 W D1_writes h
theorem D1_out (W : Valuation τ sig (Elt F)) :
    after D1 W (no_index (Proc.devRef .tc main_v82)) = varT (W (Proc.devRef .tc main_v78)) := by
  unfold D1
  after_results_simp
  all_goals rfl

/-- Layer 1, the normalisation: twenty operations. -/
def E1 : List (HloOp τ sig (Elt F)) :=
  [ StableHlo.unary main_v81 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v84 main_v85 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v86 (broadcastInDim S64 ![] bcast_S_S64 : (⟨S_, .f32⟩ : BufTy).Contents (Elt F) → (⟨S64, .f32⟩ : BufTy).Contents (Elt F)),
    StableHlo.binary main_v82 main_v86 main_v87 (addf : (⟨S64, .f32⟩ : BufTy).Contents (Elt F) → (⟨S64, .f32⟩ : BufTy).Contents (Elt F) → (⟨S64, .f32⟩ : BufTy).Contents (Elt F)),
    StableHlo.unary main_v87 main_v88 (Host.rsqrt : (⟨S64, .f32⟩ : BufTy).Contents (Elt F) → (⟨S64, .f32⟩ : BufTy).Contents (Elt F)),
    StableHlo.unary main_v88 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v90 main_v91 (mulf : (⟨S100000x64, .f32⟩ : BufTy).Contents (Elt F) → (⟨S100000x64, .f32⟩ : BufTy).Contents (Elt F) → (⟨S100000x64, .f32⟩ : BufTy).Contents (Elt F)),
    StableHlo.unary main_arg5 main_v92 ((extractStridedSlice S1x64 ![1, 0] · slices_S3x64_S1x64_1_0) : (⟨S3x64, .f32⟩ : BufTy).Contents (Elt F) → (⟨S1x64, .f32⟩ : BufTy).Contents (Elt F)),
    StableHlo.reshape main_v92 main_v93 rfl shapeCasts_S1x64_S64,
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v95 main_v96 (mulf : (⟨S100000x64, .f32⟩ : BufTy).Contents (Elt F) → (⟨S100000x64, .f32⟩ : BufTy).Contents (Elt F) → (⟨S100000x64, .f32⟩ : BufTy).Contents (Elt F)),
    StableHlo.unary main_arg6 main_v97 ((extractStridedSlice S1x64 ![1, 0] · slices_S3x64_S1x64_1_0) : (⟨S3x64, .f32⟩ : BufTy).Contents (Elt F) → (⟨S1x64, .f32⟩ : BufTy).Contents (Elt F)),
    StableHlo.reshape main_v97 main_v98 rfl shapeCasts_S1x64_S64,
    StableHlo.unary main_v98 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v100 main_v101 (addf : (⟨S100000x64, .f32⟩ : BufTy).Contents (Elt F) → (⟨S100000x64, .f32⟩ : BufTy).Contents (Elt F) → (⟨S100000x64, .f32⟩ : BufTy).Contents (Elt F)) ]
/-- The buffers the operations of `E1` write. -/
abbrev E1_W : List (Ref sig .tc) := [main_v83, main_v84, main_v85, main_cst_11, main_v86, main_v87, main_v88, main_v89, main_v90, main_v91, main_v92, main_v93, main_v94, main_v95, main_v96, main_v97, main_v98, main_v99, main_v100, main_v101]
theorem E1_sub : (E1 : List (HloOp τ sig (Elt F))).Forall fun op => op.bufs ⊆ tcRefs τ sig := by
  unfold E1
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem E1_fresh : ∀ op ∈ (E1 : List (HloOp τ sig (Elt F))), op.fresh = ∅ := by
  unfold E1
  intro _ h
  (repeat (cases h with | head => rfl | tail _ h => ?_))
  exact nomatch h
theorem E1_writes : (E1 : List (HloOp τ sig (Elt F))).Forall fun op => op.writes ⊆ (E1_W.map (Proc.devRef (τ := τ) .tc)).toFinset := by
  unfold E1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `E1` do not write keeps its contents through them. -/
theorem E1_keep (W : Valuation τ sig (Elt F)) (r : Ref sig .tc) (h : r ∉ E1_W) :
    after E1 W (no_index (Proc.devRef .tc r)) = W (Proc.devRef .tc r) :=
  after_of_writes_sub E1 W E1_writes h
theorem E1_out (W : Valuation τ sig (Elt F)) :
    after E1 W (no_index (Proc.devRef .tc main_v101)) = normT (W (Proc.devRef .tc main_v78)) (W (Proc.devRef .tc main_v81)) (W (Proc.devRef .tc main_v82)) (gS1 (W (Proc.devRef .tc main_arg5))) (beS1 (W (Proc.devRef .tc main_arg6))) := by
  unfold E1
  after_results_simp
  all_goals rfl

/-- Layer 1, the first rectifier: three operations. -/
def F1 : List (HloOp τ sig (Elt F)) :=
  [ StableHlo.TRef.nullary main_call4.cst (constant S_ .f32 0x00000000#32),
    StableHlo.TRef.unary main_call4.cst main_call4.v0 (broadcastInDim S100000x64 ![] bcast_S_S100000x64),
    StableHlo.TRef.binary (.of main_v101) main_call4.v0 main_call4.v1 maximumf ]
/-- The buffers the operations of `F1` write. -/
abbrev F1_W : List (Ref sig .tc) := [main_call4_cst, main_call4_v0, main_v102]
theorem F1_sub : (F1 : List (HloOp τ sig (Elt F))).Forall fun op => op.bufs ⊆ tcRefs τ sig := by
  unfold F1
  exact ⟨nullary_bufs_sub .., unary_bufs_sub .., binary_bufs_sub ..⟩
theorem F1_fresh : ∀ op ∈ (F1 : List (HloOp τ sig (Elt F))), op.fresh = ∅ := by
  unfold F1
  intro _ h
  (repeat (cases h with | head => rfl | tail _ h => ?_))
  exact nomatch h
theorem F1_writes : (F1 : List (HloOp τ sig (Elt F))).Forall fun op => op.writes ⊆ (F1_W.map (Proc.devRef (τ := τ) .tc)).toFinset := by
  unfold F1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `F1` do not write keeps its contents through them. -/
theorem F1_keep (W : Valuation τ sig (Elt F)) (r : Ref sig .tc) (h : r ∉ F1_W) :
    after F1 W (no_index (Proc.devRef .tc r)) = W (Proc.devRef .tc r) :=
  after_of_writes_sub F1 W F1_writes h
theorem F1_out (W : Valuation τ sig (Elt F)) :
    after F1 W (no_index (Proc.devRef .tc main_v102)) = reluT (W (Proc.devRef .tc main_v101)) := by
  unfold F1
  after_results_simp
  all_goals rfl

/-- Layer 1, the second linear map: eight operations. -/
def G1 : List (HloOp τ sig (Elt F)) :=
  [ StableHlo.unary main_arg7 main_v103 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v103 main_v104 rfl shapeCasts_S1x64x64_S64x64,
    StableHlo.binary main_v102 main_v104 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v106 ((extractStridedSlice S1x64 ![1, 0] · slices_S3x64_S1x64_1_0) : (⟨S3x64, .f32⟩ : BufTy).Contents (Elt F) → (⟨S1x64, .f32⟩ : BufTy).Contents (Elt F)),
    StableHlo.reshape main_v106 main_v107 rfl shapeCasts_S1x64_S64,
    StableHlo.unary main_v107 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v109 main_v110 (addf : (⟨S100000x64, .f32⟩ : BufTy).Contents (Elt F) → (⟨S100000x64, .f32⟩ : BufTy).Contents (Elt F) → (⟨S100000x64, .f32⟩ : BufTy).Contents (Elt F)) ]
/-- The buffers the operations of `G1` write. -/
abbrev G1_W : List (Ref sig .tc) := [main_v103, main_v104, main_v105, main_v106, main_v107, main_v108, main_v109, main_v110]
theorem G1_sub : (G1 : List (HloOp τ sig (Elt F))).Forall fun op => op.bufs ⊆ tcRefs τ sig := by
  unfold G1
  exact ⟨unary_bufs_sub .., reshape_bufs_sub .., binary_bufs_sub .., unary_bufs_sub .., reshape_bufs_sub .., unary_bufs_sub .., unary_bufs_sub .., binary_bufs_sub ..⟩
theorem G1_fresh : ∀ op ∈ (G1 : List (HloOp τ sig (Elt F))), op.fresh = ∅ := by
  unfold G1
  intro _ h
  (repeat (cases h with | head => rfl | tail _ h => ?_))
  exact nomatch h
theorem G1_writes : (G1 : List (HloOp τ sig (Elt F))).Forall fun op => op.writes ⊆ (G1_W.map (Proc.devRef (τ := τ) .tc)).toFinset := by
  unfold G1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `G1` do not write keeps its contents through them. -/
theorem G1_keep (W : Valuation τ sig (Elt F)) (r : Ref sig .tc) (h : r ∉ G1_W) :
    after G1 W (no_index (Proc.devRef .tc r)) = W (Proc.devRef .tc r) :=
  after_of_writes_sub G1 W G1_writes h
theorem G1_out (W : Valuation τ sig (Elt F)) :
    after G1 W (no_index (Proc.devRef .tc main_v110)) = lin2T (W (Proc.devRef .tc main_v102)) (w2S1 (W (Proc.devRef .tc main_arg7))) (b2S1 (W (Proc.devRef .tc main_arg8))) := by
  unfold G1
  after_results_simp
  all_goals rfl

/-- Layer 1, the second rectifier: three operations. -/
def H1 : List (HloOp τ sig (Elt F)) :=
  [ StableHlo.TRef.nullary main_call5.cst (constant S_ .f32 0x00000000#32),
    StableHlo.TRef.unary main_call5.cst main_call5.v0 (broadcastInDim S100000x64 ![] bcast_S_S100000x64),
    StableHlo.TRef.binary (.of main_v110) main_call5.v0 main_call5.v1 maximumf ]
/-- The buffers the operations of `H1` write. -/
abbrev H1_W : List (Ref sig .tc) := [main_call5_cst, main_call5_v0, main_v111]
theorem H1_sub : (H1 : List (HloOp τ sig (Elt F))).Forall fun op => op.bufs ⊆ tcRefs τ sig := by
  unfold H1
  exact ⟨nullary_bufs_sub .., unary_bufs_sub .., binary_bufs_sub ..⟩
theorem H1_fresh : ∀ op ∈ (H1 : List (HloOp τ sig (Elt F))), op.fresh = ∅ := by
  unfold H1
  intro _ h
  (repeat (cases h with | head => rfl | tail _ h => ?_))
  exact nomatch h
theorem H1_writes : (H1 : List (HloOp τ sig (Elt F))).Forall fun op => op.writes ⊆ (H1_W.map (Proc.devRef (τ := τ) .tc)).toFinset := by
  unfold H1
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `H1` do not write keeps its contents through them. -/
theorem H1_keep (W : Valuation τ sig (Elt F)) (r : Ref sig .tc) (h : r ∉ H1_W) :
    after H1 W (no_index (Proc.devRef .tc r)) = W (Proc.devRef .tc r) :=
  after_of_writes_sub H1 W H1_writes h
theorem H1_out (W : Valuation τ sig (Elt F)) :
    after H1 W (no_index (Proc.devRef .tc main_v111)) = reluT (W (Proc.devRef .tc main_v110)) := by
  unfold H1
  after_results_simp
  all_goals rfl

/-- Layer 1's operations, stage after stage. -/
def L1 : List (HloOp τ sig (Elt F)) := A1 ++ B1 ++ C1 ++ D1 ++ E1 ++ F1 ++ G1 ++ H1
theorem L1_sub : (L1 : List (HloOp τ sig (Elt F))).Forall fun op => op.bufs ⊆ tcRefs τ sig := by
  unfold L1
  simp only [List.forall_append]
  exact ⟨⟨⟨⟨⟨⟨⟨A1_sub, B1_sub⟩, C1_sub⟩, D1_sub⟩, E1_sub⟩, F1_sub⟩, G1_sub⟩, H1_sub⟩
theorem L1_fresh : ∀ op ∈ (L1 : List (HloOp τ sig (Elt F))), op.fresh = ∅ := by
  unfold L1
  intro op h
  simp only [List.mem_append] at h
  rcases h with ((((((h | h) | h) | h) | h) | h) | h) | h
  exacts [A1_fresh op h, B1_fresh op h, C1_fresh op h, D1_fresh op h, E1_fresh op h, F1_fresh op h, G1_fresh op h, H1_fresh op h]
/-- The arguments and the two edge-number vectors pass through layer 1 unchanged: none of its operations writes them. -/
theorem L1_keep (W : Valuation τ sig (Elt F)) (r : Ref sig .tc) (h : r ∈ [main_arg0, main_arg1, main_arg2, main_arg3, main_arg4, main_arg5, main_arg6, main_arg7, main_arg8, main_v1, main_v3]) :
    after L1 W (no_index (Proc.devRef .tc r)) = W (Proc.devRef .tc r) := by
  simp only [List.mem_cons, List.mem_nil_iff, or_false] at h
  unfold L1
  rcases h with rfl | rfl | rfl | rfl | rfl | rfl | rfl | rfl | rfl | rfl | rfl <;>
    simp (disch := decide) only [after_app, A1_keep, B1_keep, C1_keep, D1_keep, E1_keep, F1_keep, G1_keep, H1_keep]
/-- Layer 1's result is the layer function of what the layer found in its input, the edge-number vectors, the edge weights and its slices of the parameter arrays. -/
theorem L1_out (W : Valuation τ sig (Elt F)) :
    after L1 W (no_index (Proc.devRef .tc main_v111)) = layerT (W (Proc.devRef .tc main_v57)) (W (Proc.devRef .tc main_v1)) (W (Proc.devRef .tc main_v3)) (W (Proc.devRef .tc main_arg2)) (w1S1 (W (Proc.devRef .tc main_arg3))) (b1S1 (W (Proc.devRef .tc main_arg4))) (gS1 (W (Proc.devRef .tc main_arg5))) (beS1 (W (Proc.devRef .tc main_arg6))) (w2S1 (W (Proc.devRef .tc main_arg7))) (b2S1 (W (Proc.devRef .tc main_arg8))) := by
  unfold L1 layerT
  simp (disch := decide) only [after_app, A1_out, B1_out, C1_out, D1_out, E1_out, F1_out, G1_out, H1_out, A1_keep, B1_keep, C1_keep, D1_keep, E1_keep, F1_keep, G1_keep, H1_keep]

end Cert.ReferenceIdeal.RefRun

end
-- ==== Proof.RefL2.lean ====
/-
  Layer 2 of the reference program: its host operations in order, stage by stage; for each stage the buffers it
  writes, that every other buffer passes through it unchanged, and that its result buffer ends at the stage's function
  of the buffers it reads; then the layer as the stages in a row.
-/
import proofs.«166406_j57140244906477_1_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- Layer 2, the edge aggregation: fifteen operations. -/
def A2 : List (HloOp τ sig (Elt F)) :=
  [ StableHlo.nullary main_c_12 (constantI S_ 32 0#32),
    StableHlo.unary main_c_12 main_v112 (broadcastInDim S1600000 ![] bcast_S_S1600000 : (⟨S_, .i32⟩ : BufTy).Contents (Elt F) → (⟨S1600000, .i32⟩ : BufTy).Contents (Elt F)),
    StableHlo.binary main_v1 main_v112 main_v113 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v114 (broadcastInDim S1600000 ![] bcast_S_S1600000 : (⟨S_, .i32⟩ : BufTy).Contents (Elt F) → (⟨S1600000, .i32⟩ : BufTy).Contents (Elt F)),
    StableHlo.binary main_v1 main_v114 main_v115 (addi : (⟨S1600000, .i32⟩ : BufTy).Contents (Elt F) → (⟨S1600000, .i32⟩ : BufTy).Contents (Elt F) → (⟨S1600000, .i32⟩ : BufTy).Contents (Elt F)),
    StableHlo.ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v116 main_v117 (broadcastInDim S1600000x1 ![0] bcast_S1600000_S1600000x1_0 : (⟨S1600000, .i32⟩ : BufTy).Contents (Elt F) → (⟨S1600000x1, .i32⟩ : BufTy).Contents (Elt F)),
    StableHlo.binary main_v111 main_v117 main_v118 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg2 main_v119 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v118 main_v119 main_v120 (mulf : (⟨S1600000x64, .f32⟩ : BufTy).Contents (Elt F) → (⟨S1600000x64, .f32⟩ : BufTy).Contents (Elt F) → (⟨S1600000x64, .f32⟩ : BufTy).Contents (Elt F)),
    StableHlo.nullary main_cst_14 (constant S_ .f32 0x00000000#32),
    StableHlo.unary main_cst_14 main_v121 (broadcastInDim S100000x64 ![] bcast_S_S100000x64 : (⟨S_, .f32⟩ : BufTy).Contents (Elt F) → (⟨S100000x64, .f32⟩ : BufTy).Contents (Elt F)),
    StableHlo.unary main_v3 main_v122 (broadcastInDim S1600000x1 ![0] bcast_S1600000_S1600000x1_0 : (⟨S1600000, .i32⟩ : BufTy).Contents (Elt F) → (⟨S1600000x1, .i32⟩ : BufTy).Contents (Elt F)),
    StableHlo.ternary main_v121 main_v122 main_v120 main_v123 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers the operations of `A2` write. -/
abbrev A2_W : List (Ref sig .tc) := [main_c_12, main_v112, main_v113, main_c_13, main_v114, main_v115, main_v116, main_v117, main_v118, main_v119, main_v120, main_cst_14, main_v121, main_v122, main_v123]
theorem A2_sub : (A2 : List (HloOp τ sig (Elt F))).Forall fun op => op.bufs ⊆ tcRefs τ sig := by
  unfold A2
  exact ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem A2_fresh : ∀ op ∈ (A2 : List (HloOp τ sig (Elt F))), op.fresh = ∅ := by
  unfold A2
  intro _ h
  (repeat (cases h with | head => rfl | tail _ h => ?_))
  exact nomatch h
theorem A2_writes : (A2 : List (HloOp τ sig (Elt F))).Forall fun op => op.writes ⊆ (A2_W.map (Proc.devRef (τ := τ) .tc)).toFinset := by
  unfold A2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `A2` do not write keeps its contents through them. -/
theorem A2_keep (W : Valuation τ sig (Elt F)) (r : Ref sig .tc) (h : r ∉ A2_W) :
    after A2 W (no_index (Proc.devRef .tc r)) = W (Proc.devRef .tc r) :=
  after_of_writes_sub A2 W A2_writes h
theorem A2_out (W : Valuation τ sig (Elt F)) :
    after A2 W (no_index (Proc.devRef .tc main_v123)) = aggT (W (Proc.devRef .tc main_v111)) (W (Proc.devRef .tc main_v1)) (W (Proc.devRef .tc main_v3)) (W (Proc.devRef .tc main_arg2)) := by
  unfold A2
  after_results_simp
  all_goals rfl

/-- Layer 2, the first linear map: nine operations. -/
def B2 : List (HloOp τ sig (Elt F)) :=
  [ StableHlo.binary main_v123 main_v111 main_v124 (addf : (⟨S100000x64, .f32⟩ : BufTy).Contents (Elt F) → (⟨S100000x64, .f32⟩ : BufTy).Contents (Elt F) → (⟨S100000x64, .f32⟩ : BufTy).Contents (Elt F)),
    StableHlo.unary main_arg3 main_v125 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v125 main_v126 rfl shapeCasts_S1x64x64_S64x64,
    StableHlo.binary main_v124 main_v126 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v128 ((extractStridedSlice S1x64 ![2, 0] · slices_S3x64_S1x64_2_0) : (⟨S3x64, .f32⟩ : BufTy).Contents (Elt F) → (⟨S1x64, .f32⟩ : BufTy).Contents (Elt F)),
    StableHlo.reshape main_v128 main_v129 rfl shapeCasts_S1x64_S64,
    StableHlo.unary main_v129 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v127 main_v131 main_v132 (addf : (⟨S100000x64, .f32⟩ : BufTy).Contents (Elt F) → (⟨S100000x64, .f32⟩ : BufTy).Contents (Elt F) → (⟨S100000x64, .f32⟩ : BufTy).Contents (Elt F)) ]
/-- The buffers the operations of `B2` write. -/
abbrev B2_W : List (Ref sig .tc) := [main_v124, main_v125, main_v126, main_v127, main_v128, main_v129, main_v130, main_v131, main_v132]
theorem B2_sub : (B2 : List (HloOp τ sig (Elt F))).Forall fun op => op.bufs ⊆ tcRefs τ sig := by
  unfold B2
  exact ⟨binary_bufs_sub .., unary_bufs_sub .., reshape_bufs_sub .., binary_bufs_sub .., unary_bufs_sub .., reshape_bufs_sub .., unary_bufs_sub .., unary_bufs_sub .., binary_bufs_sub ..⟩
theorem B2_fresh : ∀ op ∈ (B2 : List (HloOp τ sig (Elt F))), op.fresh = ∅ := by
  unfold B2
  intro _ h
  (repeat (cases h with | head => rfl | tail _ h => ?_))
  exact nomatch h
theorem B2_writes : (B2 : List (HloOp τ sig (Elt F))).Forall fun op => op.writes ⊆ (B2_W.map (Proc.devRef (τ := τ) .tc)).toFinset := by
  unfold B2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `B2` do not write keeps its contents through them. -/
theorem B2_keep (W : Valuation τ sig (Elt F)) (r : Ref sig .tc) (h : r ∉ B2_W) :
    after B2 W (no_index (Proc.devRef .tc r)) = W (Proc.devRef .tc r) :=
  after_of_writes_sub B2 W B2_writes h
theorem B2_out (W : Valuation τ sig (Elt F)) :
    after B2 W (no_index (Proc.devRef .tc main_v132)) = preT (W (Proc.devRef .tc main_v123)) (W (Proc.devRef .tc main_v111)) (w1S2 (W (Proc.devRef .tc main_arg3))) (b1S2 (W (Proc.devRef .tc main_arg4))) := by
  unfold B2
  after_results_simp
  all_goals rfl

/-- Layer 2, the column mean: five operations. -/
def C2 : List (HloOp τ sig (Elt F)) :=
  [ StableHlo.nullary main_cst_15 (constant S_ .f32 0x00000000#32),
    StableHlo.binary main_v132 main_cst_15 main_v133 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v134 (broadcastInDim S64 ![] bcast_S_S64 : (⟨S_, .f32⟩ : BufTy).Contents (Elt F) → (⟨S64, .f32⟩ : BufTy).Contents (Elt F)),
    StableHlo.binary main_v133 main_v134 main_v135 (Host.divf : (⟨S64, .f32⟩ : BufTy).Contents (Elt F) → (⟨S64, .f32⟩ : BufTy).Contents (Elt F) → (⟨S64, .f32⟩ : BufTy).Contents (Elt F)) ]
/-- The buffers the operations of `C2` write. -/
abbrev C2_W : List (Ref sig .tc) := [main_cst_15, main_v133, main_cst_16, main_v134, main_v135]
theorem C2_sub : (C2 : List (HloOp τ sig (Elt F))).Forall fun op => op.bufs ⊆ tcRefs τ sig := by
  unfold C2
  exact ⟨nullary_bufs_sub .., binary_bufs_sub .., nullary_bufs_sub .., unary_bufs_sub .., binary_bufs_sub ..⟩
theorem C2_fresh : ∀ op ∈ (C2 : List (HloOp τ sig (Elt F))), op.fresh = ∅ := by
  unfold C2
  intro _ h
  (repeat (cases h with | head => rfl | tail _ h => ?_))
  exact nomatch h
theorem C2_writes : (C2 : List (HloOp τ sig (Elt F))).Forall fun op => op.writes ⊆ (C2_W.map (Proc.devRef (τ := τ) .tc)).toFinset := by
  unfold C2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `C2` do not write keeps its contents through them. -/
theorem C2_keep (W : Valuation τ sig (Elt F)) (r : Ref sig .tc) (h : r ∉ C2_W) :
    after C2 W (no_index (Proc.devRef .tc r)) = W (Proc.devRef .tc r) :=
  after_of_writes_sub C2 W C2_writes h
theorem C2_out (W : Valuation τ sig (Elt F)) :
    after C2 W (no_index (Proc.devRef .tc main_v135)) = meanT (W (Proc.devRef .tc main_v132)) := by
  unfold C2
  after_results_simp
  all_goals rfl

/-- Layer 2, the column variance (the integer zero, then the outlined function's twenty-two operations). -/
def D2 : List (HloOp τ sig (Elt F)) :=
  [ StableHlo.nullary main_c_17 (constantI S_ 32 0#32),
    StableHlo.TRef.nullary main_call6.cst (constant S_ .f32 0x00000000#32),
    StableHlo.TRef.binary (.of main_v132) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v132) main_call6.v4 main_call6.v5 subf,
    StableHlo.TRef.binary main_call6.v5 main_call6.v5 main_call6.v6 mulf,
    StableHlo.TRef.unary (.of main_c_17) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]
/-- The buffers the operations of `D2` write. -/
abbrev D2_W : List (Ref sig .tc) := [main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v136]
theorem D2_sub : (D2 : List (HloOp τ sig (Elt F))).Forall fun op => op.bufs ⊆ tcRefs τ sig := by
  unfold D2
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem D2_fresh : ∀ op ∈ (D2 : List (HloOp τ sig (Elt F))), op.fresh = ∅ := by
  unfold D2
  intro _ h
  (repeat (cases h with | head => rfl | tail _ h => ?_))
  exact nomatch h
theorem D2_writes : (D2 : List (HloOp τ sig (Elt F))).Forall fun op => op.writes ⊆ (D2_W.map (Proc.devRef (τ := τ) .tc)).toFinset := by
  unfold D2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `D2` do not write keeps its contents through them. -/
theorem D2_keep (W : Valuation τ sig (Elt F)) (r : Ref sig .tc) (h : r ∉ D2_W) :
    after D2 W (no_index (Proc.devRef .tc r)) = W (Proc.devRef .tc r) :=
  after_of_writes_sub D2 W D2_writes h
theorem D2_out (W : Valuation τ sig (Elt F)) :
    after D2 W (no_index (Proc.devRef .tc main_v136)) = varT (W (Proc.devRef .tc main_v132)) := by
  unfold D2
  after_results_simp
  all_goals rfl

/-- Layer 2, the normalisation: twenty operations. -/
def E2 : List (HloOp τ sig (Elt F)) :=
  [ StableHlo.unary main_v135 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S100000x64 ![0, 1] bcast_S1x64_S100000x64_0_1 : (⟨S1x64, .f32⟩ : BufTy).Contents (Elt F) → (⟨S100000x64, .f32⟩ : BufTy).Contents (Elt F)),
    StableHlo.binary main_v132 main_v138 main_v139 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v140 (broadcastInDim S64 ![] bcast_S_S64 : (⟨S_, .f32⟩ : BufTy).Contents (Elt F) → (⟨S64, .f32⟩ : BufTy).Contents (Elt F)),
    StableHlo.binary main_v136 main_v140 main_v141 (addf : (⟨S64, .f32⟩ : BufTy).Contents (Elt F) → (⟨S64, .f32⟩ : BufTy).Contents (Elt F) → (⟨S64, .f32⟩ : BufTy).Contents (Elt F)),
    StableHlo.unary main_v141 main_v142 (Host.rsqrt : (⟨S64, .f32⟩ : BufTy).Contents (Elt F) → (⟨S64, .f32⟩ : BufTy).Contents (Elt F)),
    StableHlo.unary main_v142 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S100000x64 ![0, 1] bcast_S1x64_S100000x64_0_1 : (⟨S1x64, .f32⟩ : BufTy).Contents (Elt F) → (⟨S100000x64, .f32⟩ : BufTy).Contents (Elt F)),
    StableHlo.binary main_v139 main_v144 main_v145 (mulf : (⟨S100000x64, .f32⟩ : BufTy).Contents (Elt F) → (⟨S100000x64, .f32⟩ : BufTy).Contents (Elt F) → (⟨S100000x64, .f32⟩ : BufTy).Contents (Elt F)),
    StableHlo.unary main_arg5 main_v146 ((extractStridedSlice S1x64 ![2, 0] · slices_S3x64_S1x64_2_0) : (⟨S3x64, .f32⟩ : BufTy).Contents (Elt F) → (⟨S1x64, .f32⟩ : BufTy).Contents (Elt F)),
    StableHlo.reshape main_v146 main_v147 rfl shapeCasts_S1x64_S64,
    StableHlo.unary main_v147 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S100000x64 ![0, 1] bcast_S1x64_S100000x64_0_1 : (⟨S1x64, .f32⟩ : BufTy).Contents (Elt F) → (⟨S100000x64, .f32⟩ : BufTy).Contents (Elt F)),
    StableHlo.binary main_v145 main_v149 main_v150 (mulf : (⟨S100000x64, .f32⟩ : BufTy).Contents (Elt F) → (⟨S100000x64, .f32⟩ : BufTy).Contents (Elt F) → (⟨S100000x64, .f32⟩ : BufTy).Contents (Elt F)),
    StableHlo.unary main_arg6 main_v151 ((extractStridedSlice S1x64 ![2, 0] · slices_S3x64_S1x64_2_0) : (⟨S3x64, .f32⟩ : BufTy).Contents (Elt F) → (⟨S1x64, .f32⟩ : BufTy).Contents (Elt F)),
    StableHlo.reshape main_v151 main_v152 rfl shapeCasts_S1x64_S64,
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S100000x64 ![0, 1] bcast_S1x64_S100000x64_0_1 : (⟨S1x64, .f32⟩ : BufTy).Contents (Elt F) → (⟨S100000x64, .f32⟩ : BufTy).Contents (Elt F)),
    StableHlo.binary main_v150 main_v154 main_v155 (addf : (⟨S100000x64, .f32⟩ : BufTy).Contents (Elt F) → (⟨S100000x64, .f32⟩ : BufTy).Contents (Elt F) → (⟨S100000x64, .f32⟩ : BufTy).Contents (Elt F)) ]
/-- The buffers the operations of `E2` write. -/
abbrev E2_W : List (Ref sig .tc) := [main_v137, main_v138, main_v139, main_cst_18, main_v140, main_v141, main_v142, main_v143, main_v144, main_v145, main_v146, main_v147, main_v148, main_v149, main_v150, main_v151, main_v152, main_v153, main_v154, main_v155]
theorem E2_sub : (E2 : List (HloOp τ sig (Elt F))).Forall fun op => op.bufs ⊆ tcRefs τ sig := by
  unfold E2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem E2_fresh : ∀ op ∈ (E2 : List (HloOp τ sig (Elt F))), op.fresh = ∅ := by
  unfold E2
  intro _ h
  (repeat (cases h with | head => rfl | tail _ h => ?_))
  exact nomatch h
theorem E2_writes : (E2 : List (HloOp τ sig (Elt F))).Forall fun op => op.writes ⊆ (E2_W.map (Proc.devRef (τ := τ) .tc)).toFinset := by
  unfold E2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `E2` do not write keeps its contents through them. -/
theorem E2_keep (W : Valuation τ sig (Elt F)) (r : Ref sig .tc) (h : r ∉ E2_W) :
    after E2 W (no_index (Proc.devRef .tc r)) = W (Proc.devRef .tc r) :=
  after_of_writes_sub E2 W E2_writes h
theorem E2_out (W : Valuation τ sig (Elt F)) :
    after E2 W (no_index (Proc.devRef .tc main_v155)) = normT (W (Proc.devRef .tc main_v132)) (W (Proc.devRef .tc main_v135)) (W (Proc.devRef .tc main_v136)) (gS2 (W (Proc.devRef .tc main_arg5))) (beS2 (W (Proc.devRef .tc main_arg6))) := by
  unfold E2
  after_results_simp
  all_goals rfl

/-- Layer 2, the first rectifier: three operations. -/
def F2 : List (HloOp τ sig (Elt F)) :=
  [ StableHlo.TRef.nullary main_call7.cst (constant S_ .f32 0x00000000#32),
    StableHlo.TRef.unary main_call7.cst main_call7.v0 (broadcastInDim S100000x64 ![] bcast_S_S100000x64),
    StableHlo.TRef.binary (.of main_v155) main_call7.v0 main_call7.v1 maximumf ]
/-- The buffers the operations of `F2` write. -/
abbrev F2_W : List (Ref sig .tc) := [main_call7_cst, main_call7_v0, main_v156]
theorem F2_sub : (F2 : List (HloOp τ sig (Elt F))).Forall fun op => op.bufs ⊆ tcRefs τ sig := by
  unfold F2
  exact ⟨nullary_bufs_sub .., unary_bufs_sub .., binary_bufs_sub ..⟩
theorem F2_fresh : ∀ op ∈ (F2 : List (HloOp τ sig (Elt F))), op.fresh = ∅ := by
  unfold F2
  intro _ h
  (repeat (cases h with | head => rfl | tail _ h => ?_))
  exact nomatch h
theorem F2_writes : (F2 : List (HloOp τ sig (Elt F))).Forall fun op => op.writes ⊆ (F2_W.map (Proc.devRef (τ := τ) .tc)).toFinset := by
  unfold F2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `F2` do not write keeps its contents through them. -/
theorem F2_keep (W : Valuation τ sig (Elt F)) (r : Ref sig .tc) (h : r ∉ F2_W) :
    after F2 W (no_index (Proc.devRef .tc r)) = W (Proc.devRef .tc r) :=
  after_of_writes_sub F2 W F2_writes h
theorem F2_out (W : Valuation τ sig (Elt F)) :
    after F2 W (no_index (Proc.devRef .tc main_v156)) = reluT (W (Proc.devRef .tc main_v155)) := by
  unfold F2
  after_results_simp
  all_goals rfl

/-- Layer 2, the second linear map: eight operations. -/
def G2 : List (HloOp τ sig (Elt F)) :=
  [ StableHlo.unary main_arg7 main_v157 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v157 main_v158 rfl shapeCasts_S1x64x64_S64x64,
    StableHlo.binary main_v156 main_v158 main_v159 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v160 ((extractStridedSlice S1x64 ![2, 0] · slices_S3x64_S1x64_2_0) : (⟨S3x64, .f32⟩ : BufTy).Contents (Elt F) → (⟨S1x64, .f32⟩ : BufTy).Contents (Elt F)),
    StableHlo.reshape main_v160 main_v161 rfl shapeCasts_S1x64_S64,
    StableHlo.unary main_v161 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v163 main_v164 (addf : (⟨S100000x64, .f32⟩ : BufTy).Contents (Elt F) → (⟨S100000x64, .f32⟩ : BufTy).Contents (Elt F) → (⟨S100000x64, .f32⟩ : BufTy).Contents (Elt F)) ]
/-- The buffers the operations of `G2` write. -/
abbrev G2_W : List (Ref sig .tc) := [main_v157, main_v158, main_v159, main_v160, main_v161, main_v162, main_v163, main_v164]
theorem G2_sub : (G2 : List (HloOp τ sig (Elt F))).Forall fun op => op.bufs ⊆ tcRefs τ sig := by
  unfold G2
  exact ⟨unary_bufs_sub .., reshape_bufs_sub .., binary_bufs_sub .., unary_bufs_sub .., reshape_bufs_sub .., unary_bufs_sub .., unary_bufs_sub .., binary_bufs_sub ..⟩
theorem G2_fresh : ∀ op ∈ (G2 : List (HloOp τ sig (Elt F))), op.fresh = ∅ := by
  unfold G2
  intro _ h
  (repeat (cases h with | head => rfl | tail _ h => ?_))
  exact nomatch h
theorem G2_writes : (G2 : List (HloOp τ sig (Elt F))).Forall fun op => op.writes ⊆ (G2_W.map (Proc.devRef (τ := τ) .tc)).toFinset := by
  unfold G2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `G2` do not write keeps its contents through them. -/
theorem G2_keep (W : Valuation τ sig (Elt F)) (r : Ref sig .tc) (h : r ∉ G2_W) :
    after G2 W (no_index (Proc.devRef .tc r)) = W (Proc.devRef .tc r) :=
  after_of_writes_sub G2 W G2_writes h
theorem G2_out (W : Valuation τ sig (Elt F)) :
    after G2 W (no_index (Proc.devRef .tc main_v164)) = lin2T (W (Proc.devRef .tc main_v156)) (w2S2 (W (Proc.devRef .tc main_arg7))) (b2S2 (W (Proc.devRef .tc main_arg8))) := by
  unfold G2
  after_results_simp
  all_goals rfl

/-- Layer 2, the second rectifier: three operations. -/
def H2 : List (HloOp τ sig (Elt F)) :=
  [ StableHlo.TRef.nullary main_call8.cst (constant S_ .f32 0x00000000#32),
    StableHlo.TRef.unary main_call8.cst main_call8.v0 (broadcastInDim S100000x64 ![] bcast_S_S100000x64),
    StableHlo.TRef.binary (.of main_v164) main_call8.v0 main_call8.v1 maximumf ]
/-- The buffers the operations of `H2` write. -/
abbrev H2_W : List (Ref sig .tc) := [main_call8_cst, main_call8_v0, main_v165]
theorem H2_sub : (H2 : List (HloOp τ sig (Elt F))).Forall fun op => op.bufs ⊆ tcRefs τ sig := by
  unfold H2
  exact ⟨nullary_bufs_sub .., unary_bufs_sub .., binary_bufs_sub ..⟩
theorem H2_fresh : ∀ op ∈ (H2 : List (HloOp τ sig (Elt F))), op.fresh = ∅ := by
  unfold H2
  intro _ h
  (repeat (cases h with | head => rfl | tail _ h => ?_))
  exact nomatch h
theorem H2_writes : (H2 : List (HloOp τ sig (Elt F))).Forall fun op => op.writes ⊆ (H2_W.map (Proc.devRef (τ := τ) .tc)).toFinset := by
  unfold H2
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the operations of `H2` do not write keeps its contents through them. -/
theorem H2_keep (W : Valuation τ sig (Elt F)) (r : Ref sig .tc) (h : r ∉ H2_W) :
    after H2 W (no_index (Proc.devRef .tc r)) = W (Proc.devRef .tc r) :=
  after_of_writes_sub H2 W H2_writes h
theorem H2_out (W : Valuation τ sig (Elt F)) :
    after H2 W (no_index (Proc.devRef .tc main_v165)) = reluT (W (Proc.devRef .tc main_v164)) := by
  unfold H2
  after_results_simp
  all_goals rfl

/-- Layer 2's operations, stage after stage. -/
def L2 : List (HloOp τ sig (Elt F)) := A2 ++ B2 ++ C2 ++ D2 ++ E2 ++ F2 ++ G2 ++ H2
theorem L2_sub : (L2 : List (HloOp τ sig (Elt F))).Forall fun op => op.bufs ⊆ tcRefs τ sig := by
  unfold L2
  simp only [List.forall_append]
  exact ⟨⟨⟨⟨⟨⟨⟨A2_sub, B2_sub⟩, C2_sub⟩, D2_sub⟩, E2_sub⟩, F2_sub⟩, G2_sub⟩, H2_sub⟩
theorem L2_fresh : ∀ op ∈ (L2 : List (HloOp τ sig (Elt F))), op.fresh = ∅ := by
  unfold L2
  intro op h
  simp only [List.mem_append] at h
  rcases h with ((((((h | h) | h) | h) | h) | h) | h) | h
  exacts [A2_fresh op h, B2_fresh op h, C2_fresh op h, D2_fresh op h, E2_fresh op h, F2_fresh op h, G2_fresh op h, H2_fresh op h]
/-- The arguments and the two edge-number vectors pass through layer 2 unchanged: none of its operations writes them. -/
theorem L2_keep (W : Valuation τ sig (Elt F)) (r : Ref sig .tc) (h : r ∈ [main_arg0, main_arg1, main_arg2, main_arg3, main_arg4, main_arg5, main_arg6, main_arg7, main_arg8, main_v1, main_v3]) :
    after L2 W (no_index (Proc.devRef .tc r)) = W (Proc.devRef .tc r) := by
  simp only [List.mem_cons, List.mem_nil_iff, or_false] at h
  unfold L2
  rcases h with rfl | rfl | rfl | rfl | rfl | rfl | rfl | rfl | rfl | rfl | rfl <;>
    simp (disch := decide) only [after_app, A2_keep, B2_keep, C2_keep, D2_keep, E2_keep, F2_keep, G2_keep, H2_keep]
/-- Layer 2's result is the layer function of what the layer found in its input, the edge-number vectors, the edge weights and its slices of the parameter arrays. -/
theorem L2_out (W : Valuation τ sig (Elt F)) :
    after L2 W (no_index (Proc.devRef .tc main_v165)) = layerT (W (Proc.devRef .tc main_v111)) (W (Proc.devRef .tc main_v1)) (W (Proc.devRef .tc main_v3)) (W (Proc.devRef .tc main_arg2)) (w1S2 (W (Proc.devRef .tc main_arg3))) (b1S2 (W (Proc.devRef .tc main_arg4))) (gS2 (W (Proc.devRef .tc main_arg5))) (beS2 (W (Proc.devRef .tc main_arg6))) (w2S2 (W (Proc.devRef .tc main_arg7))) (b2S2 (W (Proc.devRef .tc main_arg8))) := by
  unfold L2 layerT
  simp (disch := decide) only [after_app, A2_out, B2_out, C2_out, D2_out, E2_out, F2_out, G2_out, H2_out, A2_keep, B2_keep, C2_keep, D2_keep, E2_keep, F2_keep, G2_keep, H2_keep]

end Cert.ReferenceIdeal.RefRun

end
-- ==== Proof.RefRun.lean ====
/-
  The reference program run: @main is the straight line of its 262 host operations (the four before the layers, then
  the three layers), every weakly fair execution of it terminates, the result buffer ends at the composed term
  `refTerm` of the nine arguments' launch contents, and the arguments end unchanged.
-/
import proofs.«166406_j57140244906477_1_alg».proof.Proof.RefL0
import proofs.«166406_j57140244906477_1_alg».proof.Proof.RefL1
import proofs.«166406_j57140244906477_1_alg».proof.Proof.RefL2
import proofs.«166406_j57140244906477_1_alg».proof.Defs
import proofs.«166406_j57140244906477_1_alg».proof.Proof.Gen.Pre_finite_inputs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order: the two edge-number vectors, then the three layers. -/
def ops : List (HloOp τ sig (Elt F)) := pre ++ L0 ++ L1 ++ L2

set_option maxRecDepth 65536 in
set_option maxHeartbeats 4000000 in
/-- @main is that straight line: its four windows and the outlined functions unfolded at their calls, both sides are one
    chain of host steps once sequencing is reassociated. -/
theorem main_eq (c : Dev nD) : main (F := F) c = seq ops := by
  simp only [main, main_part0, main_part1, main_part2, main_part3, fn_var.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨⟨⟨pre_sub, L0_sub⟩, L1_sub⟩, L2_sub⟩

theorem ops_fresh : ∀ op ∈ (ops : List (HloOp τ sig (Elt F))), op.fresh = ∅ := by
  unfold ops
  intro op h
  simp only [List.mem_append] at h
  rcases h with ((h | h) | h) | h
  exacts [pre_fresh op h, L0_fresh op h, L1_fresh op h, L2_fresh op h]

/-- The result buffer after all the operations: the three layer functions composed over the arguments. -/
theorem out_eq (V : Valuation τ sig (Elt F)) :
    after ops V (Proc.devRef .tc main_v165) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold ops refTerm
  simp (disch := decide) only [after_app, L2_out, L1_out, L0_out, pre_src, pre_dst, L2_keep, L1_keep, L0_keep, pre_keep]

theorem arg0_eq (V : Valuation τ sig (Elt F)) : after ops V (Proc.devRef .tc main_arg0) = V (Proc.devRef .tc main_arg0) := by
  unfold ops
  simp (disch := decide) only [after_app, L2_keep, L1_keep, L0_keep, pre_keep]
theorem arg1_eq (V : Valuation τ sig (Elt F)) : after ops V (Proc.devRef .tc main_arg1) = V (Proc.devRef .tc main_arg1) := by
  unfold ops
  simp (disch := decide) only [after_app, L2_keep, L1_keep, L0_keep, pre_keep]
theorem arg2_eq (V : Valuation τ sig (Elt F)) : after ops V (Proc.devRef .tc main_arg2) = V (Proc.devRef .tc main_arg2) := by
  unfold ops
  simp (disch := decide) only [after_app, L2_keep, L1_keep, L0_keep, pre_keep]
theorem arg3_eq (V : Valuation τ sig (Elt F)) : after ops V (Proc.devRef .tc main_arg3) = V (Proc.devRef .tc main_arg3) := by
  unfold ops
  simp (disch := decide) only [after_app, L2_keep, L1_keep, L0_keep, pre_keep]
theorem arg4_eq (V : Valuation τ sig (Elt F)) : after ops V (Proc.devRef .tc main_arg4) = V (Proc.devRef .tc main_arg4) := by
  unfold ops
  simp (disch := decide) only [after_app, L2_keep, L1_keep, L0_keep, pre_keep]
theorem arg5_eq (V : Valuation τ sig (Elt F)) : after ops V (Proc.devRef .tc main_arg5) = V (Proc.devRef .tc main_arg5) := by
  unfold ops
  simp (disch := decide) only [after_app, L2_keep, L1_keep, L0_keep, pre_keep]
theorem arg6_eq (V : Valuation τ sig (Elt F)) : after ops V (Proc.devRef .tc main_arg6) = V (Proc.devRef .tc main_arg6) := by
  unfold ops
  simp (disch := decide) only [after_app, L2_keep, L1_keep, L0_keep, pre_keep]
theorem arg7_eq (V : Valuation τ sig (Elt F)) : after ops V (Proc.devRef .tc main_arg7) = V (Proc.devRef .tc main_arg7) := by
  unfold ops
  simp (disch := decide) only [after_app, L2_keep, L1_keep, L0_keep, pre_keep]
theorem arg8_eq (V : Valuation τ sig (Elt F)) : after ops V (Proc.devRef .tc main_arg8) = V (Proc.devRef .tc main_arg8) := by
  unfold ops
  simp (disch := decide) only [after_app, L2_keep, L1_keep, L0_keep, pre_keep]

/-- On every device, from any memory with zero counters: every weakly fair execution of @main terminates with the result
    at `refTerm` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v165) = refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c main_v165).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq (defs (F := Ideal)) main (fun _ => ops) main_eq (fun _ => ops_sub) m ρ (fun _ => ops_fresh))

/-- The program runs and leaves its arguments unchanged. -/
theorem frame : Cert.frame_ReferenceIdeal := fun m g _ =>
  (θ_run (defs (F := Ideal)) _ _).mono (fun _ h c => (h c).2) (run m g)

end Cert.ReferenceIdeal.RefRun

end
-- ==== Proof.MathVar.lean ====
/-
  The two forms of the batch variance agree on arrays of real numbers.

  The row count and the epsilon are f32 words; the first denotes the real number 100000, the second a positive
  real. For an array whose entries are all real numbers, every sum and quotient in the two variance formulas is
  a sum or quotient of reals, and over the reals the mean of squares minus the squared mean is the mean of the
  squared deviations from the mean.
-/
import proofs.«166406_j57140244906477_1_alg».proof.Proof.Spec
import Mathlib

noncomputable section

namespace Cert.Math

open Idealize.ShloMosaic Cert.Spec

/-- The f32 word `0x47C35000` denotes 100000. -/
theorem cN_eq : Cert.Spec.cN = ((100000 : ℝ) : EReal) := by
  simp [Cert.Spec.cN, Ideal.ofBits, Ideal.ieee]
  norm_num
  rw [← EReal.coe_mul]
  norm_num

/-- The f32 word `0x3727C5AC` denotes a positive real number. -/
theorem cEps_eq : ∃ r : ℝ, 0 < r ∧ Cert.Spec.cEps = (r : EReal) := by
  refine ⟨10995116 / 1099511627776, by norm_num, ?_⟩
  simp [Cert.Spec.cEps, Ideal.ofBits, Ideal.ieee]
  norm_num
  rw [← EReal.coe_mul]
  norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by the row count is a product with the reciprocal of 100000. -/
theorem div_cN (x : EReal) : Ideal.div x Cert.Spec.cN = x * (((1 / 100000 : ℝ)) : EReal) := by
  rw [cN_eq, Ideal.div_coe (by norm_num)]

/-- An array of real numbers is the coercion of its real parts. -/
theorem eq_coe_toReal (h : Mat) (hf : ∀ p q, Fin' (h p q)) : h = fun p q => (((h p q).toReal : ℝ) : EReal) := by
  funext p q
  exact (EReal.coe_toReal (hf p q).1 (hf p q).2).symm

/-- The mean of a real array is the real mean. -/
theorem mean_coe (r : Fin 100000 → Fin 64 → ℝ) (q : Fin 64) :
    mean (fun p q => (r p q : EReal)) q = (((∑ p, r p q) * (1 / 100000) : ℝ) : EReal) := by
  unfold Cert.Spec.mean
  rw [div_cN, ← coe_sum, ← EReal.coe_mul]

/-- Over the reals: the mean of squares minus the squared mean is the mean of the squared deviations. -/
theorem real_var {ι : Type} [Fintype ι] (f : ι → ℝ) (N : ℝ) (hN : (Fintype.card ι : ℝ) = N) (hN0 : N ≠ 0) :
    (∑ i, f i * f i) * (1 / N) - ((∑ i, f i) * (1 / N)) * ((∑ i, f i) * (1 / N)) =
      (∑ i, (f i - (∑ j, f j) * (1 / N)) * (f i - (∑ j, f j) * (1 / N))) * (1 / N) := by
  set S := ∑ j, f j with hS
  have e : ∀ i, (f i - S * (1 / N)) * (f i - S * (1 / N))
      = f i * f i - (2 * (S * (1 / N))) * f i + (S * (1 / N)) * (S * (1 / N)) := by
    intro i; ring
  simp_rw [e]
  rw [Finset.sum_add_distrib, Finset.sum_sub_distrib, ← Finset.mul_sum, Finset.sum_const, Finset.card_univ,
    nsmul_eq_mul, hN, ← hS]
  field_simp
  ring

/-- The kernel's variance of a real array, as a real number. -/
theorem varK_coe (r : Fin 100000 → Fin 64 → ℝ) (q : Fin 64) :
    varK (fun p q => (r p q : EReal)) q =
      (((∑ p, r p q * r p q) * (1 / 100000) - ((∑ p, r p q) * (1 / 100000)) * ((∑ p, r p q) * (1 / 100000)) : ℝ) : EReal) := by
  unfold Cert.Spec.varK
  rw [mean_coe, div_cN]
  simp_rw [← EReal.coe_mul]
  rw [← coe_sum, ← EReal.coe_mul, ← EReal.coe_sub]

/-- The reference's variance of a real array, as a real number. -/
theorem varR_coe (r : Fin 100000 → Fin 64 → ℝ) (q : Fin 64) :
    varR (fun p q => (r p q : EReal)) q =
      (((∑ p, (r p q - (∑ j, r j q) * (1 / 100000)) * (r p q - (∑ j, r j q) * (1 / 100000))) * (1 / 100000) : ℝ) : EReal) := by
  unfold Cert.Spec.varR
  rw [mean_coe, div_cN]
  simp_rw [← EReal.coe_sub, ← EReal.coe_mul]
  rw [← coe_sum, ← EReal.coe_mul]

/-- On an array of real numbers the kernel's variance is the reference's. -/
theorem varK_eq_varR (h : Mat) (hf : ∀ p q, Fin' (h p q)) : varK h = varR h := by
  rw [eq_coe_toReal h hf]
  funext q
  rw [varK_coe, varR_coe, real_var _ (100000 : ℝ) (by simp) (by norm_num)]

/-- The reference's variance of an array of real numbers is a nonnegative real number. -/
theorem varR_nonneg (h : Mat) (hf : ∀ p q, Fin' (h p q)) (q : Fin 64) :
    ∃ r : ℝ, 0 ≤ r ∧ varR h q = (r : EReal) := by
  rw [eq_coe_toReal h hf, varR_coe]
  refine ⟨_, ?_, rfl⟩
  apply mul_nonneg
  · exact Finset.sum_nonneg (fun p _ => mul_self_nonneg _)
  · norm_num

end Cert.Math

end
-- ==== Proof.RefReadStages.lean ====
/-
  The stage functions of the reference program read entry by entry, at the ideal instance: each is the
  corresponding plain function of the shared description (a linear map, the column mean, the column variance as the
  mean of squared deviations, the normalisation, the rectifier), and a cut-out parameter slice is the slice.
-/
import proofs.«166406_j57140244906477_1_alg».proof.Proof.RefTerm
import proofs.«166406_j57140244906477_1_alg».proof.Proof.Spec
import proofs.«166406_j57140244906477_1_alg».proof.Proof.LibPlainDot
import proofs.«166406_j57140244906477_1_alg».proof.Proof.LibBroadcastReads
import proofs.«166406_j57140244906477_1_alg».proof.Proof.MathVar
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.RefRun Idealize.ShloMosaic Idealize.ShloMosaic.ValueIdx Cert.Lib.BroadcastReads
open Cert.ReferenceIdeal.Facts₀

/-- A [100000, 64] array of extended reals. -/
abbrev CM : Type := (⟨S100000x64, .f32⟩ : BufTy).Contents (Elt Ideal)
/-- A [64, 64] array. -/
abbrev CW : Type := (⟨S64x64, .f32⟩ : BufTy).Contents (Elt Ideal)
/-- A length-64 vector. -/
abbrev CR : Type := (⟨S64, .f32⟩ : BufTy).Contents (Elt Ideal)

/-- A length-64 vector read as a row. -/
def rowv (b : CR) : Cert.Spec.Row := fun q => b (ix1 q)

/-- The printed contraction record is the plain one: rows by columns. -/
theorem dot_read (l : CM) (r : CW) (p : Fin 100000) (q : Fin 64) :
    Host.dotGeneral (F := Ideal) (φ₁ := .f32) (φ₂ := .f32) dot_S100000x64_S64x64_S100000x64_1_0_0_1_n_n none l r (ix2 p q)
      = ∑ k : Fin 64, l (ix2 p k) * r (ix2 k q) :=
  Cert.Lib.PlainDot.dotGeneral_apply 100000 64 64 (φ₁ := .f32) (φ₂ := .f32) none .single l r p q

/-- A length-64 vector laid as a row and repeated down the 100000 rows reads, at (p, q), its entry q. -/
theorem bias_read (b : CR) (p : Fin 100000) (q : Fin 64) :
    broadcastInDim S100000x64 ![0, 1] bcast_S1x64_S100000x64_0_1 (broadcastInDim S1x64 ![1] bcast_S64_S1x64_1 b) (ix2 p q)
      = b (ix1 q) := by
  rw [repeatRow_apply _ rfl, asRow_apply _ rfl]

/-- Summing a [100000, 64] array down its rows: the source index over column q with the row p put back is (p, q). -/
theorem lift_col (hred : S100000x64.Reduces [0] S64) (q : Fin 64) (p : Fin 100000) :
    hred.lift (ix1 q) p = ix2 p q := by
  funext c
  apply Fin.ext
  match c with
  | ⟨0, _⟩ => rfl
  | ⟨1, _⟩ => rfl

/-- The host column sum from a zero initial value is the sum down the rows. -/
theorem colsum_read (h : CM) (q : Fin 64) :
    Host.reduceAdd (F := Ideal) h (constant (F := Ideal) S_ .f32 0x00000000#32) reducesTo_S100000x64_S64_d0 h_S_ (ix1 q)
      = ∑ p : Fin 100000, h (ix2 p q) := by
  have hred : S100000x64.Reduces [0] S64 := by decide
  show Ideal.hostReduceAdd reducesTo_S100000x64_S64_d0 h (Ideal.ofBits .f32 0x00000000#32) (ix1 q) = _
  rw [Ideal.hostReduceAdd_single _ hred, Ideal.ofBits_zero_f32, zero_add]
  exact Finset.sum_congr rfl fun p _ => by rw [lift_col hred q p]

/-- The rectifier. -/
theorem reluT_read (u : CM) : Cert.Spec.toMat (reluT (F := Ideal) u) = Cert.Spec.relu (Cert.Spec.toMat u) := by
  funext p q
  show reluT (F := Ideal) u (ix2 p q) = max (u (ix2 p q)) 0
  unfold reluT
  rw [maximumf_apply, fill_apply, constant_apply, Ideal.ofBits_zero_f32]

/-- The first linear map. -/
theorem preT_read (ag x : CM) (W1 : CW) (b1 : CR) :
    Cert.Spec.toMat (preT (F := Ideal) ag x W1 b1)
      = Cert.Spec.lin (Cert.Spec.toWt W1) (rowv b1) (fun p q => Cert.Spec.toMat ag p q + Cert.Spec.toMat x p q) := by
  funext p q
  show preT (F := Ideal) ag x W1 b1 (ix2 p q) = (∑ k : Fin 64, (ag (ix2 p k) + x (ix2 p k)) * W1 (ix2 k q)) + b1 (ix1 q)
  unfold preT
  rw [addf_apply]
  beta_reduce
  rw [dot_read, bias_read]
  rfl

/-- The second linear map. -/
theorem lin2T_read (u : CM) (W2 : CW) (b2 : CR) :
    Cert.Spec.toMat (lin2T (F := Ideal) u W2 b2) = Cert.Spec.lin (Cert.Spec.toWt W2) (rowv b2) (Cert.Spec.toMat u) := by
  funext p q
  show lin2T (F := Ideal) u W2 b2 (ix2 p q) = (∑ k : Fin 64, u (ix2 p k) * W2 (ix2 k q)) + b2 (ix1 q)
  unfold lin2T
  rw [addf_apply]
  beta_reduce
  rw [dot_read, bias_read]

/-- The column mean. -/
theorem meanT_read (h : CM) : rowv (meanT (F := Ideal) h) = Cert.Spec.mean (Cert.Spec.toMat h) := by
  funext q
  show meanT (F := Ideal) h (ix1 q) = Ideal.div (∑ p : Fin 100000, h (ix2 p q)) Cert.Spec.cN
  unfold meanT
  show Ideal.div (Host.reduceAdd (F := Ideal) h (constant (F := Ideal) S_ .f32 0x00000000#32) reducesTo_S100000x64_S64_d0 h_S_ (ix1 q))
      (broadcastInDim S64 ![] bcast_S_S64 (constant (F := Ideal) S_ .f32 0x47C35000#32) (ix1 q)) = _
  rw [colsum_read, fill_apply, constant_apply]
  rfl

/-- The normalisation. -/
theorem normT_read (h : CM) (mu va g be : CR) :
    Cert.Spec.toMat (normT (F := Ideal) h mu va g be)
      = Cert.Spec.norm (Cert.Spec.toMat h) (rowv mu) (rowv va) (rowv g) (rowv be) := by
  funext p q
  show normT (F := Ideal) h mu va g be (ix2 p q)
      = (h (ix2 p q) - mu (ix1 q)) * Ideal.rsqrt (va (ix1 q) + Cert.Spec.cEps) * g (ix1 q) + be (ix1 q)
  unfold normT
  rw [addf_apply, mulf_apply, mulf_apply, subf_apply, bias_read, bias_read, bias_read, bias_read]
  show (h (ix2 p q) - mu (ix1 q)) * Ideal.rsqrt (va (ix1 q)
      + broadcastInDim S64 ![] bcast_S_S64 (constant (F := Ideal) S_ .f32 0x3727C5AC#32) (ix1 q)) * g (ix1 q) + be (ix1 q) = _
  rw [fill_apply, constant_apply]
  rfl

/-- The host quotient, entry by entry. -/
theorem hdivf_apply {s : Shape} (a b : FVec Ideal s .f32) (i : s.Idx) : Host.divf (F := Ideal) a b i = Ideal.div (a i) (b i) := rfl

/-- The row count is positive. -/
theorem cN_pos : (0 : EReal) < Cert.Spec.cN := by
  rw [Cert.Math.cN_eq]
  exact_mod_cast (by norm_num : (0 : ℝ) < 100000)

/-- The divisor the variance function computes: the row count less the integer zero converted, which is the row count. -/
theorem cnt_read :
    (subf (constant (F := Ideal) S_ .f32 0x47C35000#32) (sitofp (F := Ideal) .f32 (constantI S_ 32 0#32)) : (⟨S_, .f32⟩ : BufTy).Contents (Elt Ideal)) ix0
      = Cert.Spec.cN := by
  show Cert.Spec.cN - (((0#32 : BitVec 32).toInt : ℝ) : EReal) = Cert.Spec.cN
  have h0 : (0#32 : BitVec 32).toInt = 0 := by decide
  rw [h0, Int.cast_zero, EReal.coe_zero, sub_zero]

/-- The deviation from the column mean, as the variance function computes it: the mean through a [1, 64] row. -/
theorem dev_read (h : CM) (p : Fin 100000) (q : Fin 64) :
    (subf h (broadcastInDim S100000x64 ![0, 1] bcast_S1x64_S100000x64_0_1
        (Host.divf (F := Ideal) (φ := .f32) (broadcastInDim S1x64 ![1] bcast_S64_S1x64_1
            (Host.reduceAdd (F := Ideal) h (constant (F := Ideal) S_ .f32 0x00000000#32) reducesTo_S100000x64_S64_d0 h_S_))
          (broadcastInDim S1x64 ![] bcast_S_S1x64 (constant (F := Ideal) S_ .f32 0x47C35000#32)))) : CM) (ix2 p q)
      = h (ix2 p q) - Cert.Spec.mean (Cert.Spec.toMat h) q := by
  rw [subf_apply, repeatRow_apply _ rfl]
  show h (ix2 p q) - Ideal.div (broadcastInDim S1x64 ![1] bcast_S64_S1x64_1
        (Host.reduceAdd (F := Ideal) h (constant (F := Ideal) S_ .f32 0x00000000#32) reducesTo_S100000x64_S64_d0 h_S_) (ix2 (0 : Fin 1) q))
      (broadcastInDim S1x64 ![] bcast_S_S1x64 (constant (F := Ideal) S_ .f32 0x47C35000#32) (ix2 (0 : Fin 1) q)) = _
  rw [asRow_apply _ rfl, colsum_read, fill_apply, constant_apply]
  rfl

/-- The column variance as the outlined function computes it is the mean of the squared deviations. -/
theorem varT_read (h : CM) : rowv (varT (F := Ideal) h) = Cert.Spec.varR (Cert.Spec.toMat h) := by
  funext q
  show varT (F := Ideal) h (ix1 q)
      = Ideal.div (∑ p : Fin 100000, (h (ix2 p q) - Cert.Spec.mean (Cert.Spec.toMat h) q) * (h (ix2 p q) - Cert.Spec.mean (Cert.Spec.toMat h) q)) Cert.Spec.cN
  unfold varT
  beta_reduce
  rw [select_apply, fill_apply, cmpf_apply, cnt_read]
  show Scalar.select (Ideal.cmp .ogt Cert.Spec.cN (Ideal.ofBits .f32 0x00000000#32)) _ _ = _
  have hc : Ideal.cmp .ogt Cert.Spec.cN (Ideal.ofBits .f32 0x00000000#32) = 1#1 := by
    rw [Ideal.ofBits_zero_f32]
    show BitVec.ofBool (decide ((0 : EReal) < Cert.Spec.cN)) = 1#1
    rw [decide_eq_true cN_pos]
    rfl
  rw [hc, select_one]
  rw [hdivf_apply, colsum_read, fill_apply, cnt_read]
  refine congrArg (fun t => Ideal.div t Cert.Spec.cN) (Finset.sum_congr rfl fun p _ => ?_)
  rw [mulf_apply, dev_read]

/-- A [1, 64, 64] slab cut from the [3, 64, 64] array at l and re-laid as [64, 64] reads the array's slice l. -/
theorem wslice_read (l : Fin 3) (a : (⟨S3x64x64, .f32⟩ : BufTy).Contents (Elt Ideal)) (hs : S3x64x64.Slices ![l.val, 0, 0] S1x64x64)
    (hc : S1x64x64.ShapeCasts S64x64) :
    Cert.Spec.toWt (shapeCast S64x64 (extractStridedSlice S1x64x64 ![l.val, 0, 0] a hs) hc) = Cert.Spec.wtOf a l := by
  funext k q
  show shapeCast S64x64 (extractStridedSlice S1x64x64 ![l.val, 0, 0] a hs) hc (ix2 k q) = a (ix3 l k q)
  rw [shapeCast_1ab_ab_apply]
  exact extractStridedSlice_apply _ _ _ _ (ix3 l k q) (fun ax => by
    match ax with
    | ⟨0, _⟩ => rfl
    | ⟨1, _⟩ => exact (Nat.zero_add _).symm
    | ⟨2, _⟩ => exact (Nat.zero_add _).symm)

/-- A [1, 64] row cut from the [3, 64] array at l and re-laid as a vector reads the array's row l. -/
theorem rslice_read (l : Fin 3) (a : (⟨S3x64, .f32⟩ : BufTy).Contents (Elt Ideal)) (hs : S3x64.Slices ![l.val, 0] S1x64)
    (hc : S1x64.ShapeCasts S64) :
    rowv (shapeCast S64 (extractStridedSlice S1x64 ![l.val, 0] a hs) hc) = Cert.Spec.rowOf a l := by
  funext q
  show shapeCast S64 (extractStridedSlice S1x64 ![l.val, 0] a hs) hc (ix1 q) = a (ix2 l q)
  rw [shapeCast_1a_a_apply]
  exact slice2_axis0_apply l.val a hs 0 q l (by simp)

end Cert.ReferenceIdeal.RefRead

end
-- ==== Proof.RefRead.lean ====
/-
  The reference program's result read down to the shared description: the edge aggregation by the generic chain
  lemma, one layer as one lemma over variables, the parameter slices, and the three layers composed.
-/
import proofs.«166406_j57140244906477_1_alg».proof.Proof.RefReadStages
import proofs.«166406_j57140244906477_1_alg».proof.Proof.AggRead

noncomputable section

open scoped BigOperators

namespace Cert.ReferenceIdeal.RefRead

open Cert.ReferenceIdeal Cert.ReferenceIdeal.RefRun Idealize.ShloMosaic Idealize.ShloMosaic.ValueIdx Cert.Lib.BroadcastReads
open Cert.ReferenceIdeal.Facts₀

/-- The edge aggregation the program composes is the shared description's, of the edge array's two rows, the weights and the features. -/
theorem aggT_read (x : CM) (ei : (⟨S2x1600000, .i32⟩ : BufTy).Contents (Elt Ideal)) (ea : (⟨S1600000x1, .f32⟩ : BufTy).Contents (Elt Ideal)) :
    Cert.Spec.toMat (aggT (F := Ideal) x (srcT ei) (dstT ei) ea)
      = Cert.Spec.agg (Cert.Spec.srcOf ei) (Cert.Spec.dstOf ei) (Cert.Spec.eaOf ea) (Cert.Spec.toMat x) := by
  unfold aggT srcT dstT
  exact Cert.AggRead.agg_read gather_S100000x64_S1600000x1_S1600000x64_1_0_n_n_0_1_164 rfl rfl rfl rfl rfl rfl rfl
    scatter_S100000x64_S1600000x1_S1600000x64_1_0_0_1 rfl rfl rfl rfl
    slices_S2x1600000_S1x1600000_0_0 slices_S2x1600000_S1x1600000_1_0 shapeCasts_S1x1600000_S1600000
    bcast_S_S1600000 bcast_S1600000_S1600000x1_0 bcast_S1600000x1_S1600000x64_0_1 bcast_S_S100000x64 ei ea x

/-- One layer of the program is one layer of the shared description, with the variance as the mean of squared deviations. -/
theorem layer_read (x : CM) (ei : (⟨S2x1600000, .i32⟩ : BufTy).Contents (Elt Ideal)) (ea : (⟨S1600000x1, .f32⟩ : BufTy).Contents (Elt Ideal)) (W1 : CW) (b1 g be : CR) (W2 : CW) (b2 : CR) :
    Cert.Spec.toMat (layerT (F := Ideal) x (srcT ei) (dstT ei) ea W1 b1 g be W2 b2)
      = Cert.Spec.layerWith Cert.Spec.varR (Cert.Spec.agg (Cert.Spec.srcOf ei) (Cert.Spec.dstOf ei) (Cert.Spec.eaOf ea))
          (Cert.Spec.toMat x) (Cert.Spec.toWt W1) (rowv b1) (rowv g) (rowv be) (Cert.Spec.toWt W2) (rowv b2) := by
  unfold layerT Cert.Spec.layerWith Cert.Spec.pre
  rw [reluT_read, lin2T_read, reluT_read, normT_read, meanT_read, varT_read, preT_read, aggT_read]

theorem w1S0_read (a : (⟨S3x64x64, .f32⟩ : BufTy).Contents (Elt Ideal)) : Cert.Spec.toWt (w1S0 (F := Ideal) a) = Cert.Spec.wtOf a 0 := wslice_read 0 a _ _
theorem w2S0_read (a : (⟨S3x64x64, .f32⟩ : BufTy).Contents (Elt Ideal)) : Cert.Spec.toWt (w2S0 (F := Ideal) a) = Cert.Spec.wtOf a 0 := wslice_read 0 a _ _
theorem b1S0_read (a : (⟨S3x64, .f32⟩ : BufTy).Contents (Elt Ideal)) : rowv (b1S0 (F := Ideal) a) = Cert.Spec.rowOf a 0 := rslice_read 0 a _ _
theorem gS0_read (a : (⟨S3x64, .f32⟩ : BufTy).Contents (Elt Ideal)) : rowv (gS0 (F := Ideal) a) = Cert.Spec.rowOf a 0 := rslice_read 0 a _ _
theorem beS0_read (a : (⟨S3x64, .f32⟩ : BufTy).Contents (Elt Ideal)) : rowv (beS0 (F := Ideal) a) = Cert.Spec.rowOf a 0 := rslice_read 0 a _ _
theorem b2S0_read (a : (⟨S3x64, .f32⟩ : BufTy).Contents (Elt Ideal)) : rowv (b2S0 (F := Ideal) a) = Cert.Spec.rowOf a 0 := rslice_read 0 a _ _
theorem w1S1_read (a : (⟨S3x64x64, .f32⟩ : BufTy).Contents (Elt Ideal)) : Cert.Spec.toWt (w1S1 (F := Ideal) a) = Cert.Spec.wtOf a 1 := wslice_read 1 a _ _
theorem w2S1_read (a : (⟨S3x64x64, .f32⟩ : BufTy).Contents (Elt Ideal)) : Cert.Spec.toWt (w2S1 (F := Ideal) a) = Cert.Spec.wtOf a 1 := wslice_read 1 a _ _
theorem b1S1_read (a : (⟨S3x64, .f32⟩ : BufTy).Contents (Elt Ideal)) : rowv (b1S1 (F := Ideal) a) = Cert.Spec.rowOf a 1 := rslice_read 1 a _ _
theorem gS1_read (a : (⟨S3x64, .f32⟩ : BufTy).Contents (Elt Ideal)) : rowv (gS1 (F := Ideal) a) = Cert.Spec.rowOf a 1 := rslice_read 1 a _ _
theorem beS1_read (a : (⟨S3x64, .f32⟩ : BufTy).Contents (Elt Ideal)) : rowv (beS1 (F := Ideal) a) = Cert.Spec.rowOf a 1 := rslice_read 1 a _ _
theorem b2S1_read (a : (⟨S3x64, .f32⟩ : BufTy).Contents (Elt Ideal)) : rowv (b2S1 (F := Ideal) a) = Cert.Spec.rowOf a 1 := rslice_read 1 a _ _
theorem w1S2_read (a : (⟨S3x64x64, .f32⟩ : BufTy).Contents (Elt Ideal)) : Cert.Spec.toWt (w1S2 (F := Ideal) a) = Cert.Spec.wtOf a 2 := wslice_read 2 a _ _
theorem w2S2_read (a : (⟨S3x64x64, .f32⟩ : BufTy).Contents (Elt Ideal)) : Cert.Spec.toWt (w2S2 (F := Ideal) a) = Cert.Spec.wtOf a 2 := wslice_read 2 a _ _
theorem b1S2_read (a : (⟨S3x64, .f32⟩ : BufTy).Contents (Elt Ideal)) : rowv (b1S2 (F := Ideal) a) = Cert.Spec.rowOf a 2 := rslice_read 2 a _ _
theorem gS2_read (a : (⟨S3x64, .f32⟩ : BufTy).Contents (Elt Ideal)) : rowv (gS2 (F := Ideal) a) = Cert.Spec.rowOf a 2 := rslice_read 2 a _ _
theorem beS2_read (a : (⟨S3x64, .f32⟩ : BufTy).Contents (Elt Ideal)) : rowv (beS2 (F := Ideal) a) = Cert.Spec.rowOf a 2 := rslice_read 2 a _ _
theorem b2S2_read (a : (⟨S3x64, .f32⟩ : BufTy).Contents (Elt Ideal)) : rowv (b2S2 (F := Ideal) a) = Cert.Spec.rowOf a 2 := rslice_read 2 a _ _

/-- THE REFERENCE'S RESULT: three layers of the shared description over the arguments, layer l on slice l of each parameter array. -/
theorem ref_value (a0 : (⟨S100000x64, .f32⟩ : BufTy).Contents (Elt Ideal)) (a1 : (⟨S2x1600000, .i32⟩ : BufTy).Contents (Elt Ideal)) (a2 : (⟨S1600000x1, .f32⟩ : BufTy).Contents (Elt Ideal)) (a3 : (⟨S3x64x64, .f32⟩ : BufTy).Contents (Elt Ideal)) (a4 : (⟨S3x64, .f32⟩ : BufTy).Contents (Elt Ideal)) (a5 : (⟨S3x64, .f32⟩ : BufTy).Contents (Elt Ideal)) (a6 : (⟨S3x64, .f32⟩ : BufTy).Contents (Elt Ideal)) (a7 : (⟨S3x64x64, .f32⟩ : BufTy).Contents (Elt Ideal)) (a8 : (⟨S3x64, .f32⟩ : BufTy).Contents (Elt Ideal)) :
    Cert.Spec.toMat (refTerm (F := Ideal) a0 a1 a2 a3 a4 a5 a6 a7 a8)
      = Cert.Spec.netWith Cert.Spec.varR (Cert.Spec.agg (Cert.Spec.srcOf a1) (Cert.Spec.dstOf a1) (Cert.Spec.eaOf a2)) (Cert.Spec.toMat a0)
          (fun l => Cert.Spec.wtOf a3 l) (fun l => Cert.Spec.rowOf a4 l) (fun l => Cert.Spec.rowOf a5 l) (fun l => Cert.Spec.rowOf a6 l)
          (fun l => Cert.Spec.wtOf a7 l) (fun l => Cert.Spec.rowOf a8 l) := by
  unfold refTerm Cert.Spec.netWith
  rw [layer_read, layer_read, layer_read]
  rw [w1S0_read, b1S0_read, gS0_read, beS0_read, w2S0_read, b2S0_read, w1S1_read, b1S1_read, gS1_read, beS1_read, w2S1_read, b2S1_read, w1S2_read, b1S2_read, gS2_read, beS2_read, w2S2_read, b2S2_read]

end Cert.ReferenceIdeal.RefRead

end
-- ==== Proof.MathFin.lean ====
/-
  Real-valued inputs give real-valued features through a layer.

  Sums, products, differences and maxima of real numbers are real numbers; the row count is a nonzero real, so the
  batch mean of a real array is real; the variance of a real array is a nonnegative real, so adding the positive
  epsilon gives a positive real, whose reciprocal square root is real. Hence every stage of a layer maps arrays of
  real numbers to arrays of real numbers.
-/
import proofs.«166406_j57140244906477_1_alg».proof.Proof.MathVar

noncomputable section

namespace Cert.Math

open Idealize.ShloMosaic Cert.Spec

theorem fin_coe (r : ℝ) : Fin' (r : EReal) := ⟨EReal.coe_ne_top r, EReal.coe_ne_bot r⟩

theorem fin_exists {x : EReal} (hx : Fin' x) : ∃ r : ℝ, x = (r : EReal) :=
  ⟨x.toReal, (EReal.coe_toReal hx.1 hx.2).symm⟩

theorem fin_zero : Fin' (0 : EReal) := by
  have := fin_coe 0
  simpa using this

theorem fin_add {x y : EReal} (hx : Fin' x) (hy : Fin' y) : Fin' (x + y) := by
  obtain ⟨a, rfl⟩ := fin_exists hx
  obtain ⟨b, rfl⟩ := fin_exists hy
  rw [← EReal.coe_add]; exact fin_coe _

theorem fin_sub {x y : EReal} (hx : Fin' x) (hy : Fin' y) : Fin' (x - y) := by
  obtain ⟨a, rfl⟩ := fin_exists hx
  obtain ⟨b, rfl⟩ := fin_exists hy
  rw [← EReal.coe_sub]; exact fin_coe _

theorem fin_mul {x y : EReal} (hx : Fin' x) (hy : Fin' y) : Fin' (x * y) := by
  obtain ⟨a, rfl⟩ := fin_exists hx
  obtain ⟨b, rfl⟩ := fin_exists hy
  rw [← EReal.coe_mul]; exact fin_coe _

theorem fin_max_zero {x : EReal} (hx : Fin' x) : Fin' (max x 0) := by
  rcases max_choice x 0 with h | h <;> rw [h]
  · exact hx
  · exact fin_zero

theorem fin_sum {ι : Type} (s : Finset ι) (f : ι → EReal) (hf : ∀ i ∈ s, Fin' (f i)) : Fin' (∑ i ∈ s, f i) := by
  classical
  induction s using Finset.induction_on with
  | empty => simpa using fin_zero
  | insert a s ha ih =>
    rw [Finset.sum_insert ha]
    exact fin_add (hf a (Finset.mem_insert_self a s)) (ih (fun i hi => hf i (Finset.mem_insert_of_mem hi)))

/-- A linear map with real weights and offsets maps real arrays to real arrays. -/
theorem lin_fin (W : Wt) (b : Row) (u : Mat) (hW : ∀ k q, Fin' (W k q)) (hb : ∀ q, Fin' (b q))
    (hu : ∀ p q, Fin' (u p q)) : ∀ p q, Fin' (lin W b u p q) := by
  intro p q
  unfold Cert.Spec.lin
  exact fin_add (fin_sum _ _ (fun k _ => fin_mul (hu p k) (hW k q))) (hb q)

/-- The batch mean of a real array is real. -/
theorem mean_fin (h : Mat) (hf : ∀ p q, Fin' (h p q)) : ∀ q, Fin' (mean h q) := by
  intro q
  rw [eq_coe_toReal h hf, mean_coe]
  exact fin_coe _

/-- The kernel's variance of a real array is a nonnegative real number. -/
theorem varK_nonneg (h : Mat) (hf : ∀ p q, Fin' (h p q)) (q : Fin 64) :
    ∃ r : ℝ, 0 ≤ r ∧ varK h q = (r : EReal) := by
  rw [varK_eq_varR h hf]
  exact varR_nonneg h hf q

/-- The reciprocal square root of a nonnegative real plus the epsilon is real. -/
theorem rsqrt_fin {v : EReal} (hv : ∃ r : ℝ, 0 ≤ r ∧ v = (r : EReal)) : Fin' (Ideal.rsqrt (v + cEps)) := by
  obtain ⟨r, hr, rfl⟩ := hv
  obtain ⟨e, he, hE⟩ := cEps_eq
  rw [hE, ← EReal.coe_add, Ideal.rsqrt_coe, if_neg (by linarith), if_neg (by linarith)]
  exact fin_coe _

/-- Normalising a real array by real statistics with a nonnegative variance gives a real array. -/
theorem norm_fin (h : Mat) (mu var g be : Row) (hh : ∀ p q, Fin' (h p q)) (hmu : ∀ q, Fin' (mu q))
    (hvar : ∀ q, ∃ r : ℝ, 0 ≤ r ∧ var q = (r : EReal)) (hg : ∀ q, Fin' (g q)) (hbe : ∀ q, Fin' (be q)) :
    ∀ p q, Fin' (norm h mu var g be p q) := by
  intro p q
  unfold Cert.Spec.norm
  exact fin_add (fin_mul (fin_mul (fin_sub (hh p q) (hmu q)) (rsqrt_fin (hvar q))) (hg q)) (hbe q)

/-- The rectifier maps real arrays to real arrays. -/
theorem relu_fin (u : Mat) (hu : ∀ p q, Fin' (u p q)) : ∀ p q, Fin' (relu u p q) := by
  intro p q
  unfold Cert.Spec.relu
  exact fin_max_zero (hu p q)

/-- The edge aggregation of a real array with real edge weights is real. -/
theorem agg_fin (src dst : Fin 1600000 → BitVec 32) (ea : Fin 1600000 → EReal) (x : Mat)
    (hea : ∀ e, Fin' (ea e)) (hx : ∀ p q, Fin' (x p q)) : ∀ p q, Fin' (agg src dst ea x p q) := by
  intro p q
  unfold Cert.Spec.agg
  exact fin_add fin_zero (fin_sum _ _ (fun e _ => fin_mul (hx _ q) (hea e)))

/-- The layer's first linear map, on real inputs, gives a real array. -/
theorem pre_fin (A : Mat → Mat) (hA : ∀ x, (∀ p q, Fin' (x p q)) → ∀ p q, Fin' (A x p q)) (x : Mat) (W1 : Wt) (b1 : Row)
    (hx : ∀ p q, Fin' (x p q)) (hW1 : ∀ k q, Fin' (W1 k q)) (hb1 : ∀ q, Fin' (b1 q)) :
    ∀ p q, Fin' (pre A x W1 b1 p q) := by
  unfold Cert.Spec.pre
  exact lin_fin W1 b1 _ hW1 hb1 (fun p q => fin_add (hA x hx p q) (hx p q))

/-- A layer whose variance form is nonnegative real on real arrays, and whose aggregation preserves real arrays,
    maps real inputs to a real array. -/
theorem layerWith_fin (var : Mat → Row)
    (hvar : ∀ h : Mat, (∀ p q, Fin' (h p q)) → ∀ q, ∃ r : ℝ, 0 ≤ r ∧ var h q = (r : EReal))
    (A : Mat → Mat) (hA : ∀ x, (∀ p q, Fin' (x p q)) → ∀ p q, Fin' (A x p q))
    (x : Mat) (W1 : Wt) (b1 g be : Row) (W2 : Wt) (b2 : Row)
    (hx : ∀ p q, Fin' (x p q)) (hW1 : ∀ k q, Fin' (W1 k q)) (hb1 : ∀ q, Fin' (b1 q)) (hg : ∀ q, Fin' (g q))
    (hbe : ∀ q, Fin' (be q)) (hW2 : ∀ k q, Fin' (W2 k q)) (hb2 : ∀ q, Fin' (b2 q)) :
    ∀ p q, Fin' (layerWith var A x W1 b1 g be W2 b2 p q) := by
  have hp := pre_fin A hA x W1 b1 hx hW1 hb1
  unfold Cert.Spec.layerWith
  exact relu_fin _ (lin_fin W2 b2 _ hW2 hb2 (relu_fin _
    (norm_fin _ _ _ g be hp (mean_fin _ hp) (hvar _ hp) hg hbe)))

/-- A layer in either variance form, over the edge aggregation with real edge weights, maps real inputs to a real
    array. -/
theorem layer_fin (var : Mat → Row) (hv : var = varK ∨ var = varR)
    (src dst : Fin 1600000 → BitVec 32) (ea : Fin 1600000 → EReal)
    (x : Mat) (W1 : Wt) (b1 g be : Row) (W2 : Wt) (b2 : Row)
    (hx : ∀ p q, Fin' (x p q)) (hea : ∀ e, Fin' (ea e)) (hW1 : ∀ k q, Fin' (W1 k q)) (hb1 : ∀ q, Fin' (b1 q))
    (hg : ∀ q, Fin' (g q)) (hbe : ∀ q, Fin' (be q)) (hW2 : ∀ k q, Fin' (W2 k q)) (hb2 : ∀ q, Fin' (b2 q)) :
    ∀ p q, Fin' (layerWith var (agg src dst ea) x W1 b1 g be W2 b2 p q) := by
  refine layerWith_fin var ?_ _ (fun y hy => agg_fin src dst ea y hea hy) x W1 b1 g be W2 b2 hx hW1 hb1 hg hbe hW2 hb2
  rcases hv with rfl | rfl
  · exact varK_nonneg
  · exact varR_nonneg

end Cert.Math

end
-- ==== Proof.MathNet.lean ====
/-
  The three-layer network is the same function in the kernel's and the reference's variance form.

  The two forms of a layer differ only in the variance of the layer's first linear map's output. On real inputs
  that output is a real array, where the two variances agree; and a layer maps real inputs to a real array, so the
  next layer's input is real again.
-/
import proofs.«166406_j57140244906477_1_alg».proof.Proof.MathFin

noncomputable section

namespace Cert.Math

open Idealize.ShloMosaic Cert.Spec

/-- One layer over the edge aggregation: the two variance forms give the same array on real inputs. -/
theorem layerWith_eq (src dst : Fin 1600000 → BitVec 32) (ea : Fin 1600000 → EReal)
    (x : Mat) (W1 : Wt) (b1 g be : Row) (W2 : Wt) (b2 : Row)
    (hx : ∀ p q, Fin' (x p q)) (hea : ∀ e, Fin' (ea e)) (hW1 : ∀ k q, Fin' (W1 k q)) (hb1 : ∀ q, Fin' (b1 q)) :
    layerWith varK (agg src dst ea) x W1 b1 g be W2 b2 = layerWith varR (agg src dst ea) x W1 b1 g be W2 b2 := by
  unfold Cert.Spec.layerWith
  rw [varK_eq_varR _ (pre_fin (agg src dst ea) (fun y hy => agg_fin src dst ea y hea hy) x W1 b1 hx hW1 hb1)]

/-- One layer as the kernel computes it is the layer as the reference computes it, on real inputs. -/
theorem layer_eq (src dst : Fin 1600000 → BitVec 32) (ea : Fin 1600000 → EReal)
    (x : Mat) (W1 : Wt) (b1 g be : Row) (W2 : Wt) (b2 : Row)
    (hx : ∀ p q, Fin' (x p q)) (hea : ∀ e, Fin' (ea e)) (hW1 : ∀ k q, Fin' (W1 k q)) (hb1 : ∀ q, Fin' (b1 q)) :
    layerK (agg src dst ea) x W1 b1 g be W2 b2 = layerR (agg src dst ea) x W1 b1 g be W2 b2 :=
  layerWith_eq src dst ea x W1 b1 g be W2 b2 hx hea hW1 hb1

/-- The three layers in the kernel's variance form are the three layers in the reference's, on real inputs. -/
theorem net_eq (src dst : Fin 1600000 → BitVec 32) (ea : Fin 1600000 → EReal)
    (x : Mat) (W1 : Fin 3 → Wt) (b1 g be : Fin 3 → Row) (W2 : Fin 3 → Wt) (b2 : Fin 3 → Row)
    (hx : ∀ p q, Fin' (x p q)) (hea : ∀ e, Fin' (ea e)) (hW1 : ∀ l k q, Fin' (W1 l k q)) (hb1 : ∀ l q, Fin' (b1 l q))
    (hg : ∀ l q, Fin' (g l q)) (hbe : ∀ l q, Fin' (be l q)) (hW2 : ∀ l k q, Fin' (W2 l k q))
    (hb2 : ∀ l q, Fin' (b2 l q)) :
    netWith varK (agg src dst ea) x W1 b1 g be W2 b2 = netWith varR (agg src dst ea) x W1 b1 g be W2 b2 := by
  unfold Cert.Spec.netWith
  have e0 := layerWith_eq src dst ea x (W1 0) (b1 0) (g 0) (be 0) (W2 0) (b2 0) hx hea (hW1 0) (hb1 0)
  have f0 := layer_fin varR (Or.inr rfl) src dst ea x (W1 0) (b1 0) (g 0) (be 0) (W2 0) (b2 0)
    hx hea (hW1 0) (hb1 0) (hg 0) (hbe 0) (hW2 0) (hb2 0)
  rw [e0]
  have e1 := layerWith_eq src dst ea _ (W1 1) (b1 1) (g 1) (be 1) (W2 1) (b2 1) f0 hea (hW1 1) (hb1 1)
  have f1 := layer_fin varR (Or.inr rfl) src dst ea _ (W1 1) (b1 1) (g 1) (be 1) (W2 1) (b2 1)
    f0 hea (hW1 1) (hb1 1) (hg 1) (hbe 1) (hW2 1) (hb2 1)
  rw [e1]
  exact layerWith_eq src dst ea _ (W1 2) (b1 2) (g 2) (be 2) (W2 2) (b2 2) f1 hea (hW1 2) (hb1 2)

end Cert.Math

end
-- ==== Proof.PreFinite.lean ====
/-
  The precondition `finite_inputs` says every float input entry is a real number.

  The printed precondition compares the absolute value of every entry of every float argument with positive
  infinity, reduces each comparison array by `and` over all axes, and takes the `and` of the eight results. If the
  outcome is 1 then every reduction is 1, so every comparison is 1; and `max x (-x) < ⊤` holds for an extended real
  `x` exactly when `x` is neither infinity.
-/
import proofs.«166406_j57140244906477_1_alg».proof.Proof.Spec
import proofs.«166406_j57140244906477_1_alg».proof.Pre_finite_inputs
import proofs.«166406_j57140244906477_1_alg».proof.Proof.Gen.Pre_finite_inputs
import Idealize.ShloMosaic.Lib.ReduceAll
import Idealize.ShloMosaic.Lib.ValueIdx

noncomputable section

namespace Cert.PreFinite

open Idealize.ShloMosaic Cert.Spec

/-- The f32 word `0x7F800000` denotes positive infinity. -/
theorem inf_eq : Ideal.ofBits .f32 0x7F800000#32 = (⊤ : EReal) := by
  simp [Ideal.ofBits, Ideal.ieee]

/-- An extended real whose absolute value is below positive infinity is a real number. -/
theorem fin_of_abs_lt_top (x : EReal) (h : max x (-x) < ⊤) : Fin' x := by
  induction x using EReal.rec with
  | bot => simp at h
  | coe r => exact ⟨EReal.coe_ne_top r, EReal.coe_ne_bot r⟩
  | top => simp at h

/-- The comparison of an absolute value with the infinity word is 1 only at a real number. -/
theorem fin_of_cmp (x : EReal)
    (h : FloatOps.cmpf (F := Ideal) (φ := .f32) .olt (FloatOps.hostAbsf (F := Ideal) (φ := .f32) x)
      (Ideal.ofBits .f32 0x7F800000#32) = 1#1) : Fin' x := by
  apply fin_of_abs_lt_top
  have h' : Ideal.cmp .olt (max x (-x)) (Ideal.ofBits .f32 0x7F800000#32) = 1#1 := h
  rw [inf_eq] at h'
  unfold Ideal.cmp at h'
  by_contra hc
  simp [hc] at h'

instance : Subsingleton Cert.Pre_finite_inputs.S_.Idx := ⟨fun a b => funext fun d => d.elim0⟩

/-- An array whose all-axes `and` of "absolute value below infinity" is 1 has only real entries. -/
theorem all_fin {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf a) (broadcastInDim S ![] hb (constant (F := Ideal) Cert.Pre_finite_inputs.S_ .f32 0x7F800000#32)))
      init hr hu j = 1#1) : ∀ i, Fin' (a i) := by
  intro i
  exact fin_of_cmp (a i) (Host.reduce_andi_all _ init hr hu j e i)

/-- An `and` of two one-bit arrays that is 1 at an index has both operands 1 there. -/
theorem andi_split {s : Shape} (x y : IVec s 1) (i : s.Idx) (h : andi x y i = 1#1) : x i = 1#1 ∧ y i = 1#1 :=
  IntOp.andi_eq_one.1 h

open Cert.Pre_finite_inputs in
/-- If the printed precondition evaluates to 1 then every entry of every float argument is a real number. -/
theorem finite_of_pre (a0 : FVec Ideal S100000x64 .f32) (a1 : IVec S2x1600000 32) (a2 : FVec Ideal S1600000x1 .f32)
    (a3 : FVec Ideal S3x64x64 .f32) (a4 a5 a6 : FVec Ideal S3x64 .f32) (a7 : FVec Ideal S3x64x64 .f32)
    (a8 : FVec Ideal S3x64 .f32)
    (h : Cert.Pre_finite_inputs.fn (F := Ideal) a0 a1 a2 a3 a4 a5 a6 a7 a8 = fun _ => 1#1) :
    (∀ i, Fin' (a0 i)) ∧ (∀ i, Fin' (a2 i)) ∧ (∀ i, Fin' (a3 i)) ∧ (∀ i, Fin' (a4 i)) ∧ (∀ i, Fin' (a5 i)) ∧
      (∀ i, Fin' (a6 i)) ∧ (∀ i, Fin' (a7 i)) ∧ (∀ i, Fin' (a8 i)) := by
  have h0 := congrFun h ValueIdx.ix0
  dsimp only [Cert.Pre_finite_inputs.fn, Cert.Pre_finite_inputs.fn_part1, Cert.Pre_finite_inputs.fn_part2] at h0
  obtain ⟨h1, e8⟩ := andi_split _ _ _ h0
  obtain ⟨h2, e7⟩ := andi_split _ _ _ h1
  obtain ⟨h3, e6⟩ := andi_split _ _ _ h2
  obtain ⟨h4, e5⟩ := andi_split _ _ _ h3
  obtain ⟨h5, e4⟩ := andi_split _ _ _ h4
  obtain ⟨h6, e3⟩ := andi_split _ _ _ h5
  obtain ⟨e0, e2⟩ := andi_split _ _ _ h6
  exact ⟨all_fin a0 _ _ _ _ _ e0, all_fin a2 _ _ _ _ _ e2, all_fin a3 _ _ _ _ _ e3, all_fin a4 _ _ _ _ _ e4,
    all_fin a5 _ _ _ _ _ e5, all_fin a6 _ _ _ _ _ e6, all_fin a7 _ _ _ _ _ e7, all_fin a8 _ _ _ _ _ e8⟩

open Cert.Pre_finite_inputs in
/-- The same, read through the arrays' readings as features, edge weights, weight slices and parameter rows. -/
theorem finite_of_pre_spec (a0 : FVec Ideal S100000x64 .f32) (a1 : IVec S2x1600000 32) (a2 : FVec Ideal S1600000x1 .f32)
    (a3 : FVec Ideal S3x64x64 .f32) (a4 a5 a6 : FVec Ideal S3x64 .f32) (a7 : FVec Ideal S3x64x64 .f32)
    (a8 : FVec Ideal S3x64 .f32)
    (h : Cert.Pre_finite_inputs.fn (F := Ideal) a0 a1 a2 a3 a4 a5 a6 a7 a8 = fun _ => 1#1) :
    (∀ p q, Fin' (toMat a0 p q)) ∧ (∀ e, Fin' (eaOf a2 e)) ∧ (∀ l k q, Fin' (wtOf a3 l k q)) ∧
      (∀ l q, Fin' (rowOf a4 l q)) ∧ (∀ l q, Fin' (rowOf a5 l q)) ∧ (∀ l q, Fin' (rowOf a6 l q)) ∧
      (∀ l k q, Fin' (wtOf a7 l k q)) ∧ (∀ l q, Fin' (rowOf a8 l q)) := by
  obtain ⟨f0, f2, f3, f4, f5, f6, f7, f8⟩ := finite_of_pre a0 a1 a2 a3 a4 a5 a6 a7 a8 h
  exact ⟨fun p q => f0 _, fun e => f2 _, fun l k q => f3 _, fun l q => f4 _, fun l q => f5 _, fun l q => f6 _,
    fun l k q => f7 _, fun l q => f8 _⟩

end Cert.PreFinite

end
-- ==== Proof.lean ====
/-
  A three-layer graph network, its Pallas TPU program against its jnp reference, at the extended reals.

  Per layer both programs form `h = (A x + x)·W1 + b1` — `A` the edge aggregation: gather the source rows, weight them,
  scatter-add them into the target rows, the same host operations in both —, normalise `h` by its column mean and
  variance over all 100000 rows, scale, shift, rectify, apply a second linear map and rectify again. The kernel program
  takes the variance as the mean of squares minus the squared mean, from column sums of `h` and of `h²` that its
  statistics kernel accumulates over 50 row tiles in two scratch rows; the reference takes the mean of the squared
  deviations. The two agree wherever every entry of `h` is a real number, which the precondition (every float input
  finite) gives, layer after layer: finite inputs make every intermediate finite, and the variance plus the positive
  epsilon is a positive real, so its reciprocal square root is a real too.

  The frames are the runs with the results dropped: for the kernel program at both instances a run through six
  kernel regions, each entered from the buffers' contents the segment before it left; for the reference a run of its
  host operations. The idealization rewrote no operation, so `preserves` asks nothing.
-/
import proofs.«166406_j57140244906477_1_alg».proof.Defs
import proofs.«166406_j57140244906477_1_alg».proof.Proof.Gen.Kernel
import proofs.«166406_j57140244906477_1_alg».proof.Proof.Gen.KernelIdeal
import proofs.«166406_j57140244906477_1_alg».proof.Proof.Gen.ReferenceIdeal
import proofs.«166406_j57140244906477_1_alg».proof.Proof.Gen.Pre_finite_inputs
import proofs.«166406_j57140244906477_1_alg».proof.Proof.KB.Run
import proofs.«166406_j57140244906477_1_alg».proof.Proof.KI.Run
import proofs.«166406_j57140244906477_1_alg».proof.Proof.KI.KVal
import proofs.«166406_j57140244906477_1_alg».proof.Proof.RefRun
import proofs.«166406_j57140244906477_1_alg».proof.Proof.RefRead
import proofs.«166406_j57140244906477_1_alg».proof.Proof.MathNet
import proofs.«166406_j57140244906477_1_alg».proof.Proof.PreFinite

noncomputable section

namespace Cert.Proof

open Idealize.ShloMosaic Idealize.SL.Sem

/-- A [100000, 64] array is determined by its entries read as (row, column). -/
theorem toMat_inj {a b : (⟨2, ![100000, 64]⟩ : Shape).Idx → EReal} (h : Cert.Spec.toMat a = Cert.Spec.toMat b) : a = b := by
  funext i
  rw [ValueIdx.eq_ix2 i]
  exact congrFun (congrFun h (i 0)) (i 1)

/-- The word-level kernel program runs and leaves its arguments unchanged. -/
theorem frame_k : Cert.frame_Kernel := fun m ρ _ => Cert.Kernel.Fr.frame m ρ
/-- So does the idealized kernel program. -/
theorem frame_ki : Cert.frame_KernelIdeal := fun m ρ _ => Cert.KernelIdeal.Fr.frame m ρ
/-- So does the idealized reference. -/
theorem frame_ri : Cert.frame_ReferenceIdeal := Cert.ReferenceIdeal.RefRun.frame

/-- The idealization rewrote nothing. -/
theorem preserves : Cert.preserves_Kernel_KernelIdeal := trivial

/-- The two idealized programs end with equal results: the kernel program's result array is the three layers with the
    kernel's variance, the reference's the three layers with the reference's variance, of arguments that agree and are
    finite; the two networks are then one function. -/
theorem algebraic : Cert.algebraic_KernelIdeal_ReferenceIdeal := by
  intro m ρ m' ρ' hpre hagree
  refine ⟨fun c => Cert.KernelIdeal.Fr.W12 (F := Ideal) m ρ c (Proc.devRef .tc Cert.KernelIdeal.main_v111), Cert.KernelIdeal.Fr.run_value m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8⟩ := hagree c
  rw [e0, e1, e2, e3, e4, e5, e6, e7, e8]
  refine toMat_inj ?_
  obtain ⟨hx, hea, hW1, hb1, hg, hbe, hW2, hb2⟩ := Cert.PreFinite.finite_of_pre_spec _ _ _ _ _ _ _ _ _ (hpre c)
  exact (Cert.ReferenceIdeal.RefRead.ref_value _ _ _ _ _ _ _ _ _).trans
    ((Cert.Math.net_eq _ _ _ _ _ _ _ _ _ _ hx hea hW1 hb1 hg hbe hW2 hb2).symm.trans
      (Cert.KernelIdeal.Fr.kernel_value m ρ c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
